-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v127)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v127) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v148) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S800000x1 : Shape := ⟨2, ![800000, 1]⟩
abbrev S3x1x128 : Shape := ⟨3, ![3, 1, 128]⟩
abbrev S3x128 : Shape := ⟨2, ![3, 128]⟩
abbrev S3 : Shape := ⟨1, ![3]⟩
abbrev S3x128x128 : Shape := ⟨3, ![3, 128, 128]⟩
abbrev S512x128 : Shape := ⟨2, ![512, 128]⟩
abbrev S128 : Shape := ⟨1, ![128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S800000x1 : S_.BroadcastsInDim S800000x1 (![] : Fin 0 → Fin S800000x1.rank)
  reducesTo_S800000x1_S_d0_1 : S800000x1.ReducesTo [0, 1] S_
  bcast_S_S3x1x128 : S_.BroadcastsInDim S3x1x128 (![] : Fin 0 → Fin S3x1x128.rank)
  reducesTo_S3x1x128_S_d0_1_2 : S3x1x128.ReducesTo [0, 1, 2] S_
  bcast_S_S3x128 : S_.BroadcastsInDim S3x128 (![] : Fin 0 → Fin S3x128.rank)
  reducesTo_S3x128_S_d0_1 : S3x128.ReducesTo [0, 1] S_
  bcast_S_S3 : S_.BroadcastsInDim S3 (![] : Fin 0 → Fin S3.rank)
  reducesTo_S3_S_d0 : S3.ReducesTo [0] S_
  bcast_S_S3x128x128 : S_.BroadcastsInDim S3x128x128 (![] : Fin 0 → Fin S3x128x128.rank)
  reducesTo_S3x128x128_S_d0_1_2 : S3x128x128.ReducesTo [0, 1, 2] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_

variable [Facts]

def fn_part3 {F : FTy → Type} [FloatOps F] (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  main_v53

def fn_part2 {F : FTy → Type} [FloatOps F] (main_arg8 : FVec F S3x128x128 .f32) (main_arg9 : FVec F S3x128 .f32) (main_arg10 : FVec F S512x128 .f32) (main_arg11 : FVec F S128 .f32) (main_v33 : IVec S_ 1) : IVec S_ 1 :=
  let main_v34 : FVec F S3x128x128 .f32 := Host.absf main_arg8
  let main_cst_12 : FVec F S_ .f32 := constant S_ .f32 0x7F800000#32
  let main_v35 : FVec F S3x128x128 .f32 := broadcastInDim S3x128x128 ![] bcast_S_S3x128x128 main_cst_12
  let main_v36 : IVec S3x128x128 1 := cmpf .olt main_v34 main_v35
  let main_c_13 : IVec S_ 1 := constantI S_ 1 1#1
  let main_v37 : IVec S_ 1 := (fun x v => Host.reduce IntOp.andi x v reducesTo_S3x128x128_S_d0_1_2 h_S_) main_v36 main_c_13
  let main_v38 : IVec S_ 1 := andi main_v33 main_v37
  let main_v39 : FVec F S3x128 .f32 := Host.absf main_arg9
  let main_cst_14 : FVec F S_ .f32 := constant S_ .f32 0x7F800000#32
  let main_v40 : FVec F S3x128 .f32 := broadcastInDim S3x128 ![] bcast_S_S3x128 main_cst_14
  let main_v41 : IVec S3x128 1 := cmpf .olt main_v39 main_v40
  let main_c_15 : IVec S_ 1 := constantI S_ 1 1#1
  let main_v42 : IVec S_ 1 := (fun x v => Host.reduce IntOp.andi x v reducesTo_S3x128_S_d0_1 h_S_) main_v41 main_c_15
  let main_v43 : IVec S_ 1 := andi main_v38 main_v42
  let main_v44 : FVec F S512x128 .f32 := Host.absf main_arg10
  let main_cst_16 : FVec F S_ .f32 := constant S_ .f32 0x7F800000#32
  let main_v45 : FVec F S512x128 .f32 := broadcastInDim S512x128 ![] bcast_S_S512x128 main_cst_16
  let main_v46 : IVec S512x128 1 := cmpf .olt main_v44 main_v45
  let main_c_17 : IVec S_ 1 := constantI S_ 1 1#1
  let main_v47 : IVec S_ 1 := (fun x v => Host.reduce IntOp.andi x v reducesTo_S512x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_v48 main_v49 main_v50

def fn_part1 {F : FTy → Type} [FloatOps F] (main_arg5 : FVec F S3 .f32) (main_arg6 : FVec F S3x128x128 .f32) (main_arg7 : FVec F S3x128 .f32) (main_arg8 : FVec F S3x128x128 .f32) (main_arg9 : FVec F S3x128 .f32) (main_arg10 : FVec F S512x128 .f32) (main_arg11 : FVec F S128 .f32) (main_v13 : IVec S_ 1) (main_v16 : IVec S3x128 1) : IVec S_ 1 :=
  let main_c_5 : IVec S_ 1 := constantI S_ 1 1#1
  let main_v17 : IVec S_ 1 := (fun x v => Host.reduce IntOp.andi x v reducesTo_S3x128_S_d0_1 h_S_) main_v16 main_c_5
  let main_v18 : IVec S_ 1 := andi main_v13 main_v17
  let main_v19 : FVec F S3 .f32 := Host.absf main_arg5
  let main_cst_6 : FVec F S_ .f32 := constant S_ .f32 0x7F800000#32
  let main_v20 : FVec F S3 .f32 := broadcastInDim S3 ![] bcast_S_S3 main_cst_6
  let main_v21 : IVec S3 1 := cmpf .olt main_v19 main_v20
  let main_c_7 : IVec S_ 1 := constantI S_ 1 1#1
  let main_v22 : IVec S_ 1 := (fun x v => Host.reduce IntOp.andi x v reducesTo_S3_S_d0 h_S_) main_v21 main_c_7
  let main_v23 : IVec S_ 1 := andi main_v18 main_v22
  let main_v24 : FVec F S3x128x128 .f32 := Host.absf main_arg6
  let main_cst_8 : FVec F S_ .f32 := constant S_ .f32 0x7F800000#32
  let main_v25 : FVec F S3x128x128 .f32 := broadcastInDim S3x128x128 ![] bcast_S_S3x128x128 main_cst_8
  let main_v26 : IVec S3x128x128 1 := cmpf .olt main_v24 main_v25
  let main_c_9 : IVec S_ 1 := constantI S_ 1 1#1
  let main_v27 : IVec S_ 1 := (fun x v => Host.reduce IntOp.andi x v reducesTo_S3x128x128_S_d0_1_2 h_S_) main_v26 main_c_9
  let main_v28 : IVec S_ 1 := andi main_v23 main_v27
  let main_v29 : FVec F S3x128 .f32 := Host.absf main_arg7
  let main_cst_10 : FVec F S_ .f32 := constant S_ .f32 0x7F800000#32
  let main_v30 : FVec F S3x128 .f32 := broadcastInDim S3x128 ![] bcast_S_S3x128 main_cst_10
  let main_v31 : IVec S3x128 1 := cmpf .olt main_v29 main_v30
  let main_c_11 : IVec S_ 1 := constantI S_ 1 1#1
  let main_v32 : IVec S_ 1 := (fun x v => Host.reduce IntOp.andi x v reducesTo_S3x128_S_d0_1 h_S_) main_v31 main_c_11
  let main_v33 : IVec S_ 1 := andi main_v28 main_v32
  fn_part2 (F := F) main_arg8 main_arg9 main_arg10 main_arg11 main_v33

def fn {F : FTy → Type} [FloatOps F] (main_arg0 : FVec F S50000x128 .f32) (main_arg1 : IVec S2x800000 32) (main_arg2 : FVec F S800000x1 .f32) (main_arg3 : FVec F S3x1x128 .f32) (main_arg4 : FVec F S3x128 .f32) (main_arg5 : FVec F S3 .f32) (main_arg6 : FVec F S3x128x128 .f32) (main_arg7 : FVec F S3x128 .f32) (main_arg8 : FVec F S3x128x128 .f32) (main_arg9 : FVec F S3x128 .f32) (main_arg10 : FVec F S512x128 .f32) (main_arg11 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S800000x1 .f32 := Host.absf main_arg2
  let main_cst_0 : FVec F S_ .f32 := constant S_ .f32 0x7F800000#32
  let main_v5 : FVec F S800000x1 .f32 := broadcastInDim S800000x1 ![] bcast_S_S800000x1 main_cst_0
  let main_v6 : IVec S800000x1 1 := cmpf .olt main_v4 main_v5
  let main_c_1 : IVec S_ 1 := constantI S_ 1 1#1
  let main_v7 : IVec S_ 1 := (fun x v => Host.reduce IntOp.andi x v reducesTo_S800000x1_S_d0_1 h_S_) main_v6 main_c_1
  let main_v8 : IVec S_ 1 := andi main_v3 main_v7
  let main_v9 : FVec F S3x1x128 .f32 := Host.absf main_arg3
  let main_cst_2 : FVec F S_ .f32 := constant S_ .f32 0x7F800000#32
  let main_v10 : FVec F S3x1x128 .f32 := broadcastInDim S3x1x128 ![] bcast_S_S3x1x128 main_cst_2
  let main_v11 : IVec S3x1x128 1 := cmpf .olt main_v9 main_v10
  let main_c_3 : IVec S_ 1 := constantI S_ 1 1#1
  let main_v12 : IVec S_ 1 := (fun x v => Host.reduce IntOp.andi x v reducesTo_S3x1x128_S_d0_1_2 h_S_) main_v11 main_c_3
  let main_v13 : IVec S_ 1 := andi main_v8 main_v12
  let main_v14 : FVec F S3x128 .f32 := Host.absf main_arg4
  let main_cst_4 : FVec F S_ .f32 := constant S_ .f32 0x7F800000#32
  let main_v15 : FVec F S3x128 .f32 := broadcastInDim S3x128 ![] bcast_S_S3x128 main_cst_4
  let main_v16 : IVec S3x128 1 := cmpf .olt main_v14 main_v15
  fn_part1 (F := F) main_arg5 main_arg6 main_arg7 main_arg8 main_arg9 main_arg10 main_arg11 main_v13 main_v16
-- ==== Kernel.lean ====
abbrev S50000x128 : Shape := ⟨2, ![50000, 128]⟩
abbrev S2x800000 : Shape := ⟨2, ![2, 800000]⟩
abbrev S800000x1 : Shape := ⟨2, ![800000, 1]⟩
abbrev S3x1x128 : Shape := ⟨3, ![3, 1, 128]⟩
abbrev S3x128 : Shape := ⟨2, ![3, 128]⟩
abbrev S3 : Shape := ⟨1, ![3]⟩
abbrev S3x128x128 : Shape := ⟨3, ![3, 128, 128]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S50000x1 : Shape := ⟨2, ![50000, 1]⟩
abbrev S1x1x128 : Shape := ⟨3, ![1, 1, 128]⟩
abbrev S1x128 : Shape := ⟨2, ![1, 128]⟩
abbrev S800000x128 : Shape := ⟨2, ![800000, 128]⟩
abbrev S6400x128 : Shape := ⟨2, ![6400, 128]⟩
abbrev S6400x1 : Shape := ⟨2, ![6400, 1]⟩
abbrev S1 : Shape := ⟨1, ![1]⟩
abbrev S1x128x128 : Shape := ⟨3, ![1, 128, 128]⟩
abbrev S128x128 : Shape := ⟨2, ![128, 128]⟩
abbrev S5000x128 : Shape := ⟨2, ![5000, 128]⟩
abbrev S50000x512 : Shape := ⟨2, ![50000, 512]⟩
abbrev S5000x512 : Shape := ⟨2, ![5000, 512]⟩

abbrev nBuf : Space → Nat
  | .hbm => 154
  | .vmem => 54
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S3x1x128, .f32⟩
  | 4 => ⟨S3x128, .f32⟩
  | 5 => ⟨S3, .f32⟩
  | 6 => ⟨S3x128x128, .f32⟩
  | 7 => ⟨S3x128, .f32⟩
  | 8 => ⟨S3x128x128, .f32⟩
  | 9 => ⟨S3x128, .f32⟩
  | 10 => ⟨S512x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S50000x1, .f32⟩
  | 23 => ⟨S1x1x128, .f32⟩
  | 24 => ⟨S1x128, .f32⟩
  | 25 => ⟨S1x128, .f32⟩
  | 26 => ⟨S128, .f32⟩
  | 27 => ⟨S1x128, .f32⟩
  | 28 => ⟨S_, .i32⟩
  | 29 => ⟨S800000, .i32⟩
  | 30 => ⟨S800000, .i1⟩
  | 31 => ⟨S_, .i32⟩
  | 32 => ⟨S800000, .i32⟩
  | 33 => ⟨S800000, .i32⟩
  | 34 => ⟨S800000, .i32⟩
  | 35 => ⟨S800000x1, .i32⟩
  | 36 => ⟨S800000x128, .f32⟩
  | 37 => ⟨S800000x128, .f32⟩
  | 38 => ⟨S_, .f32⟩
  | 39 => ⟨S50000x128, .f32⟩
  | 40 => ⟨S800000x1, .i32⟩
  | 41 => ⟨S50000x128, .f32⟩
  | 42 => ⟨S50000x128, .f32⟩
  | 43 => ⟨S50000x128, .f32⟩
  | 44 => ⟨S1, .f32⟩
  | 45 => ⟨S_, .f32⟩
  | 46 => ⟨S_, .f32⟩
  | 47 => ⟨S_, .f32⟩
  | 48 => ⟨S50000x128, .f32⟩
  | 49 => ⟨S50000x128, .f32⟩
  | 50 => ⟨S50000x128, .f32⟩
  | 51 => ⟨S1x128x128, .f32⟩
  | 52 => ⟨S128x128, .f32⟩
  | 53 => ⟨S1x128, .f32⟩
  | 54 => ⟨S128, .f32⟩
  | 55 => ⟨S1x128x128, .f32⟩
  | 56 => ⟨S128x128, .f32⟩
  | 57 => ⟨S1x128, .f32⟩
  | 58 => ⟨S128, .f32⟩
  | 59 => ⟨S50000x128, .bf16⟩
  | 60 => ⟨S128x128, .bf16⟩
  | 61 => ⟨S128x128, .bf16⟩
  | 62 => ⟨S1x128, .f32⟩
  | 63 => ⟨S1x128, .f32⟩
  | 64 => ⟨S50000x128, .f32⟩
  | 65 => ⟨S1x1x128, .f32⟩
  | 66 => ⟨S1x128, .f32⟩
  | 67 => ⟨S1x128, .f32⟩
  | 68 => ⟨S128, .f32⟩
  | 69 => ⟨S1x128, .f32⟩
  | 70 => ⟨S_, .i32⟩
  | 71 => ⟨S800000, .i32⟩
  | 72 => ⟨S800000, .i1⟩
  | 73 => ⟨S_, .i32⟩
  | 74 => ⟨S800000, .i32⟩
  | 75 => ⟨S800000, .i32⟩
  | 76 => ⟨S800000, .i32⟩
  | 77 => ⟨S800000x1, .i32⟩
  | 78 => ⟨S800000x128, .f32⟩
  | 79 => ⟨S800000x128, .f32⟩
  | 80 => ⟨S_, .f32⟩
  | 81 => ⟨S50000x128, .f32⟩
  | 82 => ⟨S800000x1, .i32⟩
  | 83 => ⟨S50000x128, .f32⟩
  | 84 => ⟨S50000x128, .f32⟩
  | 85 => ⟨S50000x128, .f32⟩
  | 86 => ⟨S1, .f32⟩
  | 87 => ⟨S_, .f32⟩
  | 88 => ⟨S_, .f32⟩
  | 89 => ⟨S_, .f32⟩
  | 90 => ⟨S50000x128, .f32⟩
  | 91 => ⟨S50000x128, .f32⟩
  | 92 => ⟨S50000x128, .f32⟩
  | 93 => ⟨S1x128x128, .f32⟩
  | 94 => ⟨S128x128, .f32⟩
  | 95 => ⟨S1x128, .f32⟩
  | 96 => ⟨S128, .f32⟩
  | 97 => ⟨S1x128x128, .f32⟩
  | 98 => ⟨S128x128, .f32⟩
  | 99 => ⟨S1x128, .f32⟩
  | 100 => ⟨S128, .f32⟩
  | 101 => ⟨S50000x128, .bf16⟩
  | 102 => ⟨S128x128, .bf16⟩
  | 103 => ⟨S128x128, .bf16⟩
  | 104 => ⟨S1x128, .f32⟩
  | 105 => ⟨S1x128, .f32⟩
  | 106 => ⟨S50000x128, .f32⟩
  | 107 => ⟨S1x1x128, .f32⟩
  | 108 => ⟨S1x128, .f32⟩
  | 109 => ⟨S1x128, .f32⟩
  | 110 => ⟨S128, .f32⟩
  | 111 => ⟨S1x128, .f32⟩
  | 112 => ⟨S_, .i32⟩
  | 113 => ⟨S800000, .i32⟩
  | 114 => ⟨S800000, .i1⟩
  | 115 => ⟨S_, .i32⟩
  | 116 => ⟨S800000, .i32⟩
  | 117 => ⟨S800000, .i32⟩
  | 118 => ⟨S800000, .i32⟩
  | 119 => ⟨S800000x1, .i32⟩
  | 120 => ⟨S800000x128, .f32⟩
  | 121 => ⟨S800000x128, .f32⟩
  | 122 => ⟨S_, .f32⟩
  | 123 => ⟨S50000x128, .f32⟩
  | 124 => ⟨S800000x1, .i32⟩
  | 125 => ⟨S50000x128, .f32⟩
  | 126 => ⟨S50000x128, .f32⟩
  | 127 => ⟨S50000x128, .f32⟩
  | _ => ⟨S50000x128, .f32⟩

abbrev hbmTy0_1 (i : Nat) : BufTy := match i % 128 with
  | 0 => ⟨S1, .f32⟩
  | 1 => ⟨S_, .f32⟩
  | 2 => ⟨S_, .f32⟩
  | 3 => ⟨S_, .f32⟩
  | 4 => ⟨S50000x128, .f32⟩
  | 5 => ⟨S50000x128, .f32⟩
  | 6 => ⟨S50000x128, .f32⟩
  | 7 => ⟨S1x128x128, .f32⟩
  | 8 => ⟨S128x128, .f32⟩
  | 9 => ⟨S1x128, .f32⟩
  | 10 => ⟨S128, .f32⟩
  | 11 => ⟨S1x128x128, .f32⟩
  | 12 => ⟨S128x128, .f32⟩
  | 13 => ⟨S1x128, .f32⟩
  | 14 => ⟨S128, .f32⟩
  | 15 => ⟨S50000x128, .bf16⟩
  | 16 => ⟨S128x128, .bf16⟩
  | 17 => ⟨S128x128, .bf16⟩
  | 18 => ⟨S1x128, .f32⟩
  | 19 => ⟨S1x128, .f32⟩
  | 20 => ⟨S50000x128, .f32⟩
  | 21 => ⟨S50000x512, .f32⟩
  | 22 => ⟨S50000x512, .bf16⟩
  | 23 => ⟨S512x128, .bf16⟩
  | 24 => ⟨S1x128, .f32⟩
  | 25 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | .local _ .vmem, ⟨0, _⟩ => ⟨S6400x128, .f32⟩
  | .local _ .vmem, ⟨1, _⟩ => ⟨S6400x128, .f32⟩
  | .local _ .vmem, ⟨2, _⟩ => ⟨S6400x1, .f32⟩
  | .local _ .vmem, ⟨3, _⟩ => ⟨S6400x1, .f32⟩
  | .local _ .vmem, ⟨4, _⟩ => ⟨S1x128, .f32⟩
  | .local _ .vmem, ⟨5, _⟩ => ⟨S1x128, .f32⟩
  | .local _ .vmem, ⟨6, _⟩ => ⟨S6400x128, .f32⟩
  | .local _ .vmem, ⟨7, _⟩ => ⟨S6400x128, .f32⟩
  | .local _ .vmem, ⟨8, _⟩ => ⟨S5000x128, .bf16⟩
  | .local _ .vmem, ⟨9, _⟩ => ⟨S5000x128, .bf16⟩
  | .local _ .vmem, ⟨10, _⟩ => ⟨S128x128, .bf16⟩
  | .local _ .vmem, ⟨11, _⟩ => ⟨S1x128, .f32⟩
  | .local _ .vmem, ⟨12, _⟩ => ⟨S128x128, .bf16⟩
  | .local _ .vmem, ⟨13, _⟩ => ⟨S1x128, .f32⟩
  | .local _ .vmem, ⟨14, _⟩ => ⟨S5000x128, .f32⟩
  | .local _ .vmem, ⟨15, _⟩ => ⟨S5000x128, .f32⟩
  | .local _ .vmem, ⟨16, _⟩ => ⟨S6400x128, .f32⟩
  | .local _ .vmem, ⟨17, _⟩ => ⟨S6400x128, .f32⟩
  | .local _ .vmem, ⟨18, _⟩ => ⟨S6400x1, .f32⟩
  | .local _ .vmem, ⟨19, _⟩ => ⟨S6400x1, .f32⟩
  | .local _ .vmem, ⟨20, _⟩ => ⟨S1x128, .f32⟩
  | .local _ .vmem, ⟨21, _⟩ => ⟨S1x128, .f32⟩
  | .local _ .vmem, ⟨22, _⟩ => ⟨S6400x128, .f32⟩
  | .local _ .vmem, ⟨23, _⟩ => ⟨S6400x128, .f32⟩
  | .local _ .vmem, ⟨24, _⟩ => ⟨S5000x128, .bf16⟩
  | .local _ .vmem, ⟨25, _⟩ => ⟨S5000x128, .bf16⟩
  | .local _ .vmem, ⟨26, _⟩ => ⟨S128x128, .bf16⟩
  | .local _ .vmem, ⟨27, _⟩ => ⟨S1x128, .f32⟩
  | .local _ .vmem, ⟨28, _⟩ => ⟨S128x128, .bf16⟩
  | .local _ .vmem, ⟨29, _⟩ => ⟨S1x128, .f32⟩
  | .local _ .vmem, ⟨30, _⟩ => ⟨S5000x128, .f32⟩
  | .local _ .vmem, ⟨31, _⟩ => ⟨S5000x128, .f32⟩
  | .local _ .vmem, ⟨32, _⟩ => ⟨S6400x128, .f32⟩
  | .local _ .vmem, ⟨33, _⟩ => ⟨S6400x128, .f32⟩
  | .local _ .vmem, ⟨34, _⟩ => ⟨S6400x1, .f32⟩
  | .local _ .vmem, ⟨35, _⟩ => ⟨S6400x1, .f32⟩
  | .local _ .vmem, ⟨36, _⟩ => ⟨S1x128, .f32⟩
  | .local _ .vmem, ⟨37, _⟩ => ⟨S1x128, .f32⟩
  | .local _ .vmem, ⟨38, _⟩ => ⟨S6400x128, .f32⟩
  | .local _ .vmem, ⟨39, _⟩ => ⟨S6400x128, .f32⟩
  | .local _ .vmem, ⟨40, _⟩ => ⟨S5000x128, .bf16⟩
  | .local _ .vmem, ⟨41, _⟩ => ⟨S5000x128, .bf16⟩
  | .local _ .vmem, ⟨42, _⟩ => ⟨S128x128, .bf16⟩
  | .local _ .vmem, ⟨43, _⟩ => ⟨S1x128, .f32⟩
  | .local _ .vmem, ⟨44, _⟩ => ⟨S128x128, .bf16⟩
  | .local _ .vmem, ⟨45, _⟩ => ⟨S1x128, .f32⟩
  | .local _ .vmem, ⟨46, _⟩ => ⟨S5000x128, .f32⟩
  | .local _ .vmem, ⟨47, _⟩ => ⟨S5000x128, .f32⟩
  | .local _ .vmem, ⟨48, _⟩ => ⟨S5000x512, .bf16⟩
  | .local _ .vmem, ⟨49, _⟩ => ⟨S5000x512, .bf16⟩
  | .local _ .vmem, ⟨50, _⟩ => ⟨S512x128, .bf16⟩
  | .local _ .vmem, ⟨51, _⟩ => ⟨S1x128, .f32⟩
  | .local _ .vmem, ⟨52, _⟩ => ⟨S5000x128, .f32⟩
  | .local _ .vmem, ⟨53, _⟩ => ⟨S5000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | _, _ => false

abbrev semScoped : Fin 0 → Bool
  | ⟨_, h⟩ => absurd h (Nat.not_lt_zero _)

abbrev dmaSemScoped : Fin 54 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | _ => false

abbrev sig : RefSig :=
  ofTc nBuf bufTy 0 54 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_c : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_2 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_cst_3 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_c_4 : Ref sig .tc := ⟨.hbm, 70, rfl⟩
abbrev main_v52 : Ref sig .tc := ⟨.hbm, 71, rfl⟩
abbrev main_v53 : Ref sig .tc := ⟨.hbm, 72, rfl⟩
abbrev main_c_5 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_6 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_cst_7 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_c_8 : Ref sig .tc := ⟨.hbm, 112, rfl⟩
abbrev main_v90 : Ref sig .tc := ⟨.hbm, 113, rfl⟩
abbrev main_v91 : Ref sig .tc := ⟨.hbm, 114, rfl⟩
abbrev main_c_9 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_cst_10 : Ref sig .tc := ⟨.hbm, 122, rfl⟩
abbrev main_v98 : Ref sig .tc := ⟨.hbm, 123, rfl⟩
abbrev main_v99 : Ref sig .tc := ⟨.hbm, 124, rfl⟩
abbrev main_v100 : Ref sig .tc := ⟨.hbm, 125, rfl⟩
abbrev main_v101 : Ref sig .tc := ⟨.hbm, 126, rfl⟩
abbrev main_v102 : Ref sig .tc := ⟨.hbm, 127, rfl⟩
abbrev main_v103 : Ref sig .tc := ⟨.hbm, 128, rfl⟩
abbrev main_v104 : Ref sig .tc := ⟨.hbm, 129, rfl⟩
abbrev main_cst_11 : Ref sig .tc := ⟨.hbm, 130, rfl⟩
abbrev main_v105 : Ref sig .tc := ⟨.hbm, 131, rfl⟩
abbrev main_v106 : Ref sig .tc := ⟨.hbm, 132, rfl⟩
abbrev main_v107 : Ref sig .tc := ⟨.hbm, 133, rfl⟩
abbrev main_v108 : Ref sig .tc := ⟨.hbm, 134, rfl⟩
abbrev main_v109 : Ref sig .tc := ⟨.hbm, 135, rfl⟩
abbrev main_v110 : Ref sig .tc := ⟨.hbm, 136, rfl⟩
abbrev main_v111 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc1_stg0_0 : Ref sig .tc := ⟨.vmem, 8, rfl⟩
abbrev cc1_stg0_1 : Ref sig .tc := ⟨.vmem, 9, rfl⟩
abbrev cc1_stg1_0 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg4_0 : Ref sig .tc := ⟨.vmem, 13, rfl⟩
abbrev cc1_stg5_0 : Ref sig .tc := ⟨.vmem, 14, rfl⟩
abbrev cc1_stg5_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg4_0 : Ref sig .tc := ⟨.vmem, 22, rfl⟩
abbrev cc2_stg4_1 : Ref sig .tc := ⟨.vmem, 23, rfl⟩
abbrev cc3_stg0_0 : Ref sig .tc := ⟨.vmem, 24, rfl⟩
abbrev cc3_stg0_1 : Ref sig .tc := ⟨.vmem, 25, rfl⟩
abbrev cc3_stg1_0 : Ref sig .tc := ⟨.vmem, 26, rfl⟩
abbrev cc3_stg2_0 : Ref sig .tc := ⟨.vmem, 27, rfl⟩
abbrev cc3_stg3_0 : Ref sig .tc := ⟨.vmem, 28, rfl⟩
abbrev cc3_stg4_0 : Ref sig .tc := ⟨.vmem, 29, rfl⟩
abbrev cc3_stg5_0 : Ref sig .tc := ⟨.vmem, 30, rfl⟩
abbrev cc3_stg5_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg3_0 : Ref sig .tc := ⟨.vmem, 37, rfl⟩
abbrev cc4_stg4_0 : Ref sig .tc := ⟨.vmem, 38, rfl⟩
abbrev cc4_stg4_1 : Ref sig .tc := ⟨.vmem, 39, rfl⟩
abbrev cc5_stg0_0 : Ref sig .tc := ⟨.vmem, 40, rfl⟩
abbrev cc5_stg0_1 : Ref sig .tc := ⟨.vmem, 41, rfl⟩
abbrev cc5_stg1_0 : Ref sig .tc := ⟨.vmem, 42, rfl⟩
abbrev cc5_stg2_0 : Ref sig .tc := ⟨.vmem, 43, rfl⟩
abbrev cc5_stg3_0 : Ref sig .tc := ⟨.vmem, 44, rfl⟩
abbrev cc5_stg4_0 : Ref sig .tc := ⟨.vmem, 45, rfl⟩
abbrev cc5_stg5_0 : Ref sig .tc := ⟨.vmem, 46, rfl⟩
abbrev cc5_stg5_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg3_0 : Ref sig .tc := ⟨.vmem, 52, rfl⟩
abbrev cc6_stg3_1 : Ref sig .tc := ⟨.vmem, 53, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc1_sem4_0 : DmaSem sig := 13
abbrev cc1_sem5_0 : DmaSem sig := 14
abbrev cc1_sem5_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem3_0 : DmaSem sig := 21
abbrev cc2_sem4_0 : DmaSem sig := 22
abbrev cc2_sem4_1 : DmaSem sig := 23
abbrev cc3_sem0_0 : DmaSem sig := 24
abbrev cc3_sem0_1 : DmaSem sig := 25
abbrev cc3_sem1_0 : DmaSem sig := 26
abbrev cc3_sem2_0 : DmaSem sig := 27
abbrev cc3_sem3_0 : DmaSem sig := 28
abbrev cc3_sem4_0 : DmaSem sig := 29
abbrev cc3_sem5_0 : DmaSem sig := 30
abbrev cc3_sem5_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem3_0 : DmaSem sig := 37
abbrev cc4_sem4_0 : DmaSem sig := 38
abbrev cc4_sem4_1 : DmaSem sig := 39
abbrev cc5_sem0_0 : DmaSem sig := 40
abbrev cc5_sem0_1 : DmaSem sig := 41
abbrev cc5_sem1_0 : DmaSem sig := 42
abbrev cc5_sem2_0 : DmaSem sig := 43
abbrev cc5_sem3_0 : DmaSem sig := 44
abbrev cc5_sem4_0 : DmaSem sig := 45
abbrev cc5_sem5_0 : DmaSem sig := 46
abbrev cc5_sem5_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem3_0 : DmaSem sig := 52
abbrev cc6_sem3_1 : DmaSem sig := 53

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S6400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S6400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S6400x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x128 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128x128 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S6400x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S6400x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x128 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S6400x128 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128x128 .bf16 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S128x128 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x128 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S5000x128 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6400x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6400x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S6400x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x128 .bf16 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S128x128 .bf16 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .bf16 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev grid6 : Pipeline.Grid := ⟨1, ![10], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S5000x512 .bf16 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S512x128 .bf16 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x1x128_S1x1x128_0_0_0 : S3x1x128.Slices ![0, 0, 0] S1x1x128
  shapeCasts_S1x1x128_S1x128 : S1x1x128.ShapeCasts S1x128
  slices_S3x128_S1x128_0_0 : S3x128.Slices ![0, 0] S1x128
  shapeCasts_S1x128_S128 : S1x128.ShapeCasts S128
  shapeCasts_S128_S1x128 : S128.ShapeCasts S1x128
  inb_S6400x1_S6400x1_0_0 : ∀ a, (![0, 0] : Fin 2 → Nat) a + S6400x1.size a ≤ S6400x1.size a
  h_S6400x1 : 0 < S6400x1.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S6400x1_S6400x128 : S6400x1.Broadcasts S6400x128
  broadcasts_S1x128_S6400x128 : S1x128.Broadcasts S6400x128
  inb_S6400x128_S6400x128_0_0 : ∀ a, (![0, 0] : Fin 2 → Nat) a + S6400x128.size a ≤ S6400x128.size a
  h_S6400x128 : 0 < S6400x128.numel
  shapeCasts_S6400x128_S6400x128 : S6400x128.ShapeCasts S6400x128
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  bitsLt_bf16_f32 : FTy.bits .bf16 < FTy.bits .f32
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  inb_S128x128_S128x128_0_0 : ∀ a, (![0, 0] : Fin 2 → Nat) a + S128x128.size a ≤ S128x128.size a
  h_S128x128 : 0 < S128x128.numel
  shapeCasts_S128x128_S128x128 : S128x128.ShapeCasts S128x128
  broadcasts_S1x128_S5000x128 : S1x128.Broadcasts S5000x128
  slices_S3x1x128_S1x1x128_1_0_0 : S3x1x128.Slices ![1, 0, 0] S1x1x128
  slices_S3x128_S1x128_1_0 : S3x128.Slices ![1, 0] S1x128
  slices_S3_S1_1 : S3.Slices ![1] S1
  slices_S3x128x128_S1x128x128_1_0_0 : S3x128x128.Slices ![1, 0, 0] S1x128x128
  slices_S3x1x128_S1x1x128_2_0_0 : S3x1x128.Slices ![2, 0, 0] S1x1x128
  slices_S3x128_S1x128_2_0 : S3x128.Slices ![2, 0] S1x128
  slices_S3_S1_2 : S3.Slices ![2] S1
  slices_S3x128x128_S1x128x128_2_0_0 : S3x128x128.Slices ![2, 0, 0] S1x128x128
  concatenates_S50000x128_S50000x128_S50000x128_S50000x128_S50000x512_d1 : Shape.Concatenates [S50000x128, S50000x128, S50000x128, S50000x128] S50000x512 1
  inb_S5000x512_S5000x512_0_0 : ∀ a, (![0, 0] : Fin 2 → Nat) a + S5000x512.size a ≤ S5000x512.size a
  h_S5000x512 : 0 < S5000x512.numel
  shapeCasts_S5000x512_S5000x512 : S5000x512.ShapeCasts S5000x512
  inb_S512x128_S512x128_0_0 : ∀ a, (![0, 0] : Fin 2 → Nat) a + S512x128.size a ≤ S512x128.size a
  h_S512x128 : 0 < S512x128.numel
  shapeCasts_S512x128_S512x128 : S512x128.ShapeCasts S512x128
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S5000x128_S128x128_S5000x128_1_0_0_1_n_n_wf : DotDims.WF S5000x128 S128x128 S5000x128 [1] [0] [0] [1] [] []
  dot_S5000x512_S512x128_S5000x128_1_0_0_1_n_n_wf : DotDims.WF S5000x512 S512x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S6400x128.size a ≤ S800000x128.size a
  hwx0_0 : ∀ i : grid0.Coords, EltTy.bits .f32 = 32 ∨ (Rect.block (s := S800000x128) S6400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S6400x1.size a ≤ S800000x1.size a
  hwx0_1 : ∀ i : grid0.Coords, EltTy.bits .f32 = 32 ∨ (Rect.block (s := S800000x1) S6400x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S6400x128.size a ≤ S800000x128.size a
  hwx0_4 : ∀ i : grid0.Coords, EltTy.bits .f32 = 32 ∨ (Rect.block (s := S800000x128) S6400x128.size (cc0_transform_4 i) (hinb0_4 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S50000x128.size a
  hwx1_0 : ∀ i : grid1.Coords, EltTy.bits .bf16 = 32 ∨ (Rect.block (s := S50000x128) S5000x128.size (cc1_transform_0 i) (hinb1_0 i)).WholeWords (EltTy.packing .bf16)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128x128.size a ≤ S128x128.size a
  hwx1_1 : ∀ i : grid1.Coords, EltTy.bits .bf16 = 32 ∨ (Rect.block (s := S128x128) S128x128.size (cc1_transform_1 i) (hinb1_1 i)).WholeWords (EltTy.packing .bf16)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .bf16 = 32 ∨ (Rect.block (s := S128x128) S128x128.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S50000x128.size a
  hwx1_5 : ∀ i : grid1.Coords, EltTy.bits .f32 = 32 ∨ (Rect.block (s := S50000x128) S5000x128.size (cc1_transform_5 i) (hinb1_5 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S6400x128.size a ≤ S800000x128.size a
  hwx2_0 : ∀ i : grid2.Coords, EltTy.bits .f32 = 32 ∨ (Rect.block (s := S800000x128) S6400x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S6400x1.size a ≤ S800000x1.size a
  hwx2_1 : ∀ i : grid2.Coords, EltTy.bits .f32 = 32 ∨ (Rect.block (s := S800000x1) S6400x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x128.size a ≤ S1x128.size a
  hwx2_3 : ∀ i : grid2.Coords, EltTy.bits .f32 = 32 ∨ (Rect.block (s := S1x128) S1x128.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S6400x128.size a ≤ S800000x128.size a
  hwx2_4 : ∀ i : grid2.Coords, EltTy.bits .f32 = 32 ∨ (Rect.block (s := S800000x128) S6400x128.size (cc2_transform_4 i) (hinb2_4 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S50000x128.size a
  hwx3_0 : ∀ i : grid3.Coords, EltTy.bits .bf16 = 32 ∨ (Rect.block (s := S50000x128) S5000x128.size (cc3_transform_0 i) (hinb3_0 i)).WholeWords (EltTy.packing .bf16)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128x128.size a ≤ S128x128.size a
  hwx3_1 : ∀ i : grid3.Coords, EltTy.bits .bf16 = 32 ∨ (Rect.block (s := S128x128) S128x128.size (cc3_transform_1 i) (hinb3_1 i)).WholeWords (EltTy.packing .bf16)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S128x128.size a ≤ S128x128.size a
  hwx3_3 : ∀ i : grid3.Coords, EltTy.bits .bf16 = 32 ∨ (Rect.block (s := S128x128) S128x128.size (cc3_transform_3 i) (hinb3_3 i)).WholeWords (EltTy.packing .bf16)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S1x128.size a ≤ S1x128.size a
  hwx3_4 : ∀ i : grid3.Coords, EltTy.bits .f32 = 32 ∨ (Rect.block (s := S1x128) S1x128.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S5000x128.size a ≤ S50000x128.size a
  hwx3_5 : ∀ i : grid3.Coords, EltTy.bits .f32 = 32 ∨ (Rect.block (s := S50000x128) S5000x128.size (cc3_transform_5 i) (hinb3_5 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6400x128.size a ≤ S800000x128.size a
  hwx4_0 : ∀ i : grid4.Coords, EltTy.bits .f32 = 32 ∨ (Rect.block (s := S800000x128) S6400x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6400x1.size a ≤ S800000x1.size a
  hwx4_1 : ∀ i : grid4.Coords, EltTy.bits .f32 = 32 ∨ (Rect.block (s := S800000x1) S6400x1.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S6400x128.size a ≤ S800000x128.size a
  hwx4_4 : ∀ i : grid4.Coords, EltTy.bits .f32 = 32 ∨ (Rect.block (s := S800000x128) S6400x128.size (cc4_transform_4 i) (hinb4_4 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S50000x128.size a
  hwx5_0 : ∀ i : grid5.Coords, EltTy.bits .bf16 = 32 ∨ (Rect.block (s := S50000x128) S5000x128.size (cc5_transform_0 i) (hinb5_0 i)).WholeWords (EltTy.packing .bf16)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S128x128.size a ≤ S128x128.size a
  hwx5_1 : ∀ i : grid5.Coords, EltTy.bits .bf16 = 32 ∨ (Rect.block (s := S128x128) S128x128.size (cc5_transform_1 i) (hinb5_1 i)).WholeWords (EltTy.packing .bf16)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .bf16 = 32 ∨ (Rect.block (s := S128x128) S128x128.size (cc5_transform_3 i) (hinb5_3 i)).WholeWords (EltTy.packing .bf16)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S50000x128.size a
  hwx5_5 : ∀ i : grid5.Coords, EltTy.bits .f32 = 32 ∨ (Rect.block (s := S50000x128) S5000x128.size (cc5_transform_5 i) (hinb5_5 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x512.size a ≤ S50000x512.size a
  hwx6_0 : ∀ i : grid6.Coords, EltTy.bits .bf16 = 32 ∨ (Rect.block (s := S50000x512) S5000x512.size (cc6_transform_0 i) (hinb6_0 i)).WholeWords (EltTy.packing .bf16)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S512x128.size a ≤ S512x128.size a
  hwx6_1 : ∀ i : grid6.Coords, EltTy.bits .bf16 = 32 ∨ (Rect.block (s := S512x128) S512x128.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S50000x128.size a
  hwx6_3 : ∀ i : grid6.Coords, EltTy.bits .f32 = 32 ∨ (Rect.block (s := S50000x128) S5000x128.size (cc6_transform_3 i) (hinb6_3 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def dot_S5000x512_S512x128_S5000x128_1_0_0_1_n_n : DotDims S5000x512 S512x128 S5000x128 where
  lhsContracting := [1]
  rhsContracting := [0]
  lhsNonContracting := [0]
  rhsNonContracting := [1]
  lhsBatch := []
  rhsBatch := []
  wf := dot_S5000x512_S512x128_S5000x128_1_0_0_1_n_n_wf

abbrev win0_0 : Pipeline.Window sig grid0 :=
  Pipeline.Window.ofSpec (Memref.whole main_v20) S6400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S6400x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v13) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v21) S6400x128.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v41) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v42) S128x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v44) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v43) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v45) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v46) S5000x128.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev win2_0 : Pipeline.Window sig grid2 :=
  Pipeline.Window.ofSpec (Memref.whole main_v58) S6400x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S6400x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v48) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v51) S1x128.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_v59) S6400x128.size cc2_transform_4 reads2_4 true false 2 stage2_4 sem2_4
    hrank2 hreads2_4 hinb2_4 nbuf2_4 (Memref.isWhole_whole _) hwx2_4 hstage2_4

abbrev win2 : Fin 5 → Pipeline.Window sig grid2 := fun | 0 => win2_0 | 1 => win2_1 | 2 => win2_2 | 3 => win2_3 | 4 => win2_4 | ⟨_ + 5, h⟩ => absurd h (Nat.not_lt.2 (Nat.le_add_left _ _))
abbrev spec2 : Fin 5 → Pipeline.WinSpec sig grid2.rank := fun w => (win2 w).toWinSpec

abbrev win3_0 : Pipeline.Window sig grid3 :=
  Pipeline.Window.ofSpec (Memref.whole main_v79) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v80) S128x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v82) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S128x128.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v83) S1x128.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v84) S5000x128.size cc3_transform_5 reads3_5 true false 2 stage3_5 sem3_5
    hrank3 hreads3_5 hinb3_5 nbuf3_5 (Memref.isWhole_whole _) hwx3_5 hstage3_5

abbrev win3 : Fin 6 → Pipeline.Window sig grid3 := fun | 0 => win3_0 | 1 => win3_1 | 2 => win3_2 | 3 => win3_3 | 4 => win3_4 | 5 => win3_5 | ⟨_ + 6, h⟩ => absurd h (Nat.not_lt.2 (Nat.le_add_left _ _))
abbrev spec3 : Fin 6 → Pipeline.WinSpec sig grid3.rank := fun w => (win3 w).toWinSpec

abbrev win4_0 : Pipeline.Window sig grid4 :=
  Pipeline.Window.ofSpec (Memref.whole main_v96) S6400x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg2) S6400x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v86) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v89) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97) S6400x128.size cc4_transform_4 reads4_4 true false 2 stage4_4 sem4_4
    hrank4 hreads4_4 hinb4_4 nbuf4_4 (Memref.isWhole_whole _) hwx4_4 hstage4_4

abbrev win4 : Fin 5 → Pipeline.Window sig grid4 := fun | 0 => win4_0 | 1 => win4_1 | 2 => win4_2 | 3 => win4_3 | 4 => win4_4 | ⟨_ + 5, h⟩ => absurd h (Nat.not_lt.2 (Nat.le_add_left _ _))
abbrev spec4 : Fin 5 → Pipeline.WinSpec sig grid4.rank := fun w => (win4 w).toWinSpec

abbrev win5_0 : Pipeline.Window sig grid5 :=
  Pipeline.Window.ofSpec (Memref.whole main_v117) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v118) S128x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v120) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v119) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v121) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v122) S5000x128.size cc5_transform_5 reads5_5 true false 2 stage5_5 sem5_5
    hrank5 hreads5_5 hinb5_5 nbuf5_5 (Memref.isWhole_whole _) hwx5_5 hstage5_5

abbrev win5 : Fin 6 → Pipeline.Window sig grid5 := fun | 0 => win5_0 | 1 => win5_1 | 2 => win5_2 | 3 => win5_3 | 4 => win5_4 | 5 => win5_5 | ⟨_ + 6, h⟩ => absurd h (Nat.not_lt.2 (Nat.le_add_left _ _))
abbrev spec5 : Fin 6 → Pipeline.WinSpec sig grid5.rank := fun w => (win5 w).toWinSpec

abbrev win6_0 : Pipeline.Window sig grid6 :=
  Pipeline.Window.ofSpec (Memref.whole main_v124) S5000x512.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v125) S512x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v126) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v127) S5000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S800000x1 : Shape := ⟨2, ![800000, 1]⟩
abbrev S3x1x128 : Shape := ⟨3, ![3, 1, 128]⟩
abbrev S3x128 : Shape := ⟨2, ![3, 128]⟩
abbrev S3 : Shape := ⟨1, ![3]⟩
abbrev S3x128x128 : Shape := ⟨3, ![3, 128, 128]⟩
abbrev S512x128 : Shape := ⟨2, ![512, 128]⟩
abbrev S128 : Shape := ⟨1, ![128]⟩
abbrev S1x800000 : Shape := ⟨2, ![1, 800000]⟩
abbrev S800000 : Shape := ⟨1, ![800000]⟩
abbrev S_ : Shape := ⟨0, ![]⟩
abbrev S50000 : Shape := ⟨1, ![50000]⟩
abbrev S50000x1 : Shape := ⟨2, ![50000, 1]⟩
abbrev S1x1x128 : Shape := ⟨3, ![1, 1, 128]⟩
abbrev S1x128 : Shape := ⟨2, ![1, 128]⟩
abbrev S800000x128 : Shape := ⟨2, ![800000, 128]⟩
abbrev S1 : Shape := ⟨1, ![1]⟩
abbrev S1x128x128 : Shape := ⟨3, ![1, 128, 128]⟩
abbrev S128x128 : Shape := ⟨2, ![128, 128]⟩
abbrev S50000x512 : Shape := ⟨2, ![50000, 512]⟩

abbrev nBuf : Space → Nat
  | .hbm => 187
  | .vmem => 0
  | .smem => 0
  | _ => 0

abbrev hbmTy0_0 (i : Nat) : BufTy := match i % 128 with
  | 0 => ⟨S50000x128, .f32⟩
  | 1 => ⟨S2x800000, .i32⟩
  | 2 => ⟨S800000x1, .f32⟩
  | 3 => ⟨S3x1x128, .f32⟩
  | 4 => ⟨S3x128, .f32⟩
  | 5 => ⟨S3, .f32⟩
  | 6 => ⟨S3x128x128, .f32⟩
  | 7 => ⟨S3x128, .f32⟩
  | 8 => ⟨S3x128x128, .f32⟩
  | 9 => ⟨S3x128, .f32⟩
  | 10 => ⟨S512x128, .f32⟩
  | 11 => ⟨S128, .f32⟩
  | 12 => ⟨S1x800000, .i32⟩
  | 13 => ⟨S800000, .i32⟩
  | 14 => ⟨S1x800000, .i32⟩
  | 15 => ⟨S800000, .i32⟩
  | 16 => ⟨S_, .f32⟩
  | 17 => ⟨S800000, .f32⟩
  | 18 => ⟨S_, .f32⟩
  | 19 => ⟨S50000, .f32⟩
  | 20 => ⟨S800000x1, .i32⟩
  | 21 => ⟨S50000, .f32⟩
  | 22 => ⟨S50000x1, .f32⟩
  | 23 => ⟨S1x1x128, .f32⟩
  | 24 => ⟨S1x128, .f32⟩
  | 25 => ⟨S800000x128, .f32⟩
  | 26 => ⟨S1x128, .f32⟩
  | 27 => ⟨S128, .f32⟩
  | 28 => ⟨S1x128, .f32⟩
  | 29 => ⟨S800000x128, .f32⟩
  | 30 => ⟨S800000x128, .f32⟩
  | 31 => ⟨S_, .i32⟩
  | 32 => ⟨S800000, .i32⟩
  | 33 => ⟨S800000, .i1⟩
  | 34 => ⟨S_, .i32⟩
  | 35 => ⟨S800000, .i32⟩
  | 36 => ⟨S800000, .i32⟩
  | 37 => ⟨S800000, .i32⟩
  | 38 => ⟨S800000x1, .i32⟩
  | 39 => ⟨S800000x128, .f32⟩
  | 40 => ⟨S800000x128, .f32⟩
  | 41 => ⟨S_, .f32⟩
  | 42 => ⟨S800000x128, .f32⟩
  | 43 => ⟨S800000x128, .f32⟩
  | 44 => ⟨S_, .f32⟩
  | 45 => ⟨S50000x128, .f32⟩
  | 46 => ⟨S800000x1, .i32⟩
  | 47 => ⟨S50000x128, .f32⟩
  | 48 => ⟨S50000x128, .f32⟩
  | 49 => ⟨S50000x128, .f32⟩
  | 50 => ⟨S1, .f32⟩
  | 51 => ⟨S_, .f32⟩
  | 52 => ⟨S_, .f32⟩
  | 53 => ⟨S_, .f32⟩
  | 54 => ⟨S50000x128, .f32⟩
  | 55 => ⟨S50000x128, .f32⟩
  | 56 => ⟨S50000x128, .f32⟩
  | 57 => ⟨S1x128x128, .f32⟩
  | 58 => ⟨S128x128, .f32⟩
  | 59 => ⟨S50000x128, .f32⟩
  | 60 => ⟨S1x128, .f32⟩
  | 61 => ⟨S128, .f32⟩
  | 62 => ⟨S1x128, .f32⟩
  | 63 => ⟨S50000x128, .f32⟩
  | 64 => ⟨S50000x128, .f32⟩
  | 65 => ⟨S_, .f32⟩
  | 66 => ⟨S50000x128, .f32⟩
  | 67 => ⟨S50000x128, .f32⟩
  | 68 => ⟨S1x128x128, .f32⟩
  | 69 => ⟨S128x128, .f32⟩
  | 70 => ⟨S50000x128, .f32⟩
  | 71 => ⟨S1x128, .f32⟩
  | 72 => ⟨S128, .f32⟩
  | 73 => ⟨S1x128, .f32⟩
  | 74 => ⟨S50000x128, .f32⟩
  | 75 => ⟨S50000x128, .f32⟩
  | 76 => ⟨S1x1x128, .f32⟩
  | 77 => ⟨S1x128, .f32⟩
  | 78 => ⟨S800000x128, .f32⟩
  | 79 => ⟨S1x128, .f32⟩
  | 80 => ⟨S128, .f32⟩
  | 81 => ⟨S1x128, .f32⟩
  | 82 => ⟨S800000x128, .f32⟩
  | 83 => ⟨S800000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S800000x128, .f32⟩
  | 94 => ⟨S_, .f32⟩
  | 95 => ⟨S800000x128, .f32⟩
  | 96 => ⟨S800000x128, .f32⟩
  | 97 => ⟨S_, .f32⟩
  | 98 => ⟨S50000x128, .f32⟩
  | 99 => ⟨S800000x1, .i32⟩
  | 100 => ⟨S50000x128, .f32⟩
  | 101 => ⟨S50000x128, .f32⟩
  | 102 => ⟨S50000x128, .f32⟩
  | 103 => ⟨S1, .f32⟩
  | 104 => ⟨S_, .f32⟩
  | 105 => ⟨S_, .f32⟩
  | 106 => ⟨S_, .f32⟩
  | 107 => ⟨S50000x128, .f32⟩
  | 108 => ⟨S50000x128, .f32⟩
  | 109 => ⟨S50000x128, .f32⟩
  | 110 => ⟨S1x128x128, .f32⟩
  | 111 => ⟨S128x128, .f32⟩
  | 112 => ⟨S50000x128, .f32⟩
  | 113 => ⟨S1x128, .f32⟩
  | 114 => ⟨S128, .f32⟩
  | 115 => ⟨S1x128, .f32⟩
  | 116 => ⟨S50000x128, .f32⟩
  | 117 => ⟨S50000x128, .f32⟩
  | 118 => ⟨S_, .f32⟩
  | 119 => ⟨S50000x128, .f32⟩
  | 120 => ⟨S50000x128, .f32⟩
  | 121 => ⟨S1x128x128, .f32⟩
  | 122 => ⟨S128x128, .f32⟩
  | 123 => ⟨S50000x128, .f32⟩
  | 124 => ⟨S1x128, .f32⟩
  | 125 => ⟨S128, .f32⟩
  | 126 => ⟨S1x128, .f32⟩
  | 127 => ⟨S50000x128, .f32⟩
  | _ => ⟨S50000x128, .f32⟩

abbrev hbmTy0_1 (i : Nat) : BufTy := match i % 128 with
  | 0 => ⟨S50000x128, .f32⟩
  | 1 => ⟨S1x1x128, .f32⟩
  | 2 => ⟨S1x128, .f32⟩
  | 3 => ⟨S800000x128, .f32⟩
  | 4 => ⟨S1x128, .f32⟩
  | 5 => ⟨S128, .f32⟩
  | 6 => ⟨S1x128, .f32⟩
  | 7 => ⟨S800000x128, .f32⟩
  | 8 => ⟨S800000x128, .f32⟩
  | 9 => ⟨S_, .i32⟩
  | 10 => ⟨S800000, .i32⟩
  | 11 => ⟨S800000, .i1⟩
  | 12 => ⟨S_, .i32⟩
  | 13 => ⟨S800000, .i32⟩
  | 14 => ⟨S800000, .i32⟩
  | 15 => ⟨S800000, .i32⟩
  | 16 => ⟨S800000x1, .i32⟩
  | 17 => ⟨S800000x128, .f32⟩
  | 18 => ⟨S800000x128, .f32⟩
  | 19 => ⟨S_, .f32⟩
  | 20 => ⟨S800000x128, .f32⟩
  | 21 => ⟨S800000x128, .f32⟩
  | 22 => ⟨S_, .f32⟩
  | 23 => ⟨S50000x128, .f32⟩
  | 24 => ⟨S800000x1, .i32⟩
  | 25 => ⟨S50000x128, .f32⟩
  | 26 => ⟨S50000x128, .f32⟩
  | 27 => ⟨S50000x128, .f32⟩
  | 28 => ⟨S1, .f32⟩
  | 29 => ⟨S_, .f32⟩
  | 30 => ⟨S_, .f32⟩
  | 31 => ⟨S_, .f32⟩
  | 32 => ⟨S50000x128, .f32⟩
  | 33 => ⟨S50000x128, .f32⟩
  | 34 => ⟨S50000x128, .f32⟩
  | 35 => ⟨S1x128x128, .f32⟩
  | 36 => ⟨S128x128, .f32⟩
  | 37 => ⟨S50000x128, .f32⟩
  | 38 => ⟨S1x128, .f32⟩
  | 39 => ⟨S128, .f32⟩
  | 40 => ⟨S1x128, .f32⟩
  | 41 => ⟨S50000x128, .f32⟩
  | 42 => ⟨S50000x128, .f32⟩
  | 43 => ⟨S_, .f32⟩
  | 44 => ⟨S50000x128, .f32⟩
  | 45 => ⟨S50000x128, .f32⟩
  | 46 => ⟨S1x128x128, .f32⟩
  | 47 => ⟨S128x128, .f32⟩
  | 48 => ⟨S50000x128, .f32⟩
  | 49 => ⟨S1x128, .f32⟩
  | 50 => ⟨S128, .f32⟩
  | 51 => ⟨S1x128, .f32⟩
  | 52 => ⟨S50000x128, .f32⟩
  | 53 => ⟨S50000x128, .f32⟩
  | 54 => ⟨S50000x512, .f32⟩
  | 55 => ⟨S50000x128, .f32⟩
  | 56 => ⟨S1x128, .f32⟩
  | 57 => ⟨S50000x128, .f32⟩
  | 58 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_cst : Ref sig .tc := ⟨.hbm, 16, rfl⟩
abbrev main_v4 : Ref sig .tc := ⟨.hbm, 17, rfl⟩
abbrev main_cst_0 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_c : Ref sig .tc := ⟨.hbm, 31, rfl⟩
abbrev main_v17 : Ref sig .tc := ⟨.hbm, 32, rfl⟩
abbrev main_v18 : Ref sig .tc := ⟨.hbm, 33, rfl⟩
abbrev main_c_1 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_call0_cst : Ref sig .tc := ⟨.hbm, 41, rfl⟩
abbrev main_call0_v0 : Ref sig .tc := ⟨.hbm, 42, rfl⟩
abbrev main_v25 : Ref sig .tc := ⟨.hbm, 43, rfl⟩
abbrev main_cst_2 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_cst_3 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_call1_cst : Ref sig .tc := ⟨.hbm, 65, rfl⟩
abbrev main_call1_v0 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_v61 : Ref sig .tc := ⟨.hbm, 83, rfl⟩
abbrev main_c_4 : Ref sig .tc := ⟨.hbm, 84, rfl⟩
abbrev main_v62 : Ref sig .tc := ⟨.hbm, 85, rfl⟩
abbrev main_v63 : Ref sig .tc := ⟨.hbm, 86, rfl⟩
abbrev main_c_5 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_call2_cst : Ref sig .tc := ⟨.hbm, 94, rfl⟩
abbrev main_call2_v0 : Ref sig .tc := ⟨.hbm, 95, rfl⟩
abbrev main_v70 : Ref sig .tc := ⟨.hbm, 96, rfl⟩
abbrev main_cst_6 : Ref sig .tc := ⟨.hbm, 97, rfl⟩
abbrev main_v71 : Ref sig .tc := ⟨.hbm, 98, rfl⟩
abbrev main_v72 : Ref sig .tc := ⟨.hbm, 99, rfl⟩
abbrev main_v73 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_cst_7 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_v82 : Ref sig .tc := ⟨.hbm, 110, rfl⟩
abbrev main_v83 : Ref sig .tc := ⟨.hbm, 111, rfl⟩
abbrev main_v84 : Ref sig .tc := ⟨.hbm, 112, rfl⟩
abbrev main_v85 : Ref sig .tc := ⟨.hbm, 113, rfl⟩
abbrev main_v86 : Ref sig .tc := ⟨.hbm, 114, rfl⟩
abbrev main_v87 : Ref sig .tc := ⟨.hbm, 115, rfl⟩
abbrev main_v88 : Ref sig .tc := ⟨.hbm, 116, rfl⟩
abbrev main_v89 : Ref sig .tc := ⟨.hbm, 117, rfl⟩
abbrev main_call3_cst : Ref sig .tc := ⟨.hbm, 118, rfl⟩
abbrev main_call3_v0 : Ref sig .tc := ⟨.hbm, 119, rfl⟩
abbrev main_v90 : Ref sig .tc := ⟨.hbm, 120, rfl⟩
abbrev main_v91 : Ref sig .tc := ⟨.hbm, 121, rfl⟩
abbrev main_v92 : Ref sig .tc := ⟨.hbm, 122, rfl⟩
abbrev main_v93 : Ref sig .tc := ⟨.hbm, 123, rfl⟩
abbrev main_v94 : Ref sig .tc := ⟨.hbm, 124, rfl⟩
abbrev main_v95 : Ref sig .tc := ⟨.hbm, 125, rfl⟩
abbrev main_v96 : Ref sig .tc := ⟨.hbm, 126, rfl⟩
abbrev main_v97 : Ref sig .tc := ⟨.hbm, 127, rfl⟩
abbrev main_v98 : Ref sig .tc := ⟨.hbm, 128, rfl⟩
abbrev main_v99 : Ref sig .tc := ⟨.hbm, 129, rfl⟩
abbrev main_v100 : Ref sig .tc := ⟨.hbm, 130, rfl⟩
abbrev main_v101 : Ref sig .tc := ⟨.hbm, 131, rfl⟩
abbrev main_v102 : Ref sig .tc := ⟨.hbm, 132, rfl⟩
abbrev main_v103 : Ref sig .tc := ⟨.hbm, 133, rfl⟩
abbrev main_v104 : Ref sig .tc := ⟨.hbm, 134, rfl⟩
abbrev main_v105 : Ref sig .tc := ⟨.hbm, 135, rfl⟩
abbrev main_v106 : Ref sig .tc := ⟨.hbm, 136, rfl⟩
abbrev main_c_8 : Ref sig .tc := ⟨.hbm, 137, rfl⟩
abbrev main_v107 : Ref sig .tc := ⟨.hbm, 138, rfl⟩
abbrev main_v108 : Ref sig .tc := ⟨.hbm, 139, rfl⟩
abbrev main_c_9 : Ref sig .tc := ⟨.hbm, 140, rfl⟩
abbrev main_v109 : Ref sig .tc := ⟨.hbm, 141, rfl⟩
abbrev main_v110 : Ref sig .tc := ⟨.hbm, 142, rfl⟩
abbrev main_v111 : Ref sig .tc := ⟨.hbm, 143, rfl⟩
abbrev main_v112 : Ref sig .tc := ⟨.hbm, 144, rfl⟩
abbrev main_v113 : Ref sig .tc := ⟨.hbm, 145, rfl⟩
abbrev main_v114 : Ref sig .tc := ⟨.hbm, 146, rfl⟩
abbrev main_call4_cst : Ref sig .tc := ⟨.hbm, 147, rfl⟩
abbrev main_call4_v0 : Ref sig .tc := ⟨.hbm, 148, rfl⟩
abbrev main_v115 : Ref sig .tc := ⟨.hbm, 149, rfl⟩
abbrev main_cst_10 : Ref sig .tc := ⟨.hbm, 150, rfl⟩
abbrev main_v116 : Ref sig .tc := ⟨.hbm, 151, rfl⟩
abbrev main_v117 : Ref sig .tc := ⟨.hbm, 152, rfl⟩
abbrev main_v118 : Ref sig .tc := ⟨.hbm, 153, rfl⟩
abbrev main_v119 : Ref sig .tc := ⟨.hbm, 154, rfl⟩
abbrev main_v120 : Ref sig .tc := ⟨.hbm, 155, rfl⟩
abbrev main_v121 : Ref sig .tc := ⟨.hbm, 156, rfl⟩
abbrev main_v122 : Ref sig .tc := ⟨.hbm, 157, rfl⟩
abbrev main_cst_11 : Ref sig .tc := ⟨.hbm, 158, rfl⟩
abbrev main_v123 : Ref sig .tc := ⟨.hbm, 159, rfl⟩
abbrev main_v124 : Ref sig .tc := ⟨.hbm, 160, rfl⟩
abbrev main_v125 : Ref sig .tc := ⟨.hbm, 161, rfl⟩
abbrev main_v126 : Ref sig .tc := ⟨.hbm, 162, rfl⟩
abbrev main_v127 : Ref sig .tc := ⟨.hbm, 163, rfl⟩
abbrev main_v128 : Ref sig .tc := ⟨.hbm, 164, rfl⟩
abbrev main_v129 : Ref sig .tc := ⟨.hbm, 165, rfl⟩
abbrev main_v130 : Ref sig .tc := ⟨.hbm, 166, rfl⟩
abbrev main_v131 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_call5_cst : Ref sig .tc := ⟨.hbm, 171, rfl⟩
abbrev main_call5_v0 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S50000_S50000x1_0 : S50000.BroadcastsInDim S50000x1 (![0] : Fin 1 → Fin S50000x1.rank)
  slices_S3x1x128_S1x1x128_0_0_0 : S3x1x128.Slices ![0, 0, 0] S1x1x128
  shapeCasts_S1x1x128_S1x128 : S1x1x128.ShapeCasts S1x128
  slices_S3x128_S1x128_0_0 : S3x128.Slices ![0, 0] S1x128
  shapeCasts_S1x128_S128 : S1x128.ShapeCasts S128
  bcast_S128_S1x128_1 : S128.BroadcastsInDim S1x128 (![1] : Fin 1 → Fin S1x128.rank)
  bcast_S1x128_S800000x128_0_1 : S1x128.BroadcastsInDim S800000x128 (![0, 1] : Fin 2 → Fin S800000x128.rank)
  bcast_S_S800000x128 : S_.BroadcastsInDim S800000x128 (![] : Fin 0 → Fin S800000x128.rank)
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  slices_S3_S1_0 : S3.Slices ![0] S1
  shapeCasts_S1_S_ : S1.ShapeCasts S_
  slices_S3x128x128_S1x128x128_0_0_0 : S3x128x128.Slices ![0, 0, 0] S1x128x128
  shapeCasts_S1x128x128_S128x128 : S1x128x128.ShapeCasts S128x128
  bcast_S1x128_S50000x128_0_1 : S1x128.BroadcastsInDim S50000x128 (![0, 1] : Fin 2 → Fin S50000x128.rank)
  slices_S3x1x128_S1x1x128_1_0_0 : S3x1x128.Slices ![1, 0, 0] S1x1x128
  slices_S3x128_S1x128_1_0 : S3x128.Slices ![1, 0] S1x128
  slices_S3_S1_1 : S3.Slices ![1] S1
  slices_S3x128x128_S1x128x128_1_0_0 : S3x128x128.Slices ![1, 0, 0] S1x128x128
  slices_S3x1x128_S1x1x128_2_0_0 : S3x1x128.Slices ![2, 0, 0] S1x1x128
  slices_S3x128_S1x128_2_0 : S3x128.Slices ![2, 0] S1x128
  slices_S3_S1_2 : S3.Slices ![2] S1
  slices_S3x128x128_S1x128x128_2_0_0 : S3x128x128.Slices ![2, 0, 0] S1x128x128
  concatenates_S50000x128_S50000x128_S50000x128_S50000x128_S50000x512_d1 : Shape.Concatenates [S50000x128, S50000x128, S50000x128, S50000x128] S50000x512 1
  scatter_S50000_S800000x1_S800000_n_0_0_1_wf : ScatterDims.WF S50000 S800000x1 S800000 [] [0] [0] 1
  dot_S800000x1_S1x128_S800000x128_1_0_0_1_n_n_wf : DotDims.WF S800000x1 S1x128 S800000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x128_S50000x128_1_0_0_1_n_n_wf : DotDims.WF S50000x128 S128x128 S50000x128 [1] [0] [0] [1] [] []
  dot_S50000x512_S512x128_S50000x128_1_0_0_1_n_n_wf : DotDims.WF S50000x512 S512x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S800000x1_S1x128_S800000x128_1_0_0_1_n_n : DotDims S800000x1 S1x128 S800000x128 where
  lhsContracting := [1]
  rhsContracting := [0]
  lhsNonContracting := [0]
  rhsNonContracting := [1]
  lhsBatch := []
  rhsBatch := []
  wf := dot_S800000x1_S1x128_S800000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x512_S512x128_S50000x128_1_0_0_1_n_n : DotDims S50000x512 S512x128 S50000x128 where
  lhsContracting := [1]
  rhsContracting := [0]
  lhsNonContracting := [0]
  rhsNonContracting := [1]
  lhsBatch := []
  rhsBatch := []
  wf := dot_S50000x512_S512x128_S50000x128_1_0_0_1_n_n_wf

class Facts : Prop extends Facts₀ where

variable [Facts]
-- ==== Proof.RegB0.lean ====
/-
  Region 0 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.Kernel.Launch
import proofs.«130465_j18580028523178_1_alg».proof.Proof.Gen.Kernel.Skeleton
import proofs.«130465_j18580028523178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the windows' blocks, what the body leaves, its triple, the proof data and the body obligation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_S6400x128 : Rect S6400x128 := Rect.unit (s := S6400x128) ![0, 0] S6400x128.size inb_S6400x128_S6400x128_0_0
abbrev r0_S6400x1 : Rect S6400x1 := Rect.unit (s := S6400x1) ![0, 0] S6400x1.size inb_S6400x1_S6400x1_0_0
abbrev r0_S1x128 : Rect S1x128 := Rect.unit (s := S1x128) ![0, 0] S1x128.size inb_S1x128_S1x128_0_0

/-- The output window's staging buffer after the body, from the input windows' blocks: its one store as a piece. -/
def out0_4 (x0 : Vec F S6400x128 .f32) (x1 : Vec F S6400x1 .f32) (x2 : Vec F S1x128 .f32) (x3 : Vec F S1x128 .f32) : Vec F S6400x128 .f32 :=
  View.canon [⟨r0_S6400x128, k0_pay1 (View.ld x1 r0_S6400x1) (View.ld x2 r0_S1x128) (View.ld x3 r0_S1x128) (View.ld x0 r0_S6400x128)⟩]

/-- The one store tiles the buffer, so it covers it. -/
theorem cover0_4 (p0 : Vec F S6400x128 .f32) (y : S6400x128.Idx) :
    ∃ pc ∈ ([⟨r0_S6400x128, p0⟩] : List (View.Piece (Elt F) S6400x128 .f32)), y ∈ pc.1.set :=
  View.cover_of_tiled [⟨r0_S6400x128, p0⟩] S6400x128.size (by rfl) y

set_option maxHeartbeats 4000000 in
/-- The kernel body on whole staging memrefs, the inputs' at contents `xW` and the output's at anything, runs to the
    continuation holding the inputs' as they were and the output's at `out0_4` of the inputs'. -/
theorem sound_kernel0 (c : Dev nD) (E : Set ℕ) (i : grid0.Coords) (arg1 : Memref sig .tc .vmem S6400x128 .f32) (harg1 : arg1.IsWhole) (arg2 : Memref sig .tc .vmem S6400x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S6400x128 .f32) (harg5 : arg5.IsWhole)
    (x0 : Vec F S6400x128 .f32) (x1 : Vec F S6400x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_msg_kernel i arg1 harg1 arg2 harg2 arg3 harg3 arg4 harg4 arg5 harg5) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core `c`: the arrays as the region finds them; after the body at point `t` each
    input's buffer at its block and the output's at `out0_4` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Reg

end
-- ==== Proof.RegB1.lean ====
/-
  Region 1 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.Kernel.Launch
import proofs.«130465_j18580028523178_1_alg».proof.Proof.Gen.Kernel.Skeleton
import proofs.«130465_j18580028523178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the windows' blocks, what the body leaves, its triple, the proof data and the body obligation -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_S5000x128 : Rect S5000x128 := Rect.unit (s := S5000x128) ![0, 0] S5000x128.size inb_S5000x128_S5000x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-- The output window's staging buffer after the body, from the input windows' blocks: its one store as a piece. -/
def out1_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r1_S5000x128, k1_pay1 (View.ld x0 r1_S5000x128) (View.ld x1 r1_S128x128) (View.ld x2 r1_S1x128) (View.ld x3 r1_S128x128) (View.ld x4 r1_S1x128)⟩]

/-- The one store tiles the buffer, so it covers it. -/
theorem cover1_5 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The kernel body on whole staging memrefs, the inputs' at contents `xW` and the output's at anything, runs to the
    continuation holding the inputs' as they were and the output's at `out1_5` of the inputs'. -/
theorem sound_kernel1 (c : Dev nD) (E : Set ℕ) (i : grid1.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t` each
    input's buffer at its block and the output's at `out1_5` of the input blocks; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Reg

end
-- ==== Proof.RegB2.lean ====
/-
  Region 2 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.Kernel.Launch
import proofs.«130465_j18580028523178_1_alg».proof.Proof.Gen.Kernel.Skeleton
import proofs.«130465_j18580028523178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2: the windows' blocks, what the body leaves, its triple, the proof data and the body obligation -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_S6400x128 : Rect S6400x128 := Rect.unit (s := S6400x128) ![0, 0] S6400x128.size inb_S6400x128_S6400x128_0_0
abbrev r2_S6400x1 : Rect S6400x1 := Rect.unit (s := S6400x1) ![0, 0] S6400x1.size inb_S6400x1_S6400x1_0_0
abbrev r2_S1x128 : Rect S1x128 := Rect.unit (s := S1x128) ![0, 0] S1x128.size inb_S1x128_S1x128_0_0

/-- The output window's staging buffer after the body, from the input windows' blocks: its one store as a piece. -/
def out2_4 (x0 : Vec F S6400x128 .f32) (x1 : Vec F S6400x1 .f32) (x2 : Vec F S1x128 .f32) (x3 : Vec F S1x128 .f32) : Vec F S6400x128 .f32 :=
  View.canon [⟨r2_S6400x128, k2_pay1 (View.ld x1 r2_S6400x1) (View.ld x2 r2_S1x128) (View.ld x3 r2_S1x128) (View.ld x0 r2_S6400x128)⟩]

/-- The one store tiles the buffer, so it covers it. -/
theorem cover2_4 (p0 : Vec F S6400x128 .f32) (y : S6400x128.Idx) :
    ∃ pc ∈ ([⟨r2_S6400x128, p0⟩] : List (View.Piece (Elt F) S6400x128 .f32)), y ∈ pc.1.set :=
  View.cover_of_tiled [⟨r2_S6400x128, p0⟩] S6400x128.size (by rfl) y

set_option maxHeartbeats 4000000 in
/-- The kernel body on whole staging memrefs, the inputs' at contents `xW` and the output's at anything, runs to the
    continuation holding the inputs' as they were and the output's at `out2_4` of the inputs'. -/
theorem sound_kernel2 (c : Dev nD) (E : Set ℕ) (i : grid2.Coords) (arg1 : Memref sig .tc .vmem S6400x128 .f32) (harg1 : arg1.IsWhole) (arg2 : Memref sig .tc .vmem S6400x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S6400x128 .f32) (harg5 : arg5.IsWhole)
    (x0 : Vec F S6400x128 .f32) (x1 : Vec F S6400x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_msg_kernel i arg1 harg1 arg2 harg2 arg3 harg3 arg4 harg4 arg5 harg5) K := by
  simp only [cc2__edge_msg_kernel_eq_skeleton]; unfold cc2__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each
    input's buffer at its block and the output's at `out2_4` of the input blocks; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.Kernel.Reg

end
-- ==== Proof.RegB3.lean ====
/-
  Region 3 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.Kernel.Launch
import proofs.«130465_j18580028523178_1_alg».proof.Proof.Gen.Kernel.Skeleton
import proofs.«130465_j18580028523178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 3: the windows' blocks, what the body leaves, its triple, the proof data and the body obligation -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_S5000x128 : Rect S5000x128 := Rect.unit (s := S5000x128) ![0, 0] S5000x128.size inb_S5000x128_S5000x128_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-- The output window's staging buffer after the body, from the input windows' blocks: its one store as a piece. -/
def out3_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r3_S5000x128, k3_pay1 (View.ld x0 r3_S5000x128) (View.ld x1 r3_S128x128) (View.ld x2 r3_S1x128) (View.ld x3 r3_S128x128) (View.ld x4 r3_S1x128)⟩]

/-- The one store tiles the buffer, so it covers it. -/
theorem cover3_5 (p0 : Vec F S5000x128 .f32) (y : S5000x128.Idx) :
    ∃ pc ∈ ([⟨r3_S5000x128, p0⟩] : List (View.Piece (Elt F) S5000x128 .f32)), y ∈ pc.1.set :=
  View.cover_of_tiled [⟨r3_S5000x128, p0⟩] S5000x128.size (by rfl) y

set_option maxHeartbeats 4000000 in
/-- The kernel body on whole staging memrefs, the inputs' at contents `xW` and the output's at anything, runs to the
    continuation holding the inputs' as they were and the output's at `out3_5` of the inputs'. -/
theorem sound_kernel3 (c : Dev nD) (E : Set ℕ) (i : grid3.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t` each
    input's buffer at its block and the output's at `out3_5` of the input blocks; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.Kernel.Reg

end
-- ==== Proof.RegB4.lean ====
/-
  Region 4 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.Kernel.Launch
import proofs.«130465_j18580028523178_1_alg».proof.Proof.Gen.Kernel.Skeleton
import proofs.«130465_j18580028523178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: the windows' blocks, what the body leaves, its triple, the proof data and the body obligation -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's current staging buffer holds its block at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's current staging buffer holds its block at every point, fetched there or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's current staging buffer holds its block at every point, fetched there or not. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_S6400x128 : Rect S6400x128 := Rect.unit (s := S6400x128) ![0, 0] S6400x128.size inb_S6400x128_S6400x128_0_0
abbrev r4_S6400x1 : Rect S6400x1 := Rect.unit (s := S6400x1) ![0, 0] S6400x1.size inb_S6400x1_S6400x1_0_0
abbrev r4_S1x128 : Rect S1x128 := Rect.unit (s := S1x128) ![0, 0] S1x128.size inb_S1x128_S1x128_0_0

/-- The output window's staging buffer after the body, from the input windows' blocks: its one store as a piece. -/
def out4_4 (x0 : Vec F S6400x128 .f32) (x1 : Vec F S6400x1 .f32) (x2 : Vec F S1x128 .f32) (x3 : Vec F S1x128 .f32) : Vec F S6400x128 .f32 :=
  View.canon [⟨r4_S6400x128, k4_pay1 (View.ld x1 r4_S6400x1) (View.ld x2 r4_S1x128) (View.ld x3 r4_S1x128) (View.ld x0 r4_S6400x128)⟩]

/-- The one store tiles the buffer, so it covers it. -/
theorem cover4_4 (p0 : Vec F S6400x128 .f32) (y : S6400x128.Idx) :
    ∃ pc ∈ ([⟨r4_S6400x128, p0⟩] : List (View.Piece (Elt F) S6400x128 .f32)), y ∈ pc.1.set :=
  View.cover_of_tiled [⟨r4_S6400x128, p0⟩] S6400x128.size (by rfl) y

set_option maxHeartbeats 4000000 in
/-- The kernel body on whole staging memrefs, the inputs' at contents `xW` and the output's at anything, runs to the
    continuation holding the inputs' as they were and the output's at `out4_4` of the inputs'. -/
theorem sound_kernel4 (c : Dev nD) (E : Set ℕ) (i : grid4.Coords) (arg1 : Memref sig .tc .vmem S6400x128 .f32) (harg1 : arg1.IsWhole) (arg2 : Memref sig .tc .vmem S6400x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S6400x128 .f32) (harg5 : arg5.IsWhole)
    (x0 : Vec F S6400x128 .f32) (x1 : Vec F S6400x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_msg_kernel i arg1 harg1 arg2 harg2 arg3 harg3 arg4 harg4 arg5 harg5) K := by
  simp only [cc4__edge_msg_kernel_eq_skeleton]; unfold cc4__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core `c`: the arrays as the region finds them; after the body at point `t` each
    input's buffer at its block and the output's at `out4_4` of the input blocks; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the kernel's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.Kernel.Reg

end
-- ==== Proof.RegB5.lean ====
/-
  Region 5 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.Kernel.Launch
import proofs.«130465_j18580028523178_1_alg».proof.Proof.Gen.Kernel.Skeleton
import proofs.«130465_j18580028523178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 5: the windows' blocks, what the body leaves, its triple, the proof data and the body obligation -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_S5000x128 : Rect S5000x128 := Rect.unit (s := S5000x128) ![0, 0] S5000x128.size inb_S5000x128_S5000x128_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0

/-- The output window's staging buffer after the body, from the input windows' blocks: its one store as a piece. -/
def out5_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r5_S5000x128, k5_pay1 (View.ld x0 r5_S5000x128) (View.ld x1 r5_S128x128) (View.ld x2 r5_S1x128) (View.ld x3 r5_S128x128) (View.ld x4 r5_S1x128)⟩]

/-- The one store tiles the buffer, so it covers it. -/
theorem cover5_5 (p0 : Vec F S5000x128 .f32) (y : S5000x128.Idx) :
    ∃ pc ∈ ([⟨r5_S5000x128, p0⟩] : List (View.Piece (Elt F) S5000x128 .f32)), y ∈ pc.1.set :=
  View.cover_of_tiled [⟨r5_S5000x128, p0⟩] S5000x128.size (by rfl) y

set_option maxHeartbeats 4000000 in
/-- The kernel body on whole staging memrefs, the inputs' at contents `xW` and the output's at anything, runs to the
    continuation holding the inputs' as they were and the output's at `out5_5` of the inputs'. -/
theorem sound_kernel5 (c : Dev nD) (E : Set ℕ) (i : grid5.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t` each
    input's buffer at its block and the output's at `out5_5` of the input blocks; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the kernel's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.Kernel.Reg

end
-- ==== Proof.RegB6.lean ====
/-
  Region 6 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.Kernel.Launch
import proofs.«130465_j18580028523178_1_alg».proof.Proof.Gen.Kernel.Skeleton
import proofs.«130465_j18580028523178_1_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 6: the windows' blocks, what the body leaves, its triple, the proof data and the body obligation -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's current staging buffer holds its block at every point, fetched there or not. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's current staging buffer holds its block at every point, fetched there or not. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_S5000x512 : Rect S5000x512 := Rect.unit (s := S5000x512) ![0, 0] S5000x512.size inb_S5000x512_S5000x512_0_0
abbrev r6_S512x128 : Rect S512x128 := Rect.unit (s := S512x128) ![0, 0] S512x128.size inb_S512x128_S512x128_0_0
abbrev r6_S1x128 : Rect S1x128 := Rect.unit (s := S1x128) ![0, 0] S1x128.size inb_S1x128_S1x128_0_0
abbrev r6_S5000x128 : Rect S5000x128 := Rect.unit (s := S5000x128) ![0, 0] S5000x128.size inb_S5000x128_S5000x128_0_0

/-- The output window's staging buffer after the body, from the input windows' blocks: its one store as a piece. -/
def out6_3 (x0 : Vec F S5000x512 .bf16) (x1 : Vec F S512x128 .bf16) (x2 : Vec F S1x128 .f32) : Vec F S5000x128 .f32 :=
  View.canon [⟨r6_S5000x128, k6_pay1 (View.ld x0 r6_S5000x512) (View.ld x1 r6_S512x128) (View.ld x2 r6_S1x128)⟩]

/-- The one store tiles the buffer, so it covers it. -/
theorem cover6_3 (p0 : Vec F S5000x128 .f32) (y : S5000x128.Idx) :
    ∃ pc ∈ ([⟨r6_S5000x128, p0⟩] : List (View.Piece (Elt F) S5000x128 .f32)), y ∈ pc.1.set :=
  View.cover_of_tiled [⟨r6_S5000x128, p0⟩] S5000x128.size (by rfl) y

set_option maxHeartbeats 4000000 in
/-- The kernel body on whole staging memrefs, the inputs' at contents `xW` and the output's at anything, runs to the
    continuation holding the inputs' as they were and the output's at `out6_3` of the inputs'. -/
theorem sound_kernel6 (c : Dev nD) (E : Set ℕ) (i : grid6.Coords) (arg1 : Memref sig .tc .vmem S5000x512 .bf16) (harg1 : arg1.IsWhole) (arg2 : Memref sig .tc .vmem S512x128 .bf16) (harg2 : arg2.IsWhole) (arg3 : Memref sig .tc .vmem S1x128 .f32) (harg3 : arg3.IsWhole) (arg4 : Memref sig .tc .vmem S5000x128 .f32) (harg4 : arg4.IsWhole)
    (x0 : Vec F S5000x512 .bf16) (x1 : Vec F S512x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__final_kernel i arg1 harg1 arg2 harg2 arg3 harg3 arg4 harg4) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the kernel's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.Kernel.Reg

end
-- ==== Proof.RunB.lean ====
/-
  The run of the host program through its seven kernel regions. Between two items of the program every unscoped buffer
  of a core is held at a known valuation: the launch memory, then each host stretch's operations folded over it, then,
  after a region, the region's output array replaced by what the region's write-backs leave (the fold of the flushed
  blocks over the array as entered). Each region is entered from that state and left at the next one; the arrays
  its windows look at are split out of the unscoped buffers at entry and put back at exit. The whole run then ends with
  every unscoped buffer at the last valuation, from which the result and the unchanged arguments are read.
-/
import proofs.«130465_j18580028523178_1_alg».proof.Proof.RegB0
import proofs.«130465_j18580028523178_1_alg».proof.Proof.RegB1
import proofs.«130465_j18580028523178_1_alg».proof.Proof.RegB2
import proofs.«130465_j18580028523178_1_alg».proof.Proof.RegB3
import proofs.«130465_j18580028523178_1_alg».proof.Proof.RegB4
import proofs.«130465_j18580028523178_1_alg».proof.Proof.RegB5
import proofs.«130465_j18580028523178_1_alg».proof.Proof.RegB6
import proofs.«130465_j18580028523178_1_alg».proof.Proof.Gen.Kernel.Regions

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A valuation read at the TensorCore's references. -/
abbrev tcv (W : Dev nD → Valuation τ sig (Elt F)) : (c : Dev nD) → (b : Ref sig .tc) → Buf (Elt F) ((c : Thread nD τ).loc b) :=
  fun c b => W c b

/-! ## The buffers' contents at each boundary -/

/-- After the first host stretch. -/
def U1 (c : Dev nD) : Valuation τ sig (Elt F) := Gen.V1 m c
set_option backward.isDefEq.respectTransparency.types false in
/-- After region 0: its output array at what the write-backs leave, every other buffer as entered. -/
def U2 (c : Dev nD) : Valuation τ sig (Elt F) :=
  Function.update (U1 m c) main_v21 ((dat0 (tcv (U1 m)) c).arrAt 4 cfg0.N)
theorem U2_of_ne (c : Dev nD) (b : Ref sig .tc) (h : b ≠ main_v21) : U2 m c b = U1 m c b := by
  unfold U2
  exact Function.update_of_ne (StableHlo.devRef_ne_of_ne h : (Proc.devRef .tc b : DevRef τ sig) ≠ Proc.devRef .tc main_v21) _ _
theorem U2_out (c : Dev nD) : U2 m c main_v21 = (dat0 (tcv (U1 m)) c).arrAt 4 cfg0.N := by
  unfold U2; exact Function.update_self _ _ _
/-- After the host stretch that follows region 0. -/
def U3 (c : Dev nD) : Valuation τ sig (Elt F) := StableHlo.after hostOps1 (U2 m c)
set_option backward.isDefEq.respectTransparency.types false in
/-- After region 1: its output array at what the write-backs leave, every other buffer as entered. -/
def U4 (c : Dev nD) : Valuation τ sig (Elt F) :=
  Function.update (U3 m c) main_v46 ((dat1 (tcv (U3 m)) c).arrAt 5 cfg1.N)
theorem U4_of_ne (c : Dev nD) (b : Ref sig .tc) (h : b ≠ main_v46) : U4 m c b = U3 m c b := by
  unfold U4
  exact Function.update_of_ne (StableHlo.devRef_ne_of_ne h : (Proc.devRef .tc b : DevRef τ sig) ≠ Proc.devRef .tc main_v46) _ _
theorem U4_out (c : Dev nD) : U4 m c main_v46 = (dat1 (tcv (U3 m)) c).arrAt 5 cfg1.N := by
  unfold U4; exact Function.update_self _ _ _
/-- After the host stretch that follows region 1. -/
def U5 (c : Dev nD) : Valuation τ sig (Elt F) := StableHlo.after hostOps2 (U4 m c)
set_option backward.isDefEq.respectTransparency.types false in
/-- After region 2: its output array at what the write-backs leave, every other buffer as entered. -/
def U6 (c : Dev nD) : Valuation τ sig (Elt F) :=
  Function.update (U5 m c) main_v59 ((dat2 (tcv (U5 m)) c).arrAt 4 cfg2.N)
theorem U6_of_ne (c : Dev nD) (b : Ref sig .tc) (h : b ≠ main_v59) : U6 m c b = U5 m c b := by
  unfold U6
  exact Function.update_of_ne (StableHlo.devRef_ne_of_ne h : (Proc.devRef .tc b : DevRef τ sig) ≠ Proc.devRef .tc main_v59) _ _
theorem U6_out (c : Dev nD) : U6 m c main_v59 = (dat2 (tcv (U5 m)) c).arrAt 4 cfg2.N := by
  unfold U6; exact Function.update_self _ _ _
/-- After the host stretch that follows region 2. -/
def U7 (c : Dev nD) : Valuation τ sig (Elt F) := StableHlo.after hostOps3 (U6 m c)
set_option backward.isDefEq.respectTransparency.types false in
/-- After region 3: its output array at what the write-backs leave, every other buffer as entered. -/
def U8 (c : Dev nD) : Valuation τ sig (Elt F) :=
  Function.update (U7 m c) main_v84 ((dat3 (tcv (U7 m)) c).arrAt 5 cfg3.N)
theorem U8_of_ne (c : Dev nD) (b : Ref sig .tc) (h : b ≠ main_v84) : U8 m c b = U7 m c b := by
  unfold U8
  exact Function.update_of_ne (StableHlo.devRef_ne_of_ne h : (Proc.devRef .tc b : DevRef τ sig) ≠ Proc.devRef .tc main_v84) _ _
theorem U8_out (c : Dev nD) : U8 m c main_v84 = (dat3 (tcv (U7 m)) c).arrAt 5 cfg3.N := by
  unfold U8; exact Function.update_self _ _ _
/-- After the host stretch that follows region 3. -/
def U9 (c : Dev nD) : Valuation τ sig (Elt F) := StableHlo.after hostOps4 (U8 m c)
set_option backward.isDefEq.respectTransparency.types false in
/-- After region 4: its output array at what the write-backs leave, every other buffer as entered. -/
def U10 (c : Dev nD) : Valuation τ sig (Elt F) :=
  Function.update (U9 m c) main_v97 ((dat4 (tcv (U9 m)) c).arrAt 4 cfg4.N)
theorem U10_of_ne (c : Dev nD) (b : Ref sig .tc) (h : b ≠ main_v97) : U10 m c b = U9 m c b := by
  unfold U10
  exact Function.update_of_ne (StableHlo.devRef_ne_of_ne h : (Proc.devRef .tc b : DevRef τ sig) ≠ Proc.devRef .tc main_v97) _ _
theorem U10_out (c : Dev nD) : U10 m c main_v97 = (dat4 (tcv (U9 m)) c).arrAt 4 cfg4.N := by
  unfold U10; exact Function.update_self _ _ _
/-- After the host stretch that follows region 4. -/
def U11 (c : Dev nD) : Valuation τ sig (Elt F) := StableHlo.after hostOps5 (U10 m c)
set_option backward.isDefEq.respectTransparency.types false in
/-- After region 5: its output array at what the write-backs leave, every other buffer as entered. -/
def U12 (c : Dev nD) : Valuation τ sig (Elt F) :=
  Function.update (U11 m c) main_v122 ((dat5 (tcv (U11 m)) c).arrAt 5 cfg5.N)
theorem U12_of_ne (c : Dev nD) (b : Ref sig .tc) (h : b ≠ main_v122) : U12 m c b = U11 m c b := by
  unfold U12
  exact Function.update_of_ne (StableHlo.devRef_ne_of_ne h : (Proc.devRef .tc b : DevRef τ sig) ≠ Proc.devRef .tc main_v122) _ _
theorem U12_out (c : Dev nD) : U12 m c main_v122 = (dat5 (tcv (U11 m)) c).arrAt 5 cfg5.N := by
  unfold U12; exact Function.update_self _ _ _
/-- After the host stretch that follows region 5. -/
def U13 (c : Dev nD) : Valuation τ sig (Elt F) := StableHlo.after hostOps6 (U12 m c)
set_option backward.isDefEq.respectTransparency.types false in
/-- After region 6: its output array at what the write-backs leave, every other buffer as entered. -/
def U14 (c : Dev nD) : Valuation τ sig (Elt F) :=
  Function.update (U13 m c) main_v127 ((dat6 (tcv (U13 m)) c).arrAt 3 cfg6.N)
theorem U14_of_ne (c : Dev nD) (b : Ref sig .tc) (h : b ≠ main_v127) : U14 m c b = U13 m c b := by
  unfold U14
  exact Function.update_of_ne (StableHlo.devRef_ne_of_ne h : (Proc.devRef .tc b : DevRef τ sig) ≠ Proc.devRef .tc main_v127) _ _
theorem U14_out (c : Dev nD) : U14 m c main_v127 = (dat6 (tcv (U13 m)) c).arrAt 3 cfg6.N := by
  unfold U14; exact Function.update_self _ _ _

/-- What the regions leave, as the conditional frame's unknowns: each boundary's valuation read at the reference. -/
def outsU : Gen.Outs (F := F) := fun J r c => match J with
  | 2 => U2 m c r | 4 => U4 m c r | 6 => U6 m c r | 8 => U8 m c r | 10 => U10 m c r | 12 => U12 m c r | 14 => U14 m c r
  | _ => Gen.V0 m c r

theorem VU1 (c : Dev nD) : Gen.V1 m c = U1 m c := by unfold U1; rfl
theorem VU2 (c : Dev nD) : Gen.V2 m (outsU m) c = U2 m c := by
  show Function.update (Gen.V1 m c) main_v21 (U2 m c main_v21) = U2 m c
  rw [VU1 m c, U2_out]; rfl
theorem VU3 (c : Dev nD) : Gen.V3 m (outsU m) c = U3 m c := by
  show StableHlo.after hostOps1 (Gen.V2 m (outsU m) c) = U3 m c
  rw [VU2 m c]; rfl
theorem VU4 (c : Dev nD) : Gen.V4 m (outsU m) c = U4 m c := by
  show Function.update (Gen.V3 m (outsU m) c) main_v46 (U4 m c main_v46) = U4 m c
  rw [VU3 m c, U4_out]; rfl
theorem VU5 (c : Dev nD) : Gen.V5 m (outsU m) c = U5 m c := by
  show StableHlo.after hostOps2 (Gen.V4 m (outsU m) c) = U5 m c
  rw [VU4 m c]; rfl
theorem VU6 (c : Dev nD) : Gen.V6 m (outsU m) c = U6 m c := by
  show Function.update (Gen.V5 m (outsU m) c) main_v59 (U6 m c main_v59) = U6 m c
  rw [VU5 m c, U6_out]; rfl
theorem VU7 (c : Dev nD) : Gen.V7 m (outsU m) c = U7 m c := by
  show StableHlo.after hostOps3 (Gen.V6 m (outsU m) c) = U7 m c
  rw [VU6 m c]; rfl
theorem VU8 (c : Dev nD) : Gen.V8 m (outsU m) c = U8 m c := by
  show Function.update (Gen.V7 m (outsU m) c) main_v84 (U8 m c main_v84) = U8 m c
  rw [VU7 m c, U8_out]; rfl
theorem VU9 (c : Dev nD) : Gen.V9 m (outsU m) c = U9 m c := by
  show StableHlo.after hostOps4 (Gen.V8 m (outsU m) c) = U9 m c
  rw [VU8 m c]; rfl
theorem VU10 (c : Dev nD) : Gen.V10 m (outsU m) c = U10 m c := by
  show Function.update (Gen.V9 m (outsU m) c) main_v97 (U10 m c main_v97) = U10 m c
  rw [VU9 m c, U10_out]; rfl
theorem VU11 (c : Dev nD) : Gen.V11 m (outsU m) c = U11 m c := by
  show StableHlo.after hostOps5 (Gen.V10 m (outsU m) c) = U11 m c
  rw [VU10 m c]; rfl
theorem VU12 (c : Dev nD) : Gen.V12 m (outsU m) c = U12 m c := by
  show Function.update (Gen.V11 m (outsU m) c) main_v122 (U12 m c main_v122) = U12 m c
  rw [VU11 m c, U12_out]; rfl
theorem VU13 (c : Dev nD) : Gen.V13 m (outsU m) c = U13 m c := by
  show StableHlo.after hostOps6 (Gen.V12 m (outsU m) c) = U13 m c
  rw [VU12 m c]; rfl
theorem VU14 (c : Dev nD) : Gen.V14 m (outsU m) c = U14 m c := by
  show Function.update (Gen.V13 m (outsU m) c) main_v127 (U14 m c main_v127) = U14 m c
  rw [VU13 m c, U14_out]; rfl

/-! ## At a region's exit each of its arrays holds what the pipeline leaves, every other buffer what it held at entry -/
set_option maxHeartbeats 4000000 in
theorem hF0 (c : Dev nD) : ∀ w : Fin cfg0.W, (dat0 (tcv (U1 m)) c).arrAt w cfg0.N = tcv (U2 m) c (Pipeline.arrRef spec0 w)
  | ⟨0, _⟩ => ((dat0 (tcv (U1 m)) c).arrAt_in 0 rfl _).trans ((A_eq0 (tcv (U1 m)) c 0).trans (U2_of_ne m c _ (by decide)).symm)
  | ⟨1, _⟩ => ((dat0 (tcv (U1 m)) c).arrAt_in 1 rfl _).trans ((A_eq0 (tcv (U1 m)) c 1).trans (U2_of_ne m c _ (by decide)).symm)
  | ⟨2, _⟩ => ((dat0 (tcv (U1 m)) c).arrAt_in 2 rfl _).trans ((A_eq0 (tcv (U1 m)) c 2).trans (U2_of_ne m c _ (by decide)).symm)
  | ⟨3, _⟩ => ((dat0 (tcv (U1 m)) c).arrAt_in 3 rfl _).trans ((A_eq0 (tcv (U1 m)) c 3).trans (U2_of_ne m c _ (by decide)).symm)
  | ⟨4, _⟩ => (U2_out m c).symm
theorem hrest0 (c : Dev nD) : ∀ b, b ∉ Finset.univ.image (Pipeline.arrRef spec0) → tcv (U2 m) c b = tcv (U1 m) c b :=
  fun b hb => U2_of_ne m c b fun e => hb (Finset.mem_image.mpr ⟨4, Finset.mem_univ _, (by decide : Pipeline.arrRef spec0 4 = main_v21).trans e.symm⟩)
set_option maxHeartbeats 4000000 in
theorem hF1 (c : Dev nD) : ∀ w : Fin cfg1.W, (dat1 (tcv (U3 m)) c).arrAt w cfg1.N = tcv (U4 m) c (Pipeline.arrRef spec1 w)
  | ⟨0, _⟩ => ((dat1 (tcv (U3 m)) c).arrAt_in 0 rfl _).trans ((A_eq1 (tcv (U3 m)) c 0).trans (U4_of_ne m c _ (by decide)).symm)
  | ⟨1, _⟩ => ((dat1 (tcv (U3 m)) c).arrAt_in 1 rfl _).trans ((A_eq1 (tcv (U3 m)) c 1).trans (U4_of_ne m c _ (by decide)).symm)
  | ⟨2, _⟩ => ((dat1 (tcv (U3 m)) c).arrAt_in 2 rfl _).trans ((A_eq1 (tcv (U3 m)) c 2).trans (U4_of_ne m c _ (by decide)).symm)
  | ⟨3, _⟩ => ((dat1 (tcv (U3 m)) c).arrAt_in 3 rfl _).trans ((A_eq1 (tcv (U3 m)) c 3).trans (U4_of_ne m c _ (by decide)).symm)
  | ⟨4, _⟩ => ((dat1 (tcv (U3 m)) c).arrAt_in 4 rfl _).trans ((A_eq1 (tcv (U3 m)) c 4).trans (U4_of_ne m c _ (by decide)).symm)
  | ⟨5, _⟩ => (U4_out m c).symm
theorem hrest1 (c : Dev nD) : ∀ b, b ∉ Finset.univ.image (Pipeline.arrRef spec1) → tcv (U4 m) c b = tcv (U3 m) c b :=
  fun b hb => U4_of_ne m c b fun e => hb (Finset.mem_image.mpr ⟨5, Finset.mem_univ _, (by decide : Pipeline.arrRef spec1 5 = main_v46).trans e.symm⟩)
set_option maxHeartbeats 4000000 in
theorem hF2 (c : Dev nD) : ∀ w : Fin cfg2.W, (dat2 (tcv (U5 m)) c).arrAt w cfg2.N = tcv (U6 m) c (Pipeline.arrRef spec2 w)
  | ⟨0, _⟩ => ((dat2 (tcv (U5 m)) c).arrAt_in 0 rfl _).trans ((A_eq2 (tcv (U5 m)) c 0).trans (U6_of_ne m c _ (by decide)).symm)
  | ⟨1, _⟩ => ((dat2 (tcv (U5 m)) c).arrAt_in 1 rfl _).trans ((A_eq2 (tcv (U5 m)) c 1).trans (U6_of_ne m c _ (by decide)).symm)
  | ⟨2, _⟩ => ((dat2 (tcv (U5 m)) c).arrAt_in 2 rfl _).trans ((A_eq2 (tcv (U5 m)) c 2).trans (U6_of_ne m c _ (by decide)).symm)
  | ⟨3, _⟩ => ((dat2 (tcv (U5 m)) c).arrAt_in 3 rfl _).trans ((A_eq2 (tcv (U5 m)) c 3).trans (U6_of_ne m c _ (by decide)).symm)
  | ⟨4, _⟩ => (U6_out m c).symm
theorem hrest2 (c : Dev nD) : ∀ b, b ∉ Finset.univ.image (Pipeline.arrRef spec2) → tcv (U6 m) c b = tcv (U5 m) c b :=
  fun b hb => U6_of_ne m c b fun e => hb (Finset.mem_image.mpr ⟨4, Finset.mem_univ _, (by decide : Pipeline.arrRef spec2 4 = main_v59).trans e.symm⟩)
set_option maxHeartbeats 4000000 in
theorem hF3 (c : Dev nD) : ∀ w : Fin cfg3.W, (dat3 (tcv (U7 m)) c).arrAt w cfg3.N = tcv (U8 m) c (Pipeline.arrRef spec3 w)
  | ⟨0, _⟩ => ((dat3 (tcv (U7 m)) c).arrAt_in 0 rfl _).trans ((A_eq3 (tcv (U7 m)) c 0).trans (U8_of_ne m c _ (by decide)).symm)
  | ⟨1, _⟩ => ((dat3 (tcv (U7 m)) c).arrAt_in 1 rfl _).trans ((A_eq3 (tcv (U7 m)) c 1).trans (U8_of_ne m c _ (by decide)).symm)
  | ⟨2, _⟩ => ((dat3 (tcv (U7 m)) c).arrAt_in 2 rfl _).trans ((A_eq3 (tcv (U7 m)) c 2).trans (U8_of_ne m c _ (by decide)).symm)
  | ⟨3, _⟩ => ((dat3 (tcv (U7 m)) c).arrAt_in 3 rfl _).trans ((A_eq3 (tcv (U7 m)) c 3).trans (U8_of_ne m c _ (by decide)).symm)
  | ⟨4, _⟩ => ((dat3 (tcv (U7 m)) c).arrAt_in 4 rfl _).trans ((A_eq3 (tcv (U7 m)) c 4).trans (U8_of_ne m c _ (by decide)).symm)
  | ⟨5, _⟩ => (U8_out m c).symm
theorem hrest3 (c : Dev nD) : ∀ b, b ∉ Finset.univ.image (Pipeline.arrRef spec3) → tcv (U8 m) c b = tcv (U7 m) c b :=
  fun b hb => U8_of_ne m c b fun e => hb (Finset.mem_image.mpr ⟨5, Finset.mem_univ _, (by decide : Pipeline.arrRef spec3 5 = main_v84).trans e.symm⟩)
set_option maxHeartbeats 4000000 in
theorem hF4 (c : Dev nD) : ∀ w : Fin cfg4.W, (dat4 (tcv (U9 m)) c).arrAt w cfg4.N = tcv (U10 m) c (Pipeline.arrRef spec4 w)
  | ⟨0, _⟩ => ((dat4 (tcv (U9 m)) c).arrAt_in 0 rfl _).trans ((A_eq4 (tcv (U9 m)) c 0).trans (U10_of_ne m c _ (by decide)).symm)
  | ⟨1, _⟩ => ((dat4 (tcv (U9 m)) c).arrAt_in 1 rfl _).trans ((A_eq4 (tcv (U9 m)) c 1).trans (U10_of_ne m c _ (by decide)).symm)
  | ⟨2, _⟩ => ((dat4 (tcv (U9 m)) c).arrAt_in 2 rfl _).trans ((A_eq4 (tcv (U9 m)) c 2).trans (U10_of_ne m c _ (by decide)).symm)
  | ⟨3, _⟩ => ((dat4 (tcv (U9 m)) c).arrAt_in 3 rfl _).trans ((A_eq4 (tcv (U9 m)) c 3).trans (U10_of_ne m c _ (by decide)).symm)
  | ⟨4, _⟩ => (U10_out m c).symm
theorem hrest4 (c : Dev nD) : ∀ b, b ∉ Finset.univ.image (Pipeline.arrRef spec4) → tcv (U10 m) c b = tcv (U9 m) c b :=
  fun b hb => U10_of_ne m c b fun e => hb (Finset.mem_image.mpr ⟨4, Finset.mem_univ _, (by decide : Pipeline.arrRef spec4 4 = main_v97).trans e.symm⟩)
set_option maxHeartbeats 4000000 in
theorem hF5 (c : Dev nD) : ∀ w : Fin cfg5.W, (dat5 (tcv (U11 m)) c).arrAt w cfg5.N = tcv (U12 m) c (Pipeline.arrRef spec5 w)
  | ⟨0, _⟩ => ((dat5 (tcv (U11 m)) c).arrAt_in 0 rfl _).trans ((A_eq5 (tcv (U11 m)) c 0).trans (U12_of_ne m c _ (by decide)).symm)
  | ⟨1, _⟩ => ((dat5 (tcv (U11 m)) c).arrAt_in 1 rfl _).trans ((A_eq5 (tcv (U11 m)) c 1).trans (U12_of_ne m c _ (by decide)).symm)
  | ⟨2, _⟩ => ((dat5 (tcv (U11 m)) c).arrAt_in 2 rfl _).trans ((A_eq5 (tcv (U11 m)) c 2).trans (U12_of_ne m c _ (by decide)).symm)
  | ⟨3, _⟩ => ((dat5 (tcv (U11 m)) c).arrAt_in 3 rfl _).trans ((A_eq5 (tcv (U11 m)) c 3).trans (U12_of_ne m c _ (by decide)).symm)
  | ⟨4, _⟩ => ((dat5 (tcv (U11 m)) c).arrAt_in 4 rfl _).trans ((A_eq5 (tcv (U11 m)) c 4).trans (U12_of_ne m c _ (by decide)).symm)
  | ⟨5, _⟩ => (U12_out m c).symm
theorem hrest5 (c : Dev nD) : ∀ b, b ∉ Finset.univ.image (Pipeline.arrRef spec5) → tcv (U12 m) c b = tcv (U11 m) c b :=
  fun b hb => U12_of_ne m c b fun e => hb (Finset.mem_image.mpr ⟨5, Finset.mem_univ _, (by decide : Pipeline.arrRef spec5 5 = main_v122).trans e.symm⟩)
set_option maxHeartbeats 4000000 in
theorem hF6 (c : Dev nD) : ∀ w : Fin cfg6.W, (dat6 (tcv (U13 m)) c).arrAt w cfg6.N = tcv (U14 m) c (Pipeline.arrRef spec6 w)
  | ⟨0, _⟩ => ((dat6 (tcv (U13 m)) c).arrAt_in 0 rfl _).trans ((A_eq6 (tcv (U13 m)) c 0).trans (U14_of_ne m c _ (by decide)).symm)
  | ⟨1, _⟩ => ((dat6 (tcv (U13 m)) c).arrAt_in 1 rfl _).trans ((A_eq6 (tcv (U13 m)) c 1).trans (U14_of_ne m c _ (by decide)).symm)
  | ⟨2, _⟩ => ((dat6 (tcv (U13 m)) c).arrAt_in 2 rfl _).trans ((A_eq6 (tcv (U13 m)) c 2).trans (U14_of_ne m c _ (by decide)).symm)
  | ⟨3, _⟩ => (U14_out m c).symm
theorem hrest6 (c : Dev nD) : ∀ b, b ∉ Finset.univ.image (Pipeline.arrRef spec6) → tcv (U14 m) c b = tcv (U13 m) c b :=
  fun b hb => U14_of_ne m c b fun e => hb (Finset.mem_image.mpr ⟨3, Finset.mem_univ _, (by decide : Pipeline.arrRef spec6 3 = main_v127).trans e.symm⟩)

/-! ## The proof data family and the thread state -/

/-- Every pipeline's proof data, each at its region's entry contents. -/
def pdats : (p : Fin 7) → (c : Dev nD) → Dat τ (Elt F) Unit ℕ (Pipeline.UD sig nD τ) ℕ (cfgs p) c
  | ⟨0, _⟩ => fun c => dat0 (tcv (U1 m)) c
  | ⟨1, _⟩ => fun c => dat1 (tcv (U3 m)) c
  | ⟨2, _⟩ => fun c => dat2 (tcv (U5 m)) c
  | ⟨3, _⟩ => fun c => dat3 (tcv (U7 m)) c
  | ⟨4, _⟩ => fun c => dat4 (tcv (U9 m)) c
  | ⟨5, _⟩ => fun c => dat5 (tcv (U11 m)) c
  | ⟨6, _⟩ => fun c => dat6 (tcv (U13 m)) c
abbrev 𝒱₀ : Variants := Variants.none
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the boundary before it, left at the next. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (tcv (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tcv (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (tcv (U1 m) c) (tcv (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the next. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (tcv (U3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tcv (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (tcv (U3 m) c) (tcv (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the next. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (tcv (U5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tcv (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (tcv (U5 m) c) (tcv (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the next. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (tcv (U7 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tcv (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (tcv (U7 m) c) (tcv (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the next. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tcv (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (tcv (U9 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tcv (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (tcv (U9 m) c) (tcv (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the boundary before it, left at the next. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tcv (U11 m)) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (tcv (U11 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (tcv (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := Pipeline.UD sig nD τ) (Lvl := ℕ)
      launch5.win launch5.arr_whole c (pdats m) ((pdats m 5 c).share_full fun _ => rfl)
      (tcv (U11 m) c) (tcv (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the boundary before it, left at the next. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (U13 m)) c).loose
  hwaits := Pipeline.hwaits_of_owed_zero _ _ _ _ L lv 6 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (tcv (U13 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (tcv (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := Pipeline.UD sig nD τ) (Lvl := ℕ)
      launch6.win launch6.arr_whole c (pdats m) ((pdats m 6 c).share_full fun _ => rfl)
      (tcv (U13 m) c) (tcv (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.Kernel.Reg

end
-- ==== Proof.FrameB.lean ====
/-
  The whole run of the host program: from any launch memory with zero counters every weakly fair execution
  terminates, faults nowhere, and ends with every unscoped buffer of every core at the last boundary's valuation.
  The run is the chain of the host stretches (each a fold of its operations over the buffers) and the seven kernel
  regions (each entered from the boundary before it and left at the one after it). Read at the arguments, the last
  valuation is the launch memory: no host operation and no region writes an argument.
-/
import proofs.«130465_j18580028523178_1_alg».proof.Proof.RunB

set_option maxRecDepth 16384

noncomputable section

namespace Cert.Kernel.Reg

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The rest that rides along between items: the same at every boundary. -/
abbrev E : Fin 8 → Dev nD → sProp 𝕄 := fun _ c => R c

set_option backward.isDefEq.respectTransparency.types false in
/-- Every weakly fair execution terminates with every unscoped buffer at the last valuation. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = U14 m c b) := by
  refine Pipeline.θ_run_regions_kit_dev (pcfgs (F := F)) Gen.adm (pdats m) () cellOf_inj embL defs₀ 𝒱₀ L lv m ρ main
    (Gen.segs m (outsU m) 𝒱₀ L lv E () (pdats m) (reg0 m) (reg1 m) (reg2 m) (reg3 m) (reg4 m) (reg5 m) (reg6 m))
    (fun c Q => by
      rewrite [main_chain c, Seg.run_eq_chain,
        show (Gen.segs m (outsU m) 𝒱₀ L lv E () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [Gen.segs, Seg.pipes_host, Seg.pipes_region, Seg.pipes_nil]; decide) (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (U14 m c))
    (hch := fun c => ⟨.rfl,
      (show iprop(StableHlo.held (c : Thread nD τ) (Pipeline.ucRefs τ sig) (Gen.V1 m c) ∗ E (F := F) 0 c) ⊢ (reg0 m).pre c from Entails.of_eq (by rw [VU1 m c]; first | done | rfl)),
      (show (reg0 m).post c ⊢ iprop(StableHlo.held (c : Thread nD τ) (Pipeline.ucRefs τ sig) (Gen.V2 m (outsU m) c) ∗ E (F := F) 1 c) from Entails.of_eq (by rw [VU2 m c]; first | done | rfl)),
      (show iprop(StableHlo.held (c : Thread nD τ) (Pipeline.ucRefs τ sig) (Gen.V3 m (outsU m) c) ∗ E (F := F) 1 c) ⊢ (reg1 m).pre c from Entails.of_eq (by rw [VU3 m c]; first | done | rfl)),
      (show (reg1 m).post c ⊢ iprop(StableHlo.held (c : Thread nD τ) (Pipeline.ucRefs τ sig) (Gen.V4 m (outsU m) c) ∗ E (F := F) 2 c) from Entails.of_eq (by rw [VU4 m c]; first | done | rfl)),
      (show iprop(StableHlo.held (c : Thread nD τ) (Pipeline.ucRefs τ sig) (Gen.V5 m (outsU m) c) ∗ E (F := F) 2 c) ⊢ (reg2 m).pre c from Entails.of_eq (by rw [VU5 m c]; first | done | rfl)),
      (show (reg2 m).post c ⊢ iprop(StableHlo.held (c : Thread nD τ) (Pipeline.ucRefs τ sig) (Gen.V6 m (outsU m) c) ∗ E (F := F) 3 c) from Entails.of_eq (by rw [VU6 m c]; first | done | rfl)),
      (show iprop(StableHlo.held (c : Thread nD τ) (Pipeline.ucRefs τ sig) (Gen.V7 m (outsU m) c) ∗ E (F := F) 3 c) ⊢ (reg3 m).pre c from Entails.of_eq (by rw [VU7 m c]; first | done | rfl)),
      (show (reg3 m).post c ⊢ iprop(StableHlo.held (c : Thread nD τ) (Pipeline.ucRefs τ sig) (Gen.V8 m (outsU m) c) ∗ E (F := F) 4 c) from Entails.of_eq (by rw [VU8 m c]; first | done | rfl)),
      (show iprop(StableHlo.held (c : Thread nD τ) (Pipeline.ucRefs τ sig) (Gen.V9 m (outsU m) c) ∗ E (F := F) 4 c) ⊢ (reg4 m).pre c from Entails.of_eq (by rw [VU9 m c]; first | done | rfl)),
      (show (reg4 m).post c ⊢ iprop(StableHlo.held (c : Thread nD τ) (Pipeline.ucRefs τ sig) (Gen.V10 m (outsU m) c) ∗ E (F := F) 5 c) from Entails.of_eq (by rw [VU10 m c]; first | done | rfl)),
      (show iprop(StableHlo.held (c : Thread nD τ) (Pipeline.ucRefs τ sig) (Gen.V11 m (outsU m) c) ∗ E (F := F) 5 c) ⊢ (reg5 m).pre c from Entails.of_eq (by rw [VU11 m c]; first | done | rfl)),
      (show (reg5 m).post c ⊢ iprop(StableHlo.held (c : Thread nD τ) (Pipeline.ucRefs τ sig) (Gen.V12 m (outsU m) c) ∗ E (F := F) 6 c) from Entails.of_eq (by rw [VU12 m c]; first | done | rfl)),
      (show iprop(StableHlo.held (c : Thread nD τ) (Pipeline.ucRefs τ sig) (Gen.V13 m (outsU m) c) ∗ E (F := F) 6 c) ⊢ (reg6 m).pre c from Entails.of_eq (by rw [VU13 m c]; first | done | rfl)),
      ?_⟩)
    (hinit := ?_) (QY := fun c s => ∀ b ∈ Pipeline.ucRefs τ sig, s.mem (((c : Thread nD τ)).1, b) = U14 m c b)
    (hfin := fun c s' => ?_) (hQ := fun _ h => h)
  · -- the last region's exit: the rest ends owing nothing
    show iprop(StableHlo.held (c : Thread nD τ) (Pipeline.ucRefs τ sig) (U14 m c) ∗ R c) ⊢ iprop(StableHlo.held (c : Thread nD τ) (Pipeline.ucRefs τ sig) (U14 m c) ∗ ∃ W, owes (c : Thread nD τ) (0 : CellTallies nD τ sig Unit) W)
    iintro ⟨Hh, -, HO⟩
    isplitl [Hh]; · iexact Hh
    iexact HO
  · -- the launch: the unscoped buffers held at the launch memory; the register and the dues make the rest on every core
    have hc : ∀ c : Dev nD, (iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)) : sProp 𝕄)
        ⊢ iprop(StableHlo.held (c : Thread nD τ) (Pipeline.ucRefs τ sig) (Gen.V0 m c) ∗ E (F := F) 0 c) := fun c => by
      rw [← Pipeline.unscopedBufs_held (Ix := Unit) (Name := ℕ) (U := Pipeline.UD sig nD τ) (Lvl := ℕ) c (Gen.V0 m c)]
      iintro ⟨Hh, -, HO, -, Hp, -⟩
      isplitl [Hh]; · iexact Hh
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (Gen.V0 m c) ∗ E (F := F) 0 c) : sProp 𝕄) :=
      bigSep_mono fun c _ => hc c
    iintro ⟨H, -⟩
    ihave H' := hsplit $$ H
    imodintro
    iexact H'
  · -- the end: every unscoped buffer read off the last valuation
    unfold StableHlo.held
    iintro ⟨Hh, HSI⟩
    ihave Hr := (pointsTo_read_all (Pipeline.ucRefs τ sig) (fun b => ((c : Thread nD τ).1, b)) (U14 m c) s') $$ [Hh HSI]
    · isplitl [Hh] <;> iassumption
    icases Hr with ⟨%h, HSI⟩
    imodintro
    isplitr
    · ipureintro; exact h
    · iexact HSI

/-- The last valuation at an argument is the launch memory. -/
theorem U14_arg (c : Dev nD) :
    U14 m c main_arg0 = m ((c : Thread nD τ).loc main_arg0)
    ∧ U14 m c main_arg1 = m ((c : Thread nD τ).loc main_arg1)
    ∧ U14 m c main_arg2 = m ((c : Thread nD τ).loc main_arg2)
    ∧ U14 m c main_arg3 = m ((c : Thread nD τ).loc main_arg3)
    ∧ U14 m c main_arg4 = m ((c : Thread nD τ).loc main_arg4)
    ∧ U14 m c main_arg5 = m ((c : Thread nD τ).loc main_arg5)
    ∧ U14 m c main_arg6 = m ((c : Thread nD τ).loc main_arg6)
    ∧ U14 m c main_arg7 = m ((c : Thread nD τ).loc main_arg7)
    ∧ U14 m c main_arg8 = m ((c : Thread nD τ).loc main_arg8)
    ∧ U14 m c main_arg9 = m ((c : Thread nD τ).loc main_arg9)
    ∧ U14 m c main_arg10 = m ((c : Thread nD τ).loc main_arg10)
    ∧ U14 m c main_arg11 = m ((c : Thread nD τ).loc main_arg11) := by
  rw [← VU14 m c]
  exact ⟨Gen.V14_main_arg0 m (outsU m) c, Gen.V14_main_arg1 m (outsU m) c, Gen.V14_main_arg2 m (outsU m) c, Gen.V14_main_arg3 m (outsU m) c, Gen.V14_main_arg4 m (outsU m) c, Gen.V14_main_arg5 m (outsU m) c, Gen.V14_main_arg6 m (outsU m) c, Gen.V14_main_arg7 m (outsU m) c, Gen.V14_main_arg8 m (outsU m) c, Gen.V14_main_arg9 m (outsU m) c, Gen.V14_main_arg10 m (outsU m) c, Gen.V14_main_arg11 m (outsU m) c⟩

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h0, h1, h2, h3, h4, h5, h6, h7, h8, h9, h10, h11⟩ := U14_arg m c
    exact ⟨(h c _ (mem_uc main_arg0 (by decide))).trans h0, (h c _ (mem_uc main_arg1 (by decide))).trans h1, (h c _ (mem_uc main_arg2 (by decide))).trans h2, (h c _ (mem_uc main_arg3 (by decide))).trans h3, (h c _ (mem_uc main_arg4 (by decide))).trans h4, (h c _ (mem_uc main_arg5 (by decide))).trans h5, (h c _ (mem_uc main_arg6 (by decide))).trans h6, (h c _ (mem_uc main_arg7 (by decide))).trans h7, (h c _ (mem_uc main_arg8 (by decide))).trans h8, (h c _ (mem_uc main_arg9 (by decide))).trans h9, (h c _ (mem_uc main_arg10 (by decide))).trans h10, (h c _ (mem_uc main_arg11 (by decide))).trans h11⟩) (run_full m ρ)

/-- The result buffer at the end of the run: what the last region's write-backs leave. -/
theorem run_result : θ_run defs (onTc (τ := τ) (main (F := F))) ⟨m, fun _ => 0, ρ⟩ (fun r => ∀ c : Dev nD,
      r.2.mem ((c.tc : Thread nD τ).loc main_v127) = U14 m c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h0, h1, h2, h3, h4, h5, h6, h7, h8, h9, h10, h11⟩ := U14_arg m c
    exact ⟨h c _ (mem_uc main_v127 (by decide)), (h c _ (mem_uc main_arg0 (by decide))).trans h0, (h c _ (mem_uc main_arg1 (by decide))).trans h1, (h c _ (mem_uc main_arg2 (by decide))).trans h2, (h c _ (mem_uc main_arg3 (by decide))).trans h3, (h c _ (mem_uc main_arg4 (by decide))).trans h4, (h c _ (mem_uc main_arg5 (by decide))).trans h5, (h c _ (mem_uc main_arg6 (by decide))).trans h6, (h c _ (mem_uc main_arg7 (by decide))).trans h7, (h c _ (mem_uc main_arg8 (by decide))).trans h8, (h c _ (mem_uc main_arg9 (by decide))).trans h9, (h c _ (mem_uc main_arg10 (by decide))).trans h10, (h c _ (mem_uc main_arg11 (by decide))).trans h11⟩) (run_full m ρ)

end Cert.Kernel.Reg

end
-- ==== Proof.RegI0.lean ====
/-
  Region 0 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.KernelIdeal.Launch
import proofs.«130465_j18580028523178_1_alg».proof.Proof.Gen.KernelIdeal.Skeleton
import proofs.«130465_j18580028523178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 0: the windows' blocks, what the body leaves, its triple, the proof data and the body obligation -/

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's current staging buffer holds its block at every point, fetched there or not. -/
theorem before0_0_of {c : Dev nD} (dat : Dat τ (Elt F) Unit ℕ (Pipeline.UD sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_1_of {c : Dev nD} (dat : Dat τ (Elt F) Unit ℕ (Pipeline.UD sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_2_of {c : Dev nD} (dat : Dat τ (Elt F) Unit ℕ (Pipeline.UD sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- An input window's current staging buffer holds its block at every point, fetched there or not. -/
theorem before0_3_of {c : Dev nD} (dat : Dat τ (Elt F) Unit ℕ (Pipeline.UD sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

abbrev r0_S6400x128 : Rect S6400x128 := Rect.unit (s := S6400x128) ![0, 0] S6400x128.size inb_S6400x128_S6400x128_0_0
abbrev r0_S6400x1 : Rect S6400x1 := Rect.unit (s := S6400x1) ![0, 0] S6400x1.size inb_S6400x1_S6400x1_0_0
abbrev r0_S1x128 : Rect S1x128 := Rect.unit (s := S1x128) ![0, 0] S1x128.size inb_S1x128_S1x128_0_0

/-- The output window's staging buffer after the body, from the input windows' blocks: its one store as a piece. -/
def out0_4 (x0 : Vec F S6400x128 .f32) (x1 : Vec F S6400x1 .f32) (x2 : Vec F S1x128 .f32) (x3 : Vec F S1x128 .f32) : Vec F S6400x128 .f32 :=
  View.canon [⟨r0_S6400x128, k0_pay1 (View.ld x1 r0_S6400x1) (View.ld x2 r0_S1x128) (View.ld x3 r0_S1x128) (View.ld x0 r0_S6400x128)⟩]

/-- The one store tiles the buffer, so it covers it. -/
theorem cover0_4 (p0 : Vec F S6400x128 .f32) (y : S6400x128.Idx) :
    ∃ pc ∈ ([⟨r0_S6400x128, p0⟩] : List (View.Piece (Elt F) S6400x128 .f32)), y ∈ pc.1.set :=
  View.cover_of_tiled [⟨r0_S6400x128, p0⟩] S6400x128.size (by rfl) y

set_option maxHeartbeats 4000000 in
/-- The kernel body on whole staging memrefs, the inputs' at contents `xW` and the output's at anything, runs to the
    continuation holding the inputs' as they were and the output's at `out0_4` of the inputs'. -/
theorem sound_kernel0 (c : Dev nD) (E : Set ℕ) (i : grid0.Coords) (arg1 : Memref sig .tc .vmem S6400x128 .f32) (harg1 : arg1.IsWhole) (arg2 : Memref sig .tc .vmem S6400x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S6400x128 .f32) (harg5 : arg5.IsWhole)
    (x0 : Vec F S6400x128 .f32) (x1 : Vec F S6400x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out0_4 x0 x1 x2 x3)) -∗ K ⟨⟩))
      ⊢ wp frame (wpE (defs₀ (F := F)) Variants.none c none) E (cc0__edge_msg_kernel i arg1 harg1 arg2 harg2 arg3 harg3 arg4 harg4 arg5 harg5) K := by
  simp only [cc0__edge_msg_kernel_eq_skeleton]; unfold cc0__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover0_4 _)

/-- The proof data of pipeline 0 on core `c`: the arrays as the region finds them; after the body at point `t` each
    input's buffer at its block and the output's at `out0_4` of the input blocks; nothing owed; full shares. -/
def dat0 (c : Dev nD) : Dat τ (Elt F) Unit ℕ (Pipeline.UD sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => out0_4 (iblk0 V c 0 t) (iblk0 V c 1 t) (iblk0 V c 2 t) (iblk0 V c 3 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = out0_4 (iblk0 V c 0 t) (iblk0 V c 1 t) (iblk0 V c 2 t) (iblk0 V c 3 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

/-- The body at any point: the inputs' memrefs hold their blocks, so the kernel's triple applies; the invariant and the
    core's dues pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ (grid0.coords t) _ _ _ _ _ _ _ _ _ _ (iblk0 V c 0 t) (iblk0 V c 1 t) (iblk0 V c 2 t) (iblk0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Reg

end
-- ==== Proof.RegI1.lean ====
/-
  Region 1 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.KernelIdeal.Launch
import proofs.«130465_j18580028523178_1_alg».proof.Proof.Gen.KernelIdeal.Skeleton
import proofs.«130465_j18580028523178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 1: the windows' blocks, what the body leaves, its triple, the proof data and the body obligation -/

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's current staging buffer holds its block at every point, fetched there or not. -/
theorem before1_0_of {c : Dev nD} (dat : Dat τ (Elt F) Unit ℕ (Pipeline.UD sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_1_of {c : Dev nD} (dat : Dat τ (Elt F) Unit ℕ (Pipeline.UD sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_2_of {c : Dev nD} (dat : Dat τ (Elt F) Unit ℕ (Pipeline.UD sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_3_of {c : Dev nD} (dat : Dat τ (Elt F) Unit ℕ (Pipeline.UD sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)

/-- An input window's current staging buffer holds its block at every point, fetched there or not. -/
theorem before1_4_of {c : Dev nD} (dat : Dat τ (Elt F) Unit ℕ (Pipeline.UD sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

abbrev r1_S5000x128 : Rect S5000x128 := Rect.unit (s := S5000x128) ![0, 0] S5000x128.size inb_S5000x128_S5000x128_0_0
abbrev r1_S128x128 : Rect S128x128 := Rect.unit (s := S128x128) ![0, 0] S128x128.size inb_S128x128_S128x128_0_0
abbrev r1_S1x128 : Rect S1x128 := Rect.unit (s := S1x128) ![0, 0] S1x128.size inb_S1x128_S1x128_0_0

/-- The output window's staging buffer after the body, from the input windows' blocks: its one store as a piece. -/
def out1_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r1_S5000x128, k1_pay1 (View.ld x0 r1_S5000x128) (View.ld x1 r1_S128x128) (View.ld x2 r1_S1x128) (View.ld x3 r1_S128x128) (View.ld x4 r1_S1x128)⟩]

/-- The one store tiles the buffer, so it covers it. -/
theorem cover1_5 (p0 : Vec F S5000x128 .f32) (y : S5000x128.Idx) :
    ∃ pc ∈ ([⟨r1_S5000x128, p0⟩] : List (View.Piece (Elt F) S5000x128 .f32)), y ∈ pc.1.set :=
  View.cover_of_tiled [⟨r1_S5000x128, p0⟩] S5000x128.size (by rfl) y

set_option maxHeartbeats 4000000 in
/-- The kernel body on whole staging memrefs, the inputs' at contents `xW` and the output's at anything, runs to the
    continuation holding the inputs' as they were and the output's at `out1_5` of the inputs'. -/
theorem sound_kernel1 (c : Dev nD) (E : Set ℕ) (i : grid1.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out1_5 x0 x1 x2 x3 x4)) -∗ K ⟨⟩))
      ⊢ wp frame (wpE (defs₀ (F := F)) Variants.none c none) E (cc1__mlp_kernel i arg1 harg1 arg2 harg2 arg3 harg3 arg4 harg4 arg5 harg5 arg6 harg6) K := by
  simp only [cc1__mlp_kernel_eq_skeleton]; unfold cc1__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover1_5 _)

/-- The proof data of pipeline 1 on core `c`: the arrays as the region finds them; after the body at point `t` each
    input's buffer at its block and the output's at `out1_5` of the input blocks; nothing owed; full shares. -/
def dat1 (c : Dev nD) : Dat τ (Elt F) Unit ℕ (Pipeline.UD sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => out1_5 (iblk1 V c 0 t) (iblk1 V c 1 t) (iblk1 V c 2 t) (iblk1 V c 3 t) (iblk1 V c 4 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = out1_5 (iblk1 V c 0 t) (iblk1 V c 1 t) (iblk1 V c 2 t) (iblk1 V c 3 t) (iblk1 V c 4 t) := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-- What the body is called with at point `t`, the windows one by one, -/
def bodyPre1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d))
    ∗ (∃ d, owns (c : Thread nD τ) (st1_5 t) fullShare ((dat1 V c).before 5 t d)))

/-- and what it returns. -/
def bodyPost1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t)
    ∗ owns (c : Thread nD τ) (st1_5 t) fullShare ((dat1 V c).after 5 t))

/-- The body at any point: the inputs' memrefs hold their blocks, so the kernel's triple applies; the invariant and the
    core's dues pass through unread. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).Φ t.succ = (dat1 V c).Φ t.castSucc from rfl,
    show (dat1 V c).owesAt () t.succ = (dat1 V c).owesAt () t.castSucc from rfl,
    after1_0, after1_1, after1_2, after1_3, after1_4, after1_5]
  iintro ⟨HΦ, Ho, ⟨%d0, H0⟩, ⟨%d1, H1⟩, ⟨%d2, H2⟩, ⟨%d3, H3⟩, ⟨%d4, H4⟩, ⟨%d5, H5⟩⟩
  iapply (sound_kernel1 c Set.univ (grid1.coords t) _ _ _ _ _ _ _ _ _ _ _ _ (iblk1 V c 0 t) (iblk1 V c 1 t) (iblk1 V c 2 t) (iblk1 V c 3 t) (iblk1 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Reg

end
-- ==== Proof.RegI2.lean ====
/-
  Region 2 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.KernelIdeal.Launch
import proofs.«130465_j18580028523178_1_alg».proof.Proof.Gen.KernelIdeal.Skeleton
import proofs.«130465_j18580028523178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 2: the windows' blocks, what the body leaves, its triple, the proof data and the body obligation -/

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- An input window's current staging buffer holds its block at every point, fetched there or not. -/
theorem before2_0_of {c : Dev nD} (dat : Dat τ (Elt F) Unit ℕ (Pipeline.UD sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_1_of {c : Dev nD} (dat : Dat τ (Elt F) Unit ℕ (Pipeline.UD sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_2_of {c : Dev nD} (dat : Dat τ (Elt F) Unit ℕ (Pipeline.UD sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

/-- An input window's current staging buffer holds its block at every point, fetched there or not. -/
theorem before2_3_of {c : Dev nD} (dat : Dat τ (Elt F) Unit ℕ (Pipeline.UD sig nD τ) ℕ cfg2 c) (hA : dat.A 3 = V c (Pipeline.arrRef spec2 3))
    (hafter : ∀ t, dat.after 3 t = iblk2 V c 3 t) (t : Fin cfg2.N) (d) : dat.before 3 t d = iblk2 V c 3 t :=
  (dat.before_in_eq_fetched 3 rfl (fun _ => rfl) (fun _ _ _ => rfl) (fun t => by rw [hafter]; unfold Dat.blockOf iblk2; rw [hA]; try rfl) t d).trans
    (by unfold Dat.fetched Dat.blockOf iblk2; rw [hA]; try rfl)

abbrev r2_S6400x128 : Rect S6400x128 := Rect.unit (s := S6400x128) ![0, 0] S6400x128.size inb_S6400x128_S6400x128_0_0
abbrev r2_S6400x1 : Rect S6400x1 := Rect.unit (s := S6400x1) ![0, 0] S6400x1.size inb_S6400x1_S6400x1_0_0
abbrev r2_S1x128 : Rect S1x128 := Rect.unit (s := S1x128) ![0, 0] S1x128.size inb_S1x128_S1x128_0_0

/-- The output window's staging buffer after the body, from the input windows' blocks: its one store as a piece. -/
def out2_4 (x0 : Vec F S6400x128 .f32) (x1 : Vec F S6400x1 .f32) (x2 : Vec F S1x128 .f32) (x3 : Vec F S1x128 .f32) : Vec F S6400x128 .f32 :=
  View.canon [⟨r2_S6400x128, k2_pay1 (View.ld x1 r2_S6400x1) (View.ld x2 r2_S1x128) (View.ld x3 r2_S1x128) (View.ld x0 r2_S6400x128)⟩]

/-- The one store tiles the buffer, so it covers it. -/
theorem cover2_4 (p0 : Vec F S6400x128 .f32) (y : S6400x128.Idx) :
    ∃ pc ∈ ([⟨r2_S6400x128, p0⟩] : List (View.Piece (Elt F) S6400x128 .f32)), y ∈ pc.1.set :=
  View.cover_of_tiled [⟨r2_S6400x128, p0⟩] S6400x128.size (by rfl) y

set_option maxHeartbeats 4000000 in
/-- The kernel body on whole staging memrefs, the inputs' at contents `xW` and the output's at anything, runs to the
    continuation holding the inputs' as they were and the output's at `out2_4` of the inputs'. -/
theorem sound_kernel2 (c : Dev nD) (E : Set ℕ) (i : grid2.Coords) (arg1 : Memref sig .tc .vmem S6400x128 .f32) (harg1 : arg1.IsWhole) (arg2 : Memref sig .tc .vmem S6400x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S6400x128 .f32) (harg5 : arg5.IsWhole)
    (x0 : Vec F S6400x128 .f32) (x1 : Vec F S6400x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out2_4 x0 x1 x2 x3)) -∗ K ⟨⟩))
      ⊢ wp frame (wpE (defs₀ (F := F)) Variants.none c none) E (cc2__edge_msg_kernel i arg1 harg1 arg2 harg2 arg3 harg3 arg4 harg4 arg5 harg5) K := by
  simp only [cc2__edge_msg_kernel_eq_skeleton]; unfold cc2__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover2_4 _)

/-- The proof data of pipeline 2 on core `c`: the arrays as the region finds them; after the body at point `t` each
    input's buffer at its block and the output's at `out2_4` of the input blocks; nothing owed; full shares. -/
def dat2 (c : Dev nD) : Dat τ (Elt F) Unit ℕ (Pipeline.UD sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => iblk2 V c 3 t
    | ⟨4, _⟩ => out2_4 (iblk2 V c 0 t) (iblk2 V c 1 t) (iblk2 V c 2 t) (iblk2 V c 3 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = iblk2 V c 3 t := by dsimp only [dat2]
theorem after2_4 (c : Dev nD) (t : Fin cfg2.N) : (dat2 V c).after 4 t = out2_4 (iblk2 V c 0 t) (iblk2 V c 1 t) (iblk2 V c 2 t) (iblk2 V c 3 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d
theorem before2_3 (c : Dev nD) (t : Fin cfg2.N) (d) : (dat2 V c).before 3 t d = iblk2 V c 3 t :=
  before2_3_of V (dat2 V c) (A_eq2 V c 3) (after2_3 V c) t d

/-- What the body is called with at point `t`, the windows one by one, -/
def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

/-- and what it returns. -/
def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

/-- The body at any point: the inputs' memrefs hold their blocks, so the kernel's triple applies; the invariant and the
    core's dues pass through unread. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2, before2_3]
  rw [show (dat2 V c).Φ t.succ = (dat2 V c).Φ t.castSucc from rfl,
    show (dat2 V c).owesAt () t.succ = (dat2 V c).owesAt () t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (sound_kernel2 c Set.univ (grid2.coords t) _ _ _ _ _ _ _ _ _ _ (iblk2 V c 0 t) (iblk2 V c 1 t) (iblk2 V c 2 t) (iblk2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation2 (c : Dev nD) : BodyObligation (dat2 (F := F) V c) (defs₀ (F := F)) Variants.none () Set.univ := fun t => by
  rw [bigSep_W2, bigSep_W2]
  exact sound_body2 V c t

end Cert.KernelIdeal.Reg

end
-- ==== Proof.RegI3.lean ====
/-
  Region 3 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.KernelIdeal.Launch
import proofs.«130465_j18580028523178_1_alg».proof.Proof.Gen.KernelIdeal.Skeleton
import proofs.«130465_j18580028523178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 3: the windows' blocks, what the body leaves, its triple, the proof data and the body obligation -/

/-- Window `w`'s block at point `t`, read off its array as the region finds it. -/
def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

/-- An input window's current staging buffer holds its block at every point, fetched there or not. -/
theorem before3_0_of {c : Dev nD} (dat : Dat τ (Elt F) Unit ℕ (Pipeline.UD sig nD τ) ℕ cfg3 c) (hA : dat.A 0 = V c (Pipeline.arrRef spec3 0))
    (hafter : ∀ t, dat.after 0 t = iblk3 V c 0 t) (t : Fin cfg3.N) (d) : dat.before 0 t d = iblk3 V c 0 t :=
  (dat.before_in_eq_fetched 0 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_1_of {c : Dev nD} (dat : Dat τ (Elt F) Unit ℕ (Pipeline.UD sig nD τ) ℕ cfg3 c) (hA : dat.A 1 = V c (Pipeline.arrRef spec3 1))
    (hafter : ∀ t, dat.after 1 t = iblk3 V c 1 t) (t : Fin cfg3.N) (d) : dat.before 1 t d = iblk3 V c 1 t :=
  (dat.before_in_eq_fetched 1 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_2_of {c : Dev nD} (dat : Dat τ (Elt F) Unit ℕ (Pipeline.UD sig nD τ) ℕ cfg3 c) (hA : dat.A 2 = V c (Pipeline.arrRef spec3 2))
    (hafter : ∀ t, dat.after 2 t = iblk3 V c 2 t) (t : Fin cfg3.N) (d) : dat.before 2 t d = iblk3 V c 2 t :=
  (dat.before_in_eq_fetched 2 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_3_of {c : Dev nD} (dat : Dat τ (Elt F) Unit ℕ (Pipeline.UD sig nD τ) ℕ cfg3 c) (hA : dat.A 3 = V c (Pipeline.arrRef spec3 3))
    (hafter : ∀ t, dat.after 3 t = iblk3 V c 3 t) (t : Fin cfg3.N) (d) : dat.before 3 t d = iblk3 V c 3 t :=
  (dat.before_in_eq_fetched 3 rfl (fun _ => rfl) (fun _ _ _ => rfl) (fun t => by rw [hafter]; unfold Dat.blockOf iblk3; rw [hA]; try rfl) t d).trans
    (by unfold Dat.fetched Dat.blockOf iblk3; rw [hA]; try rfl)

/-- An input window's current staging buffer holds its block at every point, fetched there or not. -/
theorem before3_4_of {c : Dev nD} (dat : Dat τ (Elt F) Unit ℕ (Pipeline.UD sig nD τ) ℕ cfg3 c) (hA : dat.A 4 = V c (Pipeline.arrRef spec3 4))
    (hafter : ∀ t, dat.after 4 t = iblk3 V c 4 t) (t : Fin cfg3.N) (d) : dat.before 4 t d = iblk3 V c 4 t :=
  (dat.before_in_eq_fetched 4 rfl (fun _ => rfl) (fun _ _ _ => rfl) (fun t => by rw [hafter]; unfold Dat.blockOf iblk3; rw [hA]; try rfl) t d).trans
    (by unfold Dat.fetched Dat.blockOf iblk3; rw [hA]; try rfl)

abbrev r3_S5000x128 : Rect S5000x128 := Rect.unit (s := S5000x128) ![0, 0] S5000x128.size inb_S5000x128_S5000x128_0_0
abbrev r3_S128x128 : Rect S128x128 := Rect.unit (s := S128x128) ![0, 0] S128x128.size inb_S128x128_S128x128_0_0
abbrev r3_S1x128 : Rect S1x128 := Rect.unit (s := S1x128) ![0, 0] S1x128.size inb_S1x128_S1x128_0_0

/-- The output window's staging buffer after the body, from the input windows' blocks: its one store as a piece. -/
def out3_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r3_S5000x128, k3_pay1 (View.ld x0 r3_S5000x128) (View.ld x1 r3_S128x128) (View.ld x2 r3_S1x128) (View.ld x3 r3_S128x128) (View.ld x4 r3_S1x128)⟩]

/-- The one store tiles the buffer, so it covers it. -/
theorem cover3_5 (p0 : Vec F S5000x128 .f32) (y : S5000x128.Idx) :
    ∃ pc ∈ ([⟨r3_S5000x128, p0⟩] : List (View.Piece (Elt F) S5000x128 .f32)), y ∈ pc.1.set :=
  View.cover_of_tiled [⟨r3_S5000x128, p0⟩] S5000x128.size (by rfl) y

set_option maxHeartbeats 4000000 in
/-- The kernel body on whole staging memrefs, the inputs' at contents `xW` and the output's at anything, runs to the
    continuation holding the inputs' as they were and the output's at `out3_5` of the inputs'. -/
theorem sound_kernel3 (c : Dev nD) (E : Set ℕ) (i : grid3.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out3_5 x0 x1 x2 x3 x4)) -∗ K ⟨⟩))
      ⊢ wp frame (wpE (defs₀ (F := F)) Variants.none c none) E (cc3__mlp_kernel i arg1 harg1 arg2 harg2 arg3 harg3 arg4 harg4 arg5 harg5 arg6 harg6) K := by
  simp only [cc3__mlp_kernel_eq_skeleton]; unfold cc3__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover3_5 _)

/-- The proof data of pipeline 3 on core `c`: the arrays as the region finds them; after the body at point `t` each
    input's buffer at its block and the output's at `out3_5` of the input blocks; nothing owed; full shares. -/
def dat3 (c : Dev nD) : Dat τ (Elt F) Unit ℕ (Pipeline.UD sig nD τ) ℕ cfg3 c where
  A w := V c (Pipeline.arrRef spec3 w)
  after w t := match w with
    | ⟨0, _⟩ => iblk3 V c 0 t
    | ⟨1, _⟩ => iblk3 V c 1 t
    | ⟨2, _⟩ => iblk3 V c 2 t
    | ⟨3, _⟩ => iblk3 V c 3 t
    | ⟨4, _⟩ => iblk3 V c 4 t
    | ⟨5, _⟩ => out3_5 (iblk3 V c 0 t) (iblk3 V c 1 t) (iblk3 V c 2 t) (iblk3 V c 3 t) (iblk3 V c 4 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_0 (c : Dev nD) (t : Fin cfg3.N) : (dat3 V c).after 0 t = iblk3 V c 0 t := by dsimp only [dat3]
theorem after3_1 (c : Dev nD) (t : Fin cfg3.N) : (dat3 V c).after 1 t = iblk3 V c 1 t := by dsimp only [dat3]
theorem after3_2 (c : Dev nD) (t : Fin cfg3.N) : (dat3 V c).after 2 t = iblk3 V c 2 t := by dsimp only [dat3]
theorem after3_3 (c : Dev nD) (t : Fin cfg3.N) : (dat3 V c).after 3 t = iblk3 V c 3 t := by dsimp only [dat3]
theorem after3_4 (c : Dev nD) (t : Fin cfg3.N) : (dat3 V c).after 4 t = iblk3 V c 4 t := by dsimp only [dat3]
theorem after3_5 (c : Dev nD) (t : Fin cfg3.N) : (dat3 V c).after 5 t = out3_5 (iblk3 V c 0 t) (iblk3 V c 1 t) (iblk3 V c 2 t) (iblk3 V c 3 t) (iblk3 V c 4 t) := by dsimp only [dat3]

theorem before3_0 (c : Dev nD) (t : Fin cfg3.N) (d) : (dat3 V c).before 0 t d = iblk3 V c 0 t :=
  before3_0_of V (dat3 V c) (A_eq3 V c 0) (after3_0 V c) t d
theorem before3_1 (c : Dev nD) (t : Fin cfg3.N) (d) : (dat3 V c).before 1 t d = iblk3 V c 1 t :=
  before3_1_of V (dat3 V c) (A_eq3 V c 1) (after3_1 V c) t d
theorem before3_2 (c : Dev nD) (t : Fin cfg3.N) (d) : (dat3 V c).before 2 t d = iblk3 V c 2 t :=
  before3_2_of V (dat3 V c) (A_eq3 V c 2) (after3_2 V c) t d
theorem before3_3 (c : Dev nD) (t : Fin cfg3.N) (d) : (dat3 V c).before 3 t d = iblk3 V c 3 t :=
  before3_3_of V (dat3 V c) (A_eq3 V c 3) (after3_3 V c) t d
theorem before3_4 (c : Dev nD) (t : Fin cfg3.N) (d) : (dat3 V c).before 4 t d = iblk3 V c 4 t :=
  before3_4_of V (dat3 V c) (A_eq3 V c 4) (after3_4 V c) t d

/-- What the body is called with at point `t`, the windows one by one, -/
def bodyPre3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d))
    ∗ (∃ d, owns (c : Thread nD τ) (st3_5 t) fullShare ((dat3 V c).before 5 t d)))

/-- and what it returns. -/
def bodyPost3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t)
    ∗ owns (c : Thread nD τ) (st3_5 t) fullShare ((dat3 V c).after 5 t))

/-- The body at any point: the inputs' memrefs hold their blocks, so the kernel's triple applies; the invariant and the
    core's dues pass through unread. -/
theorem sound_body3 (c : Dev nD) (t : Fin cfg3.N) :
    bodyPre3 V c t ⊢ wp frame (wpE (defs₀ (F := F)) Variants.none c none) Set.univ (bodyAt3 t) (fun _ => bodyPost3 V c t) := by
  unfold bodyPre3 bodyPost3 bodyAt3
  simp only [before3_0, before3_1, before3_2, before3_3, before3_4]
  rw [show (dat3 V c).Φ t.succ = (dat3 V c).Φ t.castSucc from rfl,
    show (dat3 V c).owesAt () t.succ = (dat3 V c).owesAt () t.castSucc from rfl,
    after3_0, after3_1, after3_2, after3_3, after3_4, after3_5]
  iintro ⟨HΦ, Ho, ⟨%d0, H0⟩, ⟨%d1, H1⟩, ⟨%d2, H2⟩, ⟨%d3, H3⟩, ⟨%d4, H4⟩, ⟨%d5, H5⟩⟩
  iapply (sound_kernel3 c Set.univ (grid3.coords t) _ _ _ _ _ _ _ _ _ _ _ _ (iblk3 V c 0 t) (iblk3 V c 1 t) (iblk3 V c 2 t) (iblk3 V c 3 t) (iblk3 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation3 (c : Dev nD) : BodyObligation (dat3 (F := F) V c) (defs₀ (F := F)) Variants.none () Set.univ := fun t => by
  rw [bigSep_W3, bigSep_W3]
  exact sound_body3 V c t

end Cert.KernelIdeal.Reg

end
-- ==== Proof.RegI4.lean ====
/-
  Region 4 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.KernelIdeal.Launch
import proofs.«130465_j18580028523178_1_alg».proof.Proof.Gen.KernelIdeal.Skeleton
import proofs.«130465_j18580028523178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 4: the windows' blocks, what the body leaves, its triple, the proof data and the body obligation -/

/-- Window `w`'s block at point `t`, read off its array as the region finds it. -/
def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

/-- An input window's current staging buffer holds its block at every point, fetched there or not. -/
theorem before4_0_of {c : Dev nD} (dat : Dat τ (Elt F) Unit ℕ (Pipeline.UD sig nD τ) ℕ cfg4 c) (hA : dat.A 0 = V c (Pipeline.arrRef spec4 0))
    (hafter : ∀ t, dat.after 0 t = iblk4 V c 0 t) (t : Fin cfg4.N) (d) : dat.before 0 t d = iblk4 V c 0 t :=
  (dat.before_in_eq_fetched 0 rfl (fun _ => rfl) (fun _ _ _ => rfl) (fun t => by rw [hafter]; unfold Dat.blockOf iblk4; rw [hA]; try rfl) t d).trans
    (by unfold Dat.fetched Dat.blockOf iblk4; rw [hA]; try rfl)

/-- An input window's current staging buffer holds its block at every point, fetched there or not. -/
theorem before4_1_of {c : Dev nD} (dat : Dat τ (Elt F) Unit ℕ (Pipeline.UD sig nD τ) ℕ cfg4 c) (hA : dat.A 1 = V c (Pipeline.arrRef spec4 1))
    (hafter : ∀ t, dat.after 1 t = iblk4 V c 1 t) (t : Fin cfg4.N) (d) : dat.before 1 t d = iblk4 V c 1 t :=
  (dat.before_in_eq_fetched 1 rfl (fun _ => rfl) (fun _ _ _ => rfl) (fun t => by rw [hafter]; unfold Dat.blockOf iblk4; rw [hA]; try rfl) t d).trans
    (by unfold Dat.fetched Dat.blockOf iblk4; rw [hA]; try rfl)

/-- An input window's current staging buffer holds its block at every point, fetched there or not. -/
theorem before4_2_of {c : Dev nD} (dat : Dat τ (Elt F) Unit ℕ (Pipeline.UD sig nD τ) ℕ cfg4 c) (hA : dat.A 2 = V c (Pipeline.arrRef spec4 2))
    (hafter : ∀ t, dat.after 2 t = iblk4 V c 2 t) (t : Fin cfg4.N) (d) : dat.before 2 t d = iblk4 V c 2 t :=
  (dat.before_in_eq_fetched 2 rfl (fun _ => rfl) (fun _ _ _ => rfl) (fun t => by rw [hafter]; unfold Dat.blockOf iblk4; rw [hA]; try rfl) t d).trans
    (by unfold Dat.fetched Dat.blockOf iblk4; rw [hA]; try rfl)

/-- An input window's current staging buffer holds its block at every point, fetched there or not. -/
theorem before4_3_of {c : Dev nD} (dat : Dat τ (Elt F) Unit ℕ (Pipeline.UD sig nD τ) ℕ cfg4 c) (hA : dat.A 3 = V c (Pipeline.arrRef spec4 3))
    (hafter : ∀ t, dat.after 3 t = iblk4 V c 3 t) (t : Fin cfg4.N) (d) : dat.before 3 t d = iblk4 V c 3 t :=
  (dat.before_in_eq_fetched 3 rfl (fun _ => rfl) (fun _ _ _ => rfl) (fun t => by rw [hafter]; unfold Dat.blockOf iblk4; rw [hA]; try rfl) t d).trans
    (by unfold Dat.fetched Dat.blockOf iblk4; rw [hA]; try rfl)

abbrev r4_S6400x128 : Rect S6400x128 := Rect.unit (s := S6400x128) ![0, 0] S6400x128.size inb_S6400x128_S6400x128_0_0
abbrev r4_S6400x1 : Rect S6400x1 := Rect.unit (s := S6400x1) ![0, 0] S6400x1.size inb_S6400x1_S6400x1_0_0
abbrev r4_S1x128 : Rect S1x128 := Rect.unit (s := S1x128) ![0, 0] S1x128.size inb_S1x128_S1x128_0_0

/-- The output window's staging buffer after the body, from the input windows' blocks: its one store as a piece. -/
def out4_4 (x0 : Vec F S6400x128 .f32) (x1 : Vec F S6400x1 .f32) (x2 : Vec F S1x128 .f32) (x3 : Vec F S1x128 .f32) : Vec F S6400x128 .f32 :=
  View.canon [⟨r4_S6400x128, k4_pay1 (View.ld x1 r4_S6400x1) (View.ld x2 r4_S1x128) (View.ld x3 r4_S1x128) (View.ld x0 r4_S6400x128)⟩]

/-- The one store tiles the buffer, so it covers it. -/
theorem cover4_4 (p0 : Vec F S6400x128 .f32) (y : S6400x128.Idx) :
    ∃ pc ∈ ([⟨r4_S6400x128, p0⟩] : List (View.Piece (Elt F) S6400x128 .f32)), y ∈ pc.1.set :=
  View.cover_of_tiled [⟨r4_S6400x128, p0⟩] S6400x128.size (by rfl) y

set_option maxHeartbeats 4000000 in
/-- The kernel body on whole staging memrefs, the inputs' at contents `xW` and the output's at anything, runs to the
    continuation holding the inputs' as they were and the output's at `out4_4` of the inputs'. -/
theorem sound_kernel4 (c : Dev nD) (E : Set ℕ) (i : grid4.Coords) (arg1 : Memref sig .tc .vmem S6400x128 .f32) (harg1 : arg1.IsWhole) (arg2 : Memref sig .tc .vmem S6400x1 .f32) (harg2 : arg2.IsWhole) (arg3 : Memref sig .tc .vmem S1x128 .f32) (harg3 : arg3.IsWhole) (arg4 : Memref sig .tc .vmem S1x128 .f32) (harg4 : arg4.IsWhole) (arg5 : Memref sig .tc .vmem S6400x128 .f32) (harg5 : arg5.IsWhole)
    (x0 : Vec F S6400x128 .f32) (x1 : Vec F S6400x1 .f32) (x2 : Vec F S1x128 .f32) (x3 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ (∃ d, owns (c : Thread nD τ) arg5 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare (out4_4 x0 x1 x2 x3)) -∗ K ⟨⟩))
      ⊢ wp frame (wpE (defs₀ (F := F)) Variants.none c none) E (cc4__edge_msg_kernel i arg1 harg1 arg2 harg2 arg3 harg3 arg4 harg4 arg5 harg5) K := by
  simp only [cc4__edge_msg_kernel_eq_skeleton]; unfold cc4__edge_msg_kernel_skel
  unfold owns
  iintro ⟨⟨%f0, %hf0, H0⟩, ⟨%f1, %hf1, H1⟩, ⟨%f2, %hf2, H2⟩, ⟨%f3, %hf3, H3⟩, ⟨%d4, %f4, -, H4⟩, Hk⟩
  subst hf0; subst hf1; subst hf2; subst hf3
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  iexists _; isplitr
  swap; · iexact H4
  ipureintro
  exact View.read_writes_eq_canon _ _ _ (cover4_4 _)

/-- The proof data of pipeline 4 on core `c`: the arrays as the region finds them; after the body at point `t` each
    input's buffer at its block and the output's at `out4_4` of the input blocks; nothing owed; full shares. -/
def dat4 (c : Dev nD) : Dat τ (Elt F) Unit ℕ (Pipeline.UD sig nD τ) ℕ cfg4 c where
  A w := V c (Pipeline.arrRef spec4 w)
  after w t := match w with
    | ⟨0, _⟩ => iblk4 V c 0 t
    | ⟨1, _⟩ => iblk4 V c 1 t
    | ⟨2, _⟩ => iblk4 V c 2 t
    | ⟨3, _⟩ => iblk4 V c 3 t
    | ⟨4, _⟩ => out4_4 (iblk4 V c 0 t) (iblk4 V c 1 t) (iblk4 V c 2 t) (iblk4 V c 3 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_0 (c : Dev nD) (t : Fin cfg4.N) : (dat4 V c).after 0 t = iblk4 V c 0 t := by dsimp only [dat4]
theorem after4_1 (c : Dev nD) (t : Fin cfg4.N) : (dat4 V c).after 1 t = iblk4 V c 1 t := by dsimp only [dat4]
theorem after4_2 (c : Dev nD) (t : Fin cfg4.N) : (dat4 V c).after 2 t = iblk4 V c 2 t := by dsimp only [dat4]
theorem after4_3 (c : Dev nD) (t : Fin cfg4.N) : (dat4 V c).after 3 t = iblk4 V c 3 t := by dsimp only [dat4]
theorem after4_4 (c : Dev nD) (t : Fin cfg4.N) : (dat4 V c).after 4 t = out4_4 (iblk4 V c 0 t) (iblk4 V c 1 t) (iblk4 V c 2 t) (iblk4 V c 3 t) := by dsimp only [dat4]

theorem before4_0 (c : Dev nD) (t : Fin cfg4.N) (d) : (dat4 V c).before 0 t d = iblk4 V c 0 t :=
  before4_0_of V (dat4 V c) (A_eq4 V c 0) (after4_0 V c) t d
theorem before4_1 (c : Dev nD) (t : Fin cfg4.N) (d) : (dat4 V c).before 1 t d = iblk4 V c 1 t :=
  before4_1_of V (dat4 V c) (A_eq4 V c 1) (after4_1 V c) t d
theorem before4_2 (c : Dev nD) (t : Fin cfg4.N) (d) : (dat4 V c).before 2 t d = iblk4 V c 2 t :=
  before4_2_of V (dat4 V c) (A_eq4 V c 2) (after4_2 V c) t d
theorem before4_3 (c : Dev nD) (t : Fin cfg4.N) (d) : (dat4 V c).before 3 t d = iblk4 V c 3 t :=
  before4_3_of V (dat4 V c) (A_eq4 V c 3) (after4_3 V c) t d

/-- What the body is called with at point `t`, the windows one by one, -/
def bodyPre4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d)))

/-- and what it returns. -/
def bodyPost4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t))

/-- The body at any point: the inputs' memrefs hold their blocks, so the kernel's triple applies; the invariant and the
    core's dues pass through unread. -/
theorem sound_body4 (c : Dev nD) (t : Fin cfg4.N) :
    bodyPre4 V c t ⊢ wp frame (wpE (defs₀ (F := F)) Variants.none c none) Set.univ (bodyAt4 t) (fun _ => bodyPost4 V c t) := by
  unfold bodyPre4 bodyPost4 bodyAt4
  simp only [before4_0, before4_1, before4_2, before4_3]
  rw [show (dat4 V c).Φ t.succ = (dat4 V c).Φ t.castSucc from rfl,
    show (dat4 V c).owesAt () t.succ = (dat4 V c).owesAt () t.castSucc from rfl,
    after4_0, after4_1, after4_2, after4_3, after4_4]
  iintro ⟨HΦ, Ho, ⟨%d0, H0⟩, ⟨%d1, H1⟩, ⟨%d2, H2⟩, ⟨%d3, H3⟩, ⟨%d4, H4⟩⟩
  iapply (sound_kernel4 c Set.univ (grid4.coords t) _ _ _ _ _ _ _ _ _ _ (iblk4 V c 0 t) (iblk4 V c 1 t) (iblk4 V c 2 t) (iblk4 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The library's body obligation, at every point. -/
theorem body_obligation4 (c : Dev nD) : BodyObligation (dat4 (F := F) V c) (defs₀ (F := F)) Variants.none () Set.univ := fun t => by
  rw [bigSep_W4, bigSep_W4]
  exact sound_body4 V c t

end Cert.KernelIdeal.Reg

end
-- ==== Proof.RegI5.lean ====
/-
  Region 5 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.KernelIdeal.Launch
import proofs.«130465_j18580028523178_1_alg».proof.Proof.Gen.KernelIdeal.Skeleton
import proofs.«130465_j18580028523178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 5: the windows' blocks, what the body leaves, its triple, the proof data and the body obligation -/

/-- Window `w`'s block at point `t`, read off its array as the region finds it. -/
def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

/-- An input window's current staging buffer holds its block at every point, fetched there or not. -/
theorem before5_0_of {c : Dev nD} (dat : Dat τ (Elt F) Unit ℕ (Pipeline.UD sig nD τ) ℕ cfg5 c) (hA : dat.A 0 = V c (Pipeline.arrRef spec5 0))
    (hafter : ∀ t, dat.after 0 t = iblk5 V c 0 t) (t : Fin cfg5.N) (d) : dat.before 0 t d = iblk5 V c 0 t :=
  (dat.before_in_eq_fetched 0 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_1_of {c : Dev nD} (dat : Dat τ (Elt F) Unit ℕ (Pipeline.UD sig nD τ) ℕ cfg5 c) (hA : dat.A 1 = V c (Pipeline.arrRef spec5 1))
    (hafter : ∀ t, dat.after 1 t = iblk5 V c 1 t) (t : Fin cfg5.N) (d) : dat.before 1 t d = iblk5 V c 1 t :=
  (dat.before_in_eq_fetched 1 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_2_of {c : Dev nD} (dat : Dat τ (Elt F) Unit ℕ (Pipeline.UD sig nD τ) ℕ cfg5 c) (hA : dat.A 2 = V c (Pipeline.arrRef spec5 2))
    (hafter : ∀ t, dat.after 2 t = iblk5 V c 2 t) (t : Fin cfg5.N) (d) : dat.before 2 t d = iblk5 V c 2 t :=
  (dat.before_in_eq_fetched 2 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_3_of {c : Dev nD} (dat : Dat τ (Elt F) Unit ℕ (Pipeline.UD sig nD τ) ℕ cfg5 c) (hA : dat.A 3 = V c (Pipeline.arrRef spec5 3))
    (hafter : ∀ t, dat.after 3 t = iblk5 V c 3 t) (t : Fin cfg5.N) (d) : dat.before 3 t d = iblk5 V c 3 t :=
  (dat.before_in_eq_fetched 3 rfl (fun _ => rfl) (fun _ _ _ => rfl) (fun t => by rw [hafter]; unfold Dat.blockOf iblk5; rw [hA]; try rfl) t d).trans
    (by unfold Dat.fetched Dat.blockOf iblk5; rw [hA]; try rfl)

/-- An input window's current staging buffer holds its block at every point, fetched there or not. -/
theorem before5_4_of {c : Dev nD} (dat : Dat τ (Elt F) Unit ℕ (Pipeline.UD sig nD τ) ℕ cfg5 c) (hA : dat.A 4 = V c (Pipeline.arrRef spec5 4))
    (hafter : ∀ t, dat.after 4 t = iblk5 V c 4 t) (t : Fin cfg5.N) (d) : dat.before 4 t d = iblk5 V c 4 t :=
  (dat.before_in_eq_fetched 4 rfl (fun _ => rfl) (fun _ _ _ => rfl) (fun t => by rw [hafter]; unfold Dat.blockOf iblk5; rw [hA]; try rfl) t d).trans
    (by unfold Dat.fetched Dat.blockOf iblk5; rw [hA]; try rfl)

abbrev r5_S5000x128 : Rect S5000x128 := Rect.unit (s := S5000x128) ![0, 0] S5000x128.size inb_S5000x128_S5000x128_0_0
abbrev r5_S128x128 : Rect S128x128 := Rect.unit (s := S128x128) ![0, 0] S128x128.size inb_S128x128_S128x128_0_0
abbrev r5_S1x128 : Rect S1x128 := Rect.unit (s := S1x128) ![0, 0] S1x128.size inb_S1x128_S1x128_0_0

/-- The output window's staging buffer after the body, from the input windows' blocks: its one store as a piece. -/
def out5_5 (x0 : Vec F S5000x128 .bf16) (x1 : Vec F S128x128 .bf16) (x2 : Vec F S1x128 .f32) (x3 : Vec F S128x128 .bf16) (x4 : Vec F S1x128 .f32) : Vec F S5000x128 .f32 :=
  View.canon [⟨r5_S5000x128, k5_pay1 (View.ld x0 r5_S5000x128) (View.ld x1 r5_S128x128) (View.ld x2 r5_S1x128) (View.ld x3 r5_S128x128) (View.ld x4 r5_S1x128)⟩]

/-- The one store tiles the buffer, so it covers it. -/
theorem cover5_5 (p0 : Vec F S5000x128 .f32) (y : S5000x128.Idx) :
    ∃ pc ∈ ([⟨r5_S5000x128, p0⟩] : List (View.Piece (Elt F) S5000x128 .f32)), y ∈ pc.1.set :=
  View.cover_of_tiled [⟨r5_S5000x128, p0⟩] S5000x128.size (by rfl) y

set_option maxHeartbeats 4000000 in
/-- The kernel body on whole staging memrefs, the inputs' at contents `xW` and the output's at anything, runs to the
    continuation holding the inputs' as they were and the output's at `out5_5` of the inputs'. -/
theorem sound_kernel5 (c : Dev nD) (E : Set ℕ) (i : grid5.Coords) (arg1 : Memref sig .tc .vmem S5000x128 .bf16) (harg1 : arg1.IsWhole) (arg2 : Memref sig .tc .vmem S128x128 .bf16) (harg2 : arg2.IsWhole) (arg3 : Memref sig .tc .vmem S1x128 .f32) (harg3 : arg3.IsWhole) (arg4 : Memref sig .tc .vmem S128x128 .bf16) (harg4 : arg4.IsWhole) (arg5 : Memref sig .tc .vmem S1x128 .f32) (harg5 : arg5.IsWhole) (arg6 : Memref sig .tc .vmem S5000x128 .f32) (harg6 : arg6.IsWhole)
    (x0 : Vec F S5000x128 .bf16) (x1 : Vec F S128x128 .bf16) (x2 : Vec F S1x128 .f32) (x3 : Vec F S128x128 .bf16) (x4 : Vec F S1x128 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ (∃ d, owns (c : Thread nD τ) arg6 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare (out5_5 x0 x1 x2 x3 x4)) -∗ K ⟨⟩))
      ⊢ wp frame (wpE (defs₀ (F := F)) Variants.none c none) E (cc5__mlp_kernel i arg1 harg1 arg2 harg2 arg3 harg3 arg4 harg4 arg5 harg5 arg6 harg6) K := by
  simp only [cc5__mlp_kernel_eq_skeleton]; unfold cc5__mlp_kernel_skel
  unfold owns
  iintro ⟨⟨%f0, %hf0, H0⟩, ⟨%f1, %hf1, H1⟩, ⟨%f2, %hf2, H2⟩, ⟨%f3, %hf3, H3⟩, ⟨%f4, %hf4, H4⟩, ⟨%d5, %f5, -, H5⟩, Hk⟩
  subst hf0; subst hf1; subst hf2; subst hf3; subst hf4
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  iexists _; isplitr
  swap; · iexact H5
  ipureintro
  exact View.read_writes_eq_canon _ _ _ (cover5_5 _)

/-- The proof data of pipeline 5 on core `c`: the arrays as the region finds them; after the body at point `t` each
    input's buffer at its block and the output's at `out5_5` of the input blocks; nothing owed; full shares. -/
def dat5 (c : Dev nD) : Dat τ (Elt F) Unit ℕ (Pipeline.UD sig nD τ) ℕ cfg5 c where
  A w := V c (Pipeline.arrRef spec5 w)
  after w t := match w with
    | ⟨0, _⟩ => iblk5 V c 0 t
    | ⟨1, _⟩ => iblk5 V c 1 t
    | ⟨2, _⟩ => iblk5 V c 2 t
    | ⟨3, _⟩ => iblk5 V c 3 t
    | ⟨4, _⟩ => iblk5 V c 4 t
    | ⟨5, _⟩ => out5_5 (iblk5 V c 0 t) (iblk5 V c 1 t) (iblk5 V c 2 t) (iblk5 V c 3 t) (iblk5 V c 4 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_0 (c : Dev nD) (t : Fin cfg5.N) : (dat5 V c).after 0 t = iblk5 V c 0 t := by dsimp only [dat5]
theorem after5_1 (c : Dev nD) (t : Fin cfg5.N) : (dat5 V c).after 1 t = iblk5 V c 1 t := by dsimp only [dat5]
theorem after5_2 (c : Dev nD) (t : Fin cfg5.N) : (dat5 V c).after 2 t = iblk5 V c 2 t := by dsimp only [dat5]
theorem after5_3 (c : Dev nD) (t : Fin cfg5.N) : (dat5 V c).after 3 t = iblk5 V c 3 t := by dsimp only [dat5]
theorem after5_4 (c : Dev nD) (t : Fin cfg5.N) : (dat5 V c).after 4 t = iblk5 V c 4 t := by dsimp only [dat5]
theorem after5_5 (c : Dev nD) (t : Fin cfg5.N) : (dat5 V c).after 5 t = out5_5 (iblk5 V c 0 t) (iblk5 V c 1 t) (iblk5 V c 2 t) (iblk5 V c 3 t) (iblk5 V c 4 t) := by dsimp only [dat5]

theorem before5_0 (c : Dev nD) (t : Fin cfg5.N) (d) : (dat5 V c).before 0 t d = iblk5 V c 0 t :=
  before5_0_of V (dat5 V c) (A_eq5 V c 0) (after5_0 V c) t d
theorem before5_1 (c : Dev nD) (t : Fin cfg5.N) (d) : (dat5 V c).before 1 t d = iblk5 V c 1 t :=
  before5_1_of V (dat5 V c) (A_eq5 V c 1) (after5_1 V c) t d
theorem before5_2 (c : Dev nD) (t : Fin cfg5.N) (d) : (dat5 V c).before 2 t d = iblk5 V c 2 t :=
  before5_2_of V (dat5 V c) (A_eq5 V c 2) (after5_2 V c) t d
theorem before5_3 (c : Dev nD) (t : Fin cfg5.N) (d) : (dat5 V c).before 3 t d = iblk5 V c 3 t :=
  before5_3_of V (dat5 V c) (A_eq5 V c 3) (after5_3 V c) t d
theorem before5_4 (c : Dev nD) (t : Fin cfg5.N) (d) : (dat5 V c).before 4 t d = iblk5 V c 4 t :=
  before5_4_of V (dat5 V c) (A_eq5 V c 4) (after5_4 V c) t d

/-- What the body is called with at point `t`, the windows one by one, -/
def bodyPre5 (c : Dev nD) (t : Fin cfg5.N) : sProp 𝕄 :=
  iprop((dat5 V c).Φ t.castSucc ∗ (dat5 V c).owesAt () t.castSucc
    ∗ (∃ d, owns (c : Thread nD τ) (st5_0 t) fullShare ((dat5 V c).before 0 t d))
    ∗ (∃ d, owns (c : Thread nD τ) (st5_1 t) fullShare ((dat5 V c).before 1 t d))
    ∗ (∃ d, owns (c : Thread nD τ) (st5_2 t) fullShare ((dat5 V c).before 2 t d))
    ∗ (∃ d, owns (c : Thread nD τ) (st5_3 t) fullShare ((dat5 V c).before 3 t d))
    ∗ (∃ d, owns (c : Thread nD τ) (st5_4 t) fullShare ((dat5 V c).before 4 t d))
    ∗ (∃ d, owns (c : Thread nD τ) (st5_5 t) fullShare ((dat5 V c).before 5 t d)))

/-- and what it returns. -/
def bodyPost5 (c : Dev nD) (t : Fin cfg5.N) : sProp 𝕄 :=
  iprop((dat5 V c).Φ t.succ ∗ (dat5 V c).owesAt () t.succ
    ∗ owns (c : Thread nD τ) (st5_0 t) fullShare ((dat5 V c).after 0 t)
    ∗ owns (c : Thread nD τ) (st5_1 t) fullShare ((dat5 V c).after 1 t)
    ∗ owns (c : Thread nD τ) (st5_2 t) fullShare ((dat5 V c).after 2 t)
    ∗ owns (c : Thread nD τ) (st5_3 t) fullShare ((dat5 V c).after 3 t)
    ∗ owns (c : Thread nD τ) (st5_4 t) fullShare ((dat5 V c).after 4 t)
    ∗ owns (c : Thread nD τ) (st5_5 t) fullShare ((dat5 V c).after 5 t))

/-- The body at any point: the inputs' memrefs hold their blocks, so the kernel's triple applies; the invariant and the
    core's dues pass through unread. -/
theorem sound_body5 (c : Dev nD) (t : Fin cfg5.N) :
    bodyPre5 V c t ⊢ wp frame (wpE (defs₀ (F := F)) Variants.none c none) Set.univ (bodyAt5 t) (fun _ => bodyPost5 V c t) := by
  unfold bodyPre5 bodyPost5 bodyAt5
  simp only [before5_0, before5_1, before5_2, before5_3, before5_4]
  rw [show (dat5 V c).Φ t.succ = (dat5 V c).Φ t.castSucc from rfl,
    show (dat5 V c).owesAt () t.succ = (dat5 V c).owesAt () t.castSucc from rfl,
    after5_0, after5_1, after5_2, after5_3, after5_4, after5_5]
  iintro ⟨HΦ, Ho, ⟨%d0, H0⟩, ⟨%d1, H1⟩, ⟨%d2, H2⟩, ⟨%d3, H3⟩, ⟨%d4, H4⟩, ⟨%d5, H5⟩⟩
  iapply (sound_kernel5 c Set.univ (grid5.coords t) _ _ _ _ _ _ _ _ _ _ _ _ (iblk5 V c 0 t) (iblk5 V c 1 t) (iblk5 V c 2 t) (iblk5 V c 3 t) (iblk5 V c 4 t) _)
  isplitl [H0]; · iexact H0
  isplitl [H1]; · iexact H1
  isplitl [H2]; · iexact H2
  isplitl [H3]; · iexact H3
  isplitl [H4]; · iexact H4
  isplitl [H5]; · iexists _; iexact H5
  iintro ⟨H0, H1, H2, H3, H4, H5⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  iexact H5

/-- The library's body obligation, at every point. -/
theorem body_obligation5 (c : Dev nD) : BodyObligation (dat5 (F := F) V c) (defs₀ (F := F)) Variants.none () Set.univ := fun t => by
  rw [bigSep_W5, bigSep_W5]
  exact sound_body5 V c t

end Cert.KernelIdeal.Reg

end
-- ==== Proof.RegI6.lean ====
/-
  Region 6 of the host program: one grid of a kernel whose body loads every input window's block whole, computes
  one value and stores it whole into the output window's block. This file states what the block of every window
  is at a grid point, what the body leaves in the output block (its single store read back), the body's Hoare
  triple on whole staging buffers, and the proof data of the software pipeline around it: arrays as the region
  finds them, input blocks unchanged by the body, nothing owed between points.
-/
import proofs.«130465_j18580028523178_1_alg».proof.Proof.Gen.KernelIdeal.Launch
import proofs.«130465_j18580028523178_1_alg».proof.Proof.Gen.KernelIdeal.Skeleton
import proofs.«130465_j18580028523178_1_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (V : (c : Dev nD) → (b : Ref sig .tc) → Buf (Elt F) ((c : Thread nD τ).loc b))

/-! # Region 6: the windows' blocks, what the body leaves, its triple, the proof data and the body obligation -/

/-- Window `w`'s block at point `t`, read off its array as the region finds it. -/
def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

/-- An input window's current staging buffer holds its block at every point, fetched there or not. -/
theorem before6_0_of {c : Dev nD} (dat : Dat τ (Elt F) Unit ℕ (Pipeline.UD sig nD τ) ℕ cfg6 c) (hA : dat.A 0 = V c (Pipeline.arrRef spec6 0))
    (hafter : ∀ t, dat.after 0 t = iblk6 V c 0 t) (t : Fin cfg6.N) (d) : dat.before 0 t d = iblk6 V c 0 t :=
  (dat.before_in_eq_fetched 0 rfl (fun _ => rfl) (fun _ _ _ => rfl) (fun t => by rw [hafter]; unfold Dat.blockOf iblk6; rw [hA]; try rfl) t d).trans
    (by unfold Dat.fetched Dat.blockOf iblk6; rw [hA]; try rfl)

/-- An input window's current staging buffer holds its block at every point, fetched there or not. -/
theorem before6_1_of {c : Dev nD} (dat : Dat τ (Elt F) Unit ℕ (Pipeline.UD sig nD τ) ℕ cfg6 c) (hA : dat.A 1 = V c (Pipeline.arrRef spec6 1))
    (hafter : ∀ t, dat.after 1 t = iblk6 V c 1 t) (t : Fin cfg6.N) (d) : dat.before 1 t d = iblk6 V c 1 t :=
  (dat.before_in_eq_fetched 1 rfl (fun _ => rfl) (fun _ _ _ => rfl) (fun t => by rw [hafter]; unfold Dat.blockOf iblk6; rw [hA]; try rfl) t d).trans
    (by unfold Dat.fetched Dat.blockOf iblk6; rw [hA]; try rfl)

/-- An input window's current staging buffer holds its block at every point, fetched there or not. -/
theorem before6_2_of {c : Dev nD} (dat : Dat τ (Elt F) Unit ℕ (Pipeline.UD sig nD τ) ℕ cfg6 c) (hA : dat.A 2 = V c (Pipeline.arrRef spec6 2))
    (hafter : ∀ t, dat.after 2 t = iblk6 V c 2 t) (t : Fin cfg6.N) (d) : dat.before 2 t d = iblk6 V c 2 t :=
  (dat.before_in_eq_fetched 2 rfl (fun _ => rfl) (fun _ _ _ => rfl) (fun t => by rw [hafter]; unfold Dat.blockOf iblk6; rw [hA]; try rfl) t d).trans
    (by unfold Dat.fetched Dat.blockOf iblk6; rw [hA]; try rfl)

abbrev r6_S5000x512 : Rect S5000x512 := Rect.unit (s := S5000x512) ![0, 0] S5000x512.size inb_S5000x512_S5000x512_0_0
abbrev r6_S512x128 : Rect S512x128 := Rect.unit (s := S512x128) ![0, 0] S512x128.size inb_S512x128_S512x128_0_0
abbrev r6_S1x128 : Rect S1x128 := Rect.unit (s := S1x128) ![0, 0] S1x128.size inb_S1x128_S1x128_0_0
abbrev r6_S5000x128 : Rect S5000x128 := Rect.unit (s := S5000x128) ![0, 0] S5000x128.size inb_S5000x128_S5000x128_0_0

/-- The output window's staging buffer after the body, from the input windows' blocks: its one store as a piece. -/
def out6_3 (x0 : Vec F S5000x512 .bf16) (x1 : Vec F S512x128 .bf16) (x2 : Vec F S1x128 .f32) : Vec F S5000x128 .f32 :=
  View.canon [⟨r6_S5000x128, k6_pay1 (View.ld x0 r6_S5000x512) (View.ld x1 r6_S512x128) (View.ld x2 r6_S1x128)⟩]

/-- The one store tiles the buffer, so it covers it. -/
theorem cover6_3 (p0 : Vec F S5000x128 .f32) (y : S5000x128.Idx) :
    ∃ pc ∈ ([⟨r6_S5000x128, p0⟩] : List (View.Piece (Elt F) S5000x128 .f32)), y ∈ pc.1.set :=
  View.cover_of_tiled [⟨r6_S5000x128, p0⟩] S5000x128.size (by rfl) y

set_option maxHeartbeats 4000000 in
/-- The kernel body on whole staging memrefs, the inputs' at contents `xW` and the output's at anything, runs to the
    continuation holding the inputs' as they were and the output's at `out6_3` of the inputs'. -/
theorem sound_kernel6 (c : Dev nD) (E : Set ℕ) (i : grid6.Coords) (arg1 : Memref sig .tc .vmem S5000x512 .bf16) (harg1 : arg1.IsWhole) (arg2 : Memref sig .tc .vmem S512x128 .bf16) (harg2 : arg2.IsWhole) (arg3 : Memref sig .tc .vmem S1x128 .f32) (harg3 : arg3.IsWhole) (arg4 : Memref sig .tc .vmem S5000x128 .f32) (harg4 : arg4.IsWhole)
    (x0 : Vec F S5000x512 .bf16) (x1 : Vec F S512x128 .bf16) (x2 : Vec F S1x128 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out6_3 x0 x1 x2)) -∗ K ⟨⟩))
      ⊢ wp frame (wpE (defs₀ (F := F)) Variants.none c none) E (cc6__final_kernel i arg1 harg1 arg2 harg2 arg3 harg3 arg4 harg4) K := by
  simp only [cc6__final_kernel_eq_skeleton]; unfold cc6__final_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover6_3 _)

/-- The proof data of pipeline 6 on core `c`: the arrays as the region finds them; after the body at point `t` each
    input's buffer at its block and the output's at `out6_3` of the input blocks; nothing owed; full shares. -/
def dat6 (c : Dev nD) : Dat τ (Elt F) Unit ℕ (Pipeline.UD sig nD τ) ℕ cfg6 c where
  A w := V c (Pipeline.arrRef spec6 w)
  after w t := match w with
    | ⟨0, _⟩ => iblk6 V c 0 t
    | ⟨1, _⟩ => iblk6 V c 1 t
    | ⟨2, _⟩ => iblk6 V c 2 t
    | ⟨3, _⟩ => out6_3 (iblk6 V c 0 t) (iblk6 V c 1 t) (iblk6 V c 2 t)
  Φ _ := Pipeline.ΦA spec6 c
  q _ := fullShare
  owed _ := 0

theorem A_eq6 (c : Dev nD) (w : Fin cfg6.W) : (dat6 V c).A w = V c (Pipeline.arrRef spec6 w) := by
  dsimp only [dat6]

theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = iblk6 V c 2 t := by dsimp only [dat6]
theorem after6_3 (c : Dev nD) (t : Fin cfg6.N) : (dat6 V c).after 3 t = out6_3 (iblk6 V c 0 t) (iblk6 V c 1 t) (iblk6 V c 2 t) := by dsimp only [dat6]

theorem before6_0 (c : Dev nD) (t : Fin cfg6.N) (d) : (dat6 V c).before 0 t d = iblk6 V c 0 t :=
  before6_0_of V (dat6 V c) (A_eq6 V c 0) (after6_0 V c) t d
theorem before6_1 (c : Dev nD) (t : Fin cfg6.N) (d) : (dat6 V c).before 1 t d = iblk6 V c 1 t :=
  before6_1_of V (dat6 V c) (A_eq6 V c 1) (after6_1 V c) t d
theorem before6_2 (c : Dev nD) (t : Fin cfg6.N) (d) : (dat6 V c).before 2 t d = iblk6 V c 2 t :=
  before6_2_of V (dat6 V c) (A_eq6 V c 2) (after6_2 V c) t d

/-- What the body is called with at point `t`, the windows one by one, -/
def bodyPre6 (c : Dev nD) (t : Fin cfg6.N) : sProp 𝕄 :=
  iprop((dat6 V c).Φ t.castSucc ∗ (dat6 V c).owesAt () t.castSucc
    ∗ (∃ d, owns (c : Thread nD τ) (st6_0 t) fullShare ((dat6 V c).before 0 t d))
    ∗ (∃ d, owns (c : Thread nD τ) (st6_1 t) fullShare ((dat6 V c).before 1 t d))
    ∗ (∃ d, owns (c : Thread nD τ) (st6_2 t) fullShare ((dat6 V c).before 2 t d))
    ∗ (∃ d, owns (c : Thread nD τ) (st6_3 t) fullShare ((dat6 V c).before 3 t d)))

/-- and what it returns. -/
def bodyPost6 (c : Dev nD) (t : Fin cfg6.N) : sProp 𝕄 :=
  iprop((dat6 V c).Φ t.succ ∗ (dat6 V c).owesAt () t.succ
    ∗ owns (c : Thread nD τ) (st6_0 t) fullShare ((dat6 V c).after 0 t)
    ∗ owns (c : Thread nD τ) (st6_1 t) fullShare ((dat6 V c).after 1 t)
    ∗ owns (c : Thread nD τ) (st6_2 t) fullShare ((dat6 V c).after 2 t)
    ∗ owns (c : Thread nD τ) (st6_3 t) fullShare ((dat6 V c).after 3 t))

/-- The body at any point: the inputs' memrefs hold their blocks, so the kernel's triple applies; the invariant and the
    core's dues pass through unread. -/
theorem sound_body6 (c : Dev nD) (t : Fin cfg6.N) :
    bodyPre6 V c t ⊢ wp frame (wpE (defs₀ (F := F)) Variants.none c none) Set.univ (bodyAt6 t) (fun _ => bodyPost6 V c t) := by
  unfold bodyPre6 bodyPost6 bodyAt6
  simp only [before6_0, before6_1, before6_2]
  rw [show (dat6 V c).Φ t.succ = (dat6 V c).Φ t.castSucc from rfl,
    show (dat6 V c).owesAt () t.succ = (dat6 V c).owesAt () t.castSucc from rfl,
    after6_0, after6_1, after6_2, after6_3]
  iintro ⟨HΦ, Ho, ⟨%d0, H0⟩, ⟨%d1, H1⟩, ⟨%d2, H2⟩, ⟨%d3, H3⟩⟩
  iapply (sound_kernel6 c Set.univ (grid6.coords t) _ _ _ _ _ _ _ _ (iblk6 V c 0 t) (iblk6 V c 1 t) (iblk6 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The library's body obligation, at every point. -/
theorem body_obligation6 (c : Dev nD) : BodyObligation (dat6 (F := F) V c) (defs₀ (F := F)) Variants.none () Set.univ := fun t => by
  rw [bigSep_W6, bigSep_W6]
  exact sound_body6 V c t

end Cert.KernelIdeal.Reg

end
-- ==== Proof.RunI.lean ====
/-
  The run of the host program through its seven kernel regions. Between two items of the program every unscoped buffer
  of a core is held at a known valuation: the launch memory, then each host stretch's operations folded over it, then,
  after a region, the region's output array replaced by what the region's write-backs leave (the fold of the flushed
  blocks over the array as entered). Each region is entered from that state and left at the next one; the arrays
  its windows look at are split out of the unscoped buffers at entry and put back at exit. The whole run then ends with
  every unscoped buffer at the last valuation, from which the result and the unchanged arguments are read.
-/
import proofs.«130465_j18580028523178_1_alg».proof.Proof.RegI0
import proofs.«130465_j18580028523178_1_alg».proof.Proof.RegI1
import proofs.«130465_j18580028523178_1_alg».proof.Proof.RegI2
import proofs.«130465_j18580028523178_1_alg».proof.Proof.RegI3
import proofs.«130465_j18580028523178_1_alg».proof.Proof.RegI4
import proofs.«130465_j18580028523178_1_alg».proof.Proof.RegI5
import proofs.«130465_j18580028523178_1_alg».proof.Proof.RegI6
import proofs.«130465_j18580028523178_1_alg».proof.Proof.Gen.KernelIdeal.Regions

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ)

/-- A valuation read at the TensorCore's references. -/
abbrev tcv (W : Dev nD → Valuation τ sig (Elt F)) : (c : Dev nD) → (b : Ref sig .tc) → Buf (Elt F) ((c : Thread nD τ).loc b) :=
  fun c b => W c b

/-! ## The buffers' contents at each boundary -/

/-- After the first host stretch. -/
def U1 (c : Dev nD) : Valuation τ sig (Elt F) := Gen.V1 m c
set_option backward.isDefEq.respectTransparency.types false in
/-- After region 0: its output array at what the write-backs leave, every other buffer as entered. -/
def U2 (c : Dev nD) : Valuation τ sig (Elt F) :=
  Function.update (U1 m c) main_v21 ((dat0 (tcv (U1 m)) c).arrAt 4 cfg0.N)
theorem U2_of_ne (c : Dev nD) (b : Ref sig .tc) (h : b ≠ main_v21) : U2 m c b = U1 m c b := by
  unfold U2
  exact Function.update_of_ne (StableHlo.devRef_ne_of_ne h : (Proc.devRef .tc b : DevRef τ sig) ≠ Proc.devRef .tc main_v21) _ _
theorem U2_out (c : Dev nD) : U2 m c main_v21 = (dat0 (tcv (U1 m)) c).arrAt 4 cfg0.N := by
  unfold U2; exact Function.update_self _ _ _
/-- After the host stretch that follows region 0. -/
def U3 (c : Dev nD) : Valuation τ sig (Elt F) := StableHlo.after hostOps1 (U2 m c)
set_option backward.isDefEq.respectTransparency.types false in
/-- After region 1: its output array at what the write-backs leave, every other buffer as entered. -/
def U4 (c : Dev nD) : Valuation τ sig (Elt F) :=
  Function.update (U3 m c) main_v46 ((dat1 (tcv (U3 m)) c).arrAt 5 cfg1.N)
theorem U4_of_ne (c : Dev nD) (b : Ref sig .tc) (h : b ≠ main_v46) : U4 m c b = U3 m c b := by
  unfold U4
  exact Function.update_of_ne (StableHlo.devRef_ne_of_ne h : (Proc.devRef .tc b : DevRef τ sig) ≠ Proc.devRef .tc main_v46) _ _
theorem U4_out (c : Dev nD) : U4 m c main_v46 = (dat1 (tcv (U3 m)) c).arrAt 5 cfg1.N := by
  unfold U4; exact Function.update_self _ _ _
/-- After the host stretch that follows region 1. -/
def U5 (c : Dev nD) : Valuation τ sig (Elt F) := StableHlo.after hostOps2 (U4 m c)
set_option backward.isDefEq.respectTransparency.types false in
/-- After region 2: its output array at what the write-backs leave, every other buffer as entered. -/
def U6 (c : Dev nD) : Valuation τ sig (Elt F) :=
  Function.update (U5 m c) main_v59 ((dat2 (tcv (U5 m)) c).arrAt 4 cfg2.N)
theorem U6_of_ne (c : Dev nD) (b : Ref sig .tc) (h : b ≠ main_v59) : U6 m c b = U5 m c b := by
  unfold U6
  exact Function.update_of_ne (StableHlo.devRef_ne_of_ne h : (Proc.devRef .tc b : DevRef τ sig) ≠ Proc.devRef .tc main_v59) _ _
theorem U6_out (c : Dev nD) : U6 m c main_v59 = (dat2 (tcv (U5 m)) c).arrAt 4 cfg2.N := by
  unfold U6; exact Function.update_self _ _ _
/-- After the host stretch that follows region 2. -/
def U7 (c : Dev nD) : Valuation τ sig (Elt F) := StableHlo.after hostOps3 (U6 m c)
set_option backward.isDefEq.respectTransparency.types false in
/-- After region 3: its output array at what the write-backs leave, every other buffer as entered. -/
def U8 (c : Dev nD) : Valuation τ sig (Elt F) :=
  Function.update (U7 m c) main_v84 ((dat3 (tcv (U7 m)) c).arrAt 5 cfg3.N)
theorem U8_of_ne (c : Dev nD) (b : Ref sig .tc) (h : b ≠ main_v84) : U8 m c b = U7 m c b := by
  unfold U8
  exact Function.update_of_ne (StableHlo.devRef_ne_of_ne h : (Proc.devRef .tc b : DevRef τ sig) ≠ Proc.devRef .tc main_v84) _ _
theorem U8_out (c : Dev nD) : U8 m c main_v84 = (dat3 (tcv (U7 m)) c).arrAt 5 cfg3.N := by
  unfold U8; exact Function.update_self _ _ _
/-- After the host stretch that follows region 3. -/
def U9 (c : Dev nD) : Valuation τ sig (Elt F) := StableHlo.after hostOps4 (U8 m c)
set_option backward.isDefEq.respectTransparency.types false in
/-- After region 4: its output array at what the write-backs leave, every other buffer as entered. -/
def U10 (c : Dev nD) : Valuation τ sig (Elt F) :=
  Function.update (U9 m c) main_v97 ((dat4 (tcv (U9 m)) c).arrAt 4 cfg4.N)
theorem U10_of_ne (c : Dev nD) (b : Ref sig .tc) (h : b ≠ main_v97) : U10 m c b = U9 m c b := by
  unfold U10
  exact Function.update_of_ne (StableHlo.devRef_ne_of_ne h : (Proc.devRef .tc b : DevRef τ sig) ≠ Proc.devRef .tc main_v97) _ _
theorem U10_out (c : Dev nD) : U10 m c main_v97 = (dat4 (tcv (U9 m)) c).arrAt 4 cfg4.N := by
  unfold U10; exact Function.update_self _ _ _
/-- After the host stretch that follows region 4. -/
def U11 (c : Dev nD) : Valuation τ sig (Elt F) := StableHlo.after hostOps5 (U10 m c)
set_option backward.isDefEq.respectTransparency.types false in
/-- After region 5: its output array at what the write-backs leave, every other buffer as entered. -/
def U12 (c : Dev nD) : Valuation τ sig (Elt F) :=
  Function.update (U11 m c) main_v122 ((dat5 (tcv (U11 m)) c).arrAt 5 cfg5.N)
theorem U12_of_ne (c : Dev nD) (b : Ref sig .tc) (h : b ≠ main_v122) : U12 m c b = U11 m c b := by
  unfold U12
  exact Function.update_of_ne (StableHlo.devRef_ne_of_ne h : (Proc.devRef .tc b : DevRef τ sig) ≠ Proc.devRef .tc main_v122) _ _
theorem U12_out (c : Dev nD) : U12 m c main_v122 = (dat5 (tcv (U11 m)) c).arrAt 5 cfg5.N := by
  unfold U12; exact Function.update_self _ _ _
/-- After the host stretch that follows region 5. -/
def U13 (c : Dev nD) : Valuation τ sig (Elt F) := StableHlo.after hostOps6 (U12 m c)
set_option backward.isDefEq.respectTransparency.types false in
/-- After region 6: its output array at what the write-backs leave, every other buffer as entered. -/
def U14 (c : Dev nD) : Valuation τ sig (Elt F) :=
  Function.update (U13 m c) main_v127 ((dat6 (tcv (U13 m)) c).arrAt 3 cfg6.N)
theorem U14_of_ne (c : Dev nD) (b : Ref sig .tc) (h : b ≠ main_v127) : U14 m c b = U13 m c b := by
  unfold U14
  exact Function.update_of_ne (StableHlo.devRef_ne_of_ne h : (Proc.devRef .tc b : DevRef τ sig) ≠ Proc.devRef .tc main_v127) _ _
theorem U14_out (c : Dev nD) : U14 m c main_v127 = (dat6 (tcv (U13 m)) c).arrAt 3 cfg6.N := by
  unfold U14; exact Function.update_self _ _ _

/-- What the regions leave, as the conditional frame's unknowns: each boundary's valuation read at the reference. -/
def outsU : Gen.Outs (F := F) := fun J r c => match J with
  | 2 => U2 m c r | 4 => U4 m c r | 6 => U6 m c r | 8 => U8 m c r | 10 => U10 m c r | 12 => U12 m c r | 14 => U14 m c r
  | _ => Gen.V0 m c r

theorem VU1 (c : Dev nD) : Gen.V1 m c = U1 m c := by unfold U1; rfl
theorem VU2 (c : Dev nD) : Gen.V2 m (outsU m) c = U2 m c := by
  show Function.update (Gen.V1 m c) main_v21 (U2 m c main_v21) = U2 m c
  rw [VU1 m c, U2_out]; rfl
theorem VU3 (c : Dev nD) : Gen.V3 m (outsU m) c = U3 m c := by
  show StableHlo.after hostOps1 (Gen.V2 m (outsU m) c) = U3 m c
  rw [VU2 m c]; rfl
theorem VU4 (c : Dev nD) : Gen.V4 m (outsU m) c = U4 m c := by
  show Function.update (Gen.V3 m (outsU m) c) main_v46 (U4 m c main_v46) = U4 m c
  rw [VU3 m c, U4_out]; rfl
theorem VU5 (c : Dev nD) : Gen.V5 m (outsU m) c = U5 m c := by
  show StableHlo.after hostOps2 (Gen.V4 m (outsU m) c) = U5 m c
  rw [VU4 m c]; rfl
theorem VU6 (c : Dev nD) : Gen.V6 m (outsU m) c = U6 m c := by
  show Function.update (Gen.V5 m (outsU m) c) main_v59 (U6 m c main_v59) = U6 m c
  rw [VU5 m c, U6_out]; rfl
theorem VU7 (c : Dev nD) : Gen.V7 m (outsU m) c = U7 m c := by
  show StableHlo.after hostOps3 (Gen.V6 m (outsU m) c) = U7 m c
  rw [VU6 m c]; rfl
theorem VU8 (c : Dev nD) : Gen.V8 m (outsU m) c = U8 m c := by
  show Function.update (Gen.V7 m (outsU m) c) main_v84 (U8 m c main_v84) = U8 m c
  rw [VU7 m c, U8_out]; rfl
theorem VU9 (c : Dev nD) : Gen.V9 m (outsU m) c = U9 m c := by
  show StableHlo.after hostOps4 (Gen.V8 m (outsU m) c) = U9 m c
  rw [VU8 m c]; rfl
theorem VU10 (c : Dev nD) : Gen.V10 m (outsU m) c = U10 m c := by
  show Function.update (Gen.V9 m (outsU m) c) main_v97 (U10 m c main_v97) = U10 m c
  rw [VU9 m c, U10_out]; rfl
theorem VU11 (c : Dev nD) : Gen.V11 m (outsU m) c = U11 m c := by
  show StableHlo.after hostOps5 (Gen.V10 m (outsU m) c) = U11 m c
  rw [VU10 m c]; rfl
theorem VU12 (c : Dev nD) : Gen.V12 m (outsU m) c = U12 m c := by
  show Function.update (Gen.V11 m (outsU m) c) main_v122 (U12 m c main_v122) = U12 m c
  rw [VU11 m c, U12_out]; rfl
theorem VU13 (c : Dev nD) : Gen.V13 m (outsU m) c = U13 m c := by
  show StableHlo.after hostOps6 (Gen.V12 m (outsU m) c) = U13 m c
  rw [VU12 m c]; rfl
theorem VU14 (c : Dev nD) : Gen.V14 m (outsU m) c = U14 m c := by
  show Function.update (Gen.V13 m (outsU m) c) main_v127 (U14 m c main_v127) = U14 m c
  rw [VU13 m c, U14_out]; rfl

/-! ## At a region's exit each of its arrays holds what the pipeline leaves, every other buffer what it held at entry -/
set_option maxHeartbeats 4000000 in
theorem hF0 (c : Dev nD) : ∀ w : Fin cfg0.W, (dat0 (tcv (U1 m)) c).arrAt w cfg0.N = tcv (U2 m) c (Pipeline.arrRef spec0 w)
  | ⟨0, _⟩ => ((dat0 (tcv (U1 m)) c).arrAt_in 0 rfl _).trans ((A_eq0 (tcv (U1 m)) c 0).trans (U2_of_ne m c _ (by decide)).symm)
  | ⟨1, _⟩ => ((dat0 (tcv (U1 m)) c).arrAt_in 1 rfl _).trans ((A_eq0 (tcv (U1 m)) c 1).trans (U2_of_ne m c _ (by decide)).symm)
  | ⟨2, _⟩ => ((dat0 (tcv (U1 m)) c).arrAt_in 2 rfl _).trans ((A_eq0 (tcv (U1 m)) c 2).trans (U2_of_ne m c _ (by decide)).symm)
  | ⟨3, _⟩ => ((dat0 (tcv (U1 m)) c).arrAt_in 3 rfl _).trans ((A_eq0 (tcv (U1 m)) c 3).trans (U2_of_ne m c _ (by decide)).symm)
  | ⟨4, _⟩ => (U2_out m c).symm
theorem hrest0 (c : Dev nD) : ∀ b, b ∉ Finset.univ.image (Pipeline.arrRef spec0) → tcv (U2 m) c b = tcv (U1 m) c b :=
  fun b hb => U2_of_ne m c b fun e => hb (Finset.mem_image.mpr ⟨4, Finset.mem_univ _, (by decide : Pipeline.arrRef spec0 4 = main_v21).trans e.symm⟩)
set_option maxHeartbeats 4000000 in
theorem hF1 (c : Dev nD) : ∀ w : Fin cfg1.W, (dat1 (tcv (U3 m)) c).arrAt w cfg1.N = tcv (U4 m) c (Pipeline.arrRef spec1 w)
  | ⟨0, _⟩ => ((dat1 (tcv (U3 m)) c).arrAt_in 0 rfl _).trans ((A_eq1 (tcv (U3 m)) c 0).trans (U4_of_ne m c _ (by decide)).symm)
  | ⟨1, _⟩ => ((dat1 (tcv (U3 m)) c).arrAt_in 1 rfl _).trans ((A_eq1 (tcv (U3 m)) c 1).trans (U4_of_ne m c _ (by decide)).symm)
  | ⟨2, _⟩ => ((dat1 (tcv (U3 m)) c).arrAt_in 2 rfl _).trans ((A_eq1 (tcv (U3 m)) c 2).trans (U4_of_ne m c _ (by decide)).symm)
  | ⟨3, _⟩ => ((dat1 (tcv (U3 m)) c).arrAt_in 3 rfl _).trans ((A_eq1 (tcv (U3 m)) c 3).trans (U4_of_ne m c _ (by decide)).symm)
  | ⟨4, _⟩ => ((dat1 (tcv (U3 m)) c).arrAt_in 4 rfl _).trans ((A_eq1 (tcv (U3 m)) c 4).trans (U4_of_ne m c _ (by decide)).symm)
  | ⟨5, _⟩ => (U4_out m c).symm
theorem hrest1 (c : Dev nD) : ∀ b, b ∉ Finset.univ.image (Pipeline.arrRef spec1) → tcv (U4 m) c b = tcv (U3 m) c b :=
  fun b hb => U4_of_ne m c b fun e => hb (Finset.mem_image.mpr ⟨5, Finset.mem_univ _, (by decide : Pipeline.arrRef spec1 5 = main_v46).trans e.symm⟩)
set_option maxHeartbeats 4000000 in
theorem hF2 (c : Dev nD) : ∀ w : Fin cfg2.W, (dat2 (tcv (U5 m)) c).arrAt w cfg2.N = tcv (U6 m) c (Pipeline.arrRef spec2 w)
  | ⟨0, _⟩ => ((dat2 (tcv (U5 m)) c).arrAt_in 0 rfl _).trans ((A_eq2 (tcv (U5 m)) c 0).trans (U6_of_ne m c _ (by decide)).symm)
  | ⟨1, _⟩ => ((dat2 (tcv (U5 m)) c).arrAt_in 1 rfl _).trans ((A_eq2 (tcv (U5 m)) c 1).trans (U6_of_ne m c _ (by decide)).symm)
  | ⟨2, _⟩ => ((dat2 (tcv (U5 m)) c).arrAt_in 2 rfl _).trans ((A_eq2 (tcv (U5 m)) c 2).trans (U6_of_ne m c _ (by decide)).symm)
  | ⟨3, _⟩ => ((dat2 (tcv (U5 m)) c).arrAt_in 3 rfl _).trans ((A_eq2 (tcv (U5 m)) c 3).trans (U6_of_ne m c _ (by decide)).symm)
  | ⟨4, _⟩ => (U6_out m c).symm
theorem hrest2 (c : Dev nD) : ∀ b, b ∉ Finset.univ.image (Pipeline.arrRef spec2) → tcv (U6 m) c b = tcv (U5 m) c b :=
  fun b hb => U6_of_ne m c b fun e => hb (Finset.mem_image.mpr ⟨4, Finset.mem_univ _, (by decide : Pipeline.arrRef spec2 4 = main_v59).trans e.symm⟩)
set_option maxHeartbeats 4000000 in
theorem hF3 (c : Dev nD) : ∀ w : Fin cfg3.W, (dat3 (tcv (U7 m)) c).arrAt w cfg3.N = tcv (U8 m) c (Pipeline.arrRef spec3 w)
  | ⟨0, _⟩ => ((dat3 (tcv (U7 m)) c).arrAt_in 0 rfl _).trans ((A_eq3 (tcv (U7 m)) c 0).trans (U8_of_ne m c _ (by decide)).symm)
  | ⟨1, _⟩ => ((dat3 (tcv (U7 m)) c).arrAt_in 1 rfl _).trans ((A_eq3 (tcv (U7 m)) c 1).trans (U8_of_ne m c _ (by decide)).symm)
  | ⟨2, _⟩ => ((dat3 (tcv (U7 m)) c).arrAt_in 2 rfl _).trans ((A_eq3 (tcv (U7 m)) c 2).trans (U8_of_ne m c _ (by decide)).symm)
  | ⟨3, _⟩ => ((dat3 (tcv (U7 m)) c).arrAt_in 3 rfl _).trans ((A_eq3 (tcv (U7 m)) c 3).trans (U8_of_ne m c _ (by decide)).symm)
  | ⟨4, _⟩ => ((dat3 (tcv (U7 m)) c).arrAt_in 4 rfl _).trans ((A_eq3 (tcv (U7 m)) c 4).trans (U8_of_ne m c _ (by decide)).symm)
  | ⟨5, _⟩ => (U8_out m c).symm
theorem hrest3 (c : Dev nD) : ∀ b, b ∉ Finset.univ.image (Pipeline.arrRef spec3) → tcv (U8 m) c b = tcv (U7 m) c b :=
  fun b hb => U8_of_ne m c b fun e => hb (Finset.mem_image.mpr ⟨5, Finset.mem_univ _, (by decide : Pipeline.arrRef spec3 5 = main_v84).trans e.symm⟩)
set_option maxHeartbeats 4000000 in
theorem hF4 (c : Dev nD) : ∀ w : Fin cfg4.W, (dat4 (tcv (U9 m)) c).arrAt w cfg4.N = tcv (U10 m) c (Pipeline.arrRef spec4 w)
  | ⟨0, _⟩ => ((dat4 (tcv (U9 m)) c).arrAt_in 0 rfl _).trans ((A_eq4 (tcv (U9 m)) c 0).trans (U10_of_ne m c _ (by decide)).symm)
  | ⟨1, _⟩ => ((dat4 (tcv (U9 m)) c).arrAt_in 1 rfl _).trans ((A_eq4 (tcv (U9 m)) c 1).trans (U10_of_ne m c _ (by decide)).symm)
  | ⟨2, _⟩ => ((dat4 (tcv (U9 m)) c).arrAt_in 2 rfl _).trans ((A_eq4 (tcv (U9 m)) c 2).trans (U10_of_ne m c _ (by decide)).symm)
  | ⟨3, _⟩ => ((dat4 (tcv (U9 m)) c).arrAt_in 3 rfl _).trans ((A_eq4 (tcv (U9 m)) c 3).trans (U10_of_ne m c _ (by decide)).symm)
  | ⟨4, _⟩ => (U10_out m c).symm
theorem hrest4 (c : Dev nD) : ∀ b, b ∉ Finset.univ.image (Pipeline.arrRef spec4) → tcv (U10 m) c b = tcv (U9 m) c b :=
  fun b hb => U10_of_ne m c b fun e => hb (Finset.mem_image.mpr ⟨4, Finset.mem_univ _, (by decide : Pipeline.arrRef spec4 4 = main_v97).trans e.symm⟩)
set_option maxHeartbeats 4000000 in
theorem hF5 (c : Dev nD) : ∀ w : Fin cfg5.W, (dat5 (tcv (U11 m)) c).arrAt w cfg5.N = tcv (U12 m) c (Pipeline.arrRef spec5 w)
  | ⟨0, _⟩ => ((dat5 (tcv (U11 m)) c).arrAt_in 0 rfl _).trans ((A_eq5 (tcv (U11 m)) c 0).trans (U12_of_ne m c _ (by decide)).symm)
  | ⟨1, _⟩ => ((dat5 (tcv (U11 m)) c).arrAt_in 1 rfl _).trans ((A_eq5 (tcv (U11 m)) c 1).trans (U12_of_ne m c _ (by decide)).symm)
  | ⟨2, _⟩ => ((dat5 (tcv (U11 m)) c).arrAt_in 2 rfl _).trans ((A_eq5 (tcv (U11 m)) c 2).trans (U12_of_ne m c _ (by decide)).symm)
  | ⟨3, _⟩ => ((dat5 (tcv (U11 m)) c).arrAt_in 3 rfl _).trans ((A_eq5 (tcv (U11 m)) c 3).trans (U12_of_ne m c _ (by decide)).symm)
  | ⟨4, _⟩ => ((dat5 (tcv (U11 m)) c).arrAt_in 4 rfl _).trans ((A_eq5 (tcv (U11 m)) c 4).trans (U12_of_ne m c _ (by decide)).symm)
  | ⟨5, _⟩ => (U12_out m c).symm
theorem hrest5 (c : Dev nD) : ∀ b, b ∉ Finset.univ.image (Pipeline.arrRef spec5) → tcv (U12 m) c b = tcv (U11 m) c b :=
  fun b hb => U12_of_ne m c b fun e => hb (Finset.mem_image.mpr ⟨5, Finset.mem_univ _, (by decide : Pipeline.arrRef spec5 5 = main_v122).trans e.symm⟩)
set_option maxHeartbeats 4000000 in
theorem hF6 (c : Dev nD) : ∀ w : Fin cfg6.W, (dat6 (tcv (U13 m)) c).arrAt w cfg6.N = tcv (U14 m) c (Pipeline.arrRef spec6 w)
  | ⟨0, _⟩ => ((dat6 (tcv (U13 m)) c).arrAt_in 0 rfl _).trans ((A_eq6 (tcv (U13 m)) c 0).trans (U14_of_ne m c _ (by decide)).symm)
  | ⟨1, _⟩ => ((dat6 (tcv (U13 m)) c).arrAt_in 1 rfl _).trans ((A_eq6 (tcv (U13 m)) c 1).trans (U14_of_ne m c _ (by decide)).symm)
  | ⟨2, _⟩ => ((dat6 (tcv (U13 m)) c).arrAt_in 2 rfl _).trans ((A_eq6 (tcv (U13 m)) c 2).trans (U14_of_ne m c _ (by decide)).symm)
  | ⟨3, _⟩ => (U14_out m c).symm
theorem hrest6 (c : Dev nD) : ∀ b, b ∉ Finset.univ.image (Pipeline.arrRef spec6) → tcv (U14 m) c b = tcv (U13 m) c b :=
  fun b hb => U14_of_ne m c b fun e => hb (Finset.mem_image.mpr ⟨3, Finset.mem_univ _, (by decide : Pipeline.arrRef spec6 3 = main_v127).trans e.symm⟩)

/-! ## The proof data family and the thread state -/

/-- Every pipeline's proof data, each at its region's entry contents. -/
def pdats : (p : Fin 7) → (c : Dev nD) → Dat τ (Elt F) Unit ℕ (Pipeline.UD sig nD τ) ℕ (cfgs p) c
  | ⟨0, _⟩ => fun c => dat0 (tcv (U1 m)) c
  | ⟨1, _⟩ => fun c => dat1 (tcv (U3 m)) c
  | ⟨2, _⟩ => fun c => dat2 (tcv (U5 m)) c
  | ⟨3, _⟩ => fun c => dat3 (tcv (U7 m)) c
  | ⟨4, _⟩ => fun c => dat4 (tcv (U9 m)) c
  | ⟨5, _⟩ => fun c => dat5 (tcv (U11 m)) c
  | ⟨6, _⟩ => fun c => dat6 (tcv (U13 m)) c
abbrev 𝒱₀ : Variants := Variants.none
abbrev L : GSem nD τ sig → Finset Unit := fun _ => ∅
abbrev lv : GSem nD τ sig → Unit → ℕ := fun _ _ => 0
/-- What rides beside the buffers through every item: the core's generator register at some state and the core owing nothing. -/
abbrev R (c : Dev nD) : sProp 𝕄 := iprop((∃ r, prngReg c r) ∗ ∃ W, owes (c : Thread nD τ) (0 : CellTallies nD τ sig Unit) W)

/-! ## The regions as segments -/

set_option backward.isDefEq.respectTransparency.types false in
/-- Region 0 over the thread state: entered from every unscoped buffer at the boundary before it, left at the next. -/
def reg0 : Pipeline.RegionSeg (pcfgs (F := F)) Gen.adm (pdats m) () defs₀ 𝒱₀ L lv 0 where
  win := launch0.win.to₀
  block_pos := launch0.block_pos
  stage_whole := launch0.stage_whole
  K := PEmpty
  osem k := k.elim
  ho := Pipeline.OwnSemFacts.none _
  hbody c := (body_obligation0 (tcv (U1 m)) c).loose
  hwaits := Pipeline.hwaits_of_owed_zero _ _ _ _ L lv 0 fun _ _ => rfl
  pre c := iprop(StableHlo.held (c : Thread nD τ) (Pipeline.ucRefs τ sig) (U1 m c) ∗ R c)
  post c := iprop(StableHlo.held (c : Thread nD τ) (Pipeline.ucRefs τ sig) (U2 m c) ∗ R c)
  X c := iprop(∃ r, prngReg c r)
  Y c := iprop(∃ r, prngReg c r)
  Z c := Pipeline.unscopedRest (Ix := Unit) (Name := ℕ) (U := Pipeline.UD sig nD τ) (Lvl := ℕ) spec0 c (tcv (U1 m) c)
  hentry c := by
    rw [Pipeline.ownSems0_none]
    have hsplit := Pipeline.arrays_of_unscopedBufs (p := 0) (pcfgs (F := F)) Gen.adm (pdats m) launch0.win launch0.arr_whole c
      ((pdats m 0 c).share_full fun _ => rfl) (tcv (U1 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) Gen.adm (Ix := Unit) (Name := ℕ) (U := Pipeline.UD sig nD τ) (Lvl := ℕ)
      launch0.win launch0.arr_whole c (pdats m) ((pdats m 0 c).share_full fun _ => rfl)
      (tcv (U1 m) c) (tcv (U2 m) c) ((pdats m 0 c).arrAt · cfg0.N) (hF0 m c) (hrest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the boundary before it, left at the next. -/
def reg1 : Pipeline.RegionSeg (pcfgs (F := F)) Gen.adm (pdats m) () defs₀ 𝒱₀ L lv 1 where
  win := launch1.win.to₀
  block_pos := launch1.block_pos
  stage_whole := launch1.stage_whole
  K := PEmpty
  osem k := k.elim
  ho := Pipeline.OwnSemFacts.none _
  hbody c := (body_obligation1 (tcv (U3 m)) c).loose
  hwaits := Pipeline.hwaits_of_owed_zero _ _ _ _ L lv 1 fun _ _ => rfl
  pre c := iprop(StableHlo.held (c : Thread nD τ) (Pipeline.ucRefs τ sig) (U3 m c) ∗ R c)
  post c := iprop(StableHlo.held (c : Thread nD τ) (Pipeline.ucRefs τ sig) (U4 m c) ∗ R c)
  X c := iprop(∃ r, prngReg c r)
  Y c := iprop(∃ r, prngReg c r)
  Z c := Pipeline.unscopedRest (Ix := Unit) (Name := ℕ) (U := Pipeline.UD sig nD τ) (Lvl := ℕ) spec1 c (tcv (U3 m) c)
  hentry c := by
    rw [Pipeline.ownSems0_none]
    have hsplit := Pipeline.arrays_of_unscopedBufs (p := 1) (pcfgs (F := F)) Gen.adm (pdats m) launch1.win launch1.arr_whole c
      ((pdats m 1 c).share_full fun _ => rfl) (tcv (U3 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) Gen.adm (Ix := Unit) (Name := ℕ) (U := Pipeline.UD sig nD τ) (Lvl := ℕ)
      launch1.win launch1.arr_whole c (pdats m) ((pdats m 1 c).share_full fun _ => rfl)
      (tcv (U3 m) c) (tcv (U4 m) c) ((pdats m 1 c).arrAt · cfg1.N) (hF1 m c) (hrest1 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: entered from every unscoped buffer at the boundary before it, left at the next. -/
def reg2 : Pipeline.RegionSeg (pcfgs (F := F)) Gen.adm (pdats m) () defs₀ 𝒱₀ L lv 2 where
  win := launch2.win.to₀
  block_pos := launch2.block_pos
  stage_whole := launch2.stage_whole
  K := PEmpty
  osem k := k.elim
  ho := Pipeline.OwnSemFacts.none _
  hbody c := (body_obligation2 (tcv (U5 m)) c).loose
  hwaits := Pipeline.hwaits_of_owed_zero _ _ _ _ L lv 2 fun _ _ => rfl
  pre c := iprop(StableHlo.held (c : Thread nD τ) (Pipeline.ucRefs τ sig) (U5 m c) ∗ R c)
  post c := iprop(StableHlo.held (c : Thread nD τ) (Pipeline.ucRefs τ sig) (U6 m c) ∗ R c)
  X c := iprop(∃ r, prngReg c r)
  Y c := iprop(∃ r, prngReg c r)
  Z c := Pipeline.unscopedRest (Ix := Unit) (Name := ℕ) (U := Pipeline.UD sig nD τ) (Lvl := ℕ) spec2 c (tcv (U5 m) c)
  hentry c := by
    rw [Pipeline.ownSems0_none]
    have hsplit := Pipeline.arrays_of_unscopedBufs (p := 2) (pcfgs (F := F)) Gen.adm (pdats m) launch2.win launch2.arr_whole c
      ((pdats m 2 c).share_full fun _ => rfl) (tcv (U5 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) Gen.adm (Ix := Unit) (Name := ℕ) (U := Pipeline.UD sig nD τ) (Lvl := ℕ)
      launch2.win launch2.arr_whole c (pdats m) ((pdats m 2 c).share_full fun _ => rfl)
      (tcv (U5 m) c) (tcv (U6 m) c) ((pdats m 2 c).arrAt · cfg2.N) (hF2 m c) (hrest2 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 3 over the thread state: entered from every unscoped buffer at the boundary before it, left at the next. -/
def reg3 : Pipeline.RegionSeg (pcfgs (F := F)) Gen.adm (pdats m) () defs₀ 𝒱₀ L lv 3 where
  win := launch3.win.to₀
  block_pos := launch3.block_pos
  stage_whole := launch3.stage_whole
  K := PEmpty
  osem k := k.elim
  ho := Pipeline.OwnSemFacts.none _
  hbody c := (body_obligation3 (tcv (U7 m)) c).loose
  hwaits := Pipeline.hwaits_of_owed_zero _ _ _ _ L lv 3 fun _ _ => rfl
  pre c := iprop(StableHlo.held (c : Thread nD τ) (Pipeline.ucRefs τ sig) (U7 m c) ∗ R c)
  post c := iprop(StableHlo.held (c : Thread nD τ) (Pipeline.ucRefs τ sig) (U8 m c) ∗ R c)
  X c := iprop(∃ r, prngReg c r)
  Y c := iprop(∃ r, prngReg c r)
  Z c := Pipeline.unscopedRest (Ix := Unit) (Name := ℕ) (U := Pipeline.UD sig nD τ) (Lvl := ℕ) spec3 c (tcv (U7 m) c)
  hentry c := by
    rw [Pipeline.ownSems0_none]
    have hsplit := Pipeline.arrays_of_unscopedBufs (p := 3) (pcfgs (F := F)) Gen.adm (pdats m) launch3.win launch3.arr_whole c
      ((pdats m 3 c).share_full fun _ => rfl) (tcv (U7 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 3 c).Φ 0 = Pipeline.ΦA spec3 c from rfl]; unfold Pipeline.ΦA
    iintro ⟨Hp, -, Hr⟩
    isplitl [Hr]; · iexact Hr
    iexact Hp
  hout c := by
    rw [Pipeline.ownSems0_none, show (pdats m 3 c).Φ (Fin.last _) = Pipeline.ΦA spec3 c from rfl]; unfold Pipeline.ΦA
    iintro ⟨Hr, Hp⟩
    isplitl [Hp]; · iexact Hp
    isplitr; · iempintro
    iexact Hr
  hexit c := by
    have hjoin := Pipeline.unscopedBufs_of_arrays (p := 3) (pcfgs (F := F)) Gen.adm (Ix := Unit) (Name := ℕ) (U := Pipeline.UD sig nD τ) (Lvl := ℕ)
      launch3.win launch3.arr_whole c (pdats m) ((pdats m 3 c).share_full fun _ => rfl)
      (tcv (U7 m) c) (tcv (U8 m) c) ((pdats m 3 c).arrAt · cfg3.N) (hF3 m c) (hrest3 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 4 over the thread state: entered from every unscoped buffer at the boundary before it, left at the next. -/
def reg4 : Pipeline.RegionSeg (pcfgs (F := F)) Gen.adm (pdats m) () defs₀ 𝒱₀ L lv 4 where
  win := launch4.win.to₀
  block_pos := launch4.block_pos
  stage_whole := launch4.stage_whole
  K := PEmpty
  osem k := k.elim
  ho := Pipeline.OwnSemFacts.none _
  hbody c := (body_obligation4 (tcv (U9 m)) c).loose
  hwaits := Pipeline.hwaits_of_owed_zero _ _ _ _ L lv 4 fun _ _ => rfl
  pre c := iprop(StableHlo.held (c : Thread nD τ) (Pipeline.ucRefs τ sig) (U9 m c) ∗ R c)
  post c := iprop(StableHlo.held (c : Thread nD τ) (Pipeline.ucRefs τ sig) (U10 m c) ∗ R c)
  X c := iprop(∃ r, prngReg c r)
  Y c := iprop(∃ r, prngReg c r)
  Z c := Pipeline.unscopedRest (Ix := Unit) (Name := ℕ) (U := Pipeline.UD sig nD τ) (Lvl := ℕ) spec4 c (tcv (U9 m) c)
  hentry c := by
    rw [Pipeline.ownSems0_none]
    have hsplit := Pipeline.arrays_of_unscopedBufs (p := 4) (pcfgs (F := F)) Gen.adm (pdats m) launch4.win launch4.arr_whole c
      ((pdats m 4 c).share_full fun _ => rfl) (tcv (U9 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 4 c).Φ 0 = Pipeline.ΦA spec4 c from rfl]; unfold Pipeline.ΦA
    iintro ⟨Hp, -, Hr⟩
    isplitl [Hr]; · iexact Hr
    iexact Hp
  hout c := by
    rw [Pipeline.ownSems0_none, show (pdats m 4 c).Φ (Fin.last _) = Pipeline.ΦA spec4 c from rfl]; unfold Pipeline.ΦA
    iintro ⟨Hr, Hp⟩
    isplitl [Hp]; · iexact Hp
    isplitr; · iempintro
    iexact Hr
  hexit c := by
    have hjoin := Pipeline.unscopedBufs_of_arrays (p := 4) (pcfgs (F := F)) Gen.adm (Ix := Unit) (Name := ℕ) (U := Pipeline.UD sig nD τ) (Lvl := ℕ)
      launch4.win launch4.arr_whole c (pdats m) ((pdats m 4 c).share_full fun _ => rfl)
      (tcv (U9 m) c) (tcv (U10 m) c) ((pdats m 4 c).arrAt · cfg4.N) (hF4 m c) (hrest4 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 5 over the thread state: entered from every unscoped buffer at the boundary before it, left at the next. -/
def reg5 : Pipeline.RegionSeg (pcfgs (F := F)) Gen.adm (pdats m) () defs₀ 𝒱₀ L lv 5 where
  win := launch5.win.to₀
  block_pos := launch5.block_pos
  stage_whole := launch5.stage_whole
  K := PEmpty
  osem k := k.elim
  ho := Pipeline.OwnSemFacts.none _
  hbody c := (body_obligation5 (tcv (U11 m)) c).loose
  hwaits := Pipeline.hwaits_of_owed_zero _ _ _ _ L lv 5 fun _ _ => rfl
  pre c := iprop(StableHlo.held (c : Thread nD τ) (Pipeline.ucRefs τ sig) (U11 m c) ∗ R c)
  post c := iprop(StableHlo.held (c : Thread nD τ) (Pipeline.ucRefs τ sig) (U12 m c) ∗ R c)
  X c := iprop(∃ r, prngReg c r)
  Y c := iprop(∃ r, prngReg c r)
  Z c := Pipeline.unscopedRest (Ix := Unit) (Name := ℕ) (U := Pipeline.UD sig nD τ) (Lvl := ℕ) spec5 c (tcv (U11 m) c)
  hentry c := by
    rw [Pipeline.ownSems0_none]
    have hsplit := Pipeline.arrays_of_unscopedBufs (p := 5) (pcfgs (F := F)) Gen.adm (pdats m) launch5.win launch5.arr_whole c
      ((pdats m 5 c).share_full fun _ => rfl) (tcv (U11 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 5 c).Φ 0 = Pipeline.ΦA spec5 c from rfl]; unfold Pipeline.ΦA
    iintro ⟨Hp, -, Hr⟩
    isplitl [Hr]; · iexact Hr
    iexact Hp
  hout c := by
    rw [Pipeline.ownSems0_none, show (pdats m 5 c).Φ (Fin.last _) = Pipeline.ΦA spec5 c from rfl]; unfold Pipeline.ΦA
    iintro ⟨Hr, Hp⟩
    isplitl [Hp]; · iexact Hp
    isplitr; · iempintro
    iexact Hr
  hexit c := by
    have hjoin := Pipeline.unscopedBufs_of_arrays (p := 5) (pcfgs (F := F)) Gen.adm (Ix := Unit) (Name := ℕ) (U := Pipeline.UD sig nD τ) (Lvl := ℕ)
      launch5.win launch5.arr_whole c (pdats m) ((pdats m 5 c).share_full fun _ => rfl)
      (tcv (U11 m) c) (tcv (U12 m) c) ((pdats m 5 c).arrAt · cfg5.N) (hF5 m c) (hrest5 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 6 over the thread state: entered from every unscoped buffer at the boundary before it, left at the next. -/
def reg6 : Pipeline.RegionSeg (pcfgs (F := F)) Gen.adm (pdats m) () defs₀ 𝒱₀ L lv 6 where
  win := launch6.win.to₀
  block_pos := launch6.block_pos
  stage_whole := launch6.stage_whole
  K := PEmpty
  osem k := k.elim
  ho := Pipeline.OwnSemFacts.none _
  hbody c := (body_obligation6 (tcv (U13 m)) c).loose
  hwaits := Pipeline.hwaits_of_owed_zero _ _ _ _ L lv 6 fun _ _ => rfl
  pre c := iprop(StableHlo.held (c : Thread nD τ) (Pipeline.ucRefs τ sig) (U13 m c) ∗ R c)
  post c := iprop(StableHlo.held (c : Thread nD τ) (Pipeline.ucRefs τ sig) (U14 m c) ∗ R c)
  X c := iprop(∃ r, prngReg c r)
  Y c := iprop(∃ r, prngReg c r)
  Z c := Pipeline.unscopedRest (Ix := Unit) (Name := ℕ) (U := Pipeline.UD sig nD τ) (Lvl := ℕ) spec6 c (tcv (U13 m) c)
  hentry c := by
    rw [Pipeline.ownSems0_none]
    have hsplit := Pipeline.arrays_of_unscopedBufs (p := 6) (pcfgs (F := F)) Gen.adm (pdats m) launch6.win launch6.arr_whole c
      ((pdats m 6 c).share_full fun _ => rfl) (tcv (U13 m) c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 6 c).Φ 0 = Pipeline.ΦA spec6 c from rfl]; unfold Pipeline.ΦA
    iintro ⟨Hp, -, Hr⟩
    isplitl [Hr]; · iexact Hr
    iexact Hp
  hout c := by
    rw [Pipeline.ownSems0_none, show (pdats m 6 c).Φ (Fin.last _) = Pipeline.ΦA spec6 c from rfl]; unfold Pipeline.ΦA
    iintro ⟨Hr, Hp⟩
    isplitl [Hp]; · iexact Hp
    isplitr; · iempintro
    iexact Hr
  hexit c := by
    have hjoin := Pipeline.unscopedBufs_of_arrays (p := 6) (pcfgs (F := F)) Gen.adm (Ix := Unit) (Name := ℕ) (U := Pipeline.UD sig nD τ) (Lvl := ℕ)
      launch6.win launch6.arr_whole c (pdats m) ((pdats m 6 c).share_full fun _ => rfl)
      (tcv (U13 m) c) (tcv (U14 m) c) ((pdats m 6 c).arrAt · cfg6.N) (hF6 m c) (hrest6 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Reg

end
-- ==== Proof.FrameI.lean ====
/-
  The whole run of the host program: from any launch memory with zero counters every weakly fair execution
  terminates, faults nowhere, and ends with every unscoped buffer of every core at the last boundary's valuation.
  The run is the chain of the host stretches (each a fold of its operations over the buffers) and the seven kernel
  regions (each entered from the boundary before it and left at the one after it). Read at the arguments, the last
  valuation is the launch memory: no host operation and no region writes an argument.
-/
import proofs.«130465_j18580028523178_1_alg».proof.Proof.RunI

set_option maxRecDepth 16384

noncomputable section

namespace Cert.KernelIdeal.Reg

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

open Idealize.ShloMosaic.Pipeline (Seg HostSeg RegionSeg)

variable (m : (ℓ : Loc nD τ sig) → Buf (Elt F) ℓ) (ρ : Dev nD → PrngReg)

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The rest that rides along between items: the same at every boundary. -/
abbrev E : Fin 8 → Dev nD → sProp 𝕄 := fun _ c => R c

set_option backward.isDefEq.respectTransparency.types false in
/-- Every weakly fair execution terminates with every unscoped buffer at the last valuation. -/
theorem run_full : θ_run defs (onTc (τ := τ) (main (F := F))) ⟨m, fun _ => 0, ρ⟩ (fun r => ∀ c : Dev nD,
      ∀ b ∈ Pipeline.ucRefs τ sig, r.2.mem (((c : Thread nD τ)).1, b) = U14 m c b) := by
  refine Pipeline.θ_run_regions_kit_dev (pcfgs (F := F)) Gen.adm (pdats m) () cellOf_inj embL defs₀ 𝒱₀ L lv m ρ main
    (Gen.segs m (outsU m) 𝒱₀ L lv E () (pdats m) (reg0 m) (reg1 m) (reg2 m) (reg3 m) (reg4 m) (reg5 m) (reg6 m))
    (fun c Q => by
      rewrite [main_chain c, Seg.run_eq_chain,
        show (Gen.segs m (outsU m) 𝒱₀ L lv E () (pdats m) (reg0 m) (reg1 m) (reg2 m) (reg3 m) (reg4 m) (reg5 m) (reg6 m) c).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()),
          StableHlo.seq hostOps4,
          Prog.lift (.customCall (Pipeline.entry 4) ()),
          StableHlo.seq hostOps5,
          Prog.lift (.customCall (Pipeline.entry 5) ()),
          StableHlo.seq hostOps6,
          Prog.lift (.customCall (Pipeline.entry 6) ()) ] from rfl]
      exact .rfl)
    (fun c => by simp only [Gen.segs, Seg.pipes_host, Seg.pipes_region, Seg.pipes_nil]; decide) (fun _ => 0) (fun _ _ => rfl) (fun _ => iprop(emp))
    (initOf (Pipeline.cells cfgs cellOf_inj) (Pipeline.launchToks cfgs cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (Gen.V0 m c) ∗ E 0 c))
    (Tₙ := fun c => StableHlo.held (c : Thread nD τ) (Pipeline.ucRefs τ sig) (U14 m c))
    (hch := fun c => ⟨.rfl,
      (show iprop(StableHlo.held (c : Thread nD τ) (Pipeline.ucRefs τ sig) (Gen.V1 m c) ∗ E (F := F) 0 c) ⊢ (reg0 m).pre c from Entails.of_eq (by rw [VU1 m c]; first | done | rfl)),
      (show (reg0 m).post c ⊢ iprop(StableHlo.held (c : Thread nD τ) (Pipeline.ucRefs τ sig) (Gen.V2 m (outsU m) c) ∗ E (F := F) 1 c) from Entails.of_eq (by rw [VU2 m c]; first | done | rfl)),
      (show iprop(StableHlo.held (c : Thread nD τ) (Pipeline.ucRefs τ sig) (Gen.V3 m (outsU m) c) ∗ E (F := F) 1 c) ⊢ (reg1 m).pre c from Entails.of_eq (by rw [VU3 m c]; first | done | rfl)),
      (show (reg1 m).post c ⊢ iprop(StableHlo.held (c : Thread nD τ) (Pipeline.ucRefs τ sig) (Gen.V4 m (outsU m) c) ∗ E (F := F) 2 c) from Entails.of_eq (by rw [VU4 m c]; first | done | rfl)),
      (show iprop(StableHlo.held (c : Thread nD τ) (Pipeline.ucRefs τ sig) (Gen.V5 m (outsU m) c) ∗ E (F := F) 2 c) ⊢ (reg2 m).pre c from Entails.of_eq (by rw [VU5 m c]; first | done | rfl)),
      (show (reg2 m).post c ⊢ iprop(StableHlo.held (c : Thread nD τ) (Pipeline.ucRefs τ sig) (Gen.V6 m (outsU m) c) ∗ E (F := F) 3 c) from Entails.of_eq (by rw [VU6 m c]; first | done | rfl)),
      (show iprop(StableHlo.held (c : Thread nD τ) (Pipeline.ucRefs τ sig) (Gen.V7 m (outsU m) c) ∗ E (F := F) 3 c) ⊢ (reg3 m).pre c from Entails.of_eq (by rw [VU7 m c]; first | done | rfl)),
      (show (reg3 m).post c ⊢ iprop(StableHlo.held (c : Thread nD τ) (Pipeline.ucRefs τ sig) (Gen.V8 m (outsU m) c) ∗ E (F := F) 4 c) from Entails.of_eq (by rw [VU8 m c]; first | done | rfl)),
      (show iprop(StableHlo.held (c : Thread nD τ) (Pipeline.ucRefs τ sig) (Gen.V9 m (outsU m) c) ∗ E (F := F) 4 c) ⊢ (reg4 m).pre c from Entails.of_eq (by rw [VU9 m c]; first | done | rfl)),
      (show (reg4 m).post c ⊢ iprop(StableHlo.held (c : Thread nD τ) (Pipeline.ucRefs τ sig) (Gen.V10 m (outsU m) c) ∗ E (F := F) 5 c) from Entails.of_eq (by rw [VU10 m c]; first | done | rfl)),
      (show iprop(StableHlo.held (c : Thread nD τ) (Pipeline.ucRefs τ sig) (Gen.V11 m (outsU m) c) ∗ E (F := F) 5 c) ⊢ (reg5 m).pre c from Entails.of_eq (by rw [VU11 m c]; first | done | rfl)),
      (show (reg5 m).post c ⊢ iprop(StableHlo.held (c : Thread nD τ) (Pipeline.ucRefs τ sig) (Gen.V12 m (outsU m) c) ∗ E (F := F) 6 c) from Entails.of_eq (by rw [VU12 m c]; first | done | rfl)),
      (show iprop(StableHlo.held (c : Thread nD τ) (Pipeline.ucRefs τ sig) (Gen.V13 m (outsU m) c) ∗ E (F := F) 6 c) ⊢ (reg6 m).pre c from Entails.of_eq (by rw [VU13 m c]; first | done | rfl)),
      ?_⟩)
    (hinit := ?_) (QY := fun c s => ∀ b ∈ Pipeline.ucRefs τ sig, s.mem (((c : Thread nD τ)).1, b) = U14 m c b)
    (hfin := fun c s' => ?_) (hQ := fun _ h => h)
  · -- the last region's exit: the rest ends owing nothing
    show iprop(StableHlo.held (c : Thread nD τ) (Pipeline.ucRefs τ sig) (U14 m c) ∗ R c) ⊢ iprop(StableHlo.held (c : Thread nD τ) (Pipeline.ucRefs τ sig) (U14 m c) ∗ ∃ W, owes (c : Thread nD τ) (0 : CellTallies nD τ sig Unit) W)
    iintro ⟨Hh, -, HO⟩
    isplitl [Hh]; · iexact Hh
    iexact HO
  · -- the launch: the unscoped buffers held at the launch memory; the register and the dues make the rest on every core
    have hc : ∀ c : Dev nD, (iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)) : sProp 𝕄)
        ⊢ iprop(StableHlo.held (c : Thread nD τ) (Pipeline.ucRefs τ sig) (Gen.V0 m c) ∗ E (F := F) 0 c) := fun c => by
      rw [← Pipeline.unscopedBufs_held (Ix := Unit) (Name := ℕ) (U := Pipeline.UD sig nD τ) (Lvl := ℕ) c (Gen.V0 m c)]
      iintro ⟨Hh, -, HO, -, Hp, -⟩
      isplitl [Hh]; · iexact Hh
      isplitl [Hp]; · iexists _; iexact Hp
      iexists ∅; iexact HO
    have hsplit : (bigSep Finset.univ fun c : Dev nD => iprop(unscopedBufs c (fun b => m ((c.tc : Thread nD τ).loc b)) ∗ unscopedSems0 c
          ∗ owes (c.tc : Thread nD τ) ((fun _ => 0 : Dev nD → CellTallies nD τ sig Unit) c) ∅ ∗ Pipeline.launchCred (fun _ => 0 : Dev nD → CellTallies nD τ sig Unit) c ∗ prngReg c (ρ c) ∗ (iprop(emp) : sProp 𝕄)))
        ⊢ (bigSep Finset.univ fun c : Dev nD => iprop(StableHlo.held (c : Thread nD τ) (Pipeline.ucRefs τ sig) (Gen.V0 m c) ∗ E (F := F) 0 c) : sProp 𝕄) :=
      bigSep_mono fun c _ => hc c
    iintro ⟨H, -⟩
    ihave H' := hsplit $$ H
    imodintro
    iexact H'
  · -- the end: every unscoped buffer read off the last valuation
    unfold StableHlo.held
    iintro ⟨Hh, HSI⟩
    ihave Hr := (pointsTo_read_all (Pipeline.ucRefs τ sig) (fun b => ((c : Thread nD τ).1, b)) (U14 m c) s') $$ [Hh HSI]
    · isplitl [Hh] <;> iassumption
    icases Hr with ⟨%h, HSI⟩
    imodintro
    isplitr
    · ipureintro; exact h
    · iexact HSI

/-- The last valuation at an argument is the launch memory. -/
theorem U14_arg (c : Dev nD) :
    U14 m c main_arg0 = m ((c : Thread nD τ).loc main_arg0)
    ∧ U14 m c main_arg1 = m ((c : Thread nD τ).loc main_arg1)
    ∧ U14 m c main_arg2 = m ((c : Thread nD τ).loc main_arg2)
    ∧ U14 m c main_arg3 = m ((c : Thread nD τ).loc main_arg3)
    ∧ U14 m c main_arg4 = m ((c : Thread nD τ).loc main_arg4)
    ∧ U14 m c main_arg5 = m ((c : Thread nD τ).loc main_arg5)
    ∧ U14 m c main_arg6 = m ((c : Thread nD τ).loc main_arg6)
    ∧ U14 m c main_arg7 = m ((c : Thread nD τ).loc main_arg7)
    ∧ U14 m c main_arg8 = m ((c : Thread nD τ).loc main_arg8)
    ∧ U14 m c main_arg9 = m ((c : Thread nD τ).loc main_arg9)
    ∧ U14 m c main_arg10 = m ((c : Thread nD τ).loc main_arg10)
    ∧ U14 m c main_arg11 = m ((c : Thread nD τ).loc main_arg11) := by
  rw [← VU14 m c]
  exact ⟨Gen.V14_main_arg0 m (outsU m) c, Gen.V14_main_arg1 m (outsU m) c, Gen.V14_main_arg2 m (outsU m) c, Gen.V14_main_arg3 m (outsU m) c, Gen.V14_main_arg4 m (outsU m) c, Gen.V14_main_arg5 m (outsU m) c, Gen.V14_main_arg6 m (outsU m) c, Gen.V14_main_arg7 m (outsU m) c, Gen.V14_main_arg8 m (outsU m) c, Gen.V14_main_arg9 m (outsU m) c, Gen.V14_main_arg10 m (outsU m) c, Gen.V14_main_arg11 m (outsU m) c⟩

/-- The frame: the program runs to the end, faults nowhere, and its argument arrays end unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h0, h1, h2, h3, h4, h5, h6, h7, h8, h9, h10, h11⟩ := U14_arg m c
    exact ⟨(h c _ (mem_uc main_arg0 (by decide))).trans h0, (h c _ (mem_uc main_arg1 (by decide))).trans h1, (h c _ (mem_uc main_arg2 (by decide))).trans h2, (h c _ (mem_uc main_arg3 (by decide))).trans h3, (h c _ (mem_uc main_arg4 (by decide))).trans h4, (h c _ (mem_uc main_arg5 (by decide))).trans h5, (h c _ (mem_uc main_arg6 (by decide))).trans h6, (h c _ (mem_uc main_arg7 (by decide))).trans h7, (h c _ (mem_uc main_arg8 (by decide))).trans h8, (h c _ (mem_uc main_arg9 (by decide))).trans h9, (h c _ (mem_uc main_arg10 (by decide))).trans h10, (h c _ (mem_uc main_arg11 (by decide))).trans h11⟩) (run_full m ρ)

/-- The result buffer at the end of the run: what the last region's write-backs leave. -/
theorem run_result : θ_run defs (onTc (τ := τ) (main (F := F))) ⟨m, fun _ => 0, ρ⟩ (fun r => ∀ c : Dev nD,
      r.2.mem ((c.tc : Thread nD τ).loc main_v127) = U14 m c main_v127
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun r h c => by
    obtain ⟨h0, h1, h2, h3, h4, h5, h6, h7, h8, h9, h10, h11⟩ := U14_arg m c
    exact ⟨h c _ (mem_uc main_v127 (by decide)), (h c _ (mem_uc main_arg0 (by decide))).trans h0, (h c _ (mem_uc main_arg1 (by decide))).trans h1, (h c _ (mem_uc main_arg2 (by decide))).trans h2, (h c _ (mem_uc main_arg3 (by decide))).trans h3, (h c _ (mem_uc main_arg4 (by decide))).trans h4, (h c _ (mem_uc main_arg5 (by decide))).trans h5, (h c _ (mem_uc main_arg6 (by decide))).trans h6, (h c _ (mem_uc main_arg7 (by decide))).trans h7, (h c _ (mem_uc main_arg8 (by decide))).trans h8, (h c _ (mem_uc main_arg9 (by decide))).trans h9, (h c _ (mem_uc main_arg10 (by decide))).trans h10, (h c _ (mem_uc main_arg11 (by decide))).trans h11⟩) (run_full m ρ)

end Cert.KernelIdeal.Reg

end
-- ==== Proof.ValHost.lean ====
/-
  The host operations the kernel program applies between its kernel regions, at the exact instance, as functions of
  arrays: the source and target rows of the edge list, the node degrees (ones scatter-added at the targets), a row
  gather at wrapped row numbers, the aggregation step (messages scatter-added at the targets, divided by the degree,
  plus (1 + eps) times the features), and the per-layer slices of the parameters laid out as the kernels take them.
-/
import proofs.«130465_j18580028523178_1_alg».proof.KernelIdeal
import proofs.«130465_j18580028523178_1_alg».proof.Proof.Gen.KernelIdeal
import Idealize.ShloMosaic.PureOps.Ideal

noncomputable section

namespace Cert.Val

open Cert.KernelIdeal Cert.KernelIdeal.Gen
open Idealize.ShloMosaic

/-- An array of shape S and element type e at the exact instance. -/
abbrev Arr (S : Shape) (e : EltTy) : Type := (⟨S, e⟩ : BufTy).Contents (Elt Ideal)

/-- The source row of every edge: row 0 of the edge list. -/
def src (a1 : Arr S2x800000 .i32) : Arr S800000 .i32 :=
  shapeCast S800000 (extractStridedSlice S1x800000 ![0, 0] a1 slices_S2x800000_S1x800000_0_0) shapeCasts_S1x800000_S800000

/-- The target row of every edge: row 1 of the edge list. -/
def tgt (a1 : Arr S2x800000 .i32) : Arr S800000 .i32 :=
  shapeCast S800000 (extractStridedSlice S1x800000 ![1, 0] a1 slices_S2x800000_S1x800000_1_0) shapeCasts_S1x800000_S800000

/-- The target rows as a column of scatter indices. -/
def tgtCol (a1 : Arr S2x800000 .i32) : Arr S800000x1 .i32 :=
  broadcastInDim S800000x1 ![0] bcast_S800000_S800000x1_0 (tgt a1)

/-- The number of edges into every node, as a column: ones scatter-added at the target rows. -/
def deg (a1 : Arr S2x800000 .i32) : Arr S50000x1 .f32 :=
  broadcastInDim S50000x1 ![0] bcast_S50000_S50000x1_0
    (Host.scatterAdd (F := Ideal) scatter_S50000_S800000x1_S800000_n_0_0_1
      (broadcastInDim S50000 ![] bcast_S_S50000 (constant (F := Ideal) S_ .f32 0x00000000#32))
      (tgtCol a1)
      (broadcastInDim S800000 ![] bcast_S_S800000 (constant (F := Ideal) S_ .f32 0x3F800000#32)))

/-- Row numbers with a negative number wrapped around, as a column of gather indices. -/
def wrapCol (sr : Arr S800000 .i32) : Arr S800000x1 .i32 :=
  broadcastInDim S800000x1 ![0] bcast_S800000_S800000x1_0
    (select (cmpi .slt sr (broadcastInDim S800000 ![] bcast_S_S800000 (constantI S_ 32 0#32)))
      (addi sr (broadcastInDim S800000 ![] bcast_S_S800000 (constantI S_ 32 50000#32)))
      sr)

/-- The node features gathered at given row numbers. -/
def gatherAt (h : Arr S50000x128 .f32) (sr : Arr S800000 .i32) : Arr S800000x128 .f32 :=
  Host.gather gather_S50000x128_S800000x1_S800000x128_1_0_n_n_0_1_1128 h (wrapCol sr)

/-- The node features gathered at every edge's source. -/
def gatherRows (h : Arr S50000x128 .f32) (a1 : Arr S2x800000 .i32) : Arr S800000x128 .f32 :=
  gatherAt h (src a1)

/-- Messages summed into given target rows, divided by a given degree column, plus (1 + eps) times the features. -/
def aggregateAt (msg : Arr S800000x128 .f32) (tg : Arr S800000 .i32) (dg : Arr S50000x1 .f32) (h : Arr S50000x128 .f32) (eps1 : Arr S1 .f32) : Arr S50000x128 .f32 :=
  addf (F := Ideal)
    (Host.divf (F := Ideal)
      (Host.scatterAdd (F := Ideal) scatter_S50000x128_S800000x1_S800000x128_1_0_0_1
        (broadcastInDim S50000x128 ![] bcast_S_S50000x128 (constant (F := Ideal) S_ .f32 0x00000000#32))
        (broadcastInDim S800000x1 ![0] bcast_S800000_S800000x1_0 tg) msg)
      (broadcastInDim S50000x128 ![0, 1] bcast_S50000x1_S50000x128_0_1 dg))
    (mulf (F := Ideal) (broadcastInDim S50000x128 ![] bcast_S_S50000x128 (addf (F := Ideal) (constant (F := Ideal) S_ .f32 0x3F800000#32) (shapeCast S_ eps1 shapeCasts_S1_S_))) h)

/-- The messages summed into their targets, divided by the degree, plus (1 + eps) times the features. -/
def aggregate (msg : Arr S800000x128 .f32) (a1 : Arr S2x800000 .i32) (h : Arr S50000x128 .f32) (eps1 : Arr S1 .f32) : Arr S50000x128 .f32 :=
  aggregateAt msg (tgt a1) (deg a1) h eps1

/-- A [1,128] slice of a [3,128] array as the [1,128] row the kernels take: flattened and laid out again. -/
def rowOf (s : Arr S1x128 .f32) : Arr S1x128 .f32 :=
  shapeCast S1x128 (shapeCast S128 s shapeCasts_S1x128_S128) shapeCasts_S128_S1x128

/-- A [1,128,128] slice of a [3,128,128] array as a [128,128] matrix in the narrow format. -/
def matOf (s : Arr S1x128x128 .f32) : Arr S128x128 .bf16 :=
  truncf (F := Ideal) .bf16 (shapeCast S128x128 s shapeCasts_S1x128x128_S128x128) bitsLt_bf16_f32

end Cert.Val

end
-- ==== Proof.Stage0.lean ====
/-
  Host stretch 0 of the kernel program read back: what its operations, folded over any valuation of the buffers,
  leave in the buffers that later items read, as the host functions of the arrays the stretch starts from.
-/
import proofs.«130465_j18580028523178_1_alg».proof.Proof.Gen.KernelIdeal.Launch
import proofs.«130465_j18580028523178_1_alg».proof.Proof.ValHost
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 40000000 in
theorem s0_main_v20 : StableHlo.after (hostOps0 (F := Ideal)) W (Proc.devRef .tc main_v20) = Cert.Val.gatherAt (W (Proc.devRef .tc main_arg0)) (Cert.Val.src (W (Proc.devRef .tc main_arg1))) := by
  unfold Cert.Val.gatherAt Cert.Val.src
  after_results_simp <;> rfl

set_option maxHeartbeats 40000000 in
theorem s0_main_v10 : StableHlo.after (hostOps0 (F := Ideal)) W (Proc.devRef .tc main_v10) = shapeCast S1x128 (extractStridedSlice S1x1x128 ![0, 0, 0] (W (Proc.devRef .tc main_arg3)) slices_S3x1x128_S1x1x128_0_0_0) shapeCasts_S1x1x128_S1x128 := by
  after_results_simp <;> rfl

set_option maxHeartbeats 40000000 in
theorem s0_main_v13 : StableHlo.after (hostOps0 (F := Ideal)) W (Proc.devRef .tc main_v13) = Cert.Val.rowOf (extractStridedSlice S1x128 ![0, 0] (W (Proc.devRef .tc main_arg4)) slices_S3x128_S1x128_0_0) := by
  unfold Cert.Val.rowOf
  after_results_simp <;> rfl

set_option maxHeartbeats 40000000 in
theorem s0_main_v1 : StableHlo.after (hostOps0 (F := Ideal)) W (Proc.devRef .tc main_v1) = Cert.Val.src (W (Proc.devRef .tc main_arg1)) := by
  unfold Cert.Val.src
  after_results_simp <;> rfl

set_option maxHeartbeats 40000000 in
theorem s0_main_v3 : StableHlo.after (hostOps0 (F := Ideal)) W (Proc.devRef .tc main_v3) = Cert.Val.tgt (W (Proc.devRef .tc main_arg1)) := by
  unfold Cert.Val.tgt
  after_results_simp <;> rfl

set_option maxHeartbeats 40000000 in
theorem s0_main_v8 : StableHlo.after (hostOps0 (F := Ideal)) W (Proc.devRef .tc main_v8) = Cert.Val.deg (W (Proc.devRef .tc main_arg1)) := by
  unfold Cert.Val.deg
  after_results_simp <;> rfl

end Cert.KernelIdeal.Stage

end
-- ==== Proof.LibMatmulPlain.lean ====
/-
  A plain matrix product read at an entry. For dimension numbers that contract the second axis of an [M, K] array with
  the first axis of a [K, N] array, with no batch axes, the product into a zero accumulator is, at entry (r, q), the sum
  over k of left(r, k) * right(k, q) on the extended reals.
-/
import Idealize.ShloMosaic.PureOps.Ideal
import Idealize.ShloMosaic.PureOps.Ideal.Laws
import Idealize.ShloMosaic.Lib.ValueIdx

noncomputable section

open scoped BigOperators

namespace Cert.LibMatmulPlain

open Idealize.ShloMosaic Idealize.ShloMosaic.ValueIdx

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem rank_contr_one : d.contr.rank = 1 := by rw [d.rank_contr, hlc]; rfl

include hlc in
theorem size_contr_zero : d.contr.size ⟨0, by rw [rank_contr_one d hlc]; exact Nat.one_pos⟩ = K := by
  have := d.size_contr 0 (by rw [hlc]; exact Nat.one_pos)
  rw [this]
  simp [hlc]

include hln hlb in
/-- The left operand is read in the row of the result entry … -/
theorem lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- … and the right operand in its column. -/
theorem rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The product into the zero accumulator at entry (r, q): the sum over the contracted axis. -/
theorem matmul_zero_apply {φ₁ φ₂ : FTy} (prec : Option ContractPrecision) (lhs : FVec Ideal ⟨2, ![M, K]⟩ φ₁)
    (rhs : FVec Ideal ⟨2, ![K, N]⟩ φ₂) (r : Fin M) (q : Fin N) :
    FloatOps.matmul d prec lhs rhs (constant ⟨2, ![M, N]⟩ .f32 0x00000000#32) (ix2 r q)
      = ∑ k : Fin K, lhs (ix2 r k) * rhs (ix2 k q) := by
  rw [Ideal.matmul_constant_zero_apply,
    ← Equiv.sum_comp (contrEquiv1 d K (rank_contr_one d hlc) (size_contr_zero d hlc)).symm]
  refine Finset.sum_congr rfl fun k _ => ?_
  have hk := contrEquiv1_symm_val d K (rank_contr_one d hlc) (size_contr_zero d hlc) k
  congr 1
  · refine congrArg lhs (funext fun a => Fin.ext ?_)
    match a with
    | ⟨0, _⟩ => exact lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact rhs_col d hln hrn hlb hrb _ _

end Cert.LibMatmulPlain

end
-- ==== Proof.LibKeepdims.lean ====
/-
  Reading a row sum kept as a column. A sum along the rows of an `[a, b]` array is an `[a]` vector; kept as a
  column it is cast to `[a, 1]` and then spread over `[a, c]`. Read at `(p, q)` each step looks at row `p` only:
  the cast ignores the unit coordinate, the spreading ignores the column, and the sum ranges over the `b` entries
  of row `p`. The three steps are stated one by one, over indices written by their coordinates, and then composed.
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibKeepdims

open Idealize.ShloMosaic Idealize.ShloMosaic.ValueIdx

variable {α : Type}

/-- An `[a]` vector cast to the column `[a, 1]` reads, at `(i, u)`, the vector at `i`, whatever the unit
    coordinate `u`: both positions are the `i`-th in row-major order. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` spread over `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- Putting the summed coordinate `k` back into the reduced index `p` gives the entry `(p, k)`. -/
theorem lift_cols {m n : ℕ} (h : (⟨2, ![m, n]⟩ : Shape).Reduces [1] (⟨1, ![m]⟩ : Shape)) (p : Fin m)
    (k : Fin ((⟨2, ![m, n]⟩ : Shape).size 1)) : h.lift (ix1 p) k = ix2 p (⟨k.val, k.isLt⟩ : Fin n) := by
  funext c; apply Fin.ext
  fin_cases c <;> rfl

/-- A float sum along the second axis from the zero pattern, read at row `p`, is the sum of that row's entries
    on the extended reals. -/
theorem rowSum_apply {m n : ℕ} (src : FVec Ideal ⟨2, ![m, n]⟩ .f32) (h : (⟨2, ![m, n]⟩ : Shape).Reduces [1] (⟨1, ![m]⟩ : Shape))
    (hφ : FKind.Formats .f32) (hacc : (0x00000000#32 : BitVec 32) = 0x00000000#32) (p : Fin m) :
    multiReduction .add [1] (⟨1, ![m]⟩ : Shape) src 0x00000000#32 h hφ hacc (ix1 p) = ∑ k : Fin n, src (ix2 p k) := by
  refine (Ideal.multiReduction_add_single src 0x00000000#32 h hφ hacc (ix1 p)).trans ?_
  exact Finset.sum_congr rfl fun k _ => congrArg src (lift_cols h p k)

/-- The three steps composed: the row sums of an `[a, b]` array, kept as a column and spread over `[a, c]`, read at
    `(p, q)` the sum of row `p`. -/
theorem rowSum_column_apply {a b c : ℕ} (src : FVec Ideal ⟨2, ![a, b]⟩ .f32)
    (h : (⟨2, ![a, b]⟩ : Shape).Reduces [1] (⟨1, ![a]⟩ : Shape)) (hφ : FKind.Formats .f32)
    (hacc : (0x00000000#32 : BitVec 32) = 0x00000000#32)
    (hcast : (⟨1, ![a]⟩ : Shape).ShapeCasts ⟨2, ![a, 1]⟩) (hbc : (⟨2, ![a, 1]⟩ : Shape).Broadcasts ⟨2, ![a, c]⟩)
    (p : Fin a) (q : Fin c) :
    broadcastTo ⟨2, ![a, c]⟩ (shapeCast ⟨2, ![a, 1]⟩ (multiReduction .add [1] (⟨1, ![a]⟩ : Shape) src 0x00000000#32 h hφ hacc) hcast) hbc (ix2 p q)
      = ∑ k : Fin b, src (ix2 p k) :=
  (broadcastTo_a1_ab_apply _ hbc p q).trans ((shapeCast_a_a1_apply _ hcast p 0).trans (rowSum_apply src h hφ hacc p))

/-- One row `[1, b]`, cast to its own shape and spread over `[a, b]`, reads at `(p, q)` the row's entry `q`. -/
theorem row_spread_apply {a b : ℕ} (v : (⟨2, ![1, b]⟩ : Shape).Idx → α) (hcast : (⟨2, ![1, b]⟩ : Shape).ShapeCasts ⟨2, ![1, b]⟩)
    (hbc : (⟨2, ![1, b]⟩ : Shape).Broadcasts ⟨2, ![a, b]⟩) (p : Fin a) (q : Fin b) :
    broadcastTo ⟨2, ![a, b]⟩ (shapeCast ⟨2, ![1, b]⟩ v hcast) hbc (ix2 p q) = v (ix2 (0 : Fin 1) q) :=
  (broadcastTo_1b_ab_apply _ hbc p q).trans (congrFun (shapeCast_self v hcast) _)

end Cert.LibKeepdims

end
-- ==== Proof.ValCells.lean ====
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import proofs.«130465_j18580028523178_1_alg».proof.Proof.Gen.KernelIdeal.Skeleton
import proofs.«130465_j18580028523178_1_alg».proof.Proof.LibMatmulPlain
import proofs.«130465_j18580028523178_1_alg».proof.Proof.LibKeepdims

/-! # The three kernel bodies read at an entry

At the ideal values each kernel body's stored block, read at an entry, is a closed expression in the
entries of the blocks it loaded: an edge message, a two-layer perceptron applied to a feature row, and
the final projection of a concatenated feature row. -/

open scoped BigOperators

noncomputable section
namespace Cert.Val
open Idealize.ShloMosaic Idealize.ShloMosaic.ValueIdx Cert.KernelIdeal Cert.KernelIdeal.Gen

/-- One entry of an edge message: the gathered feature plus the affine image of the edge attribute,
    clamped below at zero. -/
def edgeCell (h a w b : EReal) : EReal := max (h + (a * w + b)) 0

/-- One entry of the two-layer perceptron applied to a feature row `x`: the hidden layer
    `max (x · w1 + b1) 0` contracted with a column of the second weight, plus its bias. -/
def mlpCell (x : Fin 128 → EReal) (w1 : Fin 128 → Fin 128 → EReal) (b1 : Fin 128 → EReal)
    (w2 : Fin 128 → EReal) (b2 : EReal) : EReal :=
  (∑ j : Fin 128, max ((∑ k : Fin 128, x k * w1 k j) + b1 j) 0 * w2 j) + b2

/-- One entry of the final projection of a concatenated feature row. -/
def finalCell (x : Fin 512 → EReal) (w : Fin 512 → EReal) (b : EReal) : EReal := (∑ k : Fin 512, x k * w k) + b

/-- The zero word is the extended real zero. -/
theorem zero_word : (Scalar.ofBits (F := Ideal) .f32 0x00000000#32) = (0 : EReal) := Ideal.ofBits_zero_f32

/-! ## The edge message -/

/-- The edge body's arithmetic over any four blocks, at an entry. -/
theorem edge_body (v0 : Vec Ideal S6400x1 .f32) (v1 v6 : Vec Ideal S1x128 .f32) (v10 : Vec Ideal S6400x128 .f32)
    (p : Fin 6400) (q : Fin 128) :
    maximumf (addf (shapeCast S6400x128 v10 shapeCasts_S6400x128_S6400x128)
        (addf (mulf (broadcastTo S6400x128 v0 broadcasts_S6400x1_S6400x128)
                (broadcastTo S6400x128 (shapeCast S1x128 v1 shapeCasts_S1x128_S1x128) broadcasts_S1x128_S6400x128))
          (broadcastTo S6400x128 (shapeCast S1x128 v6 shapeCasts_S1x128_S1x128) broadcasts_S1x128_S6400x128)))
      (broadcast S6400x128 (Scalar.ofBits (F := Ideal) .f32 0x00000000#32)) (ix2 p q)
      = edgeCell (v10 (ix2 p q)) (v0 (ix2 p (0 : Fin 1))) (v1 (ix2 (0 : Fin 1) q)) (v6 (ix2 (0 : Fin 1) q)) := by
  rw [maximumf_apply, addf_apply, addf_apply, mulf_apply, broadcast_apply, zero_word]
  simp only [shapeCast_self]
  rw [Cert.LibKeepdims.broadcastTo_a1_ab_apply, broadcastTo_1b_ab_apply, broadcastTo_1b_ab_apply]
  rfl

theorem edge_pay (v0 : Vec Ideal S6400x1 .f32) (v1 v6 : Vec Ideal S1x128 .f32) (v10 : Vec Ideal S6400x128 .f32)
    (p : Fin 6400) (q : Fin 128) :
    Gen.k0_pay1 (F := Ideal) v0 v1 v6 v10 (ix2 p q)
      = edgeCell (v10 (ix2 p q)) (v0 (ix2 p (0 : Fin 1))) (v1 (ix2 (0 : Fin 1) q)) (v6 (ix2 (0 : Fin 1) q)) :=
  edge_body v0 v1 v6 v10 p q

theorem edge_pay2 (v0 : Vec Ideal S6400x1 .f32) (v1 v6 : Vec Ideal S1x128 .f32) (v10 : Vec Ideal S6400x128 .f32)
    (p : Fin 6400) (q : Fin 128) :
    Gen.k2_pay1 (F := Ideal) v0 v1 v6 v10 (ix2 p q)
      = edgeCell (v10 (ix2 p q)) (v0 (ix2 p (0 : Fin 1))) (v1 (ix2 (0 : Fin 1) q)) (v6 (ix2 (0 : Fin 1) q)) :=
  edge_body v0 v1 v6 v10 p q

theorem edge_pay4 (v0 : Vec Ideal S6400x1 .f32) (v1 v6 : Vec Ideal S1x128 .f32) (v10 : Vec Ideal S6400x128 .f32)
    (p : Fin 6400) (q : Fin 128) :
    Gen.k4_pay1 (F := Ideal) v0 v1 v6 v10 (ix2 p q)
      = edgeCell (v10 (ix2 p q)) (v0 (ix2 p (0 : Fin 1))) (v1 (ix2 (0 : Fin 1) q)) (v6 (ix2 (0 : Fin 1) q)) :=
  edge_body v0 v1 v6 v10 p q

/-! ## The perceptron -/

/-- A dense layer on a block of rows: the product into the zero accumulator plus the bias row, at an entry. -/
theorem dense_apply (X : FVec Ideal S5000x128 .bf16) (W : FVec Ideal S128x128 .bf16) (B : FVec Ideal S1x128 .f32)
    (p : Fin 5000) (j : Fin 128) :
    addf (FloatOps.matmul dot_S5000x128_S128x128_S5000x128_1_0_0_1_n_n none X W (constant S5000x128 .f32 0x00000000#32))
        (broadcastTo S5000x128 B broadcasts_S1x128_S5000x128) (ix2 p j)
      = (∑ k : Fin 128, X (ix2 p k) * W (ix2 k j)) + B (ix2 (0 : Fin 1) j) := by
  rw [addf_apply, Cert.LibMatmulPlain.matmul_zero_apply _ rfl rfl rfl rfl rfl rfl, broadcastTo_1b_ab_apply]

/-- The perceptron body's arithmetic over any five blocks, at an entry. -/
theorem mlp_body (v0 : Vec Ideal S5000x128 .bf16) (v2 : Vec Ideal S128x128 .bf16) (v5 : Vec Ideal S1x128 .f32)
    (v12 : Vec Ideal S128x128 .bf16) (v15 : Vec Ideal S1x128 .f32) (p : Fin 5000) (q : Fin 128) :
    addf (FloatOps.matmul dot_S5000x128_S128x128_S5000x128_1_0_0_1_n_n none
          (truncf .bf16 (maximumf (φ := .f32)
              (addf (FloatOps.matmul dot_S5000x128_S128x128_S5000x128_1_0_0_1_n_n none
                      (shapeCast S5000x128 v0 shapeCasts_S5000x128_S5000x128 : FVec Ideal S5000x128 .bf16)
                      (shapeCast S128x128 v2 shapeCasts_S128x128_S128x128 : FVec Ideal S128x128 .bf16) (constant S5000x128 .f32 0x00000000#32))
                (broadcastTo S5000x128 (shapeCast S1x128 v5 shapeCasts_S1x128_S1x128 : FVec Ideal S1x128 .f32) broadcasts_S1x128_S5000x128))
              (broadcast S5000x128 (Scalar.ofBits (F := Ideal) .f32 0x00000000#32))) bitsLt_bf16_f32 : FVec Ideal S5000x128 .bf16)
          (shapeCast S128x128 v12 shapeCasts_S128x128_S128x128 : FVec Ideal S128x128 .bf16) (constant S5000x128 .f32 0x00000000#32))
        (broadcastTo S5000x128 (shapeCast S1x128 v15 shapeCasts_S1x128_S1x128 : FVec Ideal S1x128 .f32) broadcasts_S1x128_S5000x128) (ix2 p q)
      = mlpCell (fun k => v0 (ix2 p k)) (fun k j => v2 (ix2 k j)) (fun j => v5 (ix2 (0 : Fin 1) j))
          (fun j => v12 (ix2 j q)) (v15 (ix2 (0 : Fin 1) q)) := by
  simp only [shapeCast_self]
  rw [dense_apply]
  unfold mlpCell
  refine congrArg (· + v15 (ix2 (0 : Fin 1) q)) (Finset.sum_congr rfl fun j _ => ?_)
  rw [truncf_apply, maximumf_apply, dense_apply, broadcast_apply, zero_word]

theorem mlp_pay (v0 : Vec Ideal S5000x128 .bf16) (v2 : Vec Ideal S128x128 .bf16) (v5 : Vec Ideal S1x128 .f32)
    (v12 : Vec Ideal S128x128 .bf16) (v15 : Vec Ideal S1x128 .f32) (p : Fin 5000) (q : Fin 128) :
    Gen.k1_pay1 (F := Ideal) v0 v2 v5 v12 v15 (ix2 p q)
      = mlpCell (fun k => v0 (ix2 p k)) (fun k j => v2 (ix2 k j)) (fun j => v5 (ix2 (0 : Fin 1) j))
          (fun j => v12 (ix2 j q)) (v15 (ix2 (0 : Fin 1) q)) :=
  mlp_body v0 v2 v5 v12 v15 p q

theorem mlp_pay3 (v0 : Vec Ideal S5000x128 .bf16) (v2 : Vec Ideal S128x128 .bf16) (v5 : Vec Ideal S1x128 .f32)
    (v12 : Vec Ideal S128x128 .bf16) (v15 : Vec Ideal S1x128 .f32) (p : Fin 5000) (q : Fin 128) :
    Gen.k3_pay1 (F := Ideal) v0 v2 v5 v12 v15 (ix2 p q)
      = mlpCell (fun k => v0 (ix2 p k)) (fun k j => v2 (ix2 k j)) (fun j => v5 (ix2 (0 : Fin 1) j))
          (fun j => v12 (ix2 j q)) (v15 (ix2 (0 : Fin 1) q)) :=
  mlp_body v0 v2 v5 v12 v15 p q

theorem mlp_pay5 (v0 : Vec Ideal S5000x128 .bf16) (v2 : Vec Ideal S128x128 .bf16) (v5 : Vec Ideal S1x128 .f32)
    (v12 : Vec Ideal S128x128 .bf16) (v15 : Vec Ideal S1x128 .f32) (p : Fin 5000) (q : Fin 128) :
    Gen.k5_pay1 (F := Ideal) v0 v2 v5 v12 v15 (ix2 p q)
      = mlpCell (fun k => v0 (ix2 p k)) (fun k j => v2 (ix2 k j)) (fun j => v5 (ix2 (0 : Fin 1) j))
          (fun j => v12 (ix2 j q)) (v15 (ix2 (0 : Fin 1) q)) :=
  mlp_body v0 v2 v5 v12 v15 p q

/-! ## The final projection -/

theorem final_pay (v0 : Vec Ideal S5000x512 .bf16) (v2 : Vec Ideal S512x128 .bf16) (v5 : Vec Ideal S1x128 .f32)
    (p : Fin 5000) (q : Fin 128) :
    Gen.k6_pay1 (F := Ideal) v0 v2 v5 (ix2 p q)
      = finalCell (fun k => v0 (ix2 p k)) (fun k => v2 (ix2 k q)) (v5 (ix2 (0 : Fin 1) q)) := by
  show addf (FloatOps.matmul dot_S5000x512_S512x128_S5000x128_1_0_0_1_n_n none
          (shapeCast S5000x512 v0 shapeCasts_S5000x512_S5000x512 : FVec Ideal S5000x512 .bf16)
          (shapeCast S512x128 v2 shapeCasts_S512x128_S512x128 : FVec Ideal S512x128 .bf16) (constant S5000x128 .f32 0x00000000#32))
        (broadcastTo S5000x128 (shapeCast S1x128 v5 shapeCasts_S1x128_S1x128 : FVec Ideal S1x128 .f32) broadcasts_S1x128_S5000x128) (ix2 p q) = _
  simp only [shapeCast_self]
  rw [addf_apply, Cert.LibMatmulPlain.matmul_zero_apply _ rfl rfl rfl rfl rfl rfl, broadcastTo_1b_ab_apply]
  rfl

end Cert.Val
end
-- ==== Proof.ValSpec.lean ====
import proofs.«130465_j18580028523178_1_alg».proof.Proof.ValCells

/-! # The three kernels as functions of whole arrays

Each kernel's result array, entry by entry, as the cell function of `ValCells` applied to the entries of
the whole operand arrays: the edge messages of all edges, the perceptron applied to every node's feature
row, and the final projection of every node's concatenated features. -/

open scoped BigOperators

noncomputable section
namespace Cert.Val
open Idealize.ShloMosaic Idealize.ShloMosaic.ValueIdx Cert.KernelIdeal Cert.KernelIdeal.Gen

/-- The edge messages: entry `(p, q)` is the edge cell of the gathered feature, the edge's attribute, and
    entry `q` of the layer's weight and bias rows. -/
def Gedge (hs : Vec Ideal S800000x128 .f32) (ea : Vec Ideal S800000x1 .f32) (lw lb : Vec Ideal S1x128 .f32) :
    Vec Ideal S800000x128 .f32 := fun i =>
  let p : Fin 800000 := i 0
  let q : Fin 128 := i 1
  edgeCell (hs (ix2 p q)) (ea (ix2 p (0 : Fin 1))) (lw (ix2 (0 : Fin 1) q)) (lb (ix2 (0 : Fin 1) q))

/-- The perceptron on every node: entry `(p, q)` is the perceptron cell of node `p`'s feature row. -/
def Gmlp (x : Vec Ideal S50000x128 .bf16) (w1 : Vec Ideal S128x128 .bf16) (b1 : Vec Ideal S1x128 .f32)
    (w2 : Vec Ideal S128x128 .bf16) (b2 : Vec Ideal S1x128 .f32) : Vec Ideal S50000x128 .f32 := fun i =>
  let p : Fin 50000 := i 0
  let q : Fin 128 := i 1
  mlpCell (fun k => x (ix2 p k)) (fun k j => w1 (ix2 k j)) (fun j => b1 (ix2 (0 : Fin 1) j))
    (fun j => w2 (ix2 j q)) (b2 (ix2 (0 : Fin 1) q))

/-- The final projection on every node: entry `(p, q)` is the projection cell of node `p`'s concatenated row. -/
def Gfinal (x : Vec Ideal S50000x512 .bf16) (w : Vec Ideal S512x128 .bf16) (b : Vec Ideal S1x128 .f32) :
    Vec Ideal S50000x128 .f32 := fun i =>
  let p : Fin 50000 := i 0
  let q : Fin 128 := i 1
  finalCell (fun k => x (ix2 p k)) (fun k => w (ix2 k q)) (b (ix2 (0 : Fin 1) q))

theorem Gedge_ix2 (hs : Vec Ideal S800000x128 .f32) (ea : Vec Ideal S800000x1 .f32) (lw lb : Vec Ideal S1x128 .f32)
    (p : Fin 800000) (q : Fin 128) :
    Gedge hs ea lw lb (ix2 p q)
      = edgeCell (hs (ix2 p q)) (ea (ix2 p (0 : Fin 1))) (lw (ix2 (0 : Fin 1) q)) (lb (ix2 (0 : Fin 1) q)) := rfl

theorem Gmlp_ix2 (x : Vec Ideal S50000x128 .bf16) (w1 : Vec Ideal S128x128 .bf16) (b1 : Vec Ideal S1x128 .f32)
    (w2 : Vec Ideal S128x128 .bf16) (b2 : Vec Ideal S1x128 .f32) (p : Fin 50000) (q : Fin 128) :
    Gmlp x w1 b1 w2 b2 (ix2 p q)
      = mlpCell (fun k => x (ix2 p k)) (fun k j => w1 (ix2 k j)) (fun j => b1 (ix2 (0 : Fin 1) j))
          (fun j => w2 (ix2 j q)) (b2 (ix2 (0 : Fin 1) q)) := rfl

theorem Gfinal_ix2 (x : Vec Ideal S50000x512 .bf16) (w : Vec Ideal S512x128 .bf16) (b : Vec Ideal S1x128 .f32)
    (p : Fin 50000) (q : Fin 128) :
    Gfinal x w b (ix2 p q)
      = finalCell (fun k => x (ix2 p k)) (fun k => w (ix2 k q)) (b (ix2 (0 : Fin 1) q)) := rfl

end Cert.Val
end
-- ==== Proof.ValReg0.lean ====
/-
  Region 0 at the exact instance: the array the region leaves is one function of the arrays its windows look at.
  At a grid point t the body is handed block t of every moving window (rows t*6400 .. t*6400+6399) and the whole of every
  fixed one; what it stores into the output block is, entry by entry, the cell function of those rows; so the block
  written back at t is block t of the whole-array function, and the blocks of the 125 points cover the array.
-/
import proofs.«130465_j18580028523178_1_alg».proof.Proof.RegI0
import proofs.«130465_j18580028523178_1_alg».proof.Proof.ValSpec
import Idealize.ShloMosaic.Lib.Pipeline.Value
import Idealize.ShloMosaic.Lib.ValueIdx

set_option maxRecDepth 16384

noncomputable section

namespace Cert.KernelIdeal.RegV

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz0 : (![0, 0] : Fin 2 → Nat) = fun _ => 0 := funext fun a => by fin_cases a <;> rfl

/-- The windows' index maps over the grid: a moving window's block number along the rows is the point, every other is 0. -/
theorem idx0 : ∀ t : Fin cfg0.N, win0_0.index t (0 : Fin 2) = t.val
    ∧ win0_0.index t (1 : Fin 2) = 0
    ∧ win0_1.index t (0 : Fin 2) = t.val
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = t.val
    ∧ win0_4.index t (1 : Fin 2) = 0 :=
  (by decide +kernel : ∀ t : Fin grid0.N, _)

set_option maxHeartbeats 4000000 in
set_option backward.isDefEq.respectTransparency.types false in
/-- What point t writes back is block t of the whole-array function of the arrays as the region finds them. -/
theorem flushed0 (c : Dev nD) (t : Fin cfg0.N) :
    (dat0 (F := Ideal) V c).flushed 4 t = ((cfg0.win 4).blk t).view.read (Elt Ideal) (Cert.Val.Gedge (V c main_v20) (V c main_arg2) (V c main_v10) (V c main_v13)) := by
  show (cfg0.win 4).cut (grid0.coords t) ((dat0 V c).after 4 t) = _
  rw [after0_4]
  unfold out0_4
  rw [View.canon_unit_zero hz0]
  simp only [View.ld_unit_zero (S := S6400x128) hz0, View.ld_unit_zero (S := S6400x1) hz0, View.ld_unit_zero (S := S1x128) hz0]
  obtain ⟨e00, e01, e10, e11, e20, e21, e30, e31, e40, e41⟩ := idx0 t
  funext j
  obtain ⟨p, q, rfl⟩ : ∃ (p : Fin 6400) (q : Fin 128), j = ix2 p q := ⟨j 0, j 1, eq_ix2 j⟩
  have hp := p.isLt
  have ht : t.val < 125 := by have h := t.isLt; have hN : cfg0.N = 125 := N_0; omega
  refine (Cert.Val.edge_pay (iblk0 V c 1 t) (iblk0 V c 2 t) (iblk0 V c 3 t) (iblk0 V c 0 t) p q).trans ?_
  show Cert.Val.edgeCell (V c main_v20 (((cfg0.win 0).blk t).view.emb (ix2 p q))) (V c main_arg2 (((cfg0.win 1).blk t).view.emb (ix2 p (0 : Fin 1)))) (V c main_v10 (((cfg0.win 2).blk t).view.emb (ix2 (0 : Fin 1) q))) (V c main_v13 (((cfg0.win 3).blk t).view.emb (ix2 (0 : Fin 1) q)))
      = Cert.Val.Gedge (V c main_v20) (V c main_arg2) (V c main_v10) (V c main_v13) (((cfg0.win 4).blk t).view.emb (ix2 p q))
  have h0 : (((cfg0.win 0).blk t).view.emb (ix2 p q)) = (ix2 (⟨t.val * 6400 + p.val, by omega⟩ : Fin 800000) q : S800000x128.Idx) := by
    funext a; apply Fin.ext
    match a with
    | ⟨0, _⟩ => show win0_0.index t (0 : Fin 2) * 6400 + 1 * p.val = t.val * 6400 + p.val; rw [e00]; omega
    | ⟨1, _⟩ => show win0_0.index t (1 : Fin 2) * 128 + 1 * q.val = q.val; rw [e01]; omega
  have h1 : (((cfg0.win 1).blk t).view.emb (ix2 p (0 : Fin 1))) = (ix2 (⟨t.val * 6400 + p.val, by omega⟩ : Fin 800000) (0 : Fin 1) : S800000x1.Idx) := by
    funext a; apply Fin.ext
    match a with
    | ⟨0, _⟩ => show win0_1.index t (0 : Fin 2) * 6400 + 1 * p.val = t.val * 6400 + p.val; rw [e10]; omega
    | ⟨1, _⟩ => show win0_1.index t (1 : Fin 2) * 1 + 1 * (0 : Fin 1).val = (0 : Fin 1).val; rw [e11]; omega
  have h2 : (((cfg0.win 2).blk t).view.emb (ix2 (0 : Fin 1) q)) = (ix2 (0 : Fin 1) q : S1x128.Idx) := by
    funext a; apply Fin.ext
    match a with
    | ⟨0, _⟩ => show win0_2.index t (0 : Fin 2) * 1 + 1 * (0 : Fin 1).val = (0 : Fin 1).val; rw [e20]; omega
    | ⟨1, _⟩ => show win0_2.index t (1 : Fin 2) * 128 + 1 * q.val = q.val; rw [e21]; omega
  have h3 : (((cfg0.win 3).blk t).view.emb (ix2 (0 : Fin 1) q)) = (ix2 (0 : Fin 1) q : S1x128.Idx) := by
    funext a; apply Fin.ext
    match a with
    | ⟨0, _⟩ => show win0_3.index t (0 : Fin 2) * 1 + 1 * (0 : Fin 1).val = (0 : Fin 1).val; rw [e30]; omega
    | ⟨1, _⟩ => show win0_3.index t (1 : Fin 2) * 128 + 1 * q.val = q.val; rw [e31]; omega
  have h4 : (((cfg0.win 4).blk t).view.emb (ix2 p q)) = (ix2 (⟨t.val * 6400 + p.val, by omega⟩ : Fin 800000) q : S800000x128.Idx) := by
    funext a; apply Fin.ext
    match a with
    | ⟨0, _⟩ => show win0_4.index t (0 : Fin 2) * 6400 + 1 * p.val = t.val * 6400 + p.val; rw [e40]; omega
    | ⟨1, _⟩ => show win0_4.index t (1 : Fin 2) * 128 + 1 * q.val = q.val; rw [e41]; omega
  simp only [h0, h1, h2, h3, h4]
  rfl

/-- An index of the output array is in point t's block iff each coordinate is in the block's range on its axis. -/
theorem mem_blk0 (t : Fin cfg0.N) (i : S800000x128.Idx) :
    i ∈ ((cfg0.win 4).blk t).view.set ↔ ∀ a : Fin 2, win0_4.index t a * S6400x128.size a ≤ (i a).val ∧ (i a).val < win0_4.index t a * S6400x128.size a + S6400x128.size a := by
  show i ∈ ((View.whole main_v21).slice (win0_4.rect t)).set ↔ _
  rw [View.set_slice_whole, Rect.mem_set_unit]
  exact Iff.rfl

set_option maxHeartbeats 4000000 in
/-- The array after the region: the whole-array function of the arrays as the region finds them. -/
theorem final0 (c : Dev nD) : (dat0 (F := Ideal) V c).arrAt 4 cfg0.N = Cert.Val.Gedge (V c main_v20) (V c main_arg2) (V c main_v10) (V c main_v13) :=
  (dat0 V c).arrAt_eq_of_cover 4 (Cert.Val.Gedge (V c main_v20) (V c main_arg2) (V c main_v10) (V c main_v13)) (fun t _ => flushed0 V c t) fun i => by
    have hi0 : (i 0).val < 800000 := (i 0).isLt
    have hi1 : (i 1).val < 128 := (i 1).isLt
    have hN : grid0.N = 125 := N_0
    let t : Fin cfg0.N := ⟨(i 0).val / 6400, by show _ < grid0.N; omega⟩
    obtain ⟨e00, e01, e10, e11, e20, e21, e30, e31, e40, e41⟩ := idx0 t
    refine ⟨t, flush0_4 t, ?_⟩
    rw [mem_blk0]
    intro a
    match a with
    | ⟨0, _⟩ => show win0_4.index t (0 : Fin 2) * 6400 ≤ (i 0).val ∧ (i 0).val < win0_4.index t (0 : Fin 2) * 6400 + 6400; rw [e40]; show (i 0).val / 6400 * 6400 ≤ (i 0).val ∧ (i 0).val < (i 0).val / 6400 * 6400 + 6400; omega
    | ⟨1, _⟩ => show win0_4.index t (1 : Fin 2) * 128 ≤ (i 1).val ∧ (i 1).val < win0_4.index t (1 : Fin 2) * 128 + 128; rw [e41]; omega

end Cert.KernelIdeal.RegV

end
-- ==== Proof.Stage1.lean ====
/-
  Host stretch 1 of the kernel program read back: what its operations, folded over any valuation of the buffers,
  leave in the buffers that later items read, as the host functions of the arrays the stretch starts from.
-/
import proofs.«130465_j18580028523178_1_alg».proof.Proof.Gen.KernelIdeal.Launch
import proofs.«130465_j18580028523178_1_alg».proof.Proof.ValHost
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 40000000 in
theorem s1_main_v41 : StableHlo.after (hostOps1 (F := Ideal)) W (Proc.devRef .tc main_v41) = truncf (F := Ideal) .bf16 (Cert.Val.aggregateAt (W (Proc.devRef .tc main_v21)) (W (Proc.devRef .tc main_v3)) (W (Proc.devRef .tc main_v8)) (W (Proc.devRef .tc main_arg0)) (extractStridedSlice S1 ![0] (W (Proc.devRef .tc main_arg5)) slices_S3_S1_0)) bitsLt_bf16_f32 := by
  unfold Cert.Val.aggregateAt
  after_results_simp <;> rfl

set_option maxHeartbeats 40000000 in
theorem s1_main_v42 : StableHlo.after (hostOps1 (F := Ideal)) W (Proc.devRef .tc main_v42) = Cert.Val.matOf (extractStridedSlice S1x128x128 ![0, 0, 0] (W (Proc.devRef .tc main_arg6)) slices_S3x128x128_S1x128x128_0_0_0) := by
  unfold Cert.Val.matOf
  after_results_simp <;> rfl

set_option maxHeartbeats 40000000 in
theorem s1_main_v43 : StableHlo.after (hostOps1 (F := Ideal)) W (Proc.devRef .tc main_v43) = Cert.Val.matOf (extractStridedSlice S1x128x128 ![0, 0, 0] (W (Proc.devRef .tc main_arg8)) slices_S3x128x128_S1x128x128_0_0_0) := by
  unfold Cert.Val.matOf
  after_results_simp <;> rfl

set_option maxHeartbeats 40000000 in
theorem s1_main_v44 : StableHlo.after (hostOps1 (F := Ideal)) W (Proc.devRef .tc main_v44) = Cert.Val.rowOf (extractStridedSlice S1x128 ![0, 0] (W (Proc.devRef .tc main_arg7)) slices_S3x128_S1x128_0_0) := by
  unfold Cert.Val.rowOf
  after_results_simp <;> rfl

set_option maxHeartbeats 40000000 in
theorem s1_main_v45 : StableHlo.after (hostOps1 (F := Ideal)) W (Proc.devRef .tc main_v45) = Cert.Val.rowOf (extractStridedSlice S1x128 ![0, 0] (W (Proc.devRef .tc main_arg9)) slices_S3x128_S1x128_0_0) := by
  unfold Cert.Val.rowOf
  after_results_simp <;> rfl

end Cert.KernelIdeal.Stage

end
-- ==== Proof.ValReg1.lean ====
/-
  Region 1 at the exact instance: the array the region leaves is one function of the arrays its windows look at.
  At a grid point t the body is handed block t of every moving window (rows t*5000 .. t*5000+4999) and the whole of every
  fixed one; what it stores into the output block is, entry by entry, the cell function of those rows; so the block
  written back at t is block t of the whole-array function, and the blocks of the 10 points cover the array.
-/
import proofs.«130465_j18580028523178_1_alg».proof.Proof.RegI1
import proofs.«130465_j18580028523178_1_alg».proof.Proof.ValSpec
import Idealize.ShloMosaic.Lib.Pipeline.Value
import Idealize.ShloMosaic.Lib.ValueIdx

set_option maxRecDepth 16384

noncomputable section

namespace Cert.KernelIdeal.RegV

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz1 : (![0, 0] : Fin 2 → Nat) = fun _ => 0 := funext fun a => by fin_cases a <;> rfl

/-- The windows' index maps over the grid: a moving window's block number along the rows is the point, every other is 0. -/
theorem idx1 : ∀ t : Fin cfg1.N, win1_0.index t (0 : Fin 2) = t.val
    ∧ win1_0.index t (1 : Fin 2) = 0
    ∧ win1_1.index t (0 : Fin 2) = 0
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = t.val
    ∧ win1_5.index t (1 : Fin 2) = 0 :=
  (by decide +kernel : ∀ t : Fin grid1.N, _)

set_option maxHeartbeats 4000000 in
set_option backward.isDefEq.respectTransparency.types false in
/-- What point t writes back is block t of the whole-array function of the arrays as the region finds them. -/
theorem flushed1 (c : Dev nD) (t : Fin cfg1.N) :
    (dat1 (F := Ideal) V c).flushed 5 t = ((cfg1.win 5).blk t).view.read (Elt Ideal) (Cert.Val.Gmlp (V c main_v41) (V c main_v42) (V c main_v44) (V c main_v43) (V c main_v45)) := by
  show (cfg1.win 5).cut (grid1.coords t) ((dat1 V c).after 5 t) = _
  rw [after1_5]
  unfold out1_5
  rw [View.canon_unit_zero hz1]
  simp only [View.ld_unit_zero (S := S5000x128) hz1, View.ld_unit_zero (S := S128x128) hz1, View.ld_unit_zero (S := S1x128) hz1]
  obtain ⟨e00, e01, e10, e11, e20, e21, e30, e31, e40, e41, e50, e51⟩ := idx1 t
  funext j
  obtain ⟨p, q, rfl⟩ : ∃ (p : Fin 5000) (q : Fin 128), j = ix2 p q := ⟨j 0, j 1, eq_ix2 j⟩
  have hp := p.isLt
  have ht : t.val < 10 := by have h := t.isLt; have hN : cfg1.N = 10 := N_1; omega
  refine (Cert.Val.mlp_pay (iblk1 V c 0 t) (iblk1 V c 1 t) (iblk1 V c 2 t) (iblk1 V c 3 t) (iblk1 V c 4 t) p q).trans ?_
  show Cert.Val.mlpCell (fun k => V c main_v41 (((cfg1.win 0).blk t).view.emb (ix2 p k))) (fun k j => V c main_v42 (((cfg1.win 1).blk t).view.emb (ix2 k j))) (fun j => V c main_v44 (((cfg1.win 2).blk t).view.emb (ix2 (0 : Fin 1) j))) (fun j => V c main_v43 (((cfg1.win 3).blk t).view.emb (ix2 j q))) (V c main_v45 (((cfg1.win 4).blk t).view.emb (ix2 (0 : Fin 1) q)))
      = Cert.Val.Gmlp (V c main_v41) (V c main_v42) (V c main_v44) (V c main_v43) (V c main_v45) (((cfg1.win 5).blk t).view.emb (ix2 p q))
  have h0 : ∀ (k : Fin 128), (((cfg1.win 0).blk t).view.emb (ix2 p k)) = (ix2 (⟨t.val * 5000 + p.val, by omega⟩ : Fin 50000) k : S50000x128.Idx) := by
    intro k
    funext a; apply Fin.ext
    match a with
    | ⟨0, _⟩ => show win1_0.index t (0 : Fin 2) * 5000 + 1 * p.val = t.val * 5000 + p.val; rw [e00]; omega
    | ⟨1, _⟩ => show win1_0.index t (1 : Fin 2) * 128 + 1 * k.val = k.val; rw [e01]; omega
  have h1 : ∀ (k : Fin 128) (j : Fin 128), (((cfg1.win 1).blk t).view.emb (ix2 k j)) = (ix2 k j : S128x128.Idx) := by
    intro k j
    funext a; apply Fin.ext
    match a with
    | ⟨0, _⟩ => show win1_1.index t (0 : Fin 2) * 128 + 1 * k.val = k.val; rw [e10]; omega
    | ⟨1, _⟩ => show win1_1.index t (1 : Fin 2) * 128 + 1 * j.val = j.val; rw [e11]; omega
  have h2 : ∀ (j : Fin 128), (((cfg1.win 2).blk t).view.emb (ix2 (0 : Fin 1) j)) = (ix2 (0 : Fin 1) j : S1x128.Idx) := by
    intro j
    funext a; apply Fin.ext
    match a with
    | ⟨0, _⟩ => show win1_2.index t (0 : Fin 2) * 1 + 1 * (0 : Fin 1).val = (0 : Fin 1).val; rw [e20]; omega
    | ⟨1, _⟩ => show win1_2.index t (1 : Fin 2) * 128 + 1 * j.val = j.val; rw [e21]; omega
  have h3 : ∀ (j : Fin 128), (((cfg1.win 3).blk t).view.emb (ix2 j q)) = (ix2 j q : S128x128.Idx) := by
    intro j
    funext a; apply Fin.ext
    match a with
    | ⟨0, _⟩ => show win1_3.index t (0 : Fin 2) * 128 + 1 * j.val = j.val; rw [e30]; omega
    | ⟨1, _⟩ => show win1_3.index t (1 : Fin 2) * 128 + 1 * q.val = q.val; rw [e31]; omega
  have h4 : (((cfg1.win 4).blk t).view.emb (ix2 (0 : Fin 1) q)) = (ix2 (0 : Fin 1) q : S1x128.Idx) := by
    funext a; apply Fin.ext
    match a with
    | ⟨0, _⟩ => show win1_4.index t (0 : Fin 2) * 1 + 1 * (0 : Fin 1).val = (0 : Fin 1).val; rw [e40]; omega
    | ⟨1, _⟩ => show win1_4.index t (1 : Fin 2) * 128 + 1 * q.val = q.val; rw [e41]; omega
  have h5 : (((cfg1.win 5).blk t).view.emb (ix2 p q)) = (ix2 (⟨t.val * 5000 + p.val, by omega⟩ : Fin 50000) q : S50000x128.Idx) := by
    funext a; apply Fin.ext
    match a with
    | ⟨0, _⟩ => show win1_5.index t (0 : Fin 2) * 5000 + 1 * p.val = t.val * 5000 + p.val; rw [e50]; omega
    | ⟨1, _⟩ => show win1_5.index t (1 : Fin 2) * 128 + 1 * q.val = q.val; rw [e51]; omega
  simp only [h0, h1, h2, h3, h4, h5]
  rfl

/-- An index of the output array is in point t's block iff each coordinate is in the block's range on its axis. -/
theorem mem_blk1 (t : Fin cfg1.N) (i : S50000x128.Idx) :
    i ∈ ((cfg1.win 5).blk t).view.set ↔ ∀ a : Fin 2, win1_5.index t a * S5000x128.size a ≤ (i a).val ∧ (i a).val < win1_5.index t a * S5000x128.size a + S5000x128.size a := by
  show i ∈ ((View.whole main_v46).slice (win1_5.rect t)).set ↔ _
  rw [View.set_slice_whole, Rect.mem_set_unit]
  exact Iff.rfl

set_option maxHeartbeats 4000000 in
/-- The array after the region: the whole-array function of the arrays as the region finds them. -/
theorem final1 (c : Dev nD) : (dat1 (F := Ideal) V c).arrAt 5 cfg1.N = Cert.Val.Gmlp (V c main_v41) (V c main_v42) (V c main_v44) (V c main_v43) (V c main_v45) :=
  (dat1 V c).arrAt_eq_of_cover 5 (Cert.Val.Gmlp (V c main_v41) (V c main_v42) (V c main_v44) (V c main_v43) (V c main_v45)) (fun t _ => flushed1 V c t) fun i => by
    have hi0 : (i 0).val < 50000 := (i 0).isLt
    have hi1 : (i 1).val < 128 := (i 1).isLt
    have hN : grid1.N = 10 := N_1
    let t : Fin cfg1.N := ⟨(i 0).val / 5000, by show _ < grid1.N; omega⟩
    obtain ⟨e00, e01, e10, e11, e20, e21, e30, e31, e40, e41, e50, e51⟩ := idx1 t
    refine ⟨t, flush1_5 t, ?_⟩
    rw [mem_blk1]
    intro a
    match a with
    | ⟨0, _⟩ => show win1_5.index t (0 : Fin 2) * 5000 ≤ (i 0).val ∧ (i 0).val < win1_5.index t (0 : Fin 2) * 5000 + 5000; rw [e50]; show (i 0).val / 5000 * 5000 ≤ (i 0).val ∧ (i 0).val < (i 0).val / 5000 * 5000 + 5000; omega
    | ⟨1, _⟩ => show win1_5.index t (1 : Fin 2) * 128 ≤ (i 1).val ∧ (i 1).val < win1_5.index t (1 : Fin 2) * 128 + 128; rw [e51]; omega

end Cert.KernelIdeal.RegV

end
-- ==== Proof.Stage2.lean ====
/-
  Host stretch 2 of the kernel program read back: what its operations, folded over any valuation of the buffers,
  leave in the buffers that later items read, as the host functions of the arrays the stretch starts from.
-/
import proofs.«130465_j18580028523178_1_alg».proof.Proof.Gen.KernelIdeal.Launch
import proofs.«130465_j18580028523178_1_alg».proof.Proof.ValHost
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 40000000 in
theorem s2_main_v48 : StableHlo.after (hostOps2 (F := Ideal)) W (Proc.devRef .tc main_v48) = shapeCast S1x128 (extractStridedSlice S1x1x128 ![1, 0, 0] (W (Proc.devRef .tc main_arg3)) slices_S3x1x128_S1x1x128_1_0_0) shapeCasts_S1x1x128_S1x128 := by
  after_results_simp <;> rfl

set_option maxHeartbeats 40000000 in
theorem s2_main_v51 : StableHlo.after (hostOps2 (F := Ideal)) W (Proc.devRef .tc main_v51) = Cert.Val.rowOf (extractStridedSlice S1x128 ![1, 0] (W (Proc.devRef .tc main_arg4)) slices_S3x128_S1x128_1_0) := by
  unfold Cert.Val.rowOf
  after_results_simp <;> rfl

set_option maxHeartbeats 40000000 in
theorem s2_main_v58 : StableHlo.after (hostOps2 (F := Ideal)) W (Proc.devRef .tc main_v58) = Cert.Val.gatherAt (W (Proc.devRef .tc main_v46)) (W (Proc.devRef .tc main_v1)) := by
  unfold Cert.Val.gatherAt
  after_results_simp <;> rfl

end Cert.KernelIdeal.Stage

end
-- ==== Proof.ValReg2.lean ====
/-
  Region 2 at the exact instance: the array the region leaves is one function of the arrays its windows look at.
  At a grid point t the body is handed block t of every moving window (rows t*6400 .. t*6400+6399) and the whole of every
  fixed one; what it stores into the output block is, entry by entry, the cell function of those rows; so the block
  written back at t is block t of the whole-array function, and the blocks of the 125 points cover the array.
-/
import proofs.«130465_j18580028523178_1_alg».proof.Proof.RegI2
import proofs.«130465_j18580028523178_1_alg».proof.Proof.ValSpec
import Idealize.ShloMosaic.Lib.Pipeline.Value
import Idealize.ShloMosaic.Lib.ValueIdx

set_option maxRecDepth 16384

noncomputable section

namespace Cert.KernelIdeal.RegV

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz2 : (![0, 0] : Fin 2 → Nat) = fun _ => 0 := funext fun a => by fin_cases a <;> rfl

/-- The windows' index maps over the grid: a moving window's block number along the rows is the point, every other is 0. -/
theorem idx2 : ∀ t : Fin cfg2.N, win2_0.index t (0 : Fin 2) = t.val
    ∧ win2_0.index t (1 : Fin 2) = 0
    ∧ win2_1.index t (0 : Fin 2) = t.val
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = t.val
    ∧ win2_4.index t (1 : Fin 2) = 0 :=
  (by decide +kernel : ∀ t : Fin grid2.N, _)

set_option maxHeartbeats 4000000 in
set_option backward.isDefEq.respectTransparency.types false in
/-- What point t writes back is block t of the whole-array function of the arrays as the region finds them. -/
theorem flushed2 (c : Dev nD) (t : Fin cfg2.N) :
    (dat2 (F := Ideal) V c).flushed 4 t = ((cfg2.win 4).blk t).view.read (Elt Ideal) (Cert.Val.Gedge (V c main_v58) (V c main_arg2) (V c main_v48) (V c main_v51)) := by
  show (cfg2.win 4).cut (grid2.coords t) ((dat2 V c).after 4 t) = _
  rw [after2_4]
  unfold out2_4
  rw [View.canon_unit_zero hz2]
  simp only [View.ld_unit_zero (S := S6400x128) hz2, View.ld_unit_zero (S := S6400x1) hz2, View.ld_unit_zero (S := S1x128) hz2]
  obtain ⟨e00, e01, e10, e11, e20, e21, e30, e31, e40, e41⟩ := idx2 t
  funext j
  obtain ⟨p, q, rfl⟩ : ∃ (p : Fin 6400) (q : Fin 128), j = ix2 p q := ⟨j 0, j 1, eq_ix2 j⟩
  have hp := p.isLt
  have ht : t.val < 125 := by have h := t.isLt; have hN : cfg2.N = 125 := N_2; omega
  refine (Cert.Val.edge_pay2 (iblk2 V c 1 t) (iblk2 V c 2 t) (iblk2 V c 3 t) (iblk2 V c 0 t) p q).trans ?_
  show Cert.Val.edgeCell (V c main_v58 (((cfg2.win 0).blk t).view.emb (ix2 p q))) (V c main_arg2 (((cfg2.win 1).blk t).view.emb (ix2 p (0 : Fin 1)))) (V c main_v48 (((cfg2.win 2).blk t).view.emb (ix2 (0 : Fin 1) q))) (V c main_v51 (((cfg2.win 3).blk t).view.emb (ix2 (0 : Fin 1) q)))
      = Cert.Val.Gedge (V c main_v58) (V c main_arg2) (V c main_v48) (V c main_v51) (((cfg2.win 4).blk t).view.emb (ix2 p q))
  have h0 : (((cfg2.win 0).blk t).view.emb (ix2 p q)) = (ix2 (⟨t.val * 6400 + p.val, by omega⟩ : Fin 800000) q : S800000x128.Idx) := by
    funext a; apply Fin.ext
    match a with
    | ⟨0, _⟩ => show win2_0.index t (0 : Fin 2) * 6400 + 1 * p.val = t.val * 6400 + p.val; rw [e00]; omega
    | ⟨1, _⟩ => show win2_0.index t (1 : Fin 2) * 128 + 1 * q.val = q.val; rw [e01]; omega
  have h1 : (((cfg2.win 1).blk t).view.emb (ix2 p (0 : Fin 1))) = (ix2 (⟨t.val * 6400 + p.val, by omega⟩ : Fin 800000) (0 : Fin 1) : S800000x1.Idx) := by
    funext a; apply Fin.ext
    match a with
    | ⟨0, _⟩ => show win2_1.index t (0 : Fin 2) * 6400 + 1 * p.val = t.val * 6400 + p.val; rw [e10]; omega
    | ⟨1, _⟩ => show win2_1.index t (1 : Fin 2) * 1 + 1 * (0 : Fin 1).val = (0 : Fin 1).val; rw [e11]; omega
  have h2 : (((cfg2.win 2).blk t).view.emb (ix2 (0 : Fin 1) q)) = (ix2 (0 : Fin 1) q : S1x128.Idx) := by
    funext a; apply Fin.ext
    match a with
    | ⟨0, _⟩ => show win2_2.index t (0 : Fin 2) * 1 + 1 * (0 : Fin 1).val = (0 : Fin 1).val; rw [e20]; omega
    | ⟨1, _⟩ => show win2_2.index t (1 : Fin 2) * 128 + 1 * q.val = q.val; rw [e21]; omega
  have h3 : (((cfg2.win 3).blk t).view.emb (ix2 (0 : Fin 1) q)) = (ix2 (0 : Fin 1) q : S1x128.Idx) := by
    funext a; apply Fin.ext
    match a with
    | ⟨0, _⟩ => show win2_3.index t (0 : Fin 2) * 1 + 1 * (0 : Fin 1).val = (0 : Fin 1).val; rw [e30]; omega
    | ⟨1, _⟩ => show win2_3.index t (1 : Fin 2) * 128 + 1 * q.val = q.val; rw [e31]; omega
  have h4 : (((cfg2.win 4).blk t).view.emb (ix2 p q)) = (ix2 (⟨t.val * 6400 + p.val, by omega⟩ : Fin 800000) q : S800000x128.Idx) := by
    funext a; apply Fin.ext
    match a with
    | ⟨0, _⟩ => show win2_4.index t (0 : Fin 2) * 6400 + 1 * p.val = t.val * 6400 + p.val; rw [e40]; omega
    | ⟨1, _⟩ => show win2_4.index t (1 : Fin 2) * 128 + 1 * q.val = q.val; rw [e41]; omega
  simp only [h0, h1, h2, h3, h4]
  rfl

/-- An index of the output array is in point t's block iff each coordinate is in the block's range on its axis. -/
theorem mem_blk2 (t : Fin cfg2.N) (i : S800000x128.Idx) :
    i ∈ ((cfg2.win 4).blk t).view.set ↔ ∀ a : Fin 2, win2_4.index t a * S6400x128.size a ≤ (i a).val ∧ (i a).val < win2_4.index t a * S6400x128.size a + S6400x128.size a := by
  show i ∈ ((View.whole main_v59).slice (win2_4.rect t)).set ↔ _
  rw [View.set_slice_whole, Rect.mem_set_unit]
  exact Iff.rfl

set_option maxHeartbeats 4000000 in
/-- The array after the region: the whole-array function of the arrays as the region finds them. -/
theorem final2 (c : Dev nD) : (dat2 (F := Ideal) V c).arrAt 4 cfg2.N = Cert.Val.Gedge (V c main_v58) (V c main_arg2) (V c main_v48) (V c main_v51) :=
  (dat2 V c).arrAt_eq_of_cover 4 (Cert.Val.Gedge (V c main_v58) (V c main_arg2) (V c main_v48) (V c main_v51)) (fun t _ => flushed2 V c t) fun i => by
    have hi0 : (i 0).val < 800000 := (i 0).isLt
    have hi1 : (i 1).val < 128 := (i 1).isLt
    have hN : grid2.N = 125 := N_2
    let t : Fin cfg2.N := ⟨(i 0).val / 6400, by show _ < grid2.N; omega⟩
    obtain ⟨e00, e01, e10, e11, e20, e21, e30, e31, e40, e41⟩ := idx2 t
    refine ⟨t, flush2_4 t, ?_⟩
    rw [mem_blk2]
    intro a
    match a with
    | ⟨0, _⟩ => show win2_4.index t (0 : Fin 2) * 6400 ≤ (i 0).val ∧ (i 0).val < win2_4.index t (0 : Fin 2) * 6400 + 6400; rw [e40]; show (i 0).val / 6400 * 6400 ≤ (i 0).val ∧ (i 0).val < (i 0).val / 6400 * 6400 + 6400; omega
    | ⟨1, _⟩ => show win2_4.index t (1 : Fin 2) * 128 ≤ (i 1).val ∧ (i 1).val < win2_4.index t (1 : Fin 2) * 128 + 128; rw [e41]; omega

end Cert.KernelIdeal.RegV

end
-- ==== Proof.Stage3.lean ====
/-
  Host stretch 3 of the kernel program read back: what its operations, folded over any valuation of the buffers,
  leave in the buffers that later items read, as the host functions of the arrays the stretch starts from.
-/
import proofs.«130465_j18580028523178_1_alg».proof.Proof.Gen.KernelIdeal.Launch
import proofs.«130465_j18580028523178_1_alg».proof.Proof.ValHost
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 40000000 in
theorem s3_main_v79 : StableHlo.after (hostOps3 (F := Ideal)) W (Proc.devRef .tc main_v79) = truncf (F := Ideal) .bf16 (Cert.Val.aggregateAt (W (Proc.devRef .tc main_v59)) (W (Proc.devRef .tc main_v3)) (W (Proc.devRef .tc main_v8)) (W (Proc.devRef .tc main_v46)) (extractStridedSlice S1 ![1] (W (Proc.devRef .tc main_arg5)) slices_S3_S1_1)) bitsLt_bf16_f32 := by
  unfold Cert.Val.aggregateAt
  after_results_simp <;> rfl

set_option maxHeartbeats 40000000 in
theorem s3_main_v80 : StableHlo.after (hostOps3 (F := Ideal)) W (Proc.devRef .tc main_v80) = Cert.Val.matOf (extractStridedSlice S1x128x128 ![1, 0, 0] (W (Proc.devRef .tc main_arg6)) slices_S3x128x128_S1x128x128_1_0_0) := by
  unfold Cert.Val.matOf
  after_results_simp <;> rfl

set_option maxHeartbeats 40000000 in
theorem s3_main_v81 : StableHlo.after (hostOps3 (F := Ideal)) W (Proc.devRef .tc main_v81) = Cert.Val.matOf (extractStridedSlice S1x128x128 ![1, 0, 0] (W (Proc.devRef .tc main_arg8)) slices_S3x128x128_S1x128x128_1_0_0) := by
  unfold Cert.Val.matOf
  after_results_simp <;> rfl

set_option maxHeartbeats 40000000 in
theorem s3_main_v82 : StableHlo.after (hostOps3 (F := Ideal)) W (Proc.devRef .tc main_v82) = Cert.Val.rowOf (extractStridedSlice S1x128 ![1, 0] (W (Proc.devRef .tc main_arg7)) slices_S3x128_S1x128_1_0) := by
  unfold Cert.Val.rowOf
  after_results_simp <;> rfl

set_option maxHeartbeats 40000000 in
theorem s3_main_v83 : StableHlo.after (hostOps3 (F := Ideal)) W (Proc.devRef .tc main_v83) = Cert.Val.rowOf (extractStridedSlice S1x128 ![1, 0] (W (Proc.devRef .tc main_arg9)) slices_S3x128_S1x128_1_0) := by
  unfold Cert.Val.rowOf
  after_results_simp <;> rfl

end Cert.KernelIdeal.Stage

end
-- ==== Proof.ValReg3.lean ====
/-
  Region 3 at the exact instance: the array the region leaves is one function of the arrays its windows look at.
  At a grid point t the body is handed block t of every moving window (rows t*5000 .. t*5000+4999) and the whole of every
  fixed one; what it stores into the output block is, entry by entry, the cell function of those rows; so the block
  written back at t is block t of the whole-array function, and the blocks of the 10 points cover the array.
-/
import proofs.«130465_j18580028523178_1_alg».proof.Proof.RegI3
import proofs.«130465_j18580028523178_1_alg».proof.Proof.ValSpec
import Idealize.ShloMosaic.Lib.Pipeline.Value
import Idealize.ShloMosaic.Lib.ValueIdx

set_option maxRecDepth 16384

noncomputable section

namespace Cert.KernelIdeal.RegV

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz3 : (![0, 0] : Fin 2 → Nat) = fun _ => 0 := funext fun a => by fin_cases a <;> rfl

/-- The windows' index maps over the grid: a moving window's block number along the rows is the point, every other is 0. -/
theorem idx3 : ∀ t : Fin cfg3.N, win3_0.index t (0 : Fin 2) = t.val
    ∧ win3_0.index t (1 : Fin 2) = 0
    ∧ win3_1.index t (0 : Fin 2) = 0
    ∧ win3_1.index t (1 : Fin 2) = 0
    ∧ win3_2.index t (0 : Fin 2) = 0
    ∧ win3_2.index t (1 : Fin 2) = 0
    ∧ win3_3.index t (0 : Fin 2) = 0
    ∧ win3_3.index t (1 : Fin 2) = 0
    ∧ win3_4.index t (0 : Fin 2) = 0
    ∧ win3_4.index t (1 : Fin 2) = 0
    ∧ win3_5.index t (0 : Fin 2) = t.val
    ∧ win3_5.index t (1 : Fin 2) = 0 :=
  (by decide +kernel : ∀ t : Fin grid3.N, _)

set_option maxHeartbeats 4000000 in
set_option backward.isDefEq.respectTransparency.types false in
/-- What point t writes back is block t of the whole-array function of the arrays as the region finds them. -/
theorem flushed3 (c : Dev nD) (t : Fin cfg3.N) :
    (dat3 (F := Ideal) V c).flushed 5 t = ((cfg3.win 5).blk t).view.read (Elt Ideal) (Cert.Val.Gmlp (V c main_v79) (V c main_v80) (V c main_v82) (V c main_v81) (V c main_v83)) := by
  show (cfg3.win 5).cut (grid3.coords t) ((dat3 V c).after 5 t) = _
  rw [after3_5]
  unfold out3_5
  rw [View.canon_unit_zero hz3]
  simp only [View.ld_unit_zero (S := S5000x128) hz3, View.ld_unit_zero (S := S128x128) hz3, View.ld_unit_zero (S := S1x128) hz3]
  obtain ⟨e00, e01, e10, e11, e20, e21, e30, e31, e40, e41, e50, e51⟩ := idx3 t
  funext j
  obtain ⟨p, q, rfl⟩ : ∃ (p : Fin 5000) (q : Fin 128), j = ix2 p q := ⟨j 0, j 1, eq_ix2 j⟩
  have hp := p.isLt
  have ht : t.val < 10 := by have h := t.isLt; have hN : cfg3.N = 10 := N_3; omega
  refine (Cert.Val.mlp_pay3 (iblk3 V c 0 t) (iblk3 V c 1 t) (iblk3 V c 2 t) (iblk3 V c 3 t) (iblk3 V c 4 t) p q).trans ?_
  show Cert.Val.mlpCell (fun k => V c main_v79 (((cfg3.win 0).blk t).view.emb (ix2 p k))) (fun k j => V c main_v80 (((cfg3.win 1).blk t).view.emb (ix2 k j))) (fun j => V c main_v82 (((cfg3.win 2).blk t).view.emb (ix2 (0 : Fin 1) j))) (fun j => V c main_v81 (((cfg3.win 3).blk t).view.emb (ix2 j q))) (V c main_v83 (((cfg3.win 4).blk t).view.emb (ix2 (0 : Fin 1) q)))
      = Cert.Val.Gmlp (V c main_v79) (V c main_v80) (V c main_v82) (V c main_v81) (V c main_v83) (((cfg3.win 5).blk t).view.emb (ix2 p q))
  have h0 : ∀ (k : Fin 128), (((cfg3.win 0).blk t).view.emb (ix2 p k)) = (ix2 (⟨t.val * 5000 + p.val, by omega⟩ : Fin 50000) k : S50000x128.Idx) := by
    intro k
    funext a; apply Fin.ext
    match a with
    | ⟨0, _⟩ => show win3_0.index t (0 : Fin 2) * 5000 + 1 * p.val = t.val * 5000 + p.val; rw [e00]; omega
    | ⟨1, _⟩ => show win3_0.index t (1 : Fin 2) * 128 + 1 * k.val = k.val; rw [e01]; omega
  have h1 : ∀ (k : Fin 128) (j : Fin 128), (((cfg3.win 1).blk t).view.emb (ix2 k j)) = (ix2 k j : S128x128.Idx) := by
    intro k j
    funext a; apply Fin.ext
    match a with
    | ⟨0, _⟩ => show win3_1.index t (0 : Fin 2) * 128 + 1 * k.val = k.val; rw [e10]; omega
    | ⟨1, _⟩ => show win3_1.index t (1 : Fin 2) * 128 + 1 * j.val = j.val; rw [e11]; omega
  have h2 : ∀ (j : Fin 128), (((cfg3.win 2).blk t).view.emb (ix2 (0 : Fin 1) j)) = (ix2 (0 : Fin 1) j : S1x128.Idx) := by
    intro j
    funext a; apply Fin.ext
    match a with
    | ⟨0, _⟩ => show win3_2.index t (0 : Fin 2) * 1 + 1 * (0 : Fin 1).val = (0 : Fin 1).val; rw [e20]; omega
    | ⟨1, _⟩ => show win3_2.index t (1 : Fin 2) * 128 + 1 * j.val = j.val; rw [e21]; omega
  have h3 : ∀ (j : Fin 128), (((cfg3.win 3).blk t).view.emb (ix2 j q)) = (ix2 j q : S128x128.Idx) := by
    intro j
    funext a; apply Fin.ext
    match a with
    | ⟨0, _⟩ => show win3_3.index t (0 : Fin 2) * 128 + 1 * j.val = j.val; rw [e30]; omega
    | ⟨1, _⟩ => show win3_3.index t (1 : Fin 2) * 128 + 1 * q.val = q.val; rw [e31]; omega
  have h4 : (((cfg3.win 4).blk t).view.emb (ix2 (0 : Fin 1) q)) = (ix2 (0 : Fin 1) q : S1x128.Idx) := by
    funext a; apply Fin.ext
    match a with
    | ⟨0, _⟩ => show win3_4.index t (0 : Fin 2) * 1 + 1 * (0 : Fin 1).val = (0 : Fin 1).val; rw [e40]; omega
    | ⟨1, _⟩ => show win3_4.index t (1 : Fin 2) * 128 + 1 * q.val = q.val; rw [e41]; omega
  have h5 : (((cfg3.win 5).blk t).view.emb (ix2 p q)) = (ix2 (⟨t.val * 5000 + p.val, by omega⟩ : Fin 50000) q : S50000x128.Idx) := by
    funext a; apply Fin.ext
    match a with
    | ⟨0, _⟩ => show win3_5.index t (0 : Fin 2) * 5000 + 1 * p.val = t.val * 5000 + p.val; rw [e50]; omega
    | ⟨1, _⟩ => show win3_5.index t (1 : Fin 2) * 128 + 1 * q.val = q.val; rw [e51]; omega
  simp only [h0, h1, h2, h3, h4, h5]
  rfl

/-- An index of the output array is in point t's block iff each coordinate is in the block's range on its axis. -/
theorem mem_blk3 (t : Fin cfg3.N) (i : S50000x128.Idx) :
    i ∈ ((cfg3.win 5).blk t).view.set ↔ ∀ a : Fin 2, win3_5.index t a * S5000x128.size a ≤ (i a).val ∧ (i a).val < win3_5.index t a * S5000x128.size a + S5000x128.size a := by
  show i ∈ ((View.whole main_v84).slice (win3_5.rect t)).set ↔ _
  rw [View.set_slice_whole, Rect.mem_set_unit]
  exact Iff.rfl

set_option maxHeartbeats 4000000 in
/-- The array after the region: the whole-array function of the arrays as the region finds them. -/
theorem final3 (c : Dev nD) : (dat3 (F := Ideal) V c).arrAt 5 cfg3.N = Cert.Val.Gmlp (V c main_v79) (V c main_v80) (V c main_v82) (V c main_v81) (V c main_v83) :=
  (dat3 V c).arrAt_eq_of_cover 5 (Cert.Val.Gmlp (V c main_v79) (V c main_v80) (V c main_v82) (V c main_v81) (V c main_v83)) (fun t _ => flushed3 V c t) fun i => by
    have hi0 : (i 0).val < 50000 := (i 0).isLt
    have hi1 : (i 1).val < 128 := (i 1).isLt
    have hN : grid3.N = 10 := N_3
    let t : Fin cfg3.N := ⟨(i 0).val / 5000, by show _ < grid3.N; omega⟩
    obtain ⟨e00, e01, e10, e11, e20, e21, e30, e31, e40, e41, e50, e51⟩ := idx3 t
    refine ⟨t, flush3_5 t, ?_⟩
    rw [mem_blk3]
    intro a
    match a with
    | ⟨0, _⟩ => show win3_5.index t (0 : Fin 2) * 5000 ≤ (i 0).val ∧ (i 0).val < win3_5.index t (0 : Fin 2) * 5000 + 5000; rw [e50]; show (i 0).val / 5000 * 5000 ≤ (i 0).val ∧ (i 0).val < (i 0).val / 5000 * 5000 + 5000; omega
    | ⟨1, _⟩ => show win3_5.index t (1 : Fin 2) * 128 ≤ (i 1).val ∧ (i 1).val < win3_5.index t (1 : Fin 2) * 128 + 128; rw [e51]; omega

end Cert.KernelIdeal.RegV

end
-- ==== Proof.Stage4.lean ====
/-
  Host stretch 4 of the kernel program read back: what its operations, folded over any valuation of the buffers,
  leave in the buffers that later items read, as the host functions of the arrays the stretch starts from.
-/
import proofs.«130465_j18580028523178_1_alg».proof.Proof.Gen.KernelIdeal.Launch
import proofs.«130465_j18580028523178_1_alg».proof.Proof.ValHost
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 40000000 in
theorem s4_main_v86 : StableHlo.after (hostOps4 (F := Ideal)) W (Proc.devRef .tc main_v86) = shapeCast S1x128 (extractStridedSlice S1x1x128 ![2, 0, 0] (W (Proc.devRef .tc main_arg3)) slices_S3x1x128_S1x1x128_2_0_0) shapeCasts_S1x1x128_S1x128 := by
  after_results_simp <;> rfl

set_option maxHeartbeats 40000000 in
theorem s4_main_v89 : StableHlo.after (hostOps4 (F := Ideal)) W (Proc.devRef .tc main_v89) = Cert.Val.rowOf (extractStridedSlice S1x128 ![2, 0] (W (Proc.devRef .tc main_arg4)) slices_S3x128_S1x128_2_0) := by
  unfold Cert.Val.rowOf
  after_results_simp <;> rfl

set_option maxHeartbeats 40000000 in
theorem s4_main_v96 : StableHlo.after (hostOps4 (F := Ideal)) W (Proc.devRef .tc main_v96) = Cert.Val.gatherAt (W (Proc.devRef .tc main_v84)) (W (Proc.devRef .tc main_v1)) := by
  unfold Cert.Val.gatherAt
  after_results_simp <;> rfl

end Cert.KernelIdeal.Stage

end
-- ==== Proof.ValReg4.lean ====
/-
  Region 4 at the exact instance: the array the region leaves is one function of the arrays its windows look at.
  At a grid point t the body is handed block t of every moving window (rows t*6400 .. t*6400+6399) and the whole of every
  fixed one; what it stores into the output block is, entry by entry, the cell function of those rows; so the block
  written back at t is block t of the whole-array function, and the blocks of the 125 points cover the array.
-/
import proofs.«130465_j18580028523178_1_alg».proof.Proof.RegI4
import proofs.«130465_j18580028523178_1_alg».proof.Proof.ValSpec
import Idealize.ShloMosaic.Lib.Pipeline.Value
import Idealize.ShloMosaic.Lib.ValueIdx

set_option maxRecDepth 16384

noncomputable section

namespace Cert.KernelIdeal.RegV

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz4 : (![0, 0] : Fin 2 → Nat) = fun _ => 0 := funext fun a => by fin_cases a <;> rfl

/-- The windows' index maps over the grid: a moving window's block number along the rows is the point, every other is 0. -/
theorem idx4 : ∀ t : Fin cfg4.N, win4_0.index t (0 : Fin 2) = t.val
    ∧ win4_0.index t (1 : Fin 2) = 0
    ∧ win4_1.index t (0 : Fin 2) = t.val
    ∧ win4_1.index t (1 : Fin 2) = 0
    ∧ win4_2.index t (0 : Fin 2) = 0
    ∧ win4_2.index t (1 : Fin 2) = 0
    ∧ win4_3.index t (0 : Fin 2) = 0
    ∧ win4_3.index t (1 : Fin 2) = 0
    ∧ win4_4.index t (0 : Fin 2) = t.val
    ∧ win4_4.index t (1 : Fin 2) = 0 :=
  (by decide +kernel : ∀ t : Fin grid4.N, _)

set_option maxHeartbeats 4000000 in
set_option backward.isDefEq.respectTransparency.types false in
/-- What point t writes back is block t of the whole-array function of the arrays as the region finds them. -/
theorem flushed4 (c : Dev nD) (t : Fin cfg4.N) :
    (dat4 (F := Ideal) V c).flushed 4 t = ((cfg4.win 4).blk t).view.read (Elt Ideal) (Cert.Val.Gedge (V c main_v96) (V c main_arg2) (V c main_v86) (V c main_v89)) := by
  show (cfg4.win 4).cut (grid4.coords t) ((dat4 V c).after 4 t) = _
  rw [after4_4]
  unfold out4_4
  rw [View.canon_unit_zero hz4]
  simp only [View.ld_unit_zero (S := S6400x128) hz4, View.ld_unit_zero (S := S6400x1) hz4, View.ld_unit_zero (S := S1x128) hz4]
  obtain ⟨e00, e01, e10, e11, e20, e21, e30, e31, e40, e41⟩ := idx4 t
  funext j
  obtain ⟨p, q, rfl⟩ : ∃ (p : Fin 6400) (q : Fin 128), j = ix2 p q := ⟨j 0, j 1, eq_ix2 j⟩
  have hp := p.isLt
  have ht : t.val < 125 := by have h := t.isLt; have hN : cfg4.N = 125 := N_4; omega
  refine (Cert.Val.edge_pay4 (iblk4 V c 1 t) (iblk4 V c 2 t) (iblk4 V c 3 t) (iblk4 V c 0 t) p q).trans ?_
  show Cert.Val.edgeCell (V c main_v96 (((cfg4.win 0).blk t).view.emb (ix2 p q))) (V c main_arg2 (((cfg4.win 1).blk t).view.emb (ix2 p (0 : Fin 1)))) (V c main_v86 (((cfg4.win 2).blk t).view.emb (ix2 (0 : Fin 1) q))) (V c main_v89 (((cfg4.win 3).blk t).view.emb (ix2 (0 : Fin 1) q)))
      = Cert.Val.Gedge (V c main_v96) (V c main_arg2) (V c main_v86) (V c main_v89) (((cfg4.win 4).blk t).view.emb (ix2 p q))
  have h0 : (((cfg4.win 0).blk t).view.emb (ix2 p q)) = (ix2 (⟨t.val * 6400 + p.val, by omega⟩ : Fin 800000) q : S800000x128.Idx) := by
    funext a; apply Fin.ext
    match a with
    | ⟨0, _⟩ => show win4_0.index t (0 : Fin 2) * 6400 + 1 * p.val = t.val * 6400 + p.val; rw [e00]; omega
    | ⟨1, _⟩ => show win4_0.index t (1 : Fin 2) * 128 + 1 * q.val = q.val; rw [e01]; omega
  have h1 : (((cfg4.win 1).blk t).view.emb (ix2 p (0 : Fin 1))) = (ix2 (⟨t.val * 6400 + p.val, by omega⟩ : Fin 800000) (0 : Fin 1) : S800000x1.Idx) := by
    funext a; apply Fin.ext
    match a with
    | ⟨0, _⟩ => show win4_1.index t (0 : Fin 2) * 6400 + 1 * p.val = t.val * 6400 + p.val; rw [e10]; omega
    | ⟨1, _⟩ => show win4_1.index t (1 : Fin 2) * 1 + 1 * (0 : Fin 1).val = (0 : Fin 1).val; rw [e11]; omega
  have h2 : (((cfg4.win 2).blk t).view.emb (ix2 (0 : Fin 1) q)) = (ix2 (0 : Fin 1) q : S1x128.Idx) := by
    funext a; apply Fin.ext
    match a with
    | ⟨0, _⟩ => show win4_2.index t (0 : Fin 2) * 1 + 1 * (0 : Fin 1).val = (0 : Fin 1).val; rw [e20]; omega
    | ⟨1, _⟩ => show win4_2.index t (1 : Fin 2) * 128 + 1 * q.val = q.val; rw [e21]; omega
  have h3 : (((cfg4.win 3).blk t).view.emb (ix2 (0 : Fin 1) q)) = (ix2 (0 : Fin 1) q : S1x128.Idx) := by
    funext a; apply Fin.ext
    match a with
    | ⟨0, _⟩ => show win4_3.index t (0 : Fin 2) * 1 + 1 * (0 : Fin 1).val = (0 : Fin 1).val; rw [e30]; omega
    | ⟨1, _⟩ => show win4_3.index t (1 : Fin 2) * 128 + 1 * q.val = q.val; rw [e31]; omega
  have h4 : (((cfg4.win 4).blk t).view.emb (ix2 p q)) = (ix2 (⟨t.val * 6400 + p.val, by omega⟩ : Fin 800000) q : S800000x128.Idx) := by
    funext a; apply Fin.ext
    match a with
    | ⟨0, _⟩ => show win4_4.index t (0 : Fin 2) * 6400 + 1 * p.val = t.val * 6400 + p.val; rw [e40]; omega
    | ⟨1, _⟩ => show win4_4.index t (1 : Fin 2) * 128 + 1 * q.val = q.val; rw [e41]; omega
  simp only [h0, h1, h2, h3, h4]
  rfl

/-- An index of the output array is in point t's block iff each coordinate is in the block's range on its axis. -/
theorem mem_blk4 (t : Fin cfg4.N) (i : S800000x128.Idx) :
    i ∈ ((cfg4.win 4).blk t).view.set ↔ ∀ a : Fin 2, win4_4.index t a * S6400x128.size a ≤ (i a).val ∧ (i a).val < win4_4.index t a * S6400x128.size a + S6400x128.size a := by
  show i ∈ ((View.whole main_v97).slice (win4_4.rect t)).set ↔ _
  rw [View.set_slice_whole, Rect.mem_set_unit]
  exact Iff.rfl

set_option maxHeartbeats 4000000 in
/-- The array after the region: the whole-array function of the arrays as the region finds them. -/
theorem final4 (c : Dev nD) : (dat4 (F := Ideal) V c).arrAt 4 cfg4.N = Cert.Val.Gedge (V c main_v96) (V c main_arg2) (V c main_v86) (V c main_v89) :=
  (dat4 V c).arrAt_eq_of_cover 4 (Cert.Val.Gedge (V c main_v96) (V c main_arg2) (V c main_v86) (V c main_v89)) (fun t _ => flushed4 V c t) fun i => by
    have hi0 : (i 0).val < 800000 := (i 0).isLt
    have hi1 : (i 1).val < 128 := (i 1).isLt
    have hN : grid4.N = 125 := N_4
    let t : Fin cfg4.N := ⟨(i 0).val / 6400, by show _ < grid4.N; omega⟩
    obtain ⟨e00, e01, e10, e11, e20, e21, e30, e31, e40, e41⟩ := idx4 t
    refine ⟨t, flush4_4 t, ?_⟩
    rw [mem_blk4]
    intro a
    match a with
    | ⟨0, _⟩ => show win4_4.index t (0 : Fin 2) * 6400 ≤ (i 0).val ∧ (i 0).val < win4_4.index t (0 : Fin 2) * 6400 + 6400; rw [e40]; show (i 0).val / 6400 * 6400 ≤ (i 0).val ∧ (i 0).val < (i 0).val / 6400 * 6400 + 6400; omega
    | ⟨1, _⟩ => show win4_4.index t (1 : Fin 2) * 128 ≤ (i 1).val ∧ (i 1).val < win4_4.index t (1 : Fin 2) * 128 + 128; rw [e41]; omega

end Cert.KernelIdeal.RegV

end
-- ==== Proof.Stage5.lean ====
/-
  Host stretch 5 of the kernel program read back: what its operations, folded over any valuation of the buffers,
  leave in the buffers that later items read, as the host functions of the arrays the stretch starts from.
-/
import proofs.«130465_j18580028523178_1_alg».proof.Proof.Gen.KernelIdeal.Launch
import proofs.«130465_j18580028523178_1_alg».proof.Proof.ValHost
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 40000000 in
theorem s5_main_v117 : StableHlo.after (hostOps5 (F := Ideal)) W (Proc.devRef .tc main_v117) = truncf (F := Ideal) .bf16 (Cert.Val.aggregateAt (W (Proc.devRef .tc main_v97)) (W (Proc.devRef .tc main_v3)) (W (Proc.devRef .tc main_v8)) (W (Proc.devRef .tc main_v84)) (extractStridedSlice S1 ![2] (W (Proc.devRef .tc main_arg5)) slices_S3_S1_2)) bitsLt_bf16_f32 := by
  unfold Cert.Val.aggregateAt
  after_results_simp <;> rfl

set_option maxHeartbeats 40000000 in
theorem s5_main_v118 : StableHlo.after (hostOps5 (F := Ideal)) W (Proc.devRef .tc main_v118) = Cert.Val.matOf (extractStridedSlice S1x128x128 ![2, 0, 0] (W (Proc.devRef .tc main_arg6)) slices_S3x128x128_S1x128x128_2_0_0) := by
  unfold Cert.Val.matOf
  after_results_simp <;> rfl

set_option maxHeartbeats 40000000 in
theorem s5_main_v119 : StableHlo.after (hostOps5 (F := Ideal)) W (Proc.devRef .tc main_v119) = Cert.Val.matOf (extractStridedSlice S1x128x128 ![2, 0, 0] (W (Proc.devRef .tc main_arg8)) slices_S3x128x128_S1x128x128_2_0_0) := by
  unfold Cert.Val.matOf
  after_results_simp <;> rfl

set_option maxHeartbeats 40000000 in
theorem s5_main_v120 : StableHlo.after (hostOps5 (F := Ideal)) W (Proc.devRef .tc main_v120) = Cert.Val.rowOf (extractStridedSlice S1x128 ![2, 0] (W (Proc.devRef .tc main_arg7)) slices_S3x128_S1x128_2_0) := by
  unfold Cert.Val.rowOf
  after_results_simp <;> rfl

set_option maxHeartbeats 40000000 in
theorem s5_main_v121 : StableHlo.after (hostOps5 (F := Ideal)) W (Proc.devRef .tc main_v121) = Cert.Val.rowOf (extractStridedSlice S1x128 ![2, 0] (W (Proc.devRef .tc main_arg9)) slices_S3x128_S1x128_2_0) := by
  unfold Cert.Val.rowOf
  after_results_simp <;> rfl

end Cert.KernelIdeal.Stage

end
-- ==== Proof.ValReg5.lean ====
/-
  Region 5 at the exact instance: the array the region leaves is one function of the arrays its windows look at.
  At a grid point t the body is handed block t of every moving window (rows t*5000 .. t*5000+4999) and the whole of every
  fixed one; what it stores into the output block is, entry by entry, the cell function of those rows; so the block
  written back at t is block t of the whole-array function, and the blocks of the 10 points cover the array.
-/
import proofs.«130465_j18580028523178_1_alg».proof.Proof.RegI5
import proofs.«130465_j18580028523178_1_alg».proof.Proof.ValSpec
import Idealize.ShloMosaic.Lib.Pipeline.Value
import Idealize.ShloMosaic.Lib.ValueIdx

set_option maxRecDepth 16384

noncomputable section

namespace Cert.KernelIdeal.RegV

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz5 : (![0, 0] : Fin 2 → Nat) = fun _ => 0 := funext fun a => by fin_cases a <;> rfl

/-- The windows' index maps over the grid: a moving window's block number along the rows is the point, every other is 0. -/
theorem idx5 : ∀ t : Fin cfg5.N, win5_0.index t (0 : Fin 2) = t.val
    ∧ win5_0.index t (1 : Fin 2) = 0
    ∧ win5_1.index t (0 : Fin 2) = 0
    ∧ win5_1.index t (1 : Fin 2) = 0
    ∧ win5_2.index t (0 : Fin 2) = 0
    ∧ win5_2.index t (1 : Fin 2) = 0
    ∧ win5_3.index t (0 : Fin 2) = 0
    ∧ win5_3.index t (1 : Fin 2) = 0
    ∧ win5_4.index t (0 : Fin 2) = 0
    ∧ win5_4.index t (1 : Fin 2) = 0
    ∧ win5_5.index t (0 : Fin 2) = t.val
    ∧ win5_5.index t (1 : Fin 2) = 0 :=
  (by decide +kernel : ∀ t : Fin grid5.N, _)

set_option maxHeartbeats 4000000 in
set_option backward.isDefEq.respectTransparency.types false in
/-- What point t writes back is block t of the whole-array function of the arrays as the region finds them. -/
theorem flushed5 (c : Dev nD) (t : Fin cfg5.N) :
    (dat5 (F := Ideal) V c).flushed 5 t = ((cfg5.win 5).blk t).view.read (Elt Ideal) (Cert.Val.Gmlp (V c main_v117) (V c main_v118) (V c main_v120) (V c main_v119) (V c main_v121)) := by
  show (cfg5.win 5).cut (grid5.coords t) ((dat5 V c).after 5 t) = _
  rw [after5_5]
  unfold out5_5
  rw [View.canon_unit_zero hz5]
  simp only [View.ld_unit_zero (S := S5000x128) hz5, View.ld_unit_zero (S := S128x128) hz5, View.ld_unit_zero (S := S1x128) hz5]
  obtain ⟨e00, e01, e10, e11, e20, e21, e30, e31, e40, e41, e50, e51⟩ := idx5 t
  funext j
  obtain ⟨p, q, rfl⟩ : ∃ (p : Fin 5000) (q : Fin 128), j = ix2 p q := ⟨j 0, j 1, eq_ix2 j⟩
  have hp := p.isLt
  have ht : t.val < 10 := by have h := t.isLt; have hN : cfg5.N = 10 := N_5; omega
  refine (Cert.Val.mlp_pay5 (iblk5 V c 0 t) (iblk5 V c 1 t) (iblk5 V c 2 t) (iblk5 V c 3 t) (iblk5 V c 4 t) p q).trans ?_
  show Cert.Val.mlpCell (fun k => V c main_v117 (((cfg5.win 0).blk t).view.emb (ix2 p k))) (fun k j => V c main_v118 (((cfg5.win 1).blk t).view.emb (ix2 k j))) (fun j => V c main_v120 (((cfg5.win 2).blk t).view.emb (ix2 (0 : Fin 1) j))) (fun j => V c main_v119 (((cfg5.win 3).blk t).view.emb (ix2 j q))) (V c main_v121 (((cfg5.win 4).blk t).view.emb (ix2 (0 : Fin 1) q)))
      = Cert.Val.Gmlp (V c main_v117) (V c main_v118) (V c main_v120) (V c main_v119) (V c main_v121) (((cfg5.win 5).blk t).view.emb (ix2 p q))
  have h0 : ∀ (k : Fin 128), (((cfg5.win 0).blk t).view.emb (ix2 p k)) = (ix2 (⟨t.val * 5000 + p.val, by omega⟩ : Fin 50000) k : S50000x128.Idx) := by
    intro k
    funext a; apply Fin.ext
    match a with
    | ⟨0, _⟩ => show win5_0.index t (0 : Fin 2) * 5000 + 1 * p.val = t.val * 5000 + p.val; rw [e00]; omega
    | ⟨1, _⟩ => show win5_0.index t (1 : Fin 2) * 128 + 1 * k.val = k.val; rw [e01]; omega
  have h1 : ∀ (k : Fin 128) (j : Fin 128), (((cfg5.win 1).blk t).view.emb (ix2 k j)) = (ix2 k j : S128x128.Idx) := by
    intro k j
    funext a; apply Fin.ext
    match a with
    | ⟨0, _⟩ => show win5_1.index t (0 : Fin 2) * 128 + 1 * k.val = k.val; rw [e10]; omega
    | ⟨1, _⟩ => show win5_1.index t (1 : Fin 2) * 128 + 1 * j.val = j.val; rw [e11]; omega
  have h2 : ∀ (j : Fin 128), (((cfg5.win 2).blk t).view.emb (ix2 (0 : Fin 1) j)) = (ix2 (0 : Fin 1) j : S1x128.Idx) := by
    intro j
    funext a; apply Fin.ext
    match a with
    | ⟨0, _⟩ => show win5_2.index t (0 : Fin 2) * 1 + 1 * (0 : Fin 1).val = (0 : Fin 1).val; rw [e20]; omega
    | ⟨1, _⟩ => show win5_2.index t (1 : Fin 2) * 128 + 1 * j.val = j.val; rw [e21]; omega
  have h3 : ∀ (j : Fin 128), (((cfg5.win 3).blk t).view.emb (ix2 j q)) = (ix2 j q : S128x128.Idx) := by
    intro j
    funext a; apply Fin.ext
    match a with
    | ⟨0, _⟩ => show win5_3.index t (0 : Fin 2) * 128 + 1 * j.val = j.val; rw [e30]; omega
    | ⟨1, _⟩ => show win5_3.index t (1 : Fin 2) * 128 + 1 * q.val = q.val; rw [e31]; omega
  have h4 : (((cfg5.win 4).blk t).view.emb (ix2 (0 : Fin 1) q)) = (ix2 (0 : Fin 1) q : S1x128.Idx) := by
    funext a; apply Fin.ext
    match a with
    | ⟨0, _⟩ => show win5_4.index t (0 : Fin 2) * 1 + 1 * (0 : Fin 1).val = (0 : Fin 1).val; rw [e40]; omega
    | ⟨1, _⟩ => show win5_4.index t (1 : Fin 2) * 128 + 1 * q.val = q.val; rw [e41]; omega
  have h5 : (((cfg5.win 5).blk t).view.emb (ix2 p q)) = (ix2 (⟨t.val * 5000 + p.val, by omega⟩ : Fin 50000) q : S50000x128.Idx) := by
    funext a; apply Fin.ext
    match a with
    | ⟨0, _⟩ => show win5_5.index t (0 : Fin 2) * 5000 + 1 * p.val = t.val * 5000 + p.val; rw [e50]; omega
    | ⟨1, _⟩ => show win5_5.index t (1 : Fin 2) * 128 + 1 * q.val = q.val; rw [e51]; omega
  simp only [h0, h1, h2, h3, h4, h5]
  rfl

/-- An index of the output array is in point t's block iff each coordinate is in the block's range on its axis. -/
theorem mem_blk5 (t : Fin cfg5.N) (i : S50000x128.Idx) :
    i ∈ ((cfg5.win 5).blk t).view.set ↔ ∀ a : Fin 2, win5_5.index t a * S5000x128.size a ≤ (i a).val ∧ (i a).val < win5_5.index t a * S5000x128.size a + S5000x128.size a := by
  show i ∈ ((View.whole main_v122).slice (win5_5.rect t)).set ↔ _
  rw [View.set_slice_whole, Rect.mem_set_unit]
  exact Iff.rfl

set_option maxHeartbeats 4000000 in
/-- The array after the region: the whole-array function of the arrays as the region finds them. -/
theorem final5 (c : Dev nD) : (dat5 (F := Ideal) V c).arrAt 5 cfg5.N = Cert.Val.Gmlp (V c main_v117) (V c main_v118) (V c main_v120) (V c main_v119) (V c main_v121) :=
  (dat5 V c).arrAt_eq_of_cover 5 (Cert.Val.Gmlp (V c main_v117) (V c main_v118) (V c main_v120) (V c main_v119) (V c main_v121)) (fun t _ => flushed5 V c t) fun i => by
    have hi0 : (i 0).val < 50000 := (i 0).isLt
    have hi1 : (i 1).val < 128 := (i 1).isLt
    have hN : grid5.N = 10 := N_5
    let t : Fin cfg5.N := ⟨(i 0).val / 5000, by show _ < grid5.N; omega⟩
    obtain ⟨e00, e01, e10, e11, e20, e21, e30, e31, e40, e41, e50, e51⟩ := idx5 t
    refine ⟨t, flush5_5 t, ?_⟩
    rw [mem_blk5]
    intro a
    match a with
    | ⟨0, _⟩ => show win5_5.index t (0 : Fin 2) * 5000 ≤ (i 0).val ∧ (i 0).val < win5_5.index t (0 : Fin 2) * 5000 + 5000; rw [e50]; show (i 0).val / 5000 * 5000 ≤ (i 0).val ∧ (i 0).val < (i 0).val / 5000 * 5000 + 5000; omega
    | ⟨1, _⟩ => show win5_5.index t (1 : Fin 2) * 128 ≤ (i 1).val ∧ (i 1).val < win5_5.index t (1 : Fin 2) * 128 + 128; rw [e51]; omega

end Cert.KernelIdeal.RegV

end
-- ==== Proof.Stage6.lean ====
/-
  Host stretch 6 of the kernel program read back: what its operations, folded over any valuation of the buffers,
  leave in the buffers that later items read, as the host functions of the arrays the stretch starts from.
-/
import proofs.«130465_j18580028523178_1_alg».proof.Proof.Gen.KernelIdeal.Launch
import proofs.«130465_j18580028523178_1_alg».proof.Proof.ValHost
import Idealize.ShloMosaic.Lib.StableHlo.Run

set_option maxRecDepth 16384

noncomputable section

namespace Cert.KernelIdeal.Stage

open Cert.KernelIdeal Cert.KernelIdeal.Gen
open Idealize.ShloMosaic Idealize.ShloMosaic.TcCoe Idealize.SL.Sem Idealize.ShloMosaic.StableHlo

variable (W : Valuation τ sig (Elt Ideal))

set_option maxHeartbeats 40000000 in
theorem s6_main_v124 : StableHlo.after (hostOps6 (F := Ideal)) W (Proc.devRef .tc main_v124) = truncf (F := Ideal) .bf16 (concatenate S50000x512 1 [⟨S50000x128, (W (Proc.devRef .tc main_arg0))⟩, ⟨S50000x128, (W (Proc.devRef .tc main_v46))⟩, ⟨S50000x128, (W (Proc.devRef .tc main_v84))⟩, ⟨S50000x128, (W (Proc.devRef .tc main_v122))⟩] concatenates_S50000x128_S50000x128_S50000x128_S50000x128_S50000x512_d1) bitsLt_bf16_f32 := by
  after_results_simp <;> rfl

set_option maxHeartbeats 40000000 in
theorem s6_main_v125 : StableHlo.after (hostOps6 (F := Ideal)) W (Proc.devRef .tc main_v125) = truncf (F := Ideal) .bf16 (W (Proc.devRef .tc main_arg10)) bitsLt_bf16_f32 := by
  after_results_simp <;> rfl

set_option maxHeartbeats 40000000 in
theorem s6_main_v126 : StableHlo.after (hostOps6 (F := Ideal)) W (Proc.devRef .tc main_v126) = shapeCast S1x128 (W (Proc.devRef .tc main_arg11)) shapeCasts_S128_S1x128 := by
  after_results_simp <;> rfl

end Cert.KernelIdeal.Stage

end
-- ==== Proof.ValReg6.lean ====
/-
  Region 6 at the exact instance: the array the region leaves is one function of the arrays its windows look at.
  At a grid point t the body is handed block t of every moving window (rows t*5000 .. t*5000+4999) and the whole of every
  fixed one; what it stores into the output block is, entry by entry, the cell function of those rows; so the block
  written back at t is block t of the whole-array function, and the blocks of the 10 points cover the array.
-/
import proofs.«130465_j18580028523178_1_alg».proof.Proof.RegI6
import proofs.«130465_j18580028523178_1_alg».proof.Proof.ValSpec
import Idealize.ShloMosaic.Lib.Pipeline.Value
import Idealize.ShloMosaic.Lib.ValueIdx

set_option maxRecDepth 16384

noncomputable section

namespace Cert.KernelIdeal.RegV

open Cert.KernelIdeal Cert.KernelIdeal.Gen Cert.KernelIdeal.Reg
open Idealize.ShloMosaic Idealize.ShloMosaic.TcCoe Idealize.ShloMosaic.ValueIdx
open Idealize.SL Idealize.SL.Sem
open Idealize.ShloMosaic.Pipeline (Dat)

variable (V : (c : Dev nD) → (b : Ref sig .tc) → Buf (Elt Ideal) ((c : Thread nD τ).loc b))

theorem hz6 : (![0, 0] : Fin 2 → Nat) = fun _ => 0 := funext fun a => by fin_cases a <;> rfl

/-- The windows' index maps over the grid: a moving window's block number along the rows is the point, every other is 0. -/
theorem idx6 : ∀ t : Fin cfg6.N, win6_0.index t (0 : Fin 2) = t.val
    ∧ win6_0.index t (1 : Fin 2) = 0
    ∧ win6_1.index t (0 : Fin 2) = 0
    ∧ win6_1.index t (1 : Fin 2) = 0
    ∧ win6_2.index t (0 : Fin 2) = 0
    ∧ win6_2.index t (1 : Fin 2) = 0
    ∧ win6_3.index t (0 : Fin 2) = t.val
    ∧ win6_3.index t (1 : Fin 2) = 0 :=
  (by decide +kernel : ∀ t : Fin grid6.N, _)

set_option maxHeartbeats 4000000 in
set_option backward.isDefEq.respectTransparency.types false in
/-- What point t writes back is block t of the whole-array function of the arrays as the region finds them. -/
theorem flushed6 (c : Dev nD) (t : Fin cfg6.N) :
    (dat6 (F := Ideal) V c).flushed 3 t = ((cfg6.win 3).blk t).view.read (Elt Ideal) (Cert.Val.Gfinal (V c main_v124) (V c main_v125) (V c main_v126)) := by
  show (cfg6.win 3).cut (grid6.coords t) ((dat6 V c).after 3 t) = _
  rw [after6_3]
  unfold out6_3
  rw [View.canon_unit_zero hz6]
  simp only [View.ld_unit_zero (S := S5000x512) hz6, View.ld_unit_zero (S := S512x128) hz6, View.ld_unit_zero (S := S1x128) hz6]
  obtain ⟨e00, e01, e10, e11, e20, e21, e30, e31⟩ := idx6 t
  funext j
  obtain ⟨p, q, rfl⟩ : ∃ (p : Fin 5000) (q : Fin 128), j = ix2 p q := ⟨j 0, j 1, eq_ix2 j⟩
  have hp := p.isLt
  have ht : t.val < 10 := by have h := t.isLt; have hN : cfg6.N = 10 := N_6; omega
  refine (Cert.Val.final_pay (iblk6 V c 0 t) (iblk6 V c 1 t) (iblk6 V c 2 t) p q).trans ?_
  show Cert.Val.finalCell (fun k => V c main_v124 (((cfg6.win 0).blk t).view.emb (ix2 p k))) (fun k => V c main_v125 (((cfg6.win 1).blk t).view.emb (ix2 k q))) (V c main_v126 (((cfg6.win 2).blk t).view.emb (ix2 (0 : Fin 1) q)))
      = Cert.Val.Gfinal (V c main_v124) (V c main_v125) (V c main_v126) (((cfg6.win 3).blk t).view.emb (ix2 p q))
  have h0 : ∀ (k : Fin 512), (((cfg6.win 0).blk t).view.emb (ix2 p k)) = (ix2 (⟨t.val * 5000 + p.val, by omega⟩ : Fin 50000) k : S50000x512.Idx) := by
    intro k
    funext a; apply Fin.ext
    match a with
    | ⟨0, _⟩ => show win6_0.index t (0 : Fin 2) * 5000 + 1 * p.val = t.val * 5000 + p.val; rw [e00]; omega
    | ⟨1, _⟩ => show win6_0.index t (1 : Fin 2) * 512 + 1 * k.val = k.val; rw [e01]; omega
  have h1 : ∀ (k : Fin 512), (((cfg6.win 1).blk t).view.emb (ix2 k q)) = (ix2 k q : S512x128.Idx) := by
    intro k
    funext a; apply Fin.ext
    match a with
    | ⟨0, _⟩ => show win6_1.index t (0 : Fin 2) * 512 + 1 * k.val = k.val; rw [e10]; omega
    | ⟨1, _⟩ => show win6_1.index t (1 : Fin 2) * 128 + 1 * q.val = q.val; rw [e11]; omega
  have h2 : (((cfg6.win 2).blk t).view.emb (ix2 (0 : Fin 1) q)) = (ix2 (0 : Fin 1) q : S1x128.Idx) := by
    funext a; apply Fin.ext
    match a with
    | ⟨0, _⟩ => show win6_2.index t (0 : Fin 2) * 1 + 1 * (0 : Fin 1).val = (0 : Fin 1).val; rw [e20]; omega
    | ⟨1, _⟩ => show win6_2.index t (1 : Fin 2) * 128 + 1 * q.val = q.val; rw [e21]; omega
  have h3 : (((cfg6.win 3).blk t).view.emb (ix2 p q)) = (ix2 (⟨t.val * 5000 + p.val, by omega⟩ : Fin 50000) q : S50000x128.Idx) := by
    funext a; apply Fin.ext
    match a with
    | ⟨0, _⟩ => show win6_3.index t (0 : Fin 2) * 5000 + 1 * p.val = t.val * 5000 + p.val; rw [e30]; omega
    | ⟨1, _⟩ => show win6_3.index t (1 : Fin 2) * 128 + 1 * q.val = q.val; rw [e31]; omega
  simp only [h0, h1, h2, h3]
  rfl

/-- An index of the output array is in point t's block iff each coordinate is in the block's range on its axis. -/
theorem mem_blk6 (t : Fin cfg6.N) (i : S50000x128.Idx) :
    i ∈ ((cfg6.win 3).blk t).view.set ↔ ∀ a : Fin 2, win6_3.index t a * S5000x128.size a ≤ (i a).val ∧ (i a).val < win6_3.index t a * S5000x128.size a + S5000x128.size a := by
  show i ∈ ((View.whole main_v127).slice (win6_3.rect t)).set ↔ _
  rw [View.set_slice_whole, Rect.mem_set_unit]
  exact Iff.rfl

set_option maxHeartbeats 4000000 in
/-- The array after the region: the whole-array function of the arrays as the region finds them. -/
theorem final6 (c : Dev nD) : (dat6 (F := Ideal) V c).arrAt 3 cfg6.N = Cert.Val.Gfinal (V c main_v124) (V c main_v125) (V c main_v126) :=
  (dat6 V c).arrAt_eq_of_cover 3 (Cert.Val.Gfinal (V c main_v124) (V c main_v125) (V c main_v126)) (fun t _ => flushed6 V c t) fun i => by
    have hi0 : (i 0).val < 50000 := (i 0).isLt
    have hi1 : (i 1).val < 128 := (i 1).isLt
    have hN : grid6.N = 10 := N_6
    let t : Fin cfg6.N := ⟨(i 0).val / 5000, by show _ < grid6.N; omega⟩
    obtain ⟨e00, e01, e10, e11, e20, e21, e30, e31⟩ := idx6 t
    refine ⟨t, flush6_3 t, ?_⟩
    rw [mem_blk6]
    intro a
    match a with
    | ⟨0, _⟩ => show win6_3.index t (0 : Fin 2) * 5000 ≤ (i 0).val ∧ (i 0).val < win6_3.index t (0 : Fin 2) * 5000 + 5000; rw [e30]; show (i 0).val / 5000 * 5000 ≤ (i 0).val ∧ (i 0).val < (i 0).val / 5000 * 5000 + 5000; omega
    | ⟨1, _⟩ => show win6_3.index t (1 : Fin 2) * 128 ≤ (i 1).val ∧ (i 1).val < win6_3.index t (1 : Fin 2) * 128 + 128; rw [e31]; omega

end Cert.KernelIdeal.RegV

end
-- ==== Proof.ValNet.lean ====
/-
  The kernel program's dataflow at the exact instance as one function of the twelve argument arrays: the host
  operations between the kernel regions, with every kernel region replaced by the whole-array function it computes —
  the edge message, the two-layer perceptron and the final projection.
-/
import proofs.«130465_j18580028523178_1_alg».proof.Proof.ValHost
import proofs.«130465_j18580028523178_1_alg».proof.Proof.ValSpec

noncomputable section

namespace Cert.Val

open Cert.KernelIdeal Cert.KernelIdeal.Gen
open Idealize.ShloMosaic

/-- One layer: gather, edge message, aggregate, two-layer perceptron; the layer's parameters given as their slices. -/
def layer (h : Arr S50000x128 .f32) (a1 : Arr S2x800000 .i32) (a2 : Arr S800000x1 .f32)
    (lw : Arr S1x1x128 .f32) (lb : Arr S1x128 .f32) (eps1 : Arr S1 .f32)
    (w1 : Arr S1x128x128 .f32) (b1 : Arr S1x128 .f32) (w2 : Arr S1x128x128 .f32) (b2 : Arr S1x128 .f32) : Arr S50000x128 .f32 :=
  Gmlp
    (truncf (F := Ideal) .bf16
      (aggregate (Gedge (gatherRows h a1) a2 (shapeCast S1x128 lw shapeCasts_S1x1x128_S1x128) (rowOf lb)) a1 h eps1)
      bitsLt_bf16_f32)
    (matOf w1) (rowOf b1) (matOf w2) (rowOf b2)

/-- The whole network on the twelve arguments. -/
def net (a0 : Arr S50000x128 .f32) (a1 : Arr S2x800000 .i32) (a2 : Arr S800000x1 .f32) (a3 : Arr S3x1x128 .f32)
    (a4 : Arr S3x128 .f32) (a5 : Arr S3 .f32) (a6 : Arr S3x128x128 .f32) (a7 : Arr S3x128 .f32) (a8 : Arr S3x128x128 .f32)
    (a9 : Arr S3x128 .f32) (a10 : Arr S512x128 .f32) (a11 : Arr S128 .f32) : Arr S50000x128 .f32 :=
  let h1 := layer a0 a1 a2 (extractStridedSlice S1x1x128 ![0, 0, 0] a3 slices_S3x1x128_S1x1x128_0_0_0)
    (extractStridedSlice S1x128 ![0, 0] a4 slices_S3x128_S1x128_0_0) (extractStridedSlice S1 ![0] a5 slices_S3_S1_0)
    (extractStridedSlice S1x128x128 ![0, 0, 0] a6 slices_S3x128x128_S1x128x128_0_0_0) (extractStridedSlice S1x128 ![0, 0] a7 slices_S3x128_S1x128_0_0)
    (extractStridedSlice S1x128x128 ![0, 0, 0] a8 slices_S3x128x128_S1x128x128_0_0_0) (extractStridedSlice S1x128 ![0, 0] a9 slices_S3x128_S1x128_0_0)
  let h2 := layer h1 a1 a2 (extractStridedSlice S1x1x128 ![1, 0, 0] a3 slices_S3x1x128_S1x1x128_1_0_0)
    (extractStridedSlice S1x128 ![1, 0] a4 slices_S3x128_S1x128_1_0) (extractStridedSlice S1 ![1] a5 slices_S3_S1_1)
    (extractStridedSlice S1x128x128 ![1, 0, 0] a6 slices_S3x128x128_S1x128x128_1_0_0) (extractStridedSlice S1x128 ![1, 0] a7 slices_S3x128_S1x128_1_0)
    (extractStridedSlice S1x128x128 ![1, 0, 0] a8 slices_S3x128x128_S1x128x128_1_0_0) (extractStridedSlice S1x128 ![1, 0] a9 slices_S3x128_S1x128_1_0)
  let h3 := layer h2 a1 a2 (extractStridedSlice S1x1x128 ![2, 0, 0] a3 slices_S3x1x128_S1x1x128_2_0_0)
    (extractStridedSlice S1x128 ![2, 0] a4 slices_S3x128_S1x128_2_0) (extractStridedSlice S1 ![2] a5 slices_S3_S1_2)
    (extractStridedSlice S1x128x128 ![2, 0, 0] a6 slices_S3x128x128_S1x128x128_2_0_0) (extractStridedSlice S1x128 ![2, 0] a7 slices_S3x128_S1x128_2_0)
    (extractStridedSlice S1x128x128 ![2, 0, 0] a8 slices_S3x128x128_S1x128x128_2_0_0) (extractStridedSlice S1x128 ![2, 0] a9 slices_S3x128_S1x128_2_0)
  Gfinal
    (truncf (F := Ideal) .bf16
      (concatenate S50000x512 1 [⟨S50000x128, a0⟩, ⟨S50000x128, h1⟩, ⟨S50000x128, h2⟩, ⟨S50000x128, h3⟩]
        concatenates_S50000x128_S50000x128_S50000x128_S50000x128_S50000x512_d1)
      bitsLt_bf16_f32)
    (truncf (F := Ideal) .bf16 a10 bitsLt_bf16_f32)
    (shapeCast S1x128 a11 shapeCasts_S128_S1x128)

end Cert.Val

end
-- ==== Proof.KernelNet.lean ====
/-
  The kernel program's result is the network function of its arguments (exact instance). The run's boundary
  valuations are read buffer by buffer: a host stretch leaves in a buffer the host function of what the stretch
  started from; a region leaves in its output array the whole-array function of the arrays its windows look at; a buffer
  no item writes keeps its contents. Walking the fourteen boundaries gives, layer by layer, the gathered rows, the edge
  messages, the aggregated features, the perceptron's output, and at the end the projection of the concatenated features.
-/
import proofs.«130465_j18580028523178_1_alg».proof.Proof.RunI
import proofs.«130465_j18580028523178_1_alg».proof.Proof.Stage0
import proofs.«130465_j18580028523178_1_alg».proof.Proof.ValReg0
import proofs.«130465_j18580028523178_1_alg».proof.Proof.Stage1
import proofs.«130465_j18580028523178_1_alg».proof.Proof.ValReg1
import proofs.«130465_j18580028523178_1_alg».proof.Proof.Stage2
import proofs.«130465_j18580028523178_1_alg».proof.Proof.ValReg2
import proofs.«130465_j18580028523178_1_alg».proof.Proof.Stage3
import proofs.«130465_j18580028523178_1_alg».proof.Proof.ValReg3
import proofs.«130465_j18580028523178_1_alg».proof.Proof.Stage4
import proofs.«130465_j18580028523178_1_alg».proof.Proof.ValReg4
import proofs.«130465_j18580028523178_1_alg».proof.Proof.Stage5
import proofs.«130465_j18580028523178_1_alg».proof.Proof.ValReg5
import proofs.«130465_j18580028523178_1_alg».proof.Proof.Stage6
import proofs.«130465_j18580028523178_1_alg».proof.Proof.ValReg6
import proofs.«130465_j18580028523178_1_alg».proof.Proof.ValNet

set_option maxRecDepth 16384

noncomputable section

namespace Cert.KernelIdeal.KNet

open Cert.KernelIdeal Cert.KernelIdeal.Gen Cert.KernelIdeal.Reg Cert.KernelIdeal.RegV Cert.KernelIdeal.Stage
open Idealize.ShloMosaic Idealize.ShloMosaic.TcCoe Idealize.SL.Sem Idealize.ShloMosaic.StableHlo

variable (m : (ℓ : Loc nD τ sig) → Buf (Elt Ideal) ℓ) (c : Dev nD)

/-! ## The arguments, and the layers' intermediate arrays -/

abbrev a0 : Cert.Val.Arr S50000x128 .f32 := Gen.V0 m c (Proc.devRef .tc main_arg0)
abbrev a1 : Cert.Val.Arr S2x800000 .i32 := Gen.V0 m c (Proc.devRef .tc main_arg1)
abbrev a2 : Cert.Val.Arr S800000x1 .f32 := Gen.V0 m c (Proc.devRef .tc main_arg2)
abbrev a3 : Cert.Val.Arr S3x1x128 .f32 := Gen.V0 m c (Proc.devRef .tc main_arg3)
abbrev a4 : Cert.Val.Arr S3x128 .f32 := Gen.V0 m c (Proc.devRef .tc main_arg4)
abbrev a5 : Cert.Val.Arr S3 .f32 := Gen.V0 m c (Proc.devRef .tc main_arg5)
abbrev a6 : Cert.Val.Arr S3x128x128 .f32 := Gen.V0 m c (Proc.devRef .tc main_arg6)
abbrev a7 : Cert.Val.Arr S3x128 .f32 := Gen.V0 m c (Proc.devRef .tc main_arg7)
abbrev a8 : Cert.Val.Arr S3x128x128 .f32 := Gen.V0 m c (Proc.devRef .tc main_arg8)
abbrev a9 : Cert.Val.Arr S3x128 .f32 := Gen.V0 m c (Proc.devRef .tc main_arg9)
abbrev a10 : Cert.Val.Arr S512x128 .f32 := Gen.V0 m c (Proc.devRef .tc main_arg10)
abbrev a11 : Cert.Val.Arr S128 .f32 := Gen.V0 m c (Proc.devRef .tc main_arg11)

/-- Layer 0's edge messages. -/
def E0 : Cert.Val.Arr S800000x128 .f32 := Cert.Val.Gedge (Cert.Val.gatherAt (a0 m c) (Cert.Val.src (a1 m c))) (a2 m c) (shapeCast S1x128 (extractStridedSlice S1x1x128 ![0, 0, 0] (a3 m c) slices_S3x1x128_S1x1x128_0_0_0) shapeCasts_S1x1x128_S1x128) (Cert.Val.rowOf (extractStridedSlice S1x128 ![0, 0] (a4 m c) slices_S3x128_S1x128_0_0))
/-- Layer 0's aggregated features in the narrow format, as the perceptron takes them. -/
def X0 : Cert.Val.Arr S50000x128 .bf16 :=
  truncf (F := Ideal) .bf16 (Cert.Val.aggregateAt (E0 m c) (Cert.Val.tgt (a1 m c)) (Cert.Val.deg (a1 m c)) (a0 m c) (extractStridedSlice S1 ![0] (a5 m c) slices_S3_S1_0)) bitsLt_bf16_f32
/-- Layer 0's output features. -/
def H1 : Cert.Val.Arr S50000x128 .f32 :=
  Cert.Val.Gmlp (X0 m c) (Cert.Val.matOf (extractStridedSlice S1x128x128 ![0, 0, 0] (a6 m c) slices_S3x128x128_S1x128x128_0_0_0)) (Cert.Val.rowOf (extractStridedSlice S1x128 ![0, 0] (a7 m c) slices_S3x128_S1x128_0_0)) (Cert.Val.matOf (extractStridedSlice S1x128x128 ![0, 0, 0] (a8 m c) slices_S3x128x128_S1x128x128_0_0_0)) (Cert.Val.rowOf (extractStridedSlice S1x128 ![0, 0] (a9 m c) slices_S3x128_S1x128_0_0))
theorem H1_eq : H1 m c = Cert.Val.layer (a0 m c) (a1 m c) (a2 m c) (extractStridedSlice S1x1x128 ![0, 0, 0] (a3 m c) slices_S3x1x128_S1x1x128_0_0_0) (extractStridedSlice S1x128 ![0, 0] (a4 m c) slices_S3x128_S1x128_0_0) (extractStridedSlice S1 ![0] (a5 m c) slices_S3_S1_0) (extractStridedSlice S1x128x128 ![0, 0, 0] (a6 m c) slices_S3x128x128_S1x128x128_0_0_0) (extractStridedSlice S1x128 ![0, 0] (a7 m c) slices_S3x128_S1x128_0_0) (extractStridedSlice S1x128x128 ![0, 0, 0] (a8 m c) slices_S3x128x128_S1x128x128_0_0_0) (extractStridedSlice S1x128 ![0, 0] (a9 m c) slices_S3x128_S1x128_0_0) := rfl

/-- Layer 1's edge messages. -/
def E1 : Cert.Val.Arr S800000x128 .f32 := Cert.Val.Gedge (Cert.Val.gatherAt (H1 m c) (Cert.Val.src (a1 m c))) (a2 m c) (shapeCast S1x128 (extractStridedSlice S1x1x128 ![1, 0, 0] (a3 m c) slices_S3x1x128_S1x1x128_1_0_0) shapeCasts_S1x1x128_S1x128) (Cert.Val.rowOf (extractStridedSlice S1x128 ![1, 0] (a4 m c) slices_S3x128_S1x128_1_0))
/-- Layer 1's aggregated features in the narrow format, as the perceptron takes them. -/
def X1 : Cert.Val.Arr S50000x128 .bf16 :=
  truncf (F := Ideal) .bf16 (Cert.Val.aggregateAt (E1 m c) (Cert.Val.tgt (a1 m c)) (Cert.Val.deg (a1 m c)) (H1 m c) (extractStridedSlice S1 ![1] (a5 m c) slices_S3_S1_1)) bitsLt_bf16_f32
/-- Layer 1's output features. -/
def H2 : Cert.Val.Arr S50000x128 .f32 :=
  Cert.Val.Gmlp (X1 m c) (Cert.Val.matOf (extractStridedSlice S1x128x128 ![1, 0, 0] (a6 m c) slices_S3x128x128_S1x128x128_1_0_0)) (Cert.Val.rowOf (extractStridedSlice S1x128 ![1, 0] (a7 m c) slices_S3x128_S1x128_1_0)) (Cert.Val.matOf (extractStridedSlice S1x128x128 ![1, 0, 0] (a8 m c) slices_S3x128x128_S1x128x128_1_0_0)) (Cert.Val.rowOf (extractStridedSlice S1x128 ![1, 0] (a9 m c) slices_S3x128_S1x128_1_0))
theorem H2_eq : H2 m c = Cert.Val.layer (H1 m c) (a1 m c) (a2 m c) (extractStridedSlice S1x1x128 ![1, 0, 0] (a3 m c) slices_S3x1x128_S1x1x128_1_0_0) (extractStridedSlice S1x128 ![1, 0] (a4 m c) slices_S3x128_S1x128_1_0) (extractStridedSlice S1 ![1] (a5 m c) slices_S3_S1_1) (extractStridedSlice S1x128x128 ![1, 0, 0] (a6 m c) slices_S3x128x128_S1x128x128_1_0_0) (extractStridedSlice S1x128 ![1, 0] (a7 m c) slices_S3x128_S1x128_1_0) (extractStridedSlice S1x128x128 ![1, 0, 0] (a8 m c) slices_S3x128x128_S1x128x128_1_0_0) (extractStridedSlice S1x128 ![1, 0] (a9 m c) slices_S3x128_S1x128_1_0) := rfl

/-- Layer 2's edge messages. -/
def E2 : Cert.Val.Arr S800000x128 .f32 := Cert.Val.Gedge (Cert.Val.gatherAt (H2 m c) (Cert.Val.src (a1 m c))) (a2 m c) (shapeCast S1x128 (extractStridedSlice S1x1x128 ![2, 0, 0] (a3 m c) slices_S3x1x128_S1x1x128_2_0_0) shapeCasts_S1x1x128_S1x128) (Cert.Val.rowOf (extractStridedSlice S1x128 ![2, 0] (a4 m c) slices_S3x128_S1x128_2_0))
/-- Layer 2's aggregated features in the narrow format, as the perceptron takes them. -/
def X2 : Cert.Val.Arr S50000x128 .bf16 :=
  truncf (F := Ideal) .bf16 (Cert.Val.aggregateAt (E2 m c) (Cert.Val.tgt (a1 m c)) (Cert.Val.deg (a1 m c)) (H2 m c) (extractStridedSlice S1 ![2] (a5 m c) slices_S3_S1_2)) bitsLt_bf16_f32
/-- Layer 2's output features. -/
def H3 : Cert.Val.Arr S50000x128 .f32 :=
  Cert.Val.Gmlp (X2 m c) (Cert.Val.matOf (extractStridedSlice S1x128x128 ![2, 0, 0] (a6 m c) slices_S3x128x128_S1x128x128_2_0_0)) (Cert.Val.rowOf (extractStridedSlice S1x128 ![2, 0] (a7 m c) slices_S3x128_S1x128_2_0)) (Cert.Val.matOf (extractStridedSlice S1x128x128 ![2, 0, 0] (a8 m c) slices_S3x128x128_S1x128x128_2_0_0)) (Cert.Val.rowOf (extractStridedSlice S1x128 ![2, 0] (a9 m c) slices_S3x128_S1x128_2_0))
theorem H3_eq : H3 m c = Cert.Val.layer (H2 m c) (a1 m c) (a2 m c) (extractStridedSlice S1x1x128 ![2, 0, 0] (a3 m c) slices_S3x1x128_S1x1x128_2_0_0) (extractStridedSlice S1x128 ![2, 0] (a4 m c) slices_S3x128_S1x128_2_0) (extractStridedSlice S1 ![2] (a5 m c) slices_S3_S1_2) (extractStridedSlice S1x128x128 ![2, 0, 0] (a6 m c) slices_S3x128x128_S1x128x128_2_0_0) (extractStridedSlice S1x128 ![2, 0] (a7 m c) slices_S3x128_S1x128_2_0) (extractStridedSlice S1x128x128 ![2, 0, 0] (a8 m c) slices_S3x128x128_S1x128x128_2_0_0) (extractStridedSlice S1x128 ![2, 0] (a9 m c) slices_S3x128_S1x128_2_0) := rfl

/-! ## A buffer no item writes keeps its contents -/
theorem U3_of (r : Ref sig .tc) (h : r ∉ Gen.hostOps1_W) : U3 m c (Proc.devRef .tc r) = U2 m c (Proc.devRef .tc r) := by
  unfold U3; exact StableHlo.after_of_writes_sub hostOps1 _ Gen.hostOps1_writes h
theorem U5_of (r : Ref sig .tc) (h : r ∉ Gen.hostOps2_W) : U5 m c (Proc.devRef .tc r) = U4 m c (Proc.devRef .tc r) := by
  unfold U5; exact StableHlo.after_of_writes_sub hostOps2 _ Gen.hostOps2_writes h
theorem U7_of (r : Ref sig .tc) (h : r ∉ Gen.hostOps3_W) : U7 m c (Proc.devRef .tc r) = U6 m c (Proc.devRef .tc r) := by
  unfold U7; exact StableHlo.after_of_writes_sub hostOps3 _ Gen.hostOps3_writes h
theorem U9_of (r : Ref sig .tc) (h : r ∉ Gen.hostOps4_W) : U9 m c (Proc.devRef .tc r) = U8 m c (Proc.devRef .tc r) := by
  unfold U9; exact StableHlo.after_of_writes_sub hostOps4 _ Gen.hostOps4_writes h
theorem U11_of (r : Ref sig .tc) (h : r ∉ Gen.hostOps5_W) : U11 m c (Proc.devRef .tc r) = U10 m c (Proc.devRef .tc r) := by
  unfold U11; exact StableHlo.after_of_writes_sub hostOps5 _ Gen.hostOps5_writes h
theorem U13_of (r : Ref sig .tc) (h : r ∉ Gen.hostOps6_W) : U13 m c (Proc.devRef .tc r) = U12 m c (Proc.devRef .tc r) := by
  unfold U13; exact StableHlo.after_of_writes_sub hostOps6 _ Gen.hostOps6_writes h

/-! ## The boundaries, read -/

/-- What the buffers that later items read hold at boundary 1. -/
structure B1 : Prop where
  v20 : U1 m c (Proc.devRef .tc main_v20) = Cert.Val.gatherAt (a0 m c) (Cert.Val.src (a1 m c))
  v10 : U1 m c (Proc.devRef .tc main_v10) = (shapeCast S1x128 (extractStridedSlice S1x1x128 ![0, 0, 0] (a3 m c) slices_S3x1x128_S1x1x128_0_0_0) shapeCasts_S1x1x128_S1x128)
  v13 : U1 m c (Proc.devRef .tc main_v13) = (Cert.Val.rowOf (extractStridedSlice S1x128 ![0, 0] (a4 m c) slices_S3x128_S1x128_0_0))
  v1 : U1 m c (Proc.devRef .tc main_v1) = Cert.Val.src (a1 m c)
  v3 : U1 m c (Proc.devRef .tc main_v3) = Cert.Val.tgt (a1 m c)
  v8 : U1 m c (Proc.devRef .tc main_v8) = Cert.Val.deg (a1 m c)
  arg0 : U1 m c (Proc.devRef .tc main_arg0) = (a0 m c)
  arg2 : U1 m c (Proc.devRef .tc main_arg2) = (a2 m c)
  arg3 : U1 m c (Proc.devRef .tc main_arg3) = (a3 m c)
  arg4 : U1 m c (Proc.devRef .tc main_arg4) = (a4 m c)
  arg5 : U1 m c (Proc.devRef .tc main_arg5) = (a5 m c)
  arg6 : U1 m c (Proc.devRef .tc main_arg6) = (a6 m c)
  arg7 : U1 m c (Proc.devRef .tc main_arg7) = (a7 m c)
  arg8 : U1 m c (Proc.devRef .tc main_arg8) = (a8 m c)
  arg9 : U1 m c (Proc.devRef .tc main_arg9) = (a9 m c)
  arg10 : U1 m c (Proc.devRef .tc main_arg10) = (a10 m c)
  arg11 : U1 m c (Proc.devRef .tc main_arg11) = (a11 m c)

/-- What the buffers that later items read hold at boundary 2. -/
structure B2 : Prop where
  v21 : U2 m c (Proc.devRef .tc main_v21) = (E0 m c)
  v1 : U2 m c (Proc.devRef .tc main_v1) = Cert.Val.src (a1 m c)
  v3 : U2 m c (Proc.devRef .tc main_v3) = Cert.Val.tgt (a1 m c)
  v8 : U2 m c (Proc.devRef .tc main_v8) = Cert.Val.deg (a1 m c)
  arg0 : U2 m c (Proc.devRef .tc main_arg0) = (a0 m c)
  arg2 : U2 m c (Proc.devRef .tc main_arg2) = (a2 m c)
  arg3 : U2 m c (Proc.devRef .tc main_arg3) = (a3 m c)
  arg4 : U2 m c (Proc.devRef .tc main_arg4) = (a4 m c)
  arg5 : U2 m c (Proc.devRef .tc main_arg5) = (a5 m c)
  arg6 : U2 m c (Proc.devRef .tc main_arg6) = (a6 m c)
  arg7 : U2 m c (Proc.devRef .tc main_arg7) = (a7 m c)
  arg8 : U2 m c (Proc.devRef .tc main_arg8) = (a8 m c)
  arg9 : U2 m c (Proc.devRef .tc main_arg9) = (a9 m c)
  arg10 : U2 m c (Proc.devRef .tc main_arg10) = (a10 m c)
  arg11 : U2 m c (Proc.devRef .tc main_arg11) = (a11 m c)

/-- What the buffers that later items read hold at boundary 3. -/
structure B3 : Prop where
  v41 : U3 m c (Proc.devRef .tc main_v41) = (X0 m c)
  v42 : U3 m c (Proc.devRef .tc main_v42) = Cert.Val.matOf (extractStridedSlice S1x128x128 ![0, 0, 0] (a6 m c) slices_S3x128x128_S1x128x128_0_0_0)
  v43 : U3 m c (Proc.devRef .tc main_v43) = Cert.Val.matOf (extractStridedSlice S1x128x128 ![0, 0, 0] (a8 m c) slices_S3x128x128_S1x128x128_0_0_0)
  v44 : U3 m c (Proc.devRef .tc main_v44) = Cert.Val.rowOf (extractStridedSlice S1x128 ![0, 0] (a7 m c) slices_S3x128_S1x128_0_0)
  v45 : U3 m c (Proc.devRef .tc main_v45) = Cert.Val.rowOf (extractStridedSlice S1x128 ![0, 0] (a9 m c) slices_S3x128_S1x128_0_0)
  v1 : U3 m c (Proc.devRef .tc main_v1) = Cert.Val.src (a1 m c)
  v3 : U3 m c (Proc.devRef .tc main_v3) = Cert.Val.tgt (a1 m c)
  v8 : U3 m c (Proc.devRef .tc main_v8) = Cert.Val.deg (a1 m c)
  arg0 : U3 m c (Proc.devRef .tc main_arg0) = (a0 m c)
  arg2 : U3 m c (Proc.devRef .tc main_arg2) = (a2 m c)
  arg3 : U3 m c (Proc.devRef .tc main_arg3) = (a3 m c)
  arg4 : U3 m c (Proc.devRef .tc main_arg4) = (a4 m c)
  arg5 : U3 m c (Proc.devRef .tc main_arg5) = (a5 m c)
  arg6 : U3 m c (Proc.devRef .tc main_arg6) = (a6 m c)
  arg7 : U3 m c (Proc.devRef .tc main_arg7) = (a7 m c)
  arg8 : U3 m c (Proc.devRef .tc main_arg8) = (a8 m c)
  arg9 : U3 m c (Proc.devRef .tc main_arg9) = (a9 m c)
  arg10 : U3 m c (Proc.devRef .tc main_arg10) = (a10 m c)
  arg11 : U3 m c (Proc.devRef .tc main_arg11) = (a11 m c)

/-- What the buffers that later items read hold at boundary 4. -/
structure B4 : Prop where
  v46 : U4 m c (Proc.devRef .tc main_v46) = (H1 m c)
  v1 : U4 m c (Proc.devRef .tc main_v1) = Cert.Val.src (a1 m c)
  v3 : U4 m c (Proc.devRef .tc main_v3) = Cert.Val.tgt (a1 m c)
  v8 : U4 m c (Proc.devRef .tc main_v8) = Cert.Val.deg (a1 m c)
  arg0 : U4 m c (Proc.devRef .tc main_arg0) = (a0 m c)
  arg2 : U4 m c (Proc.devRef .tc main_arg2) = (a2 m c)
  arg3 : U4 m c (Proc.devRef .tc main_arg3) = (a3 m c)
  arg4 : U4 m c (Proc.devRef .tc main_arg4) = (a4 m c)
  arg5 : U4 m c (Proc.devRef .tc main_arg5) = (a5 m c)
  arg6 : U4 m c (Proc.devRef .tc main_arg6) = (a6 m c)
  arg7 : U4 m c (Proc.devRef .tc main_arg7) = (a7 m c)
  arg8 : U4 m c (Proc.devRef .tc main_arg8) = (a8 m c)
  arg9 : U4 m c (Proc.devRef .tc main_arg9) = (a9 m c)
  arg10 : U4 m c (Proc.devRef .tc main_arg10) = (a10 m c)
  arg11 : U4 m c (Proc.devRef .tc main_arg11) = (a11 m c)

/-- What the buffers that later items read hold at boundary 5. -/
structure B5 : Prop where
  v48 : U5 m c (Proc.devRef .tc main_v48) = (shapeCast S1x128 (extractStridedSlice S1x1x128 ![1, 0, 0] (a3 m c) slices_S3x1x128_S1x1x128_1_0_0) shapeCasts_S1x1x128_S1x128)
  v51 : U5 m c (Proc.devRef .tc main_v51) = (Cert.Val.rowOf (extractStridedSlice S1x128 ![1, 0] (a4 m c) slices_S3x128_S1x128_1_0))
  v58 : U5 m c (Proc.devRef .tc main_v58) = Cert.Val.gatherAt (H1 m c) (Cert.Val.src (a1 m c))
  v46 : U5 m c (Proc.devRef .tc main_v46) = (H1 m c)
  v1 : U5 m c (Proc.devRef .tc main_v1) = Cert.Val.src (a1 m c)
  v3 : U5 m c (Proc.devRef .tc main_v3) = Cert.Val.tgt (a1 m c)
  v8 : U5 m c (Proc.devRef .tc main_v8) = Cert.Val.deg (a1 m c)
  arg0 : U5 m c (Proc.devRef .tc main_arg0) = (a0 m c)
  arg2 : U5 m c (Proc.devRef .tc main_arg2) = (a2 m c)
  arg3 : U5 m c (Proc.devRef .tc main_arg3) = (a3 m c)
  arg4 : U5 m c (Proc.devRef .tc main_arg4) = (a4 m c)
  arg5 : U5 m c (Proc.devRef .tc main_arg5) = (a5 m c)
  arg6 : U5 m c (Proc.devRef .tc main_arg6) = (a6 m c)
  arg7 : U5 m c (Proc.devRef .tc main_arg7) = (a7 m c)
  arg8 : U5 m c (Proc.devRef .tc main_arg8) = (a8 m c)
  arg9 : U5 m c (Proc.devRef .tc main_arg9) = (a9 m c)
  arg10 : U5 m c (Proc.devRef .tc main_arg10) = (a10 m c)
  arg11 : U5 m c (Proc.devRef .tc main_arg11) = (a11 m c)

/-- What the buffers that later items read hold at boundary 6. -/
structure B6 : Prop where
  v59 : U6 m c (Proc.devRef .tc main_v59) = (E1 m c)
  v46 : U6 m c (Proc.devRef .tc main_v46) = (H1 m c)
  v1 : U6 m c (Proc.devRef .tc main_v1) = Cert.Val.src (a1 m c)
  v3 : U6 m c (Proc.devRef .tc main_v3) = Cert.Val.tgt (a1 m c)
  v8 : U6 m c (Proc.devRef .tc main_v8) = Cert.Val.deg (a1 m c)
  arg0 : U6 m c (Proc.devRef .tc main_arg0) = (a0 m c)
  arg2 : U6 m c (Proc.devRef .tc main_arg2) = (a2 m c)
  arg3 : U6 m c (Proc.devRef .tc main_arg3) = (a3 m c)
  arg4 : U6 m c (Proc.devRef .tc main_arg4) = (a4 m c)
  arg5 : U6 m c (Proc.devRef .tc main_arg5) = (a5 m c)
  arg6 : U6 m c (Proc.devRef .tc main_arg6) = (a6 m c)
  arg7 : U6 m c (Proc.devRef .tc main_arg7) = (a7 m c)
  arg8 : U6 m c (Proc.devRef .tc main_arg8) = (a8 m c)
  arg9 : U6 m c (Proc.devRef .tc main_arg9) = (a9 m c)
  arg10 : U6 m c (Proc.devRef .tc main_arg10) = (a10 m c)
  arg11 : U6 m c (Proc.devRef .tc main_arg11) = (a11 m c)

/-- What the buffers that later items read hold at boundary 7. -/
structure B7 : Prop where
  v79 : U7 m c (Proc.devRef .tc main_v79) = (X1 m c)
  v80 : U7 m c (Proc.devRef .tc main_v80) = Cert.Val.matOf (extractStridedSlice S1x128x128 ![1, 0, 0] (a6 m c) slices_S3x128x128_S1x128x128_1_0_0)
  v81 : U7 m c (Proc.devRef .tc main_v81) = Cert.Val.matOf (extractStridedSlice S1x128x128 ![1, 0, 0] (a8 m c) slices_S3x128x128_S1x128x128_1_0_0)
  v82 : U7 m c (Proc.devRef .tc main_v82) = Cert.Val.rowOf (extractStridedSlice S1x128 ![1, 0] (a7 m c) slices_S3x128_S1x128_1_0)
  v83 : U7 m c (Proc.devRef .tc main_v83) = Cert.Val.rowOf (extractStridedSlice S1x128 ![1, 0] (a9 m c) slices_S3x128_S1x128_1_0)
  v46 : U7 m c (Proc.devRef .tc main_v46) = (H1 m c)
  v1 : U7 m c (Proc.devRef .tc main_v1) = Cert.Val.src (a1 m c)
  v3 : U7 m c (Proc.devRef .tc main_v3) = Cert.Val.tgt (a1 m c)
  v8 : U7 m c (Proc.devRef .tc main_v8) = Cert.Val.deg (a1 m c)
  arg0 : U7 m c (Proc.devRef .tc main_arg0) = (a0 m c)
  arg2 : U7 m c (Proc.devRef .tc main_arg2) = (a2 m c)
  arg3 : U7 m c (Proc.devRef .tc main_arg3) = (a3 m c)
  arg4 : U7 m c (Proc.devRef .tc main_arg4) = (a4 m c)
  arg5 : U7 m c (Proc.devRef .tc main_arg5) = (a5 m c)
  arg6 : U7 m c (Proc.devRef .tc main_arg6) = (a6 m c)
  arg7 : U7 m c (Proc.devRef .tc main_arg7) = (a7 m c)
  arg8 : U7 m c (Proc.devRef .tc main_arg8) = (a8 m c)
  arg9 : U7 m c (Proc.devRef .tc main_arg9) = (a9 m c)
  arg10 : U7 m c (Proc.devRef .tc main_arg10) = (a10 m c)
  arg11 : U7 m c (Proc.devRef .tc main_arg11) = (a11 m c)

/-- What the buffers that later items read hold at boundary 8. -/
structure B8 : Prop where
  v46 : U8 m c (Proc.devRef .tc main_v46) = (H1 m c)
  v84 : U8 m c (Proc.devRef .tc main_v84) = (H2 m c)
  v1 : U8 m c (Proc.devRef .tc main_v1) = Cert.Val.src (a1 m c)
  v3 : U8 m c (Proc.devRef .tc main_v3) = Cert.Val.tgt (a1 m c)
  v8 : U8 m c (Proc.devRef .tc main_v8) = Cert.Val.deg (a1 m c)
  arg0 : U8 m c (Proc.devRef .tc main_arg0) = (a0 m c)
  arg2 : U8 m c (Proc.devRef .tc main_arg2) = (a2 m c)
  arg3 : U8 m c (Proc.devRef .tc main_arg3) = (a3 m c)
  arg4 : U8 m c (Proc.devRef .tc main_arg4) = (a4 m c)
  arg5 : U8 m c (Proc.devRef .tc main_arg5) = (a5 m c)
  arg6 : U8 m c (Proc.devRef .tc main_arg6) = (a6 m c)
  arg7 : U8 m c (Proc.devRef .tc main_arg7) = (a7 m c)
  arg8 : U8 m c (Proc.devRef .tc main_arg8) = (a8 m c)
  arg9 : U8 m c (Proc.devRef .tc main_arg9) = (a9 m c)
  arg10 : U8 m c (Proc.devRef .tc main_arg10) = (a10 m c)
  arg11 : U8 m c (Proc.devRef .tc main_arg11) = (a11 m c)

/-- What the buffers that later items read hold at boundary 9. -/
structure B9 : Prop where
  v86 : U9 m c (Proc.devRef .tc main_v86) = (shapeCast S1x128 (extractStridedSlice S1x1x128 ![2, 0, 0] (a3 m c) slices_S3x1x128_S1x1x128_2_0_0) shapeCasts_S1x1x128_S1x128)
  v89 : U9 m c (Proc.devRef .tc main_v89) = (Cert.Val.rowOf (extractStridedSlice S1x128 ![2, 0] (a4 m c) slices_S3x128_S1x128_2_0))
  v96 : U9 m c (Proc.devRef .tc main_v96) = Cert.Val.gatherAt (H2 m c) (Cert.Val.src (a1 m c))
  v46 : U9 m c (Proc.devRef .tc main_v46) = (H1 m c)
  v84 : U9 m c (Proc.devRef .tc main_v84) = (H2 m c)
  v1 : U9 m c (Proc.devRef .tc main_v1) = Cert.Val.src (a1 m c)
  v3 : U9 m c (Proc.devRef .tc main_v3) = Cert.Val.tgt (a1 m c)
  v8 : U9 m c (Proc.devRef .tc main_v8) = Cert.Val.deg (a1 m c)
  arg0 : U9 m c (Proc.devRef .tc main_arg0) = (a0 m c)
  arg2 : U9 m c (Proc.devRef .tc main_arg2) = (a2 m c)
  arg3 : U9 m c (Proc.devRef .tc main_arg3) = (a3 m c)
  arg4 : U9 m c (Proc.devRef .tc main_arg4) = (a4 m c)
  arg5 : U9 m c (Proc.devRef .tc main_arg5) = (a5 m c)
  arg6 : U9 m c (Proc.devRef .tc main_arg6) = (a6 m c)
  arg7 : U9 m c (Proc.devRef .tc main_arg7) = (a7 m c)
  arg8 : U9 m c (Proc.devRef .tc main_arg8) = (a8 m c)
  arg9 : U9 m c (Proc.devRef .tc main_arg9) = (a9 m c)
  arg10 : U9 m c (Proc.devRef .tc main_arg10) = (a10 m c)
  arg11 : U9 m c (Proc.devRef .tc main_arg11) = (a11 m c)

/-- What the buffers that later items read hold at boundary 10. -/
structure B10 : Prop where
  v97 : U10 m c (Proc.devRef .tc main_v97) = (E2 m c)
  v46 : U10 m c (Proc.devRef .tc main_v46) = (H1 m c)
  v84 : U10 m c (Proc.devRef .tc main_v84) = (H2 m c)
  v1 : U10 m c (Proc.devRef .tc main_v1) = Cert.Val.src (a1 m c)
  v3 : U10 m c (Proc.devRef .tc main_v3) = Cert.Val.tgt (a1 m c)
  v8 : U10 m c (Proc.devRef .tc main_v8) = Cert.Val.deg (a1 m c)
  arg0 : U10 m c (Proc.devRef .tc main_arg0) = (a0 m c)
  arg2 : U10 m c (Proc.devRef .tc main_arg2) = (a2 m c)
  arg3 : U10 m c (Proc.devRef .tc main_arg3) = (a3 m c)
  arg4 : U10 m c (Proc.devRef .tc main_arg4) = (a4 m c)
  arg5 : U10 m c (Proc.devRef .tc main_arg5) = (a5 m c)
  arg6 : U10 m c (Proc.devRef .tc main_arg6) = (a6 m c)
  arg7 : U10 m c (Proc.devRef .tc main_arg7) = (a7 m c)
  arg8 : U10 m c (Proc.devRef .tc main_arg8) = (a8 m c)
  arg9 : U10 m c (Proc.devRef .tc main_arg9) = (a9 m c)
  arg10 : U10 m c (Proc.devRef .tc main_arg10) = (a10 m c)
  arg11 : U10 m c (Proc.devRef .tc main_arg11) = (a11 m c)

/-- What the buffers that later items read hold at boundary 11. -/
structure B11 : Prop where
  v117 : U11 m c (Proc.devRef .tc main_v117) = (X2 m c)
  v118 : U11 m c (Proc.devRef .tc main_v118) = Cert.Val.matOf (extractStridedSlice S1x128x128 ![2, 0, 0] (a6 m c) slices_S3x128x128_S1x128x128_2_0_0)
  v119 : U11 m c (Proc.devRef .tc main_v119) = Cert.Val.matOf (extractStridedSlice S1x128x128 ![2, 0, 0] (a8 m c) slices_S3x128x128_S1x128x128_2_0_0)
  v120 : U11 m c (Proc.devRef .tc main_v120) = Cert.Val.rowOf (extractStridedSlice S1x128 ![2, 0] (a7 m c) slices_S3x128_S1x128_2_0)
  v121 : U11 m c (Proc.devRef .tc main_v121) = Cert.Val.rowOf (extractStridedSlice S1x128 ![2, 0] (a9 m c) slices_S3x128_S1x128_2_0)
  v46 : U11 m c (Proc.devRef .tc main_v46) = (H1 m c)
  v84 : U11 m c (Proc.devRef .tc main_v84) = (H2 m c)
  v1 : U11 m c (Proc.devRef .tc main_v1) = Cert.Val.src (a1 m c)
  v3 : U11 m c (Proc.devRef .tc main_v3) = Cert.Val.tgt (a1 m c)
  v8 : U11 m c (Proc.devRef .tc main_v8) = Cert.Val.deg (a1 m c)
  arg0 : U11 m c (Proc.devRef .tc main_arg0) = (a0 m c)
  arg2 : U11 m c (Proc.devRef .tc main_arg2) = (a2 m c)
  arg3 : U11 m c (Proc.devRef .tc main_arg3) = (a3 m c)
  arg4 : U11 m c (Proc.devRef .tc main_arg4) = (a4 m c)
  arg5 : U11 m c (Proc.devRef .tc main_arg5) = (a5 m c)
  arg6 : U11 m c (Proc.devRef .tc main_arg6) = (a6 m c)
  arg7 : U11 m c (Proc.devRef .tc main_arg7) = (a7 m c)
  arg8 : U11 m c (Proc.devRef .tc main_arg8) = (a8 m c)
  arg9 : U11 m c (Proc.devRef .tc main_arg9) = (a9 m c)
  arg10 : U11 m c (Proc.devRef .tc main_arg10) = (a10 m c)
  arg11 : U11 m c (Proc.devRef .tc main_arg11) = (a11 m c)

/-- What the buffers that later items read hold at boundary 12. -/
structure B12 : Prop where
  v46 : U12 m c (Proc.devRef .tc main_v46) = (H1 m c)
  v84 : U12 m c (Proc.devRef .tc main_v84) = (H2 m c)
  v122 : U12 m c (Proc.devRef .tc main_v122) = (H3 m c)
  v1 : U12 m c (Proc.devRef .tc main_v1) = Cert.Val.src (a1 m c)
  v3 : U12 m c (Proc.devRef .tc main_v3) = Cert.Val.tgt (a1 m c)
  v8 : U12 m c (Proc.devRef .tc main_v8) = Cert.Val.deg (a1 m c)
  arg0 : U12 m c (Proc.devRef .tc main_arg0) = (a0 m c)
  arg2 : U12 m c (Proc.devRef .tc main_arg2) = (a2 m c)
  arg3 : U12 m c (Proc.devRef .tc main_arg3) = (a3 m c)
  arg4 : U12 m c (Proc.devRef .tc main_arg4) = (a4 m c)
  arg5 : U12 m c (Proc.devRef .tc main_arg5) = (a5 m c)
  arg6 : U12 m c (Proc.devRef .tc main_arg6) = (a6 m c)
  arg7 : U12 m c (Proc.devRef .tc main_arg7) = (a7 m c)
  arg8 : U12 m c (Proc.devRef .tc main_arg8) = (a8 m c)
  arg9 : U12 m c (Proc.devRef .tc main_arg9) = (a9 m c)
  arg10 : U12 m c (Proc.devRef .tc main_arg10) = (a10 m c)
  arg11 : U12 m c (Proc.devRef .tc main_arg11) = (a11 m c)

/-- What the buffers that later items read hold at boundary 13. -/
structure B13 : Prop where
  v124 : U13 m c (Proc.devRef .tc main_v124) = truncf (F := Ideal) .bf16 (concatenate S50000x512 1 [⟨S50000x128, (a0 m c)⟩, ⟨S50000x128, (H1 m c)⟩, ⟨S50000x128, (H2 m c)⟩, ⟨S50000x128, (H3 m c)⟩] concatenates_S50000x128_S50000x128_S50000x128_S50000x128_S50000x512_d1) bitsLt_bf16_f32
  v125 : U13 m c (Proc.devRef .tc main_v125) = truncf (F := Ideal) .bf16 (a10 m c) bitsLt_bf16_f32
  v126 : U13 m c (Proc.devRef .tc main_v126) = shapeCast S1x128 (a11 m c) shapeCasts_S128_S1x128

set_option maxHeartbeats 4000000 in
theorem b1 : B1 m c where
  v20 := by unfold U1; exact s0_main_v20 (Gen.V0 m c)
  v10 := by unfold U1; exact s0_main_v10 (Gen.V0 m c)
  v13 := by unfold U1; exact s0_main_v13 (Gen.V0 m c)
  v1 := by unfold U1; exact s0_main_v1 (Gen.V0 m c)
  v3 := by unfold U1; exact s0_main_v3 (Gen.V0 m c)
  v8 := by unfold U1; exact s0_main_v8 (Gen.V0 m c)
  arg0 := by unfold U1; exact Gen.V1_of m c main_arg0 (by decide)
  arg2 := by unfold U1; exact Gen.V1_of m c main_arg2 (by decide)
  arg3 := by unfold U1; exact Gen.V1_of m c main_arg3 (by decide)
  arg4 := by unfold U1; exact Gen.V1_of m c main_arg4 (by decide)
  arg5 := by unfold U1; exact Gen.V1_of m c main_arg5 (by decide)
  arg6 := by unfold U1; exact Gen.V1_of m c main_arg6 (by decide)
  arg7 := by unfold U1; exact Gen.V1_of m c main_arg7 (by decide)
  arg8 := by unfold U1; exact Gen.V1_of m c main_arg8 (by decide)
  arg9 := by unfold U1; exact Gen.V1_of m c main_arg9 (by decide)
  arg10 := by unfold U1; exact Gen.V1_of m c main_arg10 (by decide)
  arg11 := by unfold U1; exact Gen.V1_of m c main_arg11 (by decide)

set_option maxHeartbeats 4000000 in
theorem b2 : B2 m c where
  v21 := (U2_out m c).trans ((final0 (tcv (U1 m)) c).trans (by
    show Cert.Val.Gedge (U1 m c (Proc.devRef .tc main_v20)) (U1 m c (Proc.devRef .tc main_arg2)) (U1 m c (Proc.devRef .tc main_v10)) (U1 m c (Proc.devRef .tc main_v13)) = _
    rw [(b1 m c).v20, (b1 m c).arg2, (b1 m c).v10, (b1 m c).v13]; first | done | rfl))
  v1 := (U2_of_ne m c main_v1 (by decide)).trans (b1 m c).v1
  v3 := (U2_of_ne m c main_v3 (by decide)).trans (b1 m c).v3
  v8 := (U2_of_ne m c main_v8 (by decide)).trans (b1 m c).v8
  arg0 := (U2_of_ne m c main_arg0 (by decide)).trans (b1 m c).arg0
  arg2 := (U2_of_ne m c main_arg2 (by decide)).trans (b1 m c).arg2
  arg3 := (U2_of_ne m c main_arg3 (by decide)).trans (b1 m c).arg3
  arg4 := (U2_of_ne m c main_arg4 (by decide)).trans (b1 m c).arg4
  arg5 := (U2_of_ne m c main_arg5 (by decide)).trans (b1 m c).arg5
  arg6 := (U2_of_ne m c main_arg6 (by decide)).trans (b1 m c).arg6
  arg7 := (U2_of_ne m c main_arg7 (by decide)).trans (b1 m c).arg7
  arg8 := (U2_of_ne m c main_arg8 (by decide)).trans (b1 m c).arg8
  arg9 := (U2_of_ne m c main_arg9 (by decide)).trans (b1 m c).arg9
  arg10 := (U2_of_ne m c main_arg10 (by decide)).trans (b1 m c).arg10
  arg11 := (U2_of_ne m c main_arg11 (by decide)).trans (b1 m c).arg11

set_option maxHeartbeats 4000000 in
theorem b3 : B3 m c where
  v41 := by
    unfold U3
    refine (s1_main_v41 (U2 m c)).trans ?_
    rw [(b2 m c).v21, (b2 m c).v3, (b2 m c).v8, (b2 m c).arg0, (b2 m c).arg5]; first | done | rfl
  v42 := by
    unfold U3
    refine (s1_main_v42 (U2 m c)).trans ?_
    rw [(b2 m c).arg6]; first | done | rfl
  v43 := by
    unfold U3
    refine (s1_main_v43 (U2 m c)).trans ?_
    rw [(b2 m c).arg8]; first | done | rfl
  v44 := by
    unfold U3
    refine (s1_main_v44 (U2 m c)).trans ?_
    rw [(b2 m c).arg7]; first | done | rfl
  v45 := by
    unfold U3
    refine (s1_main_v45 (U2 m c)).trans ?_
    rw [(b2 m c).arg9]; first | done | rfl
  v1 := (U3_of m c main_v1 (by decide)).trans (b2 m c).v1
  v3 := (U3_of m c main_v3 (by decide)).trans (b2 m c).v3
  v8 := (U3_of m c main_v8 (by decide)).trans (b2 m c).v8
  arg0 := (U3_of m c main_arg0 (by decide)).trans (b2 m c).arg0
  arg2 := (U3_of m c main_arg2 (by decide)).trans (b2 m c).arg2
  arg3 := (U3_of m c main_arg3 (by decide)).trans (b2 m c).arg3
  arg4 := (U3_of m c main_arg4 (by decide)).trans (b2 m c).arg4
  arg5 := (U3_of m c main_arg5 (by decide)).trans (b2 m c).arg5
  arg6 := (U3_of m c main_arg6 (by decide)).trans (b2 m c).arg6
  arg7 := (U3_of m c main_arg7 (by decide)).trans (b2 m c).arg7
  arg8 := (U3_of m c main_arg8 (by decide)).trans (b2 m c).arg8
  arg9 := (U3_of m c main_arg9 (by decide)).trans (b2 m c).arg9
  arg10 := (U3_of m c main_arg10 (by decide)).trans (b2 m c).arg10
  arg11 := (U3_of m c main_arg11 (by decide)).trans (b2 m c).arg11

set_option maxHeartbeats 4000000 in
theorem b4 : B4 m c where
  v46 := (U4_out m c).trans ((final1 (tcv (U3 m)) c).trans (by
    show Cert.Val.Gmlp (U3 m c (Proc.devRef .tc main_v41)) (U3 m c (Proc.devRef .tc main_v42)) (U3 m c (Proc.devRef .tc main_v44)) (U3 m c (Proc.devRef .tc main_v43)) (U3 m c (Proc.devRef .tc main_v45)) = _
    rw [(b3 m c).v41, (b3 m c).v42, (b3 m c).v44, (b3 m c).v43, (b3 m c).v45]; first | done | rfl))
  v1 := (U4_of_ne m c main_v1 (by decide)).trans (b3 m c).v1
  v3 := (U4_of_ne m c main_v3 (by decide)).trans (b3 m c).v3
  v8 := (U4_of_ne m c main_v8 (by decide)).trans (b3 m c).v8
  arg0 := (U4_of_ne m c main_arg0 (by decide)).trans (b3 m c).arg0
  arg2 := (U4_of_ne m c main_arg2 (by decide)).trans (b3 m c).arg2
  arg3 := (U4_of_ne m c main_arg3 (by decide)).trans (b3 m c).arg3
  arg4 := (U4_of_ne m c main_arg4 (by decide)).trans (b3 m c).arg4
  arg5 := (U4_of_ne m c main_arg5 (by decide)).trans (b3 m c).arg5
  arg6 := (U4_of_ne m c main_arg6 (by decide)).trans (b3 m c).arg6
  arg7 := (U4_of_ne m c main_arg7 (by decide)).trans (b3 m c).arg7
  arg8 := (U4_of_ne m c main_arg8 (by decide)).trans (b3 m c).arg8
  arg9 := (U4_of_ne m c main_arg9 (by decide)).trans (b3 m c).arg9
  arg10 := (U4_of_ne m c main_arg10 (by decide)).trans (b3 m c).arg10
  arg11 := (U4_of_ne m c main_arg11 (by decide)).trans (b3 m c).arg11

set_option maxHeartbeats 4000000 in
theorem b5 : B5 m c where
  v48 := by
    unfold U5
    refine (s2_main_v48 (U4 m c)).trans ?_
    rw [(b4 m c).arg3]; first | done | rfl
  v51 := by
    unfold U5
    refine (s2_main_v51 (U4 m c)).trans ?_
    rw [(b4 m c).arg4]; first | done | rfl
  v58 := by
    unfold U5
    refine (s2_main_v58 (U4 m c)).trans ?_
    rw [(b4 m c).v46, (b4 m c).v1]; first | done | rfl
  v46 := (U5_of m c main_v46 (by decide)).trans (b4 m c).v46
  v1 := (U5_of m c main_v1 (by decide)).trans (b4 m c).v1
  v3 := (U5_of m c main_v3 (by decide)).trans (b4 m c).v3
  v8 := (U5_of m c main_v8 (by decide)).trans (b4 m c).v8
  arg0 := (U5_of m c main_arg0 (by decide)).trans (b4 m c).arg0
  arg2 := (U5_of m c main_arg2 (by decide)).trans (b4 m c).arg2
  arg3 := (U5_of m c main_arg3 (by decide)).trans (b4 m c).arg3
  arg4 := (U5_of m c main_arg4 (by decide)).trans (b4 m c).arg4
  arg5 := (U5_of m c main_arg5 (by decide)).trans (b4 m c).arg5
  arg6 := (U5_of m c main_arg6 (by decide)).trans (b4 m c).arg6
  arg7 := (U5_of m c main_arg7 (by decide)).trans (b4 m c).arg7
  arg8 := (U5_of m c main_arg8 (by decide)).trans (b4 m c).arg8
  arg9 := (U5_of m c main_arg9 (by decide)).trans (b4 m c).arg9
  arg10 := (U5_of m c main_arg10 (by decide)).trans (b4 m c).arg10
  arg11 := (U5_of m c main_arg11 (by decide)).trans (b4 m c).arg11

set_option maxHeartbeats 4000000 in
theorem b6 : B6 m c where
  v59 := (U6_out m c).trans ((final2 (tcv (U5 m)) c).trans (by
    show Cert.Val.Gedge (U5 m c (Proc.devRef .tc main_v58)) (U5 m c (Proc.devRef .tc main_arg2)) (U5 m c (Proc.devRef .tc main_v48)) (U5 m c (Proc.devRef .tc main_v51)) = _
    rw [(b5 m c).v58, (b5 m c).arg2, (b5 m c).v48, (b5 m c).v51]; first | done | rfl))
  v46 := (U6_of_ne m c main_v46 (by decide)).trans (b5 m c).v46
  v1 := (U6_of_ne m c main_v1 (by decide)).trans (b5 m c).v1
  v3 := (U6_of_ne m c main_v3 (by decide)).trans (b5 m c).v3
  v8 := (U6_of_ne m c main_v8 (by decide)).trans (b5 m c).v8
  arg0 := (U6_of_ne m c main_arg0 (by decide)).trans (b5 m c).arg0
  arg2 := (U6_of_ne m c main_arg2 (by decide)).trans (b5 m c).arg2
  arg3 := (U6_of_ne m c main_arg3 (by decide)).trans (b5 m c).arg3
  arg4 := (U6_of_ne m c main_arg4 (by decide)).trans (b5 m c).arg4
  arg5 := (U6_of_ne m c main_arg5 (by decide)).trans (b5 m c).arg5
  arg6 := (U6_of_ne m c main_arg6 (by decide)).trans (b5 m c).arg6
  arg7 := (U6_of_ne m c main_arg7 (by decide)).trans (b5 m c).arg7
  arg8 := (U6_of_ne m c main_arg8 (by decide)).trans (b5 m c).arg8
  arg9 := (U6_of_ne m c main_arg9 (by decide)).trans (b5 m c).arg9
  arg10 := (U6_of_ne m c main_arg10 (by decide)).trans (b5 m c).arg10
  arg11 := (U6_of_ne m c main_arg11 (by decide)).trans (b5 m c).arg11

set_option maxHeartbeats 4000000 in
theorem b7 : B7 m c where
  v79 := by
    unfold U7
    refine (s3_main_v79 (U6 m c)).trans ?_
    rw [(b6 m c).v59, (b6 m c).v3, (b6 m c).v8, (b6 m c).v46, (b6 m c).arg5]; first | done | rfl
  v80 := by
    unfold U7
    refine (s3_main_v80 (U6 m c)).trans ?_
    rw [(b6 m c).arg6]; first | done | rfl
  v81 := by
    unfold U7
    refine (s3_main_v81 (U6 m c)).trans ?_
    rw [(b6 m c).arg8]; first | done | rfl
  v82 := by
    unfold U7
    refine (s3_main_v82 (U6 m c)).trans ?_
    rw [(b6 m c).arg7]; first | done | rfl
  v83 := by
    unfold U7
    refine (s3_main_v83 (U6 m c)).trans ?_
    rw [(b6 m c).arg9]; first | done | rfl
  v46 := (U7_of m c main_v46 (by decide)).trans (b6 m c).v46
  v1 := (U7_of m c main_v1 (by decide)).trans (b6 m c).v1
  v3 := (U7_of m c main_v3 (by decide)).trans (b6 m c).v3
  v8 := (U7_of m c main_v8 (by decide)).trans (b6 m c).v8
  arg0 := (U7_of m c main_arg0 (by decide)).trans (b6 m c).arg0
  arg2 := (U7_of m c main_arg2 (by decide)).trans (b6 m c).arg2
  arg3 := (U7_of m c main_arg3 (by decide)).trans (b6 m c).arg3
  arg4 := (U7_of m c main_arg4 (by decide)).trans (b6 m c).arg4
  arg5 := (U7_of m c main_arg5 (by decide)).trans (b6 m c).arg5
  arg6 := (U7_of m c main_arg6 (by decide)).trans (b6 m c).arg6
  arg7 := (U7_of m c main_arg7 (by decide)).trans (b6 m c).arg7
  arg8 := (U7_of m c main_arg8 (by decide)).trans (b6 m c).arg8
  arg9 := (U7_of m c main_arg9 (by decide)).trans (b6 m c).arg9
  arg10 := (U7_of m c main_arg10 (by decide)).trans (b6 m c).arg10
  arg11 := (U7_of m c main_arg11 (by decide)).trans (b6 m c).arg11

set_option maxHeartbeats 4000000 in
theorem b8 : B8 m c where
  v46 := (U8_of_ne m c main_v46 (by decide)).trans (b7 m c).v46
  v84 := (U8_out m c).trans ((final3 (tcv (U7 m)) c).trans (by
    show Cert.Val.Gmlp (U7 m c (Proc.devRef .tc main_v79)) (U7 m c (Proc.devRef .tc main_v80)) (U7 m c (Proc.devRef .tc main_v82)) (U7 m c (Proc.devRef .tc main_v81)) (U7 m c (Proc.devRef .tc main_v83)) = _
    rw [(b7 m c).v79, (b7 m c).v80, (b7 m c).v82, (b7 m c).v81, (b7 m c).v83]; first | done | rfl))
  v1 := (U8_of_ne m c main_v1 (by decide)).trans (b7 m c).v1
  v3 := (U8_of_ne m c main_v3 (by decide)).trans (b7 m c).v3
  v8 := (U8_of_ne m c main_v8 (by decide)).trans (b7 m c).v8
  arg0 := (U8_of_ne m c main_arg0 (by decide)).trans (b7 m c).arg0
  arg2 := (U8_of_ne m c main_arg2 (by decide)).trans (b7 m c).arg2
  arg3 := (U8_of_ne m c main_arg3 (by decide)).trans (b7 m c).arg3
  arg4 := (U8_of_ne m c main_arg4 (by decide)).trans (b7 m c).arg4
  arg5 := (U8_of_ne m c main_arg5 (by decide)).trans (b7 m c).arg5
  arg6 := (U8_of_ne m c main_arg6 (by decide)).trans (b7 m c).arg6
  arg7 := (U8_of_ne m c main_arg7 (by decide)).trans (b7 m c).arg7
  arg8 := (U8_of_ne m c main_arg8 (by decide)).trans (b7 m c).arg8
  arg9 := (U8_of_ne m c main_arg9 (by decide)).trans (b7 m c).arg9
  arg10 := (U8_of_ne m c main_arg10 (by decide)).trans (b7 m c).arg10
  arg11 := (U8_of_ne m c main_arg11 (by decide)).trans (b7 m c).arg11

set_option maxHeartbeats 4000000 in
theorem b9 : B9 m c where
  v86 := by
    unfold U9
    refine (s4_main_v86 (U8 m c)).trans ?_
    rw [(b8 m c).arg3]; first | done | rfl
  v89 := by
    unfold U9
    refine (s4_main_v89 (U8 m c)).trans ?_
    rw [(b8 m c).arg4]; first | done | rfl
  v96 := by
    unfold U9
    refine (s4_main_v96 (U8 m c)).trans ?_
    rw [(b8 m c).v84, (b8 m c).v1]; first | done | rfl
  v46 := (U9_of m c main_v46 (by decide)).trans (b8 m c).v46
  v84 := (U9_of m c main_v84 (by decide)).trans (b8 m c).v84
  v1 := (U9_of m c main_v1 (by decide)).trans (b8 m c).v1
  v3 := (U9_of m c main_v3 (by decide)).trans (b8 m c).v3
  v8 := (U9_of m c main_v8 (by decide)).trans (b8 m c).v8
  arg0 := (U9_of m c main_arg0 (by decide)).trans (b8 m c).arg0
  arg2 := (U9_of m c main_arg2 (by decide)).trans (b8 m c).arg2
  arg3 := (U9_of m c main_arg3 (by decide)).trans (b8 m c).arg3
  arg4 := (U9_of m c main_arg4 (by decide)).trans (b8 m c).arg4
  arg5 := (U9_of m c main_arg5 (by decide)).trans (b8 m c).arg5
  arg6 := (U9_of m c main_arg6 (by decide)).trans (b8 m c).arg6
  arg7 := (U9_of m c main_arg7 (by decide)).trans (b8 m c).arg7
  arg8 := (U9_of m c main_arg8 (by decide)).trans (b8 m c).arg8
  arg9 := (U9_of m c main_arg9 (by decide)).trans (b8 m c).arg9
  arg10 := (U9_of m c main_arg10 (by decide)).trans (b8 m c).arg10
  arg11 := (U9_of m c main_arg11 (by decide)).trans (b8 m c).arg11

set_option maxHeartbeats 4000000 in
theorem b10 : B10 m c where
  v97 := (U10_out m c).trans ((final4 (tcv (U9 m)) c).trans (by
    show Cert.Val.Gedge (U9 m c (Proc.devRef .tc main_v96)) (U9 m c (Proc.devRef .tc main_arg2)) (U9 m c (Proc.devRef .tc main_v86)) (U9 m c (Proc.devRef .tc main_v89)) = _
    rw [(b9 m c).v96, (b9 m c).arg2, (b9 m c).v86, (b9 m c).v89]; first | done | rfl))
  v46 := (U10_of_ne m c main_v46 (by decide)).trans (b9 m c).v46
  v84 := (U10_of_ne m c main_v84 (by decide)).trans (b9 m c).v84
  v1 := (U10_of_ne m c main_v1 (by decide)).trans (b9 m c).v1
  v3 := (U10_of_ne m c main_v3 (by decide)).trans (b9 m c).v3
  v8 := (U10_of_ne m c main_v8 (by decide)).trans (b9 m c).v8
  arg0 := (U10_of_ne m c main_arg0 (by decide)).trans (b9 m c).arg0
  arg2 := (U10_of_ne m c main_arg2 (by decide)).trans (b9 m c).arg2
  arg3 := (U10_of_ne m c main_arg3 (by decide)).trans (b9 m c).arg3
  arg4 := (U10_of_ne m c main_arg4 (by decide)).trans (b9 m c).arg4
  arg5 := (U10_of_ne m c main_arg5 (by decide)).trans (b9 m c).arg5
  arg6 := (U10_of_ne m c main_arg6 (by decide)).trans (b9 m c).arg6
  arg7 := (U10_of_ne m c main_arg7 (by decide)).trans (b9 m c).arg7
  arg8 := (U10_of_ne m c main_arg8 (by decide)).trans (b9 m c).arg8
  arg9 := (U10_of_ne m c main_arg9 (by decide)).trans (b9 m c).arg9
  arg10 := (U10_of_ne m c main_arg10 (by decide)).trans (b9 m c).arg10
  arg11 := (U10_of_ne m c main_arg11 (by decide)).trans (b9 m c).arg11

set_option maxHeartbeats 4000000 in
theorem b11 : B11 m c where
  v117 := by
    unfold U11
    refine (s5_main_v117 (U10 m c)).trans ?_
    rw [(b10 m c).v97, (b10 m c).v3, (b10 m c).v8, (b10 m c).v84, (b10 m c).arg5]; first | done | rfl
  v118 := by
    unfold U11
    refine (s5_main_v118 (U10 m c)).trans ?_
    rw [(b10 m c).arg6]; first | done | rfl
  v119 := by
    unfold U11
    refine (s5_main_v119 (U10 m c)).trans ?_
    rw [(b10 m c).arg8]; first | done | rfl
  v120 := by
    unfold U11
    refine (s5_main_v120 (U10 m c)).trans ?_
    rw [(b10 m c).arg7]; first | done | rfl
  v121 := by
    unfold U11
    refine (s5_main_v121 (U10 m c)).trans ?_
    rw [(b10 m c).arg9]; first | done | rfl
  v46 := (U11_of m c main_v46 (by decide)).trans (b10 m c).v46
  v84 := (U11_of m c main_v84 (by decide)).trans (b10 m c).v84
  v1 := (U11_of m c main_v1 (by decide)).trans (b10 m c).v1
  v3 := (U11_of m c main_v3 (by decide)).trans (b10 m c).v3
  v8 := (U11_of m c main_v8 (by decide)).trans (b10 m c).v8
  arg0 := (U11_of m c main_arg0 (by decide)).trans (b10 m c).arg0
  arg2 := (U11_of m c main_arg2 (by decide)).trans (b10 m c).arg2
  arg3 := (U11_of m c main_arg3 (by decide)).trans (b10 m c).arg3
  arg4 := (U11_of m c main_arg4 (by decide)).trans (b10 m c).arg4
  arg5 := (U11_of m c main_arg5 (by decide)).trans (b10 m c).arg5
  arg6 := (U11_of m c main_arg6 (by decide)).trans (b10 m c).arg6
  arg7 := (U11_of m c main_arg7 (by decide)).trans (b10 m c).arg7
  arg8 := (U11_of m c main_arg8 (by decide)).trans (b10 m c).arg8
  arg9 := (U11_of m c main_arg9 (by decide)).trans (b10 m c).arg9
  arg10 := (U11_of m c main_arg10 (by decide)).trans (b10 m c).arg10
  arg11 := (U11_of m c main_arg11 (by decide)).trans (b10 m c).arg11

set_option maxHeartbeats 4000000 in
theorem b12 : B12 m c where
  v46 := (U12_of_ne m c main_v46 (by decide)).trans (b11 m c).v46
  v84 := (U12_of_ne m c main_v84 (by decide)).trans (b11 m c).v84
  v122 := (U12_out m c).trans ((final5 (tcv (U11 m)) c).trans (by
    show Cert.Val.Gmlp (U11 m c (Proc.devRef .tc main_v117)) (U11 m c (Proc.devRef .tc main_v118)) (U11 m c (Proc.devRef .tc main_v120)) (U11 m c (Proc.devRef .tc main_v119)) (U11 m c (Proc.devRef .tc main_v121)) = _
    rw [(b11 m c).v117, (b11 m c).v118, (b11 m c).v120, (b11 m c).v119, (b11 m c).v121]; first | done | rfl))
  v1 := (U12_of_ne m c main_v1 (by decide)).trans (b11 m c).v1
  v3 := (U12_of_ne m c main_v3 (by decide)).trans (b11 m c).v3
  v8 := (U12_of_ne m c main_v8 (by decide)).trans (b11 m c).v8
  arg0 := (U12_of_ne m c main_arg0 (by decide)).trans (b11 m c).arg0
  arg2 := (U12_of_ne m c main_arg2 (by decide)).trans (b11 m c).arg2
  arg3 := (U12_of_ne m c main_arg3 (by decide)).trans (b11 m c).arg3
  arg4 := (U12_of_ne m c main_arg4 (by decide)).trans (b11 m c).arg4
  arg5 := (U12_of_ne m c main_arg5 (by decide)).trans (b11 m c).arg5
  arg6 := (U12_of_ne m c main_arg6 (by decide)).trans (b11 m c).arg6
  arg7 := (U12_of_ne m c main_arg7 (by decide)).trans (b11 m c).arg7
  arg8 := (U12_of_ne m c main_arg8 (by decide)).trans (b11 m c).arg8
  arg9 := (U12_of_ne m c main_arg9 (by decide)).trans (b11 m c).arg9
  arg10 := (U12_of_ne m c main_arg10 (by decide)).trans (b11 m c).arg10
  arg11 := (U12_of_ne m c main_arg11 (by decide)).trans (b11 m c).arg11

set_option maxHeartbeats 4000000 in
theorem b13 : B13 m c where
  v124 := by
    unfold U13
    refine (s6_main_v124 (U12 m c)).trans ?_
    rw [(b12 m c).arg0, (b12 m c).v46, (b12 m c).v84, (b12 m c).v122]; first | done | rfl
  v125 := by
    unfold U13
    refine (s6_main_v125 (U12 m c)).trans ?_
    rw [(b12 m c).arg10]; first | done | rfl
  v126 := by
    unfold U13
    refine (s6_main_v126 (U12 m c)).trans ?_
    rw [(b12 m c).arg11]; first | done | rfl

/-- The result buffer after the last region: the network function of the arguments. -/
theorem result_eq : U14 m c (Proc.devRef .tc main_v127) = Cert.Val.net (a0 m c) (a1 m c) (a2 m c) (a3 m c) (a4 m c) (a5 m c) (a6 m c) (a7 m c) (a8 m c) (a9 m c) (a10 m c) (a11 m c) :=
  (U14_out m c).trans ((final6 (tcv (U13 m)) c).trans (by
    show Cert.Val.Gfinal (U13 m c (Proc.devRef .tc main_v124)) (U13 m c (Proc.devRef .tc main_v125)) (U13 m c (Proc.devRef .tc main_v126)) = _
    rw [(b13 m c).v124, (b13 m c).v125, (b13 m c).v126, H1_eq, H2_eq, H3_eq]
    rfl))

end Cert.KernelIdeal.KNet

end
-- ==== Proof.LibDotsNT.lean ====
/-
  Matrix products read at an entry, on the extended reals.

  * Right operand contracted on its LAST axis: for dimension numbers that contract the second axis of an [M, K] array
    with the second axis of an [N, K] array, with no batch axes, the product at entry (r, q) is the sum over k of
    left(r, k) * right(q, k) -- for the matrix unit's product into a zero accumulator (`nt_matmul_zero_apply`) and
    for the host's dot_general (`nt_dotGeneral_apply`).
  * The host's dot_general with the plain dimension numbers, [M, K] by [K, N]: at entry (r, q) the sum over k of
    left(r, k) * right(k, q) (`plain_dotGeneral_apply`).
-/
import Idealize.ShloMosaic.PureOps.Ideal
import Idealize.ShloMosaic.PureOps.Ideal.Laws
import Idealize.ShloMosaic.Lib.ValueIdx

noncomputable section

open scoped BigOperators

namespace Cert.LibDotsNT

open Idealize.ShloMosaic Idealize.ShloMosaic.ValueIdx

section NT

variable {M K N : Nat} (d : DotDims ⟨2, ![M, K]⟩ ⟨2, ![N, K]⟩ ⟨2, ![M, N]⟩)
  (hlc : d.lhsContracting = [1]) (hrc : d.rhsContracting = [1]) (hln : d.lhsNonContracting = [0])
  (hrn : d.rhsNonContracting = [0]) (hlb : d.lhsBatch = []) (hrb : d.rhsBatch = [])

include hlc in
theorem nt_rank_contr_one : d.contr.rank = 1 := by rw [d.rank_contr, hlc]; rfl

include hlc in
theorem nt_size_contr_zero : d.contr.size ⟨0, by rw [nt_rank_contr_one d hlc]; exact Nat.one_pos⟩ = K := by
  have := d.size_contr 0 (by rw [hlc]; exact Nat.one_pos)
  rw [this]
  simp [hlc]

include hln hlb in
/-- The left operand is read in the row of the result entry ... -/
theorem nt_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
/-- ... and the right operand in the row numbered by the result entry's column. -/
theorem nt_rhs_row (j : (⟨2, ![M, N]⟩ : Shape).Idx) (k : d.contr.Idx) : ((d.rhsIdx j k 0 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The contraction's sum re-indexed by the one contracted coordinate. -/
theorem nt_sum_apply {φ₁ φ₂ : FTy} (lhs : FVec Ideal ⟨2, ![M, K]⟩ φ₁) (rhs : FVec Ideal ⟨2, ![N, K]⟩ φ₂) (r : Fin M) (q : Fin N) :
    ∑ k : d.contr.Idx, lhs (d.lhsIdx (ix2 r q) k) * rhs (d.rhsIdx (ix2 r q) k)
      = ∑ k : Fin K, lhs (ix2 r k) * rhs (ix2 q k) := by
  rw [← Equiv.sum_comp (contrEquiv1 d K (nt_rank_contr_one d hlc) (nt_size_contr_zero d hlc)).symm]
  refine Finset.sum_congr rfl fun k _ => ?_
  have hk := contrEquiv1_symm_val d K (nt_rank_contr_one d hlc) (nt_size_contr_zero d hlc) k
  congr 1
  · refine congrArg lhs (funext fun a => Fin.ext ?_)
    match a with
    | ⟨0, _⟩ => exact nt_lhs_row d hln hlb _ _
    | ⟨1, _⟩ => exact (d.lhsIdx_val_of_single hlc _ _).trans hk
  · refine congrArg rhs (funext fun a => Fin.ext ?_)
    match a with
    | ⟨0, _⟩ => exact nt_rhs_row d hln hrn hlb hrb _ _
    | ⟨1, _⟩ => exact (d.rhsIdx_val_of_single hrc _ _).trans hk

include hlc hrc hln hrn hlb hrb in
/-- The matrix unit's product into the zero accumulator at entry (r, q). -/
theorem nt_matmul_zero_apply {φ₁ φ₂ : FTy} (prec : Option ContractPrecision) (lhs : FVec Ideal ⟨2, ![M, K]⟩ φ₁)
    (rhs : FVec Ideal ⟨2, ![N, K]⟩ φ₂) (r : Fin M) (q : Fin N) :
    FloatOps.matmul d prec lhs rhs (constant ⟨2, ![M, N]⟩ .f32 0x00000000#32) (ix2 r q)
      = ∑ k : Fin K, lhs (ix2 r k) * rhs (ix2 q k) := by
  rw [Ideal.matmul_constant_zero_apply]
  exact nt_sum_apply d hlc hrc hln hrn hlb hrb lhs rhs r q

include hlc hrc hln hrn hlb hrb in
/-- The host's dot_general at entry (r, q). -/
theorem nt_dotGeneral_apply {φ₁ φ₂ : FTy} (prec : Option ContractPrecision) (sched : HostSchedule)
    (lhs : FVec Ideal ⟨2, ![M, K]⟩ φ₁) (rhs : FVec Ideal ⟨2, ![N, K]⟩ φ₂) (r : Fin M) (q : Fin N) :
    FloatOps.dotGeneral d prec sched lhs rhs (ix2 r q) = ∑ k : Fin K, lhs (ix2 r k) * rhs (ix2 q k) := by
  rw [Ideal.dotGeneral_apply]
  exact nt_sum_apply d hlc hrc hln hrn hlb hrb lhs rhs r q

end NT

section Plain

variable {M K N : Nat} (d : DotDims ⟨2, ![M, K]⟩ ⟨2, ![K, N]⟩ ⟨2, ![M, N]⟩)
  (hlc : d.lhsContracting = [1]) (hrc : d.rhsContracting = [0]) (hln : d.lhsNonContracting = [0])
  (hrn : d.rhsNonContracting = [1]) (hlb : d.lhsBatch = []) (hrb : d.rhsBatch = [])

include hlc in
theorem plain_rank_contr_one : d.contr.rank = 1 := by rw [d.rank_contr, hlc]; rfl

include hlc in
theorem plain_size_contr_zero : d.contr.size ⟨0, by rw [plain_rank_contr_one d hlc]; exact Nat.one_pos⟩ = K := by
  have := d.size_contr 0 (by rw [hlc]; exact Nat.one_pos)
  rw [this]
  simp [hlc]

include hln hlb in
theorem plain_lhs_row (j : (⟨2, ![M, N]⟩ : Shape).Idx) (k : d.contr.Idx) : ((d.lhsIdx j k 0 : Fin _) : ℕ) = (j 0 : ℕ) := by
  have key : ∀ (p q : Nat) (hp : p < 2) (hq : q < 2), p = q → (j ⟨p, hp⟩).val = (j ⟨q, hq⟩).val :=
    fun p q hp hq h => by subst h; rfl
  simp [DotDims.lhsIdx, hlb, hln]
  exact key _ _ _ _ (by simp [hlb, hln])

include hrn hrb hln hlb in
theorem plain_rhs_col (j : (⟨2, ![M, N]⟩ : Shape).Idx) (k : d.contr.Idx) : ((d.rhsIdx j k 1 : Fin _) : ℕ) = (j 1 : ℕ) := by
  have key : ∀ (p q : Nat) (hp : p < 2) (hq : q < 2), p = q → (j ⟨p, hp⟩).val = (j ⟨q, hq⟩).val :=
    fun p q hp hq h => by subst h; rfl
  simp [DotDims.rhsIdx, hrb, hrn, hlb, hln]
  exact key _ _ _ _ (by simp [hlb, hln, hrn])

include hlc hrc hln hrn hlb hrb in
/-- The host's dot_general with the plain dimension numbers at entry (r, q). -/
theorem plain_dotGeneral_apply {φ₁ φ₂ : FTy} (prec : Option ContractPrecision) (sched : HostSchedule)
    (lhs : FVec Ideal ⟨2, ![M, K]⟩ φ₁) (rhs : FVec Ideal ⟨2, ![K, N]⟩ φ₂) (r : Fin M) (q : Fin N) :
    FloatOps.dotGeneral d prec sched lhs rhs (ix2 r q) = ∑ k : Fin K, lhs (ix2 r k) * rhs (ix2 k q) := by
  rw [Ideal.dotGeneral_apply,
    ← Equiv.sum_comp (contrEquiv1 d K (plain_rank_contr_one d hlc) (plain_size_contr_zero d hlc)).symm]
  refine Finset.sum_congr rfl fun k _ => ?_
  have hk := contrEquiv1_symm_val d K (plain_rank_contr_one d hlc) (plain_size_contr_zero d hlc) k
  congr 1
  · refine congrArg lhs (funext fun a => Fin.ext ?_)
    match a with
    | ⟨0, _⟩ => exact plain_lhs_row d hln hlb _ _
    | ⟨1, _⟩ => exact (d.lhsIdx_val_of_single hlc _ _).trans hk
  · refine congrArg rhs (funext fun a => Fin.ext ?_)
    match a with
    | ⟨0, _⟩ => exact (d.rhsIdx_val_of_single hrc _ _).trans hk
    | ⟨1, _⟩ => exact plain_rhs_col d hln hrn hlb hrb _ _

end Plain

end Cert.LibDotsNT

end
-- ==== Proof.ValBridge.lean ====
import proofs.«130465_j18580028523178_1_alg».proof.Proof.ValSpec
import proofs.«130465_j18580028523178_1_alg».proof.Proof.LibDotsNT
import proofs.«130465_j18580028523178_1_alg».proof.Proof.Gen.ReferenceIdeal
import Idealize.ShloMosaic.Lib.ValueLayout

/-! # The reference's spelling of the three kernels

The reference writes an edge message, a perceptron and the final projection with host operations: a
`dot_general`, a bias vector broadcast first to a row and then over all rows, and a maximum against a
broadcast zero. Read entry by entry at the ideal values these are the whole-array functions of `ValSpec`
applied to the same operands: the contraction of extent one is a single product, the bias row read at a
column is the bias vector there, and a format change is the identity. -/

open scoped BigOperators

noncomputable section
namespace Cert.Val
open Idealize.ShloMosaic Idealize.ShloMosaic.ValueIdx Cert.KernelIdeal

variable {α : Type}

/-- A vector broadcast to a row and then over `A` rows reads, at `(p, q)`, the vector at `q`. -/
theorem bcastRow_apply {A : ℕ} (b : (⟨1, ![128]⟩ : Shape).Idx → α)
    (h1 : (⟨1, ![128]⟩ : Shape).BroadcastsInDim ⟨2, ![1, 128]⟩ (![1] : Fin 1 → Fin 2))
    (h2 : (⟨2, ![1, 128]⟩ : Shape).BroadcastsInDim ⟨2, ![A, 128]⟩ (![0, 1] : Fin 2 → Fin 2)) (p : Fin A) (q : Fin 128) :
    broadcastInDim ⟨2, ![A, 128]⟩ ![0, 1] h2 (broadcastInDim ⟨2, ![1, 128]⟩ ![1] h1 b) (ix2 p q) = b (ix1 q) := by
  rw [broadcastInDim_apply _ h2 _ (ix2 p q) (ix2 (0 : Fin 1) q) (fun a => match a with
        | ⟨0, _⟩ => by show 0 = if (1 : Nat) = 1 then 0 else p.val; rw [if_pos rfl]
        | ⟨1, _⟩ => by show q.val = if (128 : Nat) = 1 then 0 else q.val; rw [if_neg (by decide)]),
      broadcastInDim_apply _ h1 b (ix2 (0 : Fin 1) q) (ix1 q) (fun a => match a with
        | ⟨0, _⟩ => by show q.val = if (128 : Nat) = 1 then 0 else q.val; rw [if_neg (by decide)])]

/-- A scalar broadcast to any shape reads the scalar everywhere. -/
theorem bcastScalar_apply {t : Shape} (c : (⟨0, ![]⟩ : Shape).Idx → α)
    (h : (⟨0, ![]⟩ : Shape).BroadcastsInDim t (![] : Fin 0 → Fin t.rank)) (j : t.Idx) :
    broadcastInDim t ![] h c j = c ix0 :=
  broadcastInDim_apply _ h c j ix0 (fun a => a.elim0)

/-- The broadcast zero scalar is the extended real zero at every entry. -/
theorem bcastZero_apply {t : Shape} (h : (⟨0, ![]⟩ : Shape).BroadcastsInDim t (![] : Fin 0 → Fin t.rank)) (j : t.Idx) :
    broadcastInDim t ![] h (constant (F := Ideal) ⟨0, ![]⟩ .f32 0x00000000#32) j = (0 : EReal) := by
  rw [bcastScalar_apply, constant_apply, Ideal.ofBits_zero_f32]

/-! ## The edge messages -/

theorem edge_bridge (g : FVec Ideal S800000x128 .f32) (ea : FVec Ideal S800000x1 .f32) (lw : FVec Ideal S1x128 .f32)
    (lb : FVec Ideal S128 .f32)
    (h1 : S128.BroadcastsInDim S1x128 (![1] : Fin 1 → Fin 2))
    (h2 : S1x128.BroadcastsInDim S800000x128 (![0, 1] : Fin 2 → Fin 2))
    (h0 : S_.BroadcastsInDim S800000x128 (![] : Fin 0 → Fin S800000x128.rank))
    (hc : S128.ShapeCasts S1x128) :
    maximumf
        (addf g (addf (Host.dotGeneral Cert.ReferenceIdeal.dot_S800000x1_S1x128_S800000x128_1_0_0_1_n_n none ea lw)
          (broadcastInDim S800000x128 ![0, 1] h2 (broadcastInDim S1x128 ![1] h1 lb))))
        (broadcastInDim S800000x128 ![] h0 (constant (F := Ideal) S_ .f32 0x00000000#32))
      = Gedge g ea lw (shapeCast S1x128 lb hc) := by
  funext i
  obtain ⟨p, q, rfl⟩ : ∃ (p : Fin 800000) (q : Fin 128), i = ix2 p q := ⟨i 0, i 1, eq_ix2 i⟩
  rw [Gedge_ix2, maximumf_apply, addf_apply, addf_apply, bcastRow_apply, bcastZero_apply, shapeCast_a_1a_apply]
  simp only [Host.dotGeneral]
  rw [Cert.LibDotsNT.plain_dotGeneral_apply _ rfl rfl rfl rfl rfl rfl, Fin.sum_univ_one]
  rfl

/-! ## The perceptron -/

theorem mlp_bridge (z : FVec Ideal S50000x128 .f32) (W1 W2 : FVec Ideal S128x128 .f32) (b1 b2 : FVec Ideal S128 .f32)
    (h1 : S128.BroadcastsInDim S1x128 (![1] : Fin 1 → Fin 2))
    (h2 : S1x128.BroadcastsInDim S50000x128 (![0, 1] : Fin 2 → Fin 2))
    (h0 : S_.BroadcastsInDim S50000x128 (![] : Fin 0 → Fin S50000x128.rank))
    (hc : S128.ShapeCasts S1x128) (hb : FTy.bits .bf16 < FTy.bits .f32) :
    addf (Host.dotGeneral Cert.ReferenceIdeal.dot_S50000x128_S128x128_S50000x128_1_0_0_1_n_n none
          (maximumf
            (addf (Host.dotGeneral Cert.ReferenceIdeal.dot_S50000x128_S128x128_S50000x128_1_0_0_1_n_n none z W1)
              (broadcastInDim S50000x128 ![0, 1] h2 (broadcastInDim S1x128 ![1] h1 b1)))
            (broadcastInDim S50000x128 ![] h0 (constant (F := Ideal) S_ .f32 0x00000000#32))) W2)
        (broadcastInDim S50000x128 ![0, 1] h2 (broadcastInDim S1x128 ![1] h1 b2))
      = Gmlp (truncf .bf16 z hb) (truncf .bf16 W1 hb) (shapeCast S1x128 b1 hc) (truncf .bf16 W2 hb)
          (shapeCast S1x128 b2 hc) := by
  funext i
  obtain ⟨p, q, rfl⟩ : ∃ (p : Fin 50000) (q : Fin 128), i = ix2 p q := ⟨i 0, i 1, eq_ix2 i⟩
  show _ = (∑ j : Fin 128, max ((∑ k : Fin 128, z (ix2 p k) * W1 (ix2 k j)) + shapeCast S1x128 b1 hc (ix2 (0 : Fin 1) j)) 0
              * W2 (ix2 j q)) + shapeCast S1x128 b2 hc (ix2 (0 : Fin 1) q)
  rw [addf_apply, bcastRow_apply, shapeCast_a_1a_apply]
  simp only [Host.dotGeneral]
  rw [Cert.LibDotsNT.plain_dotGeneral_apply _ rfl rfl rfl rfl rfl rfl]
  refine congrArg (· + b2 (ix1 q)) (Finset.sum_congr rfl fun j _ => ?_)
  rw [maximumf_apply, addf_apply, bcastRow_apply, bcastZero_apply,
    Cert.LibDotsNT.plain_dotGeneral_apply _ rfl rfl rfl rfl rfl rfl, shapeCast_a_1a_apply]

/-! ## The final projection -/

theorem final_bridge (c : FVec Ideal S50000x512 .f32) (W : FVec Ideal S512x128 .f32) (b : FVec Ideal S128 .f32)
    (h1 : S128.BroadcastsInDim S1x128 (![1] : Fin 1 → Fin 2))
    (h2 : S1x128.BroadcastsInDim S50000x128 (![0, 1] : Fin 2 → Fin 2))
    (hc : S128.ShapeCasts S1x128) (hb : FTy.bits .bf16 < FTy.bits .f32) :
    addf (Host.dotGeneral Cert.ReferenceIdeal.dot_S50000x512_S512x128_S50000x128_1_0_0_1_n_n none c W)
        (broadcastInDim S50000x128 ![0, 1] h2 (broadcastInDim S1x128 ![1] h1 b))
      = Gfinal (truncf .bf16 c hb) (truncf .bf16 W hb) (shapeCast S1x128 b hc) := by
  funext i
  obtain ⟨p, q, rfl⟩ : ∃ (p : Fin 50000) (q : Fin 128), i = ix2 p q := ⟨i 0, i 1, eq_ix2 i⟩
  show _ = (∑ k : Fin 512, c (ix2 p k) * W (ix2 k q)) + shapeCast S1x128 b hc (ix2 (0 : Fin 1) q)
  rw [addf_apply, bcastRow_apply, shapeCast_a_1a_apply]
  simp only [Host.dotGeneral]
  rw [Cert.LibDotsNT.plain_dotGeneral_apply _ rfl rfl rfl rfl rfl rfl]

end Cert.Val
end
-- ==== Proof.ValRef.lean ====
import proofs.«130465_j18580028523178_1_alg».proof.Proof.ValNet
import proofs.«130465_j18580028523178_1_alg».proof.Proof.ValBridge
import proofs.«130465_j18580028523178_1_alg».proof.Proof.Gen.ReferenceIdeal.Read

/-! # The reference computes the kernel program's network

The reference's result, as the composed value of its operations, is the kernel program's dataflow `net` on
the same twelve arguments. Layer by layer: the reference's gather, scatter-add, degree, division and
`(1 + eps) h` are the same operations on the same operands; its edge step, its perceptron and its final
projection are, entry by entry, the whole-array functions the kernel regions compute (`ValBridge`). -/

open scoped BigOperators

noncomputable section
namespace Cert.Val
open Idealize.ShloMosaic Idealize.ShloMosaic.ValueIdx Cert.KernelIdeal Cert.KernelIdeal.Gen

/-! ## The reference's spelling of one layer, over the shared host operations -/

/-- The reference's edge step: gathered features plus the affine image of the edge attributes, clamped at zero. -/
def edgeRef (g : FVec Ideal S800000x128 .f32) (ea : FVec Ideal S800000x1 .f32) (lw : FVec Ideal S1x128 .f32)
    (lb : FVec Ideal S128 .f32) : FVec Ideal S800000x128 .f32 :=
  maximumf
    (addf g (addf (Host.dotGeneral Cert.ReferenceIdeal.dot_S800000x1_S1x128_S800000x128_1_0_0_1_n_n none ea lw)
      (broadcastInDim S800000x128 ![0, 1] Cert.ReferenceIdeal.Gen.bcast_S1x128_S800000x128_0_1
        (broadcastInDim S1x128 ![1] Cert.ReferenceIdeal.Gen.bcast_S128_S1x128_1 lb))))
    (broadcastInDim S800000x128 ![] Cert.ReferenceIdeal.Gen.bcast_S_S800000x128 (constant (F := Ideal) S_ .f32 0x00000000#32))

/-- The reference's two-layer perceptron on all node rows. -/
def mlpRef (z : FVec Ideal S50000x128 .f32) (W1 : FVec Ideal S128x128 .f32) (b1 : FVec Ideal S128 .f32)
    (W2 : FVec Ideal S128x128 .f32) (b2 : FVec Ideal S128 .f32) : FVec Ideal S50000x128 .f32 :=
  addf (Host.dotGeneral Cert.ReferenceIdeal.dot_S50000x128_S128x128_S50000x128_1_0_0_1_n_n none
        (maximumf
          (addf (Host.dotGeneral Cert.ReferenceIdeal.dot_S50000x128_S128x128_S50000x128_1_0_0_1_n_n none z W1)
            (broadcastInDim S50000x128 ![0, 1] Cert.ReferenceIdeal.Gen.bcast_S1x128_S50000x128_0_1
              (broadcastInDim S1x128 ![1] Cert.ReferenceIdeal.Gen.bcast_S128_S1x128_1 b1)))
          (broadcastInDim S50000x128 ![] Cert.ReferenceIdeal.Gen.bcast_S_S50000x128 (constant (F := Ideal) S_ .f32 0x00000000#32))) W2)
    (broadcastInDim S50000x128 ![0, 1] Cert.ReferenceIdeal.Gen.bcast_S1x128_S50000x128_0_1
      (broadcastInDim S1x128 ![1] Cert.ReferenceIdeal.Gen.bcast_S128_S1x128_1 b2))

theorem edgeRef_eq (g : FVec Ideal S800000x128 .f32) (ea : FVec Ideal S800000x1 .f32) (lw : FVec Ideal S1x128 .f32)
    (lb : FVec Ideal S128 .f32) :
    edgeRef g ea lw lb = Gedge g ea lw (shapeCast S1x128 lb shapeCasts_S128_S1x128) :=
  edge_bridge g ea lw lb _ _ _ shapeCasts_S128_S1x128

theorem mlpRef_eq (z : FVec Ideal S50000x128 .f32) (W1 : FVec Ideal S128x128 .f32) (b1 : FVec Ideal S128 .f32)
    (W2 : FVec Ideal S128x128 .f32) (b2 : FVec Ideal S128 .f32) :
    mlpRef z W1 b1 W2 b2
      = Gmlp (truncf .bf16 z bitsLt_bf16_f32) (truncf .bf16 W1 bitsLt_bf16_f32) (shapeCast S1x128 b1 shapeCasts_S128_S1x128)
          (truncf .bf16 W2 bitsLt_bf16_f32) (shapeCast S1x128 b2 shapeCasts_S128_S1x128) :=
  mlp_bridge z W1 W2 b1 b2 _ _ _ shapeCasts_S128_S1x128 bitsLt_bf16_f32

/-- One layer as the reference spells it: the same gather and aggregation, its own edge step and perceptron. -/
def refLayer (h : Arr S50000x128 .f32) (a1 : Arr S2x800000 .i32) (a2 : Arr S800000x1 .f32)
    (lw : Arr S1x1x128 .f32) (lb : Arr S1x128 .f32) (eps1 : Arr S1 .f32)
    (w1 : Arr S1x128x128 .f32) (b1 : Arr S1x128 .f32) (w2 : Arr S1x128x128 .f32) (b2 : Arr S1x128 .f32) : Arr S50000x128 .f32 :=
  mlpRef
    (aggregate (edgeRef (gatherRows h a1) a2 (shapeCast S1x128 lw shapeCasts_S1x1x128_S1x128)
        (shapeCast S128 lb shapeCasts_S1x128_S128)) a1 h eps1)
    (shapeCast S128x128 w1 shapeCasts_S1x128x128_S128x128) (shapeCast S128 b1 shapeCasts_S1x128_S128)
    (shapeCast S128x128 w2 shapeCasts_S1x128x128_S128x128) (shapeCast S128 b2 shapeCasts_S1x128_S128)

/-- The reference's layer is the kernel program's layer. -/
theorem refLayer_eq (h : Arr S50000x128 .f32) (a1 : Arr S2x800000 .i32) (a2 : Arr S800000x1 .f32)
    (lw : Arr S1x1x128 .f32) (lb : Arr S1x128 .f32) (eps1 : Arr S1 .f32)
    (w1 : Arr S1x128x128 .f32) (b1 : Arr S1x128 .f32) (w2 : Arr S1x128x128 .f32) (b2 : Arr S1x128 .f32) :
    refLayer h a1 a2 lw lb eps1 w1 b1 w2 b2 = layer h a1 a2 lw lb eps1 w1 b1 w2 b2 := by
  unfold refLayer layer rowOf matOf
  rw [edgeRef_eq, mlpRef_eq]

/-! ## The three layers of the reference -/

/-- The node features after layer 1, as the kernel program computes them. -/
def hid1 (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) : Arr S50000x128 .f32 :=
  layer x0 x1 x2
      (extractStridedSlice S1x1x128 ![0, 0, 0] x3 slices_S3x1x128_S1x1x128_0_0_0)
      (extractStridedSlice S1x128 ![0, 0] x4 slices_S3x128_S1x128_0_0) (extractStridedSlice S1 ![0] x5 slices_S3_S1_0)
      (extractStridedSlice S1x128x128 ![0, 0, 0] x6 slices_S3x128x128_S1x128x128_0_0_0) (extractStridedSlice S1x128 ![0, 0] x7 slices_S3x128_S1x128_0_0)
      (extractStridedSlice S1x128x128 ![0, 0, 0] x8 slices_S3x128x128_S1x128x128_0_0_0) (extractStridedSlice S1x128 ![0, 0] x9 slices_S3x128_S1x128_0_0)

/-- The node features after layer 2, as the kernel program computes them. -/
def hid2 (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) : Arr S50000x128 .f32 :=
  layer (hid1 x0 x1 x2 x3 x4 x5 x6 x7 x8 x9) x1 x2
      (extractStridedSlice S1x1x128 ![1, 0, 0] x3 slices_S3x1x128_S1x1x128_1_0_0)
      (extractStridedSlice S1x128 ![1, 0] x4 slices_S3x128_S1x128_1_0) (extractStridedSlice S1 ![1] x5 slices_S3_S1_1)
      (extractStridedSlice S1x128x128 ![1, 0, 0] x6 slices_S3x128x128_S1x128x128_1_0_0) (extractStridedSlice S1x128 ![1, 0] x7 slices_S3x128_S1x128_1_0)
      (extractStridedSlice S1x128x128 ![1, 0, 0] x8 slices_S3x128x128_S1x128x128_1_0_0) (extractStridedSlice S1x128 ![1, 0] x9 slices_S3x128_S1x128_1_0)

/-- The node features after layer 3, as the kernel program computes them. -/
def hid3 (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) : Arr S50000x128 .f32 :=
  layer (hid2 x0 x1 x2 x3 x4 x5 x6 x7 x8 x9) x1 x2
      (extractStridedSlice S1x1x128 ![2, 0, 0] x3 slices_S3x1x128_S1x1x128_2_0_0)
      (extractStridedSlice S1x128 ![2, 0] x4 slices_S3x128_S1x128_2_0) (extractStridedSlice S1 ![2] x5 slices_S3_S1_2)
      (extractStridedSlice S1x128x128 ![2, 0, 0] x6 slices_S3x128x128_S1x128x128_2_0_0) (extractStridedSlice S1x128 ![2, 0] x7 slices_S3x128_S1x128_2_0)
      (extractStridedSlice S1x128x128 ![2, 0, 0] x8 slices_S3x128x128_S1x128x128_2_0_0) (extractStridedSlice S1x128 ![2, 0] x9 slices_S3x128_S1x128_2_0)

theorem ref_hid1 (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) :
    Cert.ReferenceIdeal.Read.val_main_v53 (F := Ideal) x0 x1 x2 x3 x4 x5 x6 x7 x8 x9 = hid1 x0 x1 x2 x3 x4 x5 x6 x7 x8 x9 := by
  have s : Cert.ReferenceIdeal.Read.val_main_v53 (F := Ideal) x0 x1 x2 x3 x4 x5 x6 x7 x8 x9
      = refLayer x0 x1 x2
      (extractStridedSlice S1x1x128 ![0, 0, 0] x3 slices_S3x1x128_S1x1x128_0_0_0)
      (extractStridedSlice S1x128 ![0, 0] x4 slices_S3x128_S1x128_0_0) (extractStridedSlice S1 ![0] x5 slices_S3_S1_0)
      (extractStridedSlice S1x128x128 ![0, 0, 0] x6 slices_S3x128x128_S1x128x128_0_0_0) (extractStridedSlice S1x128 ![0, 0] x7 slices_S3x128_S1x128_0_0)
      (extractStridedSlice S1x128x128 ![0, 0, 0] x8 slices_S3x128x128_S1x128x128_0_0_0) (extractStridedSlice S1x128 ![0, 0] x9 slices_S3x128_S1x128_0_0) := by
    unfold Cert.ReferenceIdeal.Read.val_main_v53 Cert.ReferenceIdeal.Read.val_main_v52 Cert.ReferenceIdeal.Read.val_main_v51 Cert.ReferenceIdeal.Read.val_main_v50 Cert.ReferenceIdeal.Read.val_main_v49 Cert.ReferenceIdeal.Read.val_main_v48 Cert.ReferenceIdeal.Read.val_main_v47 Cert.ReferenceIdeal.Read.val_main_v46 Cert.ReferenceIdeal.Read.val_main_v45 Cert.ReferenceIdeal.Read.val_main_call1_v0 Cert.ReferenceIdeal.Read.val_main_call1_cst Cert.ReferenceIdeal.Read.val_main_v44 Cert.ReferenceIdeal.Read.val_main_v43 Cert.ReferenceIdeal.Read.val_main_v42 Cert.ReferenceIdeal.Read.val_main_v41 Cert.ReferenceIdeal.Read.val_main_v40 Cert.ReferenceIdeal.Read.val_main_v39 Cert.ReferenceIdeal.Read.val_main_v38 Cert.ReferenceIdeal.Read.val_main_v37 Cert.ReferenceIdeal.Read.val_main_v36 Cert.ReferenceIdeal.Read.val_main_v35 Cert.ReferenceIdeal.Read.val_main_v34 Cert.ReferenceIdeal.Read.val_main_v33 Cert.ReferenceIdeal.Read.val_main_cst_3 Cert.ReferenceIdeal.Read.val_main_v32 Cert.ReferenceIdeal.Read.val_main_v31 Cert.ReferenceIdeal.Read.val_main_v30 Cert.ReferenceIdeal.Read.val_main_v29 Cert.ReferenceIdeal.Read.val_main_v28 Cert.ReferenceIdeal.Read.val_main_v27 Cert.ReferenceIdeal.Read.val_main_v26 Cert.ReferenceIdeal.Read.val_main_cst_2 Cert.ReferenceIdeal.Read.val_main_v25 Cert.ReferenceIdeal.Read.val_main_call0_v0 Cert.ReferenceIdeal.Read.val_main_call0_cst Cert.ReferenceIdeal.Read.val_main_v24 Cert.ReferenceIdeal.Read.val_main_v23 Cert.ReferenceIdeal.Read.val_main_v22 Cert.ReferenceIdeal.Read.val_main_v21 Cert.ReferenceIdeal.Read.val_main_v20 Cert.ReferenceIdeal.Read.val_main_v19 Cert.ReferenceIdeal.Read.val_main_c_1 Cert.ReferenceIdeal.Read.val_main_v18 Cert.ReferenceIdeal.Read.val_main_v17 Cert.ReferenceIdeal.Read.val_main_c Cert.ReferenceIdeal.Read.val_main_v16 Cert.ReferenceIdeal.Read.val_main_v15 Cert.ReferenceIdeal.Read.val_main_v14 Cert.ReferenceIdeal.Read.val_main_v13 Cert.ReferenceIdeal.Read.val_main_v12 Cert.ReferenceIdeal.Read.val_main_v11 Cert.ReferenceIdeal.Read.val_main_v10 Cert.ReferenceIdeal.Read.val_main_v9
    rfl
  rw [s, refLayer_eq]; rfl

theorem ref_hid2 (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) :
    Cert.ReferenceIdeal.Read.val_main_v98 (F := Ideal) x0 x1 x2 x3 x4 x5 x6 x7 x8 x9 = hid2 x0 x1 x2 x3 x4 x5 x6 x7 x8 x9 := by
  have s : Cert.ReferenceIdeal.Read.val_main_v98 (F := Ideal) x0 x1 x2 x3 x4 x5 x6 x7 x8 x9
      = refLayer (Cert.ReferenceIdeal.Read.val_main_v53 (F := Ideal) x0 x1 x2 x3 x4 x5 x6 x7 x8 x9) x1 x2
      (extractStridedSlice S1x1x128 ![1, 0, 0] x3 slices_S3x1x128_S1x1x128_1_0_0)
      (extractStridedSlice S1x128 ![1, 0] x4 slices_S3x128_S1x128_1_0) (extractStridedSlice S1 ![1] x5 slices_S3_S1_1)
      (extractStridedSlice S1x128x128 ![1, 0, 0] x6 slices_S3x128x128_S1x128x128_1_0_0) (extractStridedSlice S1x128 ![1, 0] x7 slices_S3x128_S1x128_1_0)
      (extractStridedSlice S1x128x128 ![1, 0, 0] x8 slices_S3x128x128_S1x128x128_1_0_0) (extractStridedSlice S1x128 ![1, 0] x9 slices_S3x128_S1x128_1_0) := by
    unfold Cert.ReferenceIdeal.Read.val_main_v98 Cert.ReferenceIdeal.Read.val_main_v97 Cert.ReferenceIdeal.Read.val_main_v96 Cert.ReferenceIdeal.Read.val_main_v95 Cert.ReferenceIdeal.Read.val_main_v94 Cert.ReferenceIdeal.Read.val_main_v93 Cert.ReferenceIdeal.Read.val_main_v92 Cert.ReferenceIdeal.Read.val_main_v91 Cert.ReferenceIdeal.Read.val_main_v90 Cert.ReferenceIdeal.Read.val_main_call3_v0 Cert.ReferenceIdeal.Read.val_main_call3_cst Cert.ReferenceIdeal.Read.val_main_v89 Cert.ReferenceIdeal.Read.val_main_v88 Cert.ReferenceIdeal.Read.val_main_v87 Cert.ReferenceIdeal.Read.val_main_v86 Cert.ReferenceIdeal.Read.val_main_v85 Cert.ReferenceIdeal.Read.val_main_v84 Cert.ReferenceIdeal.Read.val_main_v83 Cert.ReferenceIdeal.Read.val_main_v82 Cert.ReferenceIdeal.Read.val_main_v81 Cert.ReferenceIdeal.Read.val_main_v80 Cert.ReferenceIdeal.Read.val_main_v79 Cert.ReferenceIdeal.Read.val_main_v78 Cert.ReferenceIdeal.Read.val_main_cst_7 Cert.ReferenceIdeal.Read.val_main_v77 Cert.ReferenceIdeal.Read.val_main_v76 Cert.ReferenceIdeal.Read.val_main_v75 Cert.ReferenceIdeal.Read.val_main_v74 Cert.ReferenceIdeal.Read.val_main_v73 Cert.ReferenceIdeal.Read.val_main_v72 Cert.ReferenceIdeal.Read.val_main_v71 Cert.ReferenceIdeal.Read.val_main_cst_6 Cert.ReferenceIdeal.Read.val_main_v70 Cert.ReferenceIdeal.Read.val_main_call2_v0 Cert.ReferenceIdeal.Read.val_main_call2_cst Cert.ReferenceIdeal.Read.val_main_v69 Cert.ReferenceIdeal.Read.val_main_v68 Cert.ReferenceIdeal.Read.val_main_v67 Cert.ReferenceIdeal.Read.val_main_v66 Cert.ReferenceIdeal.Read.val_main_v65 Cert.ReferenceIdeal.Read.val_main_v64 Cert.ReferenceIdeal.Read.val_main_c_5 Cert.ReferenceIdeal.Read.val_main_v63 Cert.ReferenceIdeal.Read.val_main_v62 Cert.ReferenceIdeal.Read.val_main_c_4 Cert.ReferenceIdeal.Read.val_main_v61 Cert.ReferenceIdeal.Read.val_main_v60 Cert.ReferenceIdeal.Read.val_main_v59 Cert.ReferenceIdeal.Read.val_main_v58 Cert.ReferenceIdeal.Read.val_main_v57 Cert.ReferenceIdeal.Read.val_main_v56 Cert.ReferenceIdeal.Read.val_main_v55 Cert.ReferenceIdeal.Read.val_main_v54
    rfl
  rw [s, ref_hid1, refLayer_eq]; rfl

theorem ref_hid3 (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) :
    Cert.ReferenceIdeal.Read.val_main_v143 (F := Ideal) x0 x1 x2 x3 x4 x5 x6 x7 x8 x9 = hid3 x0 x1 x2 x3 x4 x5 x6 x7 x8 x9 := by
  have s : Cert.ReferenceIdeal.Read.val_main_v143 (F := Ideal) x0 x1 x2 x3 x4 x5 x6 x7 x8 x9
      = refLayer (Cert.ReferenceIdeal.Read.val_main_v98 (F := Ideal) x0 x1 x2 x3 x4 x5 x6 x7 x8 x9) x1 x2
      (extractStridedSlice S1x1x128 ![2, 0, 0] x3 slices_S3x1x128_S1x1x128_2_0_0)
      (extractStridedSlice S1x128 ![2, 0] x4 slices_S3x128_S1x128_2_0) (extractStridedSlice S1 ![2] x5 slices_S3_S1_2)
      (extractStridedSlice S1x128x128 ![2, 0, 0] x6 slices_S3x128x128_S1x128x128_2_0_0) (extractStridedSlice S1x128 ![2, 0] x7 slices_S3x128_S1x128_2_0)
      (extractStridedSlice S1x128x128 ![2, 0, 0] x8 slices_S3x128x128_S1x128x128_2_0_0) (extractStridedSlice S1x128 ![2, 0] x9 slices_S3x128_S1x128_2_0) := by
    unfold Cert.ReferenceIdeal.Read.val_main_v143 Cert.ReferenceIdeal.Read.val_main_v142 Cert.ReferenceIdeal.Read.val_main_v141 Cert.ReferenceIdeal.Read.val_main_v140 Cert.ReferenceIdeal.Read.val_main_v139 Cert.ReferenceIdeal.Read.val_main_v138 Cert.ReferenceIdeal.Read.val_main_v137 Cert.ReferenceIdeal.Read.val_main_v136 Cert.ReferenceIdeal.Read.val_main_v135 Cert.ReferenceIdeal.Read.val_main_call5_v0 Cert.ReferenceIdeal.Read.val_main_call5_cst Cert.ReferenceIdeal.Read.val_main_v134 Cert.ReferenceIdeal.Read.val_main_v133 Cert.ReferenceIdeal.Read.val_main_v132 Cert.ReferenceIdeal.Read.val_main_v131 Cert.ReferenceIdeal.Read.val_main_v130 Cert.ReferenceIdeal.Read.val_main_v129 Cert.ReferenceIdeal.Read.val_main_v128 Cert.ReferenceIdeal.Read.val_main_v127 Cert.ReferenceIdeal.Read.val_main_v126 Cert.ReferenceIdeal.Read.val_main_v125 Cert.ReferenceIdeal.Read.val_main_v124 Cert.ReferenceIdeal.Read.val_main_v123 Cert.ReferenceIdeal.Read.val_main_cst_11 Cert.ReferenceIdeal.Read.val_main_v122 Cert.ReferenceIdeal.Read.val_main_v121 Cert.ReferenceIdeal.Read.val_main_v120 Cert.ReferenceIdeal.Read.val_main_v119 Cert.ReferenceIdeal.Read.val_main_v118 Cert.ReferenceIdeal.Read.val_main_v117 Cert.ReferenceIdeal.Read.val_main_v116 Cert.ReferenceIdeal.Read.val_main_cst_10 Cert.ReferenceIdeal.Read.val_main_v115 Cert.ReferenceIdeal.Read.val_main_call4_v0 Cert.ReferenceIdeal.Read.val_main_call4_cst Cert.ReferenceIdeal.Read.val_main_v114 Cert.ReferenceIdeal.Read.val_main_v113 Cert.ReferenceIdeal.Read.val_main_v112 Cert.ReferenceIdeal.Read.val_main_v111 Cert.ReferenceIdeal.Read.val_main_v110 Cert.ReferenceIdeal.Read.val_main_v109 Cert.ReferenceIdeal.Read.val_main_c_9 Cert.ReferenceIdeal.Read.val_main_v108 Cert.ReferenceIdeal.Read.val_main_v107 Cert.ReferenceIdeal.Read.val_main_c_8 Cert.ReferenceIdeal.Read.val_main_v106 Cert.ReferenceIdeal.Read.val_main_v105 Cert.ReferenceIdeal.Read.val_main_v104 Cert.ReferenceIdeal.Read.val_main_v103 Cert.ReferenceIdeal.Read.val_main_v102 Cert.ReferenceIdeal.Read.val_main_v101 Cert.ReferenceIdeal.Read.val_main_v100 Cert.ReferenceIdeal.Read.val_main_v99
    rfl
  rw [s, ref_hid2, refLayer_eq]; rfl

/-! ## The whole network -/

/-- The kernel program's network is the final projection of the four feature arrays side by side. -/
theorem net_eq (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) (x10 : Arr S512x128 .f32) (x11 : Arr S128 .f32) :
    net x0 x1 x2 x3 x4 x5 x6 x7 x8 x9 x10 x11
      = Gfinal
          (truncf (F := Ideal) .bf16
            (concatenate S50000x512 1 [⟨S50000x128, x0⟩, ⟨S50000x128, hid1 x0 x1 x2 x3 x4 x5 x6 x7 x8 x9⟩, ⟨S50000x128, hid2 x0 x1 x2 x3 x4 x5 x6 x7 x8 x9⟩,
                ⟨S50000x128, hid3 x0 x1 x2 x3 x4 x5 x6 x7 x8 x9⟩]
              concatenates_S50000x128_S50000x128_S50000x128_S50000x128_S50000x512_d1)
            bitsLt_bf16_f32)
          (truncf (F := Ideal) .bf16 x10 bitsLt_bf16_f32) (shapeCast S1x128 x11 shapeCasts_S128_S1x128) := rfl

theorem val_eq_net (x0 : Arr S50000x128 .f32) (x1 : Arr S2x800000 .i32) (x2 : Arr S800000x1 .f32) (x3 : Arr S3x1x128 .f32)
    (x4 : Arr S3x128 .f32) (x5 : Arr S3 .f32) (x6 : Arr S3x128x128 .f32) (x7 : Arr S3x128 .f32) (x8 : Arr S3x128x128 .f32)
    (x9 : Arr S3x128 .f32) (x10 : Arr S512x128 .f32) (x11 : Arr S128 .f32) :
    Cert.ReferenceIdeal.Read.val_main_v148 (F := Ideal) x0 x1 x2 x3 x4 x5 x6 x7 x8 x9 x10 x11 = net x0 x1 x2 x3 x4 x5 x6 x7 x8 x9 x10 x11 := by
  rw [net_eq]
  unfold Cert.ReferenceIdeal.Read.val_main_v148 Cert.ReferenceIdeal.Read.val_main_v147 Cert.ReferenceIdeal.Read.val_main_v146 Cert.ReferenceIdeal.Read.val_main_v145 Cert.ReferenceIdeal.Read.val_main_v144
  rw [final_bridge _ _ _ _ _ shapeCasts_S128_S1x128 bitsLt_bf16_f32, ref_hid1, ref_hid2, ref_hid3]

end Cert.Val

namespace Cert.Val
open Cert.ReferenceIdeal Idealize.ShloMosaic Idealize.ShloMosaic.TcCoe Idealize.SL.Sem

/-- The reference's result is the kernel program's network of the reference's twelve argument arrays. -/
theorem ref_eq (m' : (ℓ : Loc nD τ sig) → Buf (Elt Ideal) ℓ) (c : Dev nD) :
    Cert.ReferenceIdeal.Value.res_main_v148 (F := Ideal) m' c
      = Cert.Val.net (m' ((c.tc : Thread nD τ).loc main_arg0)) (m' ((c.tc : Thread nD τ).loc main_arg1))
          (m' ((c.tc : Thread nD τ).loc main_arg2)) (m' ((c.tc : Thread nD τ).loc main_arg3))
          (m' ((c.tc : Thread nD τ).loc main_arg4)) (m' ((c.tc : Thread nD τ).loc main_arg5))
          (m' ((c.tc : Thread nD τ).loc main_arg6)) (m' ((c.tc : Thread nD τ).loc main_arg7))
          (m' ((c.tc : Thread nD τ).loc main_arg8)) (m' ((c.tc : Thread nD τ).loc main_arg9))
          (m' ((c.tc : Thread nD τ).loc main_arg10)) (m' ((c.tc : Thread nD τ).loc main_arg11)) :=
  (Cert.ReferenceIdeal.Read.val_main_v148_eq (F := Ideal) m' c).trans (Cert.Val.val_eq_net _ _ _ _ _ _ _ _ _ _ _ _)

end Cert.Val
end
-- ==== Proof.lean ====
/-
  The certificate of the five claims.

  The kernel program is a three-layer graph network: per layer a row gather at the edges' sources, an edge-message
  kernel (the gathered row plus the edge attribute times a weight row plus a bias row, clipped at zero), a scatter-add
  at the edges' targets divided by the node degree plus (1 + eps) times the features, and a two-layer perceptron kernel;
  at the end a projection kernel of the concatenated features. The reference computes the same network in plain array
  operations.

  Frames: the kernel program is run item by item — seven host stretches and seven kernel regions — each region's
  pipeline fetching blocks, running the body and writing blocks back, the arguments never written; the same text
  serves the word-level program and its idealization. The reference's frame is its generated run.

  Values at the exact instance: every region leaves in its output array one whole-array function of the arrays its
  windows look at (the edge message, the perceptron, the projection, entry by entry sums and products of extended
  reals), every host stretch leaves the host functions of what it starts from, so the kernel program's result is the
  network function of its arguments; the reference's composed term is the same function (a contraction of extent one
  is a product, a bias laid out by a broadcast is the bias laid out by a reshape, a matrix product on the device into
  a zero accumulator is the host's, a change of float format is the identity), the gather, the scatter-add, the
  degree, the division and the concatenation being the same operations on both sides.
-/
import proofs.«130465_j18580028523178_1_alg».proof.Defs
import proofs.«130465_j18580028523178_1_alg».proof.Proof.Gen.Kernel
import proofs.«130465_j18580028523178_1_alg».proof.Proof.Gen.KernelIdeal
import proofs.«130465_j18580028523178_1_alg».proof.Proof.Gen.ReferenceIdeal
import proofs.«130465_j18580028523178_1_alg».proof.Proof.Gen.Pre_finite_inputs
import proofs.«130465_j18580028523178_1_alg».proof.Proof.Gen.ReferenceIdeal.Run
import proofs.«130465_j18580028523178_1_alg».proof.Proof.FrameB
import proofs.«130465_j18580028523178_1_alg».proof.Proof.FrameI
import proofs.«130465_j18580028523178_1_alg».proof.Proof.KernelNet
import proofs.«130465_j18580028523178_1_alg».proof.Proof.ValRef
import Idealize.ShloMosaic.Adequacy
import Idealize.ShloMosaic.Init

noncomputable section

namespace Cert.Proof

open Idealize.ShloMosaic Idealize.ShloMosaic.TcCoe Idealize.SL.Sem

/-- The word-level program runs to the end and leaves its arguments unchanged. -/
theorem frame_k : Cert.frame_Kernel := fun m ρ _ => Cert.Kernel.Reg.frame m ρ

/-- So does its idealization. -/
theorem frame_ki : Cert.frame_KernelIdeal := fun m ρ _ => Cert.KernelIdeal.Reg.frame m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote nothing. -/
theorem preserves : Cert.preserves_Kernel_KernelIdeal := trivial

/-- Both idealized programs end with the network function of the arguments. -/
theorem algebraic : Cert.algebraic_KernelIdeal_ReferenceIdeal := by
  intro m ρ m' ρ' _ hagree
  refine ⟨fun c => Cert.Val.net (Cert.KernelIdeal.KNet.a0 m c) (Cert.KernelIdeal.KNet.a1 m c) (Cert.KernelIdeal.KNet.a2 m c) (Cert.KernelIdeal.KNet.a3 m c) (Cert.KernelIdeal.KNet.a4 m c) (Cert.KernelIdeal.KNet.a5 m c) (Cert.KernelIdeal.KNet.a6 m c) (Cert.KernelIdeal.KNet.a7 m c) (Cert.KernelIdeal.KNet.a8 m c) (Cert.KernelIdeal.KNet.a9 m c) (Cert.KernelIdeal.KNet.a10 m c) (Cert.KernelIdeal.KNet.a11 m c), ?_, ?_⟩
  · exact (θ_run Cert.KernelIdeal.defs _ _).mono
      (fun r h c => ⟨(h c).1.trans (Cert.KernelIdeal.KNet.result_eq m c), (h c).2⟩)
      (Cert.KernelIdeal.Reg.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9, h10, h11⟩ := hagree c
    rw [Cert.Val.ref_eq m' c, h0, h1, h2, h3, h4, h5, h6, h7, h8, h9, h10, h11]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
